-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x768 : Shape := ⟨2, ![65536, 768]⟩
abbrev S16 : Shape := ⟨1, ![16]⟩
abbrev S512x768 : Shape := ⟨2, ![512, 768]⟩
abbrev S16x32x4096 : Shape := ⟨3, ![16, 32, 4096]⟩
abbrev S1 : Shape := ⟨1, ![1]⟩
abbrev S_ : Shape := ⟨0, ![]⟩

class Facts : Prop where
  bcast_S_S65536x768 : S_.BroadcastsInDim S65536x768 (![] : Fin 0 → Fin S65536x768.rank)
  reducesTo_S65536x768_S_d0_1 : S65536x768.ReducesTo [0, 1] S_
  h_S_ : 0 < S_.numel
  bcast_S_S512x768 : S_.BroadcastsInDim S512x768 (![] : Fin 0 → Fin S512x768.rank)
  reducesTo_S512x768_S_d0_1 : S512x768.ReducesTo [0, 1] S_
  bcast_S_S16x32x4096 : S_.BroadcastsInDim S16x32x4096 (![] : Fin 0 → Fin S16x32x4096.rank)
  reducesTo_S16x32x4096_S_d0_1_2 : S16x32x4096.ReducesTo [0, 1, 2] S_
  bcast_S_S1 : S_.BroadcastsInDim S1 (![] : Fin 0 → Fin S1.rank)
  reducesTo_S1_S_d0 : S1.ReducesTo [0] S_

variable [Facts]

def fn_part1 {F : FTy → Type} [FloatOps F] (main_arg3 : FVec F S16x32x4096 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_cst_6 : FVec F S_ .f32 := constant S_ .f32 0x00000000#32
  let main_v19 : FVec F S16x32x4096 .f32 := broadcastInDim S16x32x4096 ![] bcast_S_S16x32x4096 main_cst_6
  let main_v20 : IVec S16x32x4096 1 := cmpf .oeq main_arg3 main_v19
  let main_cst_7 : FVec F S_ .f32 := constant S_ .f32 0x3F800000#32
  let main_v21 : FVec F S16x32x4096 .f32 := broadcastInDim S16x32x4096 ![] bcast_S_S16x32x4096 main_cst_7
  let main_v22 : IVec S16x32x4096 1 := cmpf .oeq main_arg3 main_v21
  let main_v23 : IVec S16x32x4096 1 := ori main_v20 main_v22
  let main_c_8 : IVec S_ 1 := constantI S_ 1 1#1
  let main_v24 : IVec S_ 1 := (fun x v => Host.reduce IntOp.andi x v reducesTo_S16x32x4096_S_d0_1_2 h_S_) main_v23 main_c_8
  let main_v25 : IVec S_ 1 := andi main_v18 main_v24
  main_v25

def fn {F : FTy → Type} [FloatOps F] (main_arg0 : FVec F S65536x768 .f32) (main_arg1 : IVec S16 32) (main_arg2 : FVec F S512x768 .f32) (main_arg3 : FVec F S16x32x4096 .f32) (main_arg4 : FVec F S1 .f32) : IVec S_ 1 :=
  let main_v0 : FVec F S65536x768 .f32 := Host.absf main_arg0
  let main_cst : FVec F S_ .f32 := constant S_ .f32 0x7F800000#32
  let main_v1 : FVec F S65536x768 .f32 := broadcastInDim S65536x768 ![] bcast_S_S65536x768 main_cst
  let main_v2 : IVec S65536x768 1 := cmpf .olt main_v0 main_v1
  let main_c : IVec S_ 1 := constantI S_ 1 1#1
  let main_v3 : IVec S_ 1 := (fun x v => Host.reduce IntOp.andi x v reducesTo_S65536x768_S_d0_1 h_S_) main_v2 main_c
  let main_v4 : FVec F S512x768 .f32 := Host.absf main_arg2
  let main_cst_0 : FVec F S_ .f32 := constant S_ .f32 0x7F800000#32
  let main_v5 : FVec F S512x768 .f32 := broadcastInDim S512x768 ![] bcast_S_S512x768 main_cst_0
  let main_v6 : IVec S512x768 1 := cmpf .olt main_v4 main_v5
  let main_c_1 : IVec S_ 1 := constantI S_ 1 1#1
  let main_v7 : IVec S_ 1 := (fun x v => Host.reduce IntOp.andi x v reducesTo_S512x768_S_d0_1 h_S_) main_v6 main_c_1
  let main_v8 : IVec S_ 1 := andi main_v3 main_v7
  let main_v9 : FVec F S16x32x4096 .f32 := Host.absf main_arg3
  let main_cst_2 : FVec F S_ .f32 := constant S_ .f32 0x7F800000#32
  let main_v10 : FVec F S16x32x4096 .f32 := broadcastInDim S16x32x4096 ![] bcast_S_S16x32x4096 main_cst_2
  let main_v11 : IVec S16x32x4096 1 := cmpf .olt main_v9 main_v10
  let main_c_3 : IVec S_ 1 := constantI S_ 1 1#1
  let main_v12 : IVec S_ 1 := (fun x v => Host.reduce IntOp.andi x v reducesTo_S16x32x4096_S_d0_1_2 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg3 main_v13 main_v16
-- ==== Kernel.lean ====
abbrev S65536x768 : Shape := ⟨2, ![65536, 768]⟩
abbrev S16 : Shape := ⟨1, ![16]⟩
abbrev S512x768 : Shape := ⟨2, ![512, 768]⟩
abbrev S16x32x4096 : Shape := ⟨3, ![16, 32, 4096]⟩
abbrev S1 : Shape := ⟨1, ![1]⟩
abbrev S16x4096x768 : Shape := ⟨3, ![16, 4096, 768]⟩
abbrev S16x32x768 : Shape := ⟨3, ![16, 32, 768]⟩
abbrev S16x32x1 : Shape := ⟨3, ![16, 32, 1]⟩
abbrev S1x32x1024 : Shape := ⟨3, ![1, 32, 1024]⟩
abbrev S1x1024x768 : Shape := ⟨3, ![1, 1024, 768]⟩
abbrev S1x32x768 : Shape := ⟨3, ![1, 32, 768]⟩
abbrev S1x32x1 : Shape := ⟨3, ![1, 32, 1]⟩
abbrev S32x768 : Shape := ⟨2, ![32, 768]⟩
abbrev S32x1 : Shape := ⟨2, ![32, 1]⟩
abbrev S32x1024 : Shape := ⟨2, ![32, 1024]⟩
abbrev S1024x768 : Shape := ⟨2, ![1024, 768]⟩
abbrev S32 : Shape := ⟨1, ![32]⟩
abbrev S512x1 : Shape := ⟨2, ![512, 1]⟩
abbrev S1x512 : Shape := ⟨2, ![1, 512]⟩
abbrev S1x1 : Shape := ⟨2, ![1, 1]⟩
abbrev S512x512 : Shape := ⟨2, ![512, 512]⟩
abbrev S512 : Shape := ⟨1, ![512]⟩
abbrev S_ : Shape := ⟨0, ![]⟩

abbrev nBuf : Space → Nat
  | .hbm => 14
  | .vmem => 16
  | .smem => 0
  | _ => 0

abbrev bufTy : (tb : Table) → Fin (tcTables nBuf tb) → BufTy
  | .hbm, ⟨0, _⟩ => ⟨S65536x768, .f32⟩
  | .hbm, ⟨1, _⟩ => ⟨S16, .i32⟩
  | .hbm, ⟨2, _⟩ => ⟨S512x768, .f32⟩
  | .hbm, ⟨3, _⟩ => ⟨S16x32x4096, .f32⟩
  | .hbm, ⟨4, _⟩ => ⟨S1, .f32⟩
  | .hbm, ⟨5, _⟩ => ⟨S16x4096x768, .f32⟩
  | .hbm, ⟨6, _⟩ => ⟨S16x32x768, .f32⟩
  | .hbm, ⟨7, _⟩ => ⟨S16x32x1, .f32⟩
  | .hbm, ⟨8, _⟩ => ⟨S512x768, .f32⟩
  | .hbm, ⟨9, _⟩ => ⟨S512x1, .f32⟩
  | .hbm, ⟨10, _⟩ => ⟨S1x512, .f32⟩
  | .hbm, ⟨11, _⟩ => ⟨S1x1, .f32⟩
  | .hbm, ⟨12, _⟩ => ⟨S1x1, .f32⟩
  | .hbm, ⟨13, _⟩ => ⟨S_, .f32⟩
  | .local _ .vmem, ⟨0, _⟩ => ⟨S1x32x1024, .f32⟩
  | .local _ .vmem, ⟨1, _⟩ => ⟨S1x32x1024, .f32⟩
  | .local _ .vmem, ⟨2, _⟩ => ⟨S1x1024x768, .f32⟩
  | .local _ .vmem, ⟨3, _⟩ => ⟨S1x1024x768, .f32⟩
  | .local _ .vmem, ⟨4, _⟩ => ⟨S1x32x768, .f32⟩
  | .local _ .vmem, ⟨5, _⟩ => ⟨S1x32x768, .f32⟩
  | .local _ .vmem, ⟨6, _⟩ => ⟨S1x32x1, .f32⟩
  | .local _ .vmem, ⟨7, _⟩ => ⟨S1x32x1, .f32⟩
  | .local _ .vmem, ⟨8, _⟩ => ⟨S32x768, .f32⟩
  | .local _ .vmem, ⟨9, _⟩ => ⟨S32x1, .f32⟩
  | .local _ .vmem, ⟨10, _⟩ => ⟨S512x768, .f32⟩
  | .local _ .vmem, ⟨11, _⟩ => ⟨S512x768, .f32⟩
  | .local _ .vmem, ⟨12, _⟩ => ⟨S512x1, .f32⟩
  | .local _ .vmem, ⟨13, _⟩ => ⟨S1x512, .f32⟩
  | .local _ .vmem, ⟨14, _⟩ => ⟨S1x1, .f32⟩
  | .local _ .vmem, ⟨15, _⟩ => ⟨S1x1, .f32⟩
  | _, _ => ⟨S65536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_15 : BitVec 32 := 0#32
  let v24 : BitVec 1 := Scalar.cmpi .ne v23 c0_i32_15
  v24

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  shapeCasts_S65536x768_S16x4096x768 : S65536x768.ShapeCasts S16x4096x768
  inb_S32x768_S32x768_0_0 : ∀ a, (![0, 0] : Fin 2 → Nat) a + S32x768.size a ≤ S32x768.size a
  h_S32x768 : 0 < S32x768.numel
  shapeCasts_S32x768_S32x768 : S32x768.ShapeCasts S32x768
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  bitsLt_bf16_f32 : FTy.bits .bf16 < FTy.bits .f32
  reduces_S32x1024_S32 : S32x1024.Reduces [1] S32
  shapeCasts_S32_S32x1 : S32.ShapeCasts S32x1
  broadcasts_S32x1_S32x768 : S32x1.Broadcasts S32x768
  inb_S1x32x768_S1x32x768_0_0_0 : ∀ a, (![0, 0, 0] : Fin 3 → Nat) a + S1x32x768.size a ≤ S1x32x768.size a
  h_S1x32x768 : 0 < S1x32x768.numel
  shapeCasts_S1x32x768_S32x768 : S1x32x768.ShapeCasts S32x768
  shapeCasts_S32x768_S1x32x768 : S32x768.ShapeCasts S1x32x768
  inb_S1x32x1_S1x32x1_0_0_0 : ∀ a, (![0, 0, 0] : Fin 3 → Nat) a + S1x32x1.size a ≤ S1x32x1.size a
  h_S1x32x1 : 0 < S1x32x1.numel
  shapeCasts_S1x32x1_S32x1 : S1x32x1.ShapeCasts S32x1
  shapeCasts_S32x1_S1x32x1 : S32x1.ShapeCasts S1x32x1
  shapeCasts_S16x32x768_S512x768 : S16x32x768.ShapeCasts S512x768
  shapeCasts_S16x32x1_S512x1 : S16x32x1.ShapeCasts S512x1
  shapeCasts_S512x1_S1x512 : S512x1.ShapeCasts S1x512
  shapeCasts_S1_S1x1 : S1.ShapeCasts S1x1
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x512 : S1x1.Broadcasts S512x512
  iota_S512x512_d0_w32 : S512x512.Iotas .tc 32 [0]
  iota_S512x512_d1_w32 : S512x512.Iotas .tc 32 [1]
  natLt_1_32 : 1 < 32
  reduces_S512x512_S512 : S512x512.Reduces [1] S512
  shapeCasts_S512_S512x1 : S512.ShapeCasts S512x1
  broadcasts_S512x1_S512x512 : S512x1.Broadcasts S512x512
  reduces_S512x512_S512_2 : S512x512.Reduces [0] S512
  shapeCasts_S512_S1x512 : S512.ShapeCasts S1x512
  broadcasts_S1x512_S512x512 : S1x512.Broadcasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S512x1_S1 : S512x1.Reduces [0] S1
  reduces_S1x512_S1 : S1x512.Reduces [1] S1
  shapeCasts_S1x1_S_ : S1x1.ShapeCasts S_
  dot_S32x1024_S1024x768_S32x768_1_0_0_1_n_n_wf : DotDims.WF S32x1024 S1024x768 S32x768 [1] [0] [0] [1] [] []
  dot_S512x768_S512x768_S512x512_1_1_0_0_n_n_wf : DotDims.WF S512x768 S512x768 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x1024.size a ≤ S16x32x4096.size a
  hwx0_0 : ∀ i : grid0.Coords, EltTy.bits .f32 = 32 ∨ (Rect.block (s := S16x32x4096) S1x32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x768.size a ≤ S16x4096x768.size a
  hwx0_1 : ∀ i : grid0.Coords, EltTy.bits .f32 = 32 ∨ (Rect.block (s := S16x4096x768) S1x1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x768.size a ≤ S16x32x768.size a
  hwx0_2 : ∀ i : grid0.Coords, EltTy.bits .f32 = 32 ∨ (Rect.block (s := S16x32x768) S1x32x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x1.size a ≤ S16x32x1.size a
  hwx0_3 : ∀ i : grid0.Coords, EltTy.bits .f32 = 32 ∨ (Rect.block (s := S16x32x1) S1x32x1.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x768.size a ≤ S512x768.size a
  hwx1_0 : ∀ i : grid1.Coords, EltTy.bits .f32 = 32 ∨ (Rect.block (s := S512x768) S512x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x768.size a ≤ S512x768.size a
  hwx1_1 : ∀ i : grid1.Coords, EltTy.bits .f32 = 32 ∨ (Rect.block (s := S512x768) S512x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S512x1.size a
  hwx1_2 : ∀ i : grid1.Coords, EltTy.bits .f32 = 32 ∨ (Rect.block (s := S512x1) S512x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)

variable [Facts₀]

def dot_S32x1024_S1024x768_S32x768_1_0_0_1_n_n : DotDims S32x1024 S1024x768 S32x768 where
  lhsContracting := [1]
  rhsContracting := [0]
  lhsNonContracting := [0]
  rhsNonContracting := [1]
  lhsBatch := []
  rhsBatch := []
  wf := dot_S32x1024_S1024x768_S32x768_1_0_0_1_n_n_wf
def dot_S512x768_S512x768_S512x512_1_1_0_0_n_n : DotDims S512x768 S512x768 S512x512 where
  lhsContracting := [1]
  rhsContracting := [1]
  lhsNonContracting := [0]
  rhsNonContracting := [0]
  lhsBatch := []
  rhsBatch := []
  wf := dot_S512x768_S512x768_S512x512_1_1_0_0_n_n_wf

abbrev win0_0 : Pipeline.Window sig grid0 :=
  Pipeline.Window.ofSpec (Memref.whole main_arg3) S1x32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x32x768.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x32x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v2) S512x768.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S65536x768 : Shape := ⟨2, ![65536, 768]⟩
abbrev S16 : Shape := ⟨1, ![16]⟩
abbrev S512x768 : Shape := ⟨2, ![512, 768]⟩
abbrev S16x32x4096 : Shape := ⟨3, ![16, 32, 4096]⟩
abbrev S1 : Shape := ⟨1, ![1]⟩
abbrev S16x4096x768 : Shape := ⟨3, ![16, 4096, 768]⟩
abbrev S16x32x768 : Shape := ⟨3, ![16, 32, 768]⟩
abbrev S_ : Shape := ⟨0, ![]⟩
abbrev S16x32 : Shape := ⟨2, ![16, 32]⟩
abbrev S512x1 : Shape := ⟨2, ![512, 1]⟩
abbrev S768x512 : Shape := ⟨2, ![768, 512]⟩
abbrev S512x512 : Shape := ⟨2, ![512, 512]⟩
abbrev S512 : Shape := ⟨1, ![512]⟩
abbrev S512x2 : Shape := ⟨2, ![512, 2]⟩
abbrev S1x512 : Shape := ⟨2, ![1, 512]⟩

abbrev nBuf : Space → Nat
  | .hbm => 148
  | .vmem => 0
  | .smem => 0
  | _ => 0

abbrev hbmTy0_0 (i : Nat) : BufTy := match i % 128 with
  | 0 => ⟨S65536x768, .f32⟩
  | 1 => ⟨S16, .i32⟩
  | 2 => ⟨S512x768, .f32⟩
  | 3 => ⟨S16x32x4096, .f32⟩
  | 4 => ⟨S1, .f32⟩
  | 5 => ⟨S16x4096x768, .f32⟩
  | 6 => ⟨S16x32x768, .f32⟩
  | 7 => ⟨S512x768, .f32⟩
  | 8 => ⟨S_, .f32⟩
  | 9 => ⟨S16x32, .f32⟩
  | 10 => ⟨S512x1, .f32⟩
  | 11 => ⟨S_, .f32⟩
  | 12 => ⟨S512x1, .f32⟩
  | 13 => ⟨S512x1, .f32⟩
  | 14 => ⟨S512x768, .f32⟩
  | 15 => ⟨S512x768, .f32⟩
  | 16 => ⟨S768x512, .f32⟩
  | 17 => ⟨S512x512, .f32⟩
  | 18 => ⟨S_, .f32⟩
  | 19 => ⟨S_, .f32⟩
  | 20 => ⟨S512x512, .f32⟩
  | 21 => ⟨S512x512, .f32⟩
  | 22 => ⟨S512, .i32⟩
  | 23 => ⟨S512, .f32⟩
  | 24 => ⟨S_, .f32⟩
  | 25 => ⟨S512, .f32⟩
  | 26 => ⟨S512, .i1⟩
  | 27 => ⟨S_, .f32⟩
  | 28 => ⟨S512, .f32⟩
  | 29 => ⟨S_, .f32⟩
  | 30 => ⟨S512, .f32⟩
  | 31 => ⟨S512, .f32⟩
  | 32 => ⟨S512x1, .f32⟩
  | 33 => ⟨S512x512, .f32⟩
  | 34 => ⟨S512x512, .f32⟩
  | 35 => ⟨S512x512, .f32⟩
  | 36 => ⟨S_, .f32⟩
  | 37 => ⟨S512, .f32⟩
  | 38 => ⟨S512x1, .f32⟩
  | 39 => ⟨S512x1, .f32⟩
  | 40 => ⟨S512x512, .f32⟩
  | 41 => ⟨S512x512, .f32⟩
  | 42 => ⟨S_, .i32⟩
  | 43 => ⟨S512, .i32⟩
  | 44 => ⟨S512, .i1⟩
  | 45 => ⟨S_, .i32⟩
  | 46 => ⟨S512, .i32⟩
  | 47 => ⟨S512, .i32⟩
  | 48 => ⟨S512, .i32⟩
  | 49 => ⟨S_, .i32⟩
  | 50 => ⟨S512, .i32⟩
  | 51 => ⟨S512, .i1⟩
  | 52 => ⟨S_, .i32⟩
  | 53 => ⟨S512, .i32⟩
  | 54 => ⟨S512, .i32⟩
  | 55 => ⟨S512, .i32⟩
  | 56 => ⟨S512x1, .i32⟩
  | 57 => ⟨S512x1, .i32⟩
  | 58 => ⟨S512x2, .i32⟩
  | 59 => ⟨S512, .f32⟩
  | 60 => ⟨S512, .f32⟩
  | 61 => ⟨S_, .f32⟩
  | 62 => ⟨S_, .f32⟩
  | 63 => ⟨S512, .f32⟩
  | 64 => ⟨S512, .f32⟩
  | 65 => ⟨S_, .f32⟩
  | 66 => ⟨S512, .f32⟩
  | 67 => ⟨S_, .f32⟩
  | 68 => ⟨S512, .f32⟩
  | 69 => ⟨S512, .f32⟩
  | 70 => ⟨S1x512, .f32⟩
  | 71 => ⟨S512x512, .f32⟩
  | 72 => ⟨S512x512, .f32⟩
  | 73 => ⟨S512x512, .f32⟩
  | 74 => ⟨S_, .f32⟩
  | 75 => ⟨S512, .f32⟩
  | 76 => ⟨S1x512, .f32⟩
  | 77 => ⟨S1x512, .f32⟩
  | 78 => ⟨S512x512, .f32⟩
  | 79 => ⟨S512x512, .f32⟩
  | 80 => ⟨S_, .i32⟩
  | 81 => ⟨S512, .i32⟩
  | 82 => ⟨S512, .i1⟩
  | 83 => ⟨S_, .i32⟩
  | 84 => ⟨S512, .i32⟩
  | 85 => ⟨S512, .i32⟩
  | 86 => ⟨S512, .i32⟩
  | 87 => ⟨S_, .i32⟩
  | 88 => ⟨S512, .i32⟩
  | 89 => ⟨S512, .i1⟩
  | 90 => ⟨S_, .i32⟩
  | 91 => ⟨S512, .i32⟩
  | 92 => ⟨S512, .i32⟩
  | 93 => ⟨S512, .i32⟩
  | 94 => ⟨S512x1, .i32⟩
  | 95 => ⟨S512x1, .i32⟩
  | 96 => ⟨S512x2, .i32⟩
  | 97 => ⟨S512, .f32⟩
  | 98 => ⟨S512, .f32⟩
  | 99 => ⟨S_, .f32⟩
  | 100 => ⟨S_, .f32⟩
  | 101 => ⟨S512, .f32⟩
  | 102 => ⟨S512, .f32⟩
  | 103 => ⟨S_, .f32⟩
  | 104 => ⟨S512, .f32⟩
  | 105 => ⟨S512, .i1⟩
  | 106 => ⟨S512, .i32⟩
  | 107 => ⟨S_, .i32⟩
  | 108 => ⟨S_, .i32⟩
  | 109 => ⟨S_, .i32⟩
  | 110 => ⟨S_, .i1⟩
  | 111 => ⟨S_, .f32⟩
  | 112 => ⟨S_, .f32⟩
  | 113 => ⟨S512, .f32⟩
  | 114 => ⟨S512, .f32⟩
  | 115 => ⟨S_, .f32⟩
  | 116 => ⟨S_, .f32⟩
  | 117 => ⟨S_, .i32⟩
  | 118 => ⟨S_, .i32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S512, .f32⟩
  | 126 => ⟨S512, .i1⟩
  | 127 => ⟨S512, .i32⟩
  | _ => ⟨S65536x768, .f32⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .f32⟩
  | 5 => ⟨S_, .f32⟩
  | 6 => ⟨S512, .f32⟩
  | 7 => ⟨S512, .f32⟩
  | 8 => ⟨S_, .f32⟩
  | 9 => ⟨S_, .f32⟩
  | 10 => ⟨S_, .i32⟩
  | 11 => ⟨S_, .i32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | _ => ⟨S65536x768, .f32⟩

abbrev hbmTy (i : Nat) : BufTy := match i / 128 with
  | 0 => hbmTy0_0 i
  | 1 => hbmTy0_1 i
  | _ => ⟨S65536x768, .f32⟩

abbrev bufTy : (tb : Table) → Fin (tcTables nBuf tb) → BufTy
  | .hbm, ⟨i, _⟩ => hbmTy i
  | _, _ => ⟨S65536x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_call0_cst_0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_cst_1 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_v19 : Ref sig .tc := ⟨.hbm, 41, rfl⟩
abbrev main_c : Ref sig .tc := ⟨.hbm, 42, rfl⟩
abbrev main_v20 : Ref sig .tc := ⟨.hbm, 43, rfl⟩
abbrev main_v21 : Ref sig .tc := ⟨.hbm, 44, rfl⟩
abbrev main_c_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_3 : Ref sig .tc := ⟨.hbm, 49, rfl⟩
abbrev main_v25 : Ref sig .tc := ⟨.hbm, 50, rfl⟩
abbrev main_v26 : Ref sig .tc := ⟨.hbm, 51, rfl⟩
abbrev main_c_4 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_call1_v0 : Ref sig .tc := ⟨.hbm, 62, rfl⟩
abbrev main_call1_v1 : Ref sig .tc := ⟨.hbm, 63, rfl⟩
abbrev main_v35 : Ref sig .tc := ⟨.hbm, 64, rfl⟩
abbrev main_call2_cst : Ref sig .tc := ⟨.hbm, 65, rfl⟩
abbrev main_call2_v0 : Ref sig .tc := ⟨.hbm, 66, rfl⟩
abbrev main_call2_cst_0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_cst_1 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_v36 : Ref sig .tc := ⟨.hbm, 79, rfl⟩
abbrev main_c_6 : Ref sig .tc := ⟨.hbm, 80, rfl⟩
abbrev main_v37 : Ref sig .tc := ⟨.hbm, 81, rfl⟩
abbrev main_v38 : Ref sig .tc := ⟨.hbm, 82, rfl⟩
abbrev main_c_7 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_c_8 : Ref sig .tc := ⟨.hbm, 87, rfl⟩
abbrev main_v42 : Ref sig .tc := ⟨.hbm, 88, rfl⟩
abbrev main_v43 : Ref sig .tc := ⟨.hbm, 89, rfl⟩
abbrev main_c_9 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_cst_10 : Ref sig .tc := ⟨.hbm, 99, rfl⟩
abbrev main_call3_v0 : Ref sig .tc := ⟨.hbm, 100, rfl⟩
abbrev main_call3_v1 : Ref sig .tc := ⟨.hbm, 101, rfl⟩
abbrev main_v52 : Ref sig .tc := ⟨.hbm, 102, rfl⟩
abbrev main_cst_11 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_c_12 : Ref sig .tc := ⟨.hbm, 107, rfl⟩
abbrev main_v56 : Ref sig .tc := ⟨.hbm, 108, rfl⟩
abbrev main_c_13 : Ref sig .tc := ⟨.hbm, 109, rfl⟩
abbrev main_v57 : Ref sig .tc := ⟨.hbm, 110, rfl⟩
abbrev main_cst_14 : Ref sig .tc := ⟨.hbm, 111, rfl⟩
abbrev main_call4_v0 : Ref sig .tc := ⟨.hbm, 112, rfl⟩
abbrev main_call4_v1 : Ref sig .tc := ⟨.hbm, 113, rfl⟩
abbrev main_v58 : Ref sig .tc := ⟨.hbm, 114, rfl⟩
abbrev main_cst_15 : Ref sig .tc := ⟨.hbm, 115, rfl⟩
abbrev main_v59 : Ref sig .tc := ⟨.hbm, 116, rfl⟩
abbrev main_c_16 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_cst_17 : Ref sig .tc := ⟨.hbm, 121, rfl⟩
abbrev main_call5_v0 : Ref sig .tc := ⟨.hbm, 122, rfl⟩
abbrev main_v63 : Ref sig .tc := ⟨.hbm, 123, rfl⟩
abbrev main_cst_18 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_c_19 : Ref sig .tc := ⟨.hbm, 128, rfl⟩
abbrev main_v67 : Ref sig .tc := ⟨.hbm, 129, rfl⟩
abbrev main_c_20 : Ref sig .tc := ⟨.hbm, 130, rfl⟩
abbrev main_v68 : Ref sig .tc := ⟨.hbm, 131, rfl⟩
abbrev main_cst_21 : Ref sig .tc := ⟨.hbm, 132, rfl⟩
abbrev main_call6_v0 : Ref sig .tc := ⟨.hbm, 133, rfl⟩
abbrev main_call6_v1 : Ref sig .tc := ⟨.hbm, 134, rfl⟩
abbrev main_v69 : Ref sig .tc := ⟨.hbm, 135, rfl⟩
abbrev main_cst_22 : Ref sig .tc := ⟨.hbm, 136, rfl⟩
abbrev main_v70 : Ref sig .tc := ⟨.hbm, 137, rfl⟩
abbrev main_c_23 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_cst_24 : Ref sig .tc := ⟨.hbm, 142, rfl⟩
abbrev main_call7_v0 : Ref sig .tc := ⟨.hbm, 143, rfl⟩
abbrev main_v74 : Ref sig .tc := ⟨.hbm, 144, rfl⟩
abbrev main_v75 : Ref sig .tc := ⟨.hbm, 145, rfl⟩
abbrev main_cst_25 : Ref sig .tc := ⟨.hbm, 146, rfl⟩
abbrev main_v76 : Ref sig .tc := ⟨.hbm, 147, rfl⟩

abbrev nD : Nat := 1
abbrev τ : Topo := Topo.v7x

variable {F : FTy → Type} [FloatOps F]

class Facts₀ : Prop where
  shapeCasts_S65536x768_S16x4096x768 : S65536x768.ShapeCasts S16x4096x768
  shapeCasts_S16x32x768_S512x768 : S16x32x768.ShapeCasts S512x768
  reducesTo_S16x32x4096_S16x32_d2 : S16x32x4096.ReducesTo [2] S16x32
  h_S_ : 0 < S_.numel
  shapeCasts_S16x32_S512x1 : S16x32.ShapeCasts S512x1
  bcast_S_S512x1 : S_.BroadcastsInDim S512x1 (![] : Fin 0 → Fin S512x1.rank)
  bcast_S512x1_S512x768_0_1 : S512x1.BroadcastsInDim S512x768 (![0, 1] : Fin 2 → Fin S512x768.rank)
  transposes_S512x768_S768x512_1_0 : S512x768.Transposes [1, 0] S768x512
  shapeCasts_S1_S_ : S1.ShapeCasts S_
  bcast_S_S512x512 : S_.BroadcastsInDim S512x512 (![] : Fin 0 → Fin S512x512.rank)
  shapeCasts_S512x1_S512 : S512x1.ShapeCasts S512
  bcast_S_S512 : S_.BroadcastsInDim S512 (![] : Fin 0 → Fin S512.rank)
  reducesTo_S512x512_S512_d1 : S512x512.ReducesTo [1] S512
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  concatenates_S512x1_S512x1_S512x2_d1 : Shape.Concatenates [S512x1, S512x1] S512x2 1
  reducesTo_S512x512_S512_d0 : S512x512.ReducesTo [0] S512
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  natLt_1_32 : 1 < 32
  reducesTo_S512_S_d0 : S512.ReducesTo [0] S_
  dot_S16x32x4096_S16x4096x768_S16x32x768_2_1_1_2_0_0_wf : DotDims.WF S16x32x4096 S16x4096x768 S16x32x768 [2] [1] [1] [2] [0] [0]
  dot_S512x768_S768x512_S512x512_1_0_0_1_n_n_wf : DotDims.WF S512x768 S768x512 S512x512 [1] [0] [0] [1] [] []
  gather_S512x512_S512x2_S512_n_01_n_n_01_1_11_wf : GatherDims.WF S512x512 S512x2 S512 [] [0, 1] [] [0, 1] [] 1 ![1, 1]

variable [Facts₀]

def dot_S16x32x4096_S16x4096x768_S16x32x768_2_1_1_2_0_0 : DotDims S16x32x4096 S16x4096x768 S16x32x768 where
  lhsContracting := [2]
  rhsContracting := [1]
  lhsNonContracting := [1]
  rhsNonContracting := [2]
  lhsBatch := [0]
  rhsBatch := [0]
  wf := dot_S16x32x4096_S16x4096x768_S16x32x768_2_1_1_2_0_0_wf
def dot_S512x768_S768x512_S512x512_1_0_0_1_n_n : DotDims S512x768 S768x512 S512x512 where
  lhsContracting := [1]
  rhsContracting := [0]
  lhsNonContracting := [0]
  rhsNonContracting := [1]
  lhsBatch := []
  rhsBatch := []
  wf := dot_S512x768_S768x512_S512x512_1_0_0_1_n_n_wf
def gather_S512x512_S512x2_S512_n_01_n_n_01_1_11 : GatherDims S512x512 S512x2 S512 where
  offsetDims := []
  collapsedSliceDims := [0, 1]
  operandBatchingDims := []
  startIndicesBatchingDims := []
  startIndexMap := [0, 1]
  indexVectorDim := 1
  sliceSizes := ![1, 1]
  wf := gather_S512x512_S512x2_S512_n_01_n_n_01_1_11_wf

class Facts : Prop extends Facts₀ where

variable [Facts]
-- ==== Proof.KbR0Defs.lean ====
/-
  The first kernel region (masked segment sums, grid 16 x 4): what its three control cases share. The body
  branches twice on the reduction coordinate k (the grid position modulo 4): at k = 0 it zeroes the two
  accumulators, at every k it adds the block's contribution to them, at k = 3 it divides and stores the two outputs.
  The accumulators are scratch buffers carried from one grid point to the next.
-/
import proofs.«126511_j10892037063168_2_alg».proof.Proof.Gen.Kernel.Launch
import proofs.«126511_j10892037063168_2_alg».proof.Proof.Gen.Kernel.Skeleton
import proofs.«126511_j10892037063168_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first branch (zero the accumulators), from the grid coordinates. -/
abbrev cond0_0 (i : grid0.Coords) : Prop := (Scalar.cmpi .ne (Scalar.extui (Scalar.cmpi .eq (BitVec.ofNat 32 (i 1).val) 0#32)) 0#32) = 1#1
/-- It is taken exactly at the points with k = 0. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (finish: divide and store the outputs). -/
abbrev cond0_1 (i : grid0.Coords) : Prop := k0_cond2 i = 1#1
/-- It is taken exactly at the points with k = 3. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from k = 3 the two output windows are idle and not written back. -/
theorem idleAt0_2 : ∀ t : Fin cfg0.N, ¬cond0_1 (grid0.coords t) → cfg0.idle 2 (grid0.coords t) = true := by decide +kernel
theorem idleAt0_3 : ∀ t : Fin cfg0.N, ¬cond0_1 (grid0.coords t) → cfg0.idle 3 (grid0.coords t) = true := by decide +kernel
theorem noFlush0_2 : ∀ t : Fin cfg0.N, ¬cond0_1 (grid0.coords t) → (cfg0.win 2).flush t = false := by decide +kernel
theorem noFlush0_3 : ∀ t : Fin cfg0.N, ¬cond0_1 (grid0.coords t) → (cfg0.win 3).flush t = false := by decide +kernel
/-- At k = 3 they are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S1x32x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x1 .f32 := win0_3.stage (cfg0.slots t 3)
abbrev hs0_3 (t : Fin cfg0.N) : (ms0_3 t).IsWhole := hstage0_3 ((cfg0.slots t 3).cast nbuf0_3)
/-- The two accumulators: the running sums of features and the running point counts. -/
abbrev scS : Memref sig .tc .vmem S32x768 .f32 := Memref.whole cc0_scratch0
abbrev scN : Memref sig .tc .vmem S32x1 .f32 := Memref.whole cc0_scratch1
/-- Views through which the contents of the outputs and the accumulators are stated. -/
abbrev VO2 : View sig .tc .vmem S1x32x768 .f32 := (Memref.whole cc0_stg2_0 : Memref sig .tc .vmem S1x32x768 .f32).view
abbrev VO3 : View sig .tc .vmem S1x32x1 .f32 := (Memref.whole cc0_stg3_0 : Memref sig .tc .vmem S1x32x1 .f32).view
abbrev VS : View sig .tc .vmem S32x768 .f32 := scS.view
abbrev VN : View sig .tc .vmem S32x1 .f32 := scN.view

/-- The scoped buffers of the core that this region never touches (the other region's staging buffers), each
    whole at some contents. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f))

/-- The plain region invariant with the two accumulators spelt as owned memrefs. -/
theorem PhiA0_eq (c : Dev nD) :
    (Pipeline.ΦA spec0 c : sProp 𝕄)
      = iprop(iprop((∃ d, owns (c : Thread nD τ) scS fullShare d) ∗ (∃ d, owns (c : Thread nD τ) scN fullShare d) ∗ others c) ∗ (∃ r, prngReg c r)) := by
  unfold Pipeline.ΦA; rw [scopedRest0_eq]; simp only [scS, scN, owns_whole, others]; try rfl

end Cert.Kernel.Fr

end
-- ==== Proof.KbR0A.lean ====
/-
  The body at a point with k = 0: both accumulators are zeroed and then receive the first block's contribution;
  the output windows are left alone.
-/
import proofs.«126511_j10892037063168_2_alg».proof.Proof.Gen.Kernel.Launch
import proofs.«126511_j10892037063168_2_alg».proof.Proof.Gen.Kernel.Skeleton
import proofs.«126511_j10892037063168_2_alg».proof.Proof.Gen.Kernel.Points
import proofs.«126511_j10892037063168_2_alg».proof.Proof.KbR0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- On whole buffers — the two inputs at their contents, the two idle outputs at contents handed back untouched,
    the accumulators at anything — the body runs to the continuation with each accumulator holding the pieces its
    stores wrote (the lists are what the run finds). -/
noncomputable def kernelRun0_A (c : Dev nD) (i : grid0.Coords) (arg2 : Memref sig .tc .vmem S1x32x1024 .f32) (harg2 : arg2.IsWhole) (arg3 : Memref sig .tc .vmem S1x1024x768 .f32) (harg3 : arg3.IsWhole) (arg4 : Memref sig .tc .vmem S1x32x768 .f32) (harg4 : arg4.IsWhole) (arg5 : Memref sig .tc .vmem S1x32x1 .f32) (harg5 : arg5.IsWhole) (arg6 : Memref sig .tc .vmem S32x768 .f32) (harg6 : arg6.IsWhole) (arg7 : Memref sig .tc .vmem S32x1 .f32) (harg7 : arg7.IsWhole) (hc0 : cond0_0 i) (hc1 : ¬cond0_1 i)
    (x0 : Vec F S1x32x1024 .f32) (x1 : Vec F S1x1024x768 .f32) :
    Σ' (LS0 : List (View.Piece (Elt F) S32x768 .f32)), { LS1 : List (View.Piece (Elt F) S32x1 .f32) //
      ∀ (xi2 : Vec F S1x32x768 .f32) (xi3 : Vec F S1x32x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__segment_reduce_kernel i arg2 harg2 arg3 harg3 arg4 harg4 arg5 harg5 arg6 harg6 arg7 harg7) K } := by
  refine ⟨?_, ?_, fun xi2 xi3 E K => ?run⟩
  case run =>
    simp only [cc0__segment_reduce_kernel_eq_skeleton]; unfold cc0__segment_reduce_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Fr

end
-- ==== Proof.KbR0B.lean ====
/-
  The body at a point with k = 1 or k = 2: each accumulator, entered at what the point before left, receives the
  block's contribution; the output windows are left alone.
-/
import proofs.«126511_j10892037063168_2_alg».proof.Proof.Gen.Kernel.Launch
import proofs.«126511_j10892037063168_2_alg».proof.Proof.Gen.Kernel.Skeleton
import proofs.«126511_j10892037063168_2_alg».proof.Proof.Gen.Kernel.Points
import proofs.«126511_j10892037063168_2_alg».proof.Proof.KbR0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- On whole buffers — the two inputs at their contents, the two idle outputs at contents handed back untouched,
    the accumulators at the carried contents `xs0`, `xs1` — the body runs to the continuation with each accumulator
    holding the pieces its store wrote. -/
noncomputable def kernelRun0_B (c : Dev nD) (i : grid0.Coords) (arg2 : Memref sig .tc .vmem S1x32x1024 .f32) (harg2 : arg2.IsWhole) (arg3 : Memref sig .tc .vmem S1x1024x768 .f32) (harg3 : arg3.IsWhole) (arg4 : Memref sig .tc .vmem S1x32x768 .f32) (harg4 : arg4.IsWhole) (arg5 : Memref sig .tc .vmem S1x32x1 .f32) (harg5 : arg5.IsWhole) (arg6 : Memref sig .tc .vmem S32x768 .f32) (harg6 : arg6.IsWhole) (arg7 : Memref sig .tc .vmem S32x1 .f32) (harg7 : arg7.IsWhole) (hc0 : ¬cond0_0 i) (hc1 : ¬cond0_1 i)
    (x0 : Vec F S1x32x1024 .f32) (x1 : Vec F S1x1024x768 .f32) (xs0 : Vec F S32x768 .f32) (xs1 : Vec F S32x1 .f32) :
    Σ' (LS0 : List (View.Piece (Elt F) S32x768 .f32)), { LS1 : List (View.Piece (Elt F) S32x1 .f32) //
      ∀ (xi2 : Vec F S1x32x768 .f32) (xi3 : Vec F S1x32x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__segment_reduce_kernel i arg2 harg2 arg3 harg3 arg4 harg4 arg5 harg5 arg6 harg6 arg7 harg7) K } := by
  refine ⟨?_, ?_, fun xi2 xi3 E K => ?run⟩
  case run =>
    simp only [cc0__segment_reduce_kernel_eq_skeleton]; unfold cc0__segment_reduce_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Fr

end
-- ==== Proof.KbR0C.lean ====
/-
  The body at a point with k = 3: each accumulator receives the last block's contribution, and the two outputs are
  stored: the feature sums divided by the point counts plus a small constant, and the point counts themselves.
-/
import proofs.«126511_j10892037063168_2_alg».proof.Proof.Gen.Kernel.Launch
import proofs.«126511_j10892037063168_2_alg».proof.Proof.Gen.Kernel.Skeleton
import proofs.«126511_j10892037063168_2_alg».proof.Proof.Gen.Kernel.Points
import proofs.«126511_j10892037063168_2_alg».proof.Proof.KbR0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- On whole buffers — the two inputs at their contents, the two outputs at anything, the accumulators at the
    carried contents `xs0`, `xs1` — the body runs to the continuation with the outputs and the accumulators each
    holding the pieces its stores wrote. -/
noncomputable def kernelRun0_C (c : Dev nD) (i : grid0.Coords) (arg2 : Memref sig .tc .vmem S1x32x1024 .f32) (harg2 : arg2.IsWhole) (arg3 : Memref sig .tc .vmem S1x1024x768 .f32) (harg3 : arg3.IsWhole) (arg4 : Memref sig .tc .vmem S1x32x768 .f32) (harg4 : arg4.IsWhole) (arg5 : Memref sig .tc .vmem S1x32x1 .f32) (harg5 : arg5.IsWhole) (arg6 : Memref sig .tc .vmem S32x768 .f32) (harg6 : arg6.IsWhole) (arg7 : Memref sig .tc .vmem S32x1 .f32) (harg7 : arg7.IsWhole) (hc0 : ¬cond0_0 i) (hc1 : cond0_1 i)
    (x0 : Vec F S1x32x1024 .f32) (x1 : Vec F S1x1024x768 .f32) (xs0 : Vec F S32x768 .f32) (xs1 : Vec F S32x1 .f32) :
    Σ' (L2 : List (View.Piece (Elt F) S1x32x768 .f32)) (L3 : List (View.Piece (Elt F) S1x32x1 .f32)) (LS0 : List (View.Piece (Elt F) S32x768 .f32)), { LS1 : List (View.Piece (Elt F) S32x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__segment_reduce_kernel i arg2 harg2 arg3 harg3 arg4 harg4 arg5 harg5 arg6 harg6 arg7 harg7) K } := by
  refine ⟨?_, ?_, ?_, ?_, fun E K => ?run⟩
  case run =>
    simp only [cc0__segment_reduce_kernel_eq_skeleton]; unfold cc0__segment_reduce_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Fr

end
-- ==== Proof.KbR0.lean ====
/-
  The first kernel region as a whole: what the two accumulators and the two output buffers hold after the body at
  each grid position, by recursion on the position (the accumulators pass from one position to the next); the region's
  invariant, which names the accumulators' contents between positions; and the body's obligation at a generic
  position, by cases on k.
-/
import proofs.«126511_j10892037063168_2_alg».proof.Proof.Gen.Kernel.Launch
import proofs.«126511_j10892037063168_2_alg».proof.Proof.Gen.Kernel.Skeleton
import proofs.«126511_j10892037063168_2_alg».proof.Proof.Gen.Kernel.Points
import proofs.«126511_j10892037063168_2_alg».proof.Proof.KbR0A
import proofs.«126511_j10892037063168_2_alg».proof.Proof.KbR0B
import proofs.«126511_j10892037063168_2_alg».proof.Proof.KbR0C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when the region is entered: a parameter here, instantiated by the run
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The two output buffers and the two accumulators, in that order. -/
abbrev Outs (F : FTy → Type) [FloatOps F] : Type := Vec F S1x32x768 .f32 × Vec F S1x32x1 .f32 × Vec F S32x768 .f32 × Vec F S32x1 .f32

/-! ## The three cases at a grid position -/

/-- The body's run at a position with k = 0, on the position's own buffers and blocks. -/
noncomputable def runA (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) scS (Memref.isWhole_whole _) scN (Memref.isWhole_whole _) ((hcond0_0 t).mpr h0) (fun h => h1 ((hcond0_1 t).mp h)) (iblk0 V c 0 t) (iblk0 V c 1 t)
/-- The same at k = 1 or 2, over the accumulators' carried contents. -/
noncomputable def runB (c : Dev nD) (t : Fin cfg0.N) (h0 : ¬t.val % 4 = 0) (h1 : ¬t.val % 4 = 3) (xs0 : Vec F S32x768 .f32) (xs1 : Vec F S32x1 .f32) :=
  kernelRun0_B (F := F) c (grid0.coords t) (ms0_0 t) (hs0_0 t) (ms0_1 t) (hs0_1 t) (ms0_2 t) (hs0_2 t) (ms0_3 t) (hs0_3 t) scS (Memref.isWhole_whole _) scN (Memref.isWhole_whole _) (fun h => h0 ((hcond0_0 t).mp h)) (fun h => h1 ((hcond0_1 t).mp h)) (iblk0 V c 0 t) (iblk0 V c 1 t) xs0 xs1
/-- The same at k = 3. -/
noncomputable def runC (c : Dev nD) (t : Fin cfg0.N) (h0 : ¬t.val % 4 = 0) (h1 : t.val % 4 = 3) (xs0 : Vec F S32x768 .f32) (xs1 : Vec F S32x1 .f32) :=
  kernelRun0_C (F := F) c (grid0.coords t) (ms0_0 t) (hs0_0 t) (ms0_1 t) (hs0_1 t) (ms0_2 t) (hs0_2 t) (ms0_3 t) (hs0_3 t) scS (Memref.isWhole_whole _) scN (Memref.isWhole_whole _) (fun h => h0 ((hcond0_0 t).mp h)) ((hcond0_1 t).mpr h1) (iblk0 V c 0 t) (iblk0 V c 1 t) xs0 xs1

/-- Each case's stores cover the buffers they are read back from (each is one whole-buffer store, or two). -/
theorem coverA_S (c : Dev nD) (t : Fin cfg0.N) (h0 h1) (y : S32x768.Idx) : ∃ pc ∈ (runA V c t h0 h1).1, y ∈ pc.1.set :=
  View.cover_of_tiledL (runA V c t h0 h1).1 S32x768.size (by unfold runA; sl_kernel_rfl) y
theorem coverA_N (c : Dev nD) (t : Fin cfg0.N) (h0 h1) (y : S32x1.Idx) : ∃ pc ∈ (runA V c t h0 h1).2.1, y ∈ pc.1.set :=
  View.cover_of_tiledL (runA V c t h0 h1).2.1 S32x1.size (by unfold runA; sl_kernel_rfl) y
theorem coverB_S (c : Dev nD) (t : Fin cfg0.N) (h0 h1) (xs0 xs1) (y : S32x768.Idx) : ∃ pc ∈ (runB V c t h0 h1 xs0 xs1).1, y ∈ pc.1.set :=
  View.cover_of_tiledL (runB V c t h0 h1 xs0 xs1).1 S32x768.size (by unfold runB; sl_kernel_rfl) y
theorem coverB_N (c : Dev nD) (t : Fin cfg0.N) (h0 h1) (xs0 xs1) (y : S32x1.Idx) : ∃ pc ∈ (runB V c t h0 h1 xs0 xs1).2.1, y ∈ pc.1.set :=
  View.cover_of_tiledL (runB V c t h0 h1 xs0 xs1).2.1 S32x1.size (by unfold runB; sl_kernel_rfl) y
theorem coverC_2 (c : Dev nD) (t : Fin cfg0.N) (h0 h1) (xs0 xs1) (y : S1x32x768.Idx) : ∃ pc ∈ (runC V c t h0 h1 xs0 xs1).1, y ∈ pc.1.set :=
  View.cover_of_tiledL (runC V c t h0 h1 xs0 xs1).1 S1x32x768.size (by unfold runC; sl_kernel_rfl) y
theorem coverC_3 (c : Dev nD) (t : Fin cfg0.N) (h0 h1) (xs0 xs1) (y : S1x32x1.Idx) : ∃ pc ∈ (runC V c t h0 h1 xs0 xs1).2.1, y ∈ pc.1.set :=
  View.cover_of_tiledL (runC V c t h0 h1 xs0 xs1).2.1 S1x32x1.size (by unfold runC; sl_kernel_rfl) y
theorem coverC_S (c : Dev nD) (t : Fin cfg0.N) (h0 h1) (xs0 xs1) (y : S32x768.Idx) : ∃ pc ∈ (runC V c t h0 h1 xs0 xs1).2.2.1, y ∈ pc.1.set :=
  View.cover_of_tiledL (runC V c t h0 h1 xs0 xs1).2.2.1 S32x768.size (by unfold runC; sl_kernel_rfl) y
theorem coverC_N (c : Dev nD) (t : Fin cfg0.N) (h0 h1) (xs0 xs1) (y : S32x1.Idx) : ∃ pc ∈ (runC V c t h0 h1 xs0 xs1).2.2.2.1, y ∈ pc.1.set :=
  View.cover_of_tiledL (runC V c t h0 h1 xs0 xs1).2.2.2.1 S32x1.size (by unfold runC; sl_kernel_rfl) y

/-- What a position with k = 0 leaves: the accumulators at their pieces read back; the outputs are not stored into
    (placeholders nothing consults: the windows are idle there). -/
noncomputable def stepA (c : Dev nD) (t : Fin cfg0.N) (h0 : t.val % 4 = 0) (h1 : ¬t.val % 4 = 3) : Outs F :=
  (VO2.read (Elt F) VO2.junk, VO3.read (Elt F) VO3.junk,
   VS.read (Elt F) (VS.writes (Elt F) VS.junk (runA V c t h0 h1).1), VN.read (Elt F) (VN.writes (Elt F) VN.junk (runA V c t h0 h1).2.1))
/-- What a position with k = 1 or 2 leaves, over what the position before left in the accumulators. -/
noncomputable def stepB (c : Dev nD) (t : Fin cfg0.N) (h0 : ¬t.val % 4 = 0) (h1 : ¬t.val % 4 = 3) (prev : Outs F) : Outs F :=
  (VO2.read (Elt F) VO2.junk, VO3.read (Elt F) VO3.junk,
   VS.read (Elt F) (VS.writes (Elt F) VS.junk (runB V c t h0 h1 prev.2.2.1 prev.2.2.2).1), VN.read (Elt F) (VN.writes (Elt F) VN.junk (runB V c t h0 h1 prev.2.2.1 prev.2.2.2).2.1))
/-- What a position with k = 3 leaves: the outputs and the accumulators at their pieces read back. -/
noncomputable def stepC (c : Dev nD) (t : Fin cfg0.N) (h0 : ¬t.val % 4 = 0) (h1 : t.val % 4 = 3) (prev : Outs F) : Outs F :=
  (VO2.read (Elt F) (VO2.writes (Elt F) VO2.junk (runC V c t h0 h1 prev.2.2.1 prev.2.2.2).1), VO3.read (Elt F) (VO3.writes (Elt F) VO3.junk (runC V c t h0 h1 prev.2.2.1 prev.2.2.2).2.1),
   VS.read (Elt F) (VS.writes (Elt F) VS.junk (runC V c t h0 h1 prev.2.2.1 prev.2.2.2).2.2.1), VN.read (Elt F) (VN.writes (Elt F) VN.junk (runC V c t h0 h1 prev.2.2.1 prev.2.2.2).2.2.2.1))

/-! ## The accumulation over the grid -/

/-- What the outputs and the accumulators hold after the body at position `n`: the case k selects, over what
    position `n - 1` left. -/
noncomputable def outsAt0 (c : Dev nD) : (n : ℕ) → n < cfg0.N → Outs F
  | 0, hn => stepA V c ⟨0, hn⟩ (Nat.zero_mod _) (fun h => by (try dsimp only at h); omega)
  | n + 1, hn =>
    if h0 : (n + 1) % 4 = 0 then
      if h1 : (n + 1) % 4 = 3 then False.elim (by omega)
      else stepA V c ⟨n + 1, hn⟩ h0 h1
    else
      if h1 : (n + 1) % 4 = 3 then stepC V c ⟨n + 1, hn⟩ h0 h1 (outsAt0 c n (Nat.lt_of_succ_lt hn))
      else stepB V c ⟨n + 1, hn⟩ h0 h1 (outsAt0 c n (Nat.lt_of_succ_lt hn))

theorem outsAt0_A (c : Dev nD) (t : Fin cfg0.N) (h0 : t.val % 4 = 0) (h1 : ¬t.val % 4 = 3) :
    outsAt0 V c t.val t.isLt = stepA V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = stepB V c t h0 h1 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = stepC V c t h0 h1 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start the plain invariant (every scoped buffer at anything); afterwards the two
    accumulators at what position `n - 1` left in them, the other scoped buffers at anything, and the generator
    register at some state. -/
def PhiS (c : Dev nD) : (n : ℕ) → n ≤ cfg0.N → sProp 𝕄
  | 0, _ => Pipeline.ΦA spec0 c
  | n + 1, hn => iprop(iprop(owns (c : Thread nD τ) scS fullShare ((outsAt0 V c n hn).2.2.1) ∗ owns (c : Thread nD τ) scN fullShare ((outsAt0 V c n hn).2.2.2) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scS fullShare ((outsAt0 V c n hn).2.2.1) ∗ owns (c : Thread nD τ) scN fullShare ((outsAt0 V c n hn).2.2.2) ∗ others c) ∗ (∃ r, prngReg c r)) := rfl

theorem PhiS_pos (c : Dev nD) (n : ℕ) (h : n ≤ cfg0.N) (hz : n ≠ 0) :
    PhiS V c n h = iprop(iprop(owns (c : Thread nD τ) scS fullShare ((outsAt0 V c (n - 1) (by omega)).2.2.1) ∗ owns (c : Thread nD τ) scN fullShare ((outsAt0 V c (n - 1) (by omega)).2.2.2) ∗ others c) ∗ (∃ r, prngReg c r)) := by
  cases n with
  | zero => exact absurd rfl hz
  | succ n => rfl

/-! ## The region's proof data -/

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic position -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) :
    (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0_1 t, after0_1]

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [leaves0_0, leaves0_1]
  have hN : t.val < 64 := lt_of_lt_of_eq t.isLt (show cfg0.N = 64 from N_0)
  by_cases h0 : t.val % 4 = 0
  · have h1 : ¬t.val % 4 = 3 := by omega
    have hn1 : ¬cond0_1 (grid0.coords t) := fun h => h1 ((hcond0_1 t).mp h)
    rw [Dat.leavesExact_idle (dat0 V c) 2 t (idleAt0_2 t hn1) (noFlush0_2 t hn1)]
    rw [Dat.leavesExact_idle (dat0 V c) 3 t (idleAt0_3 t hn1) (noFlush0_3 t hn1)]
    rw [outsAt0_A V c t h0 h1]
    unfold stepA; (try dsimp only)
    by_cases hz : t.val = 0
    · rw [PhiS_castSucc V c t, PhiS_zero V c _ _ hz, PhiA0_eq]
      iintro ⟨⟨⟨HS0, HS1, Hoth⟩, Hg⟩, Ho, ⟨%d0, H0⟩, ⟨%d1, H1⟩, ⟨%d2, H2⟩, ⟨%d3, H3⟩⟩
      iapply ((runA V c t h0 h1).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverA_S V c t h0 h1)
          isplitl [HS1]
          · unfold owns; iexists _; isplitr
            swap; · iexact HS1
            ipureintro; exact View.read_writes_of_cover _ _ _ _ _ (coverA_N V c t h0 h1)
          iexact Hoth
        iexact Hg
      isplitl [Ho]; · iexact Ho
      isplitl [H0]; · iexact H0
      isplitl [H1]; · iexact H1
      isplitl [H2]; · iexists _; iexact H2
      iexists _; iexact H3
    · rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩⟩
      iapply ((runA V c t h0 h1).2.2 _ _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverA_S V c t h0 h1)
          isplitl [HS1]
          · unfold owns; iexists _; isplitr
            swap; · iexact HS1
            ipureintro; exact View.read_writes_of_cover _ _ _ _ _ (coverA_N V c t h0 h1)
          iexact Hoth
        iexact Hg
      isplitl [Ho]; · iexact Ho
      isplitl [H0]; · iexact H0
      isplitl [H1]; · iexact H1
      isplitl [H2]; · iexists _; iexact H2
      iexists _; iexact H3
  · have hz : t.val ≠ 0 := fun h => h0 (by rw [h])
    by_cases h1 : t.val % 4 = 3
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2]
      rw [show (dat0 V c).leavesExact 3 t = owns (c : Thread nD τ) (ms0_3 t) fullShare ((dat0 V c).after 3 t) from by
        unfold Dat.leavesExact; rw [liveAt0_3 t hc1], after0_3]
      rw [outsAt0_C V c t h0 h1]
      unfold stepC; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩⟩
      iapply ((runC V c t h0 h1 _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverC_S V c t h0 h1 _ _)
          isplitl [HS1]
          · unfold owns; iexists _; isplitr
            swap; · iexact HS1
            ipureintro; exact View.read_writes_of_cover _ _ _ _ _ (coverC_N V c t h0 h1 _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC_2 V c t h0 h1 _ _)
      unfold owns; iexists _; isplitr
      swap; · iexact H3
      ipureintro; exact View.read_writes_of_cover _ _ _ _ _ (coverC_3 V c t h0 h1 _ _)
    · have hn1 : ¬cond0_1 (grid0.coords t) := fun h => h1 ((hcond0_1 t).mp h)
      rw [Dat.leavesExact_idle (dat0 V c) 2 t (idleAt0_2 t hn1) (noFlush0_2 t hn1)]
      rw [Dat.leavesExact_idle (dat0 V c) 3 t (idleAt0_3 t hn1) (noFlush0_3 t hn1)]
      rw [outsAt0_B V c t h0 h1]
      unfold stepB; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩⟩
      iapply ((runB V c t h0 h1 _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverB_S V c t h0 h1 _ _)
          isplitl [HS1]
          · unfold owns; iexists _; isplitr
            swap; · iexact HS1
            ipureintro; exact View.read_writes_of_cover _ _ _ _ _ (coverB_N V c t h0 h1 _ _)
          iexact Hoth
        iexact Hg
      isplitl [Ho]; · iexact Ho
      isplitl [H0]; · iexact H0
      isplitl [H1]; · iexact H1
      isplitl [H2]; · iexists _; iexact H2
      iexists _; iexact H3

theorem body_obligation0 (c : Dev nD) : BodyObligation (dat0 (F := F) V c) (defs₀ (F := F)) Variants.none () Set.univ := fun t => by
  rw [bigSep_W0, bigSep_W0]
  exact sound_body0 V c t

/-- What the launch hands the region is the invariant before the first position. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last position the invariant gives the plain one back: the accumulators' contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ hne, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end Cert.Kernel.Fr

end
-- ==== Proof.KbR1.lean ====
/-
  The second kernel region (the contrastive loss, one grid point): five input windows, each the whole of its
  array, and one output window of a single entry. The body loads the five blocks, computes one scalar and stores
  it; nothing is carried, so the region's invariant is the plain one (the scoped buffers no window stages and the
  generator register, both untouched).
-/
import proofs.«126511_j10892037063168_2_alg».proof.Proof.Gen.Kernel.Launch
import proofs.«126511_j10892037063168_2_alg».proof.Proof.Gen.Kernel.Skeleton
import proofs.«126511_j10892037063168_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when the region is entered: a parameter here, instantiated by the run
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whatever proof data, as long as
    its array is the region-entry one and the body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole buffer -/

abbrev rAvg : Rect S512x768 := Rect.unit (s := S512x768) ![0, 0] S512x768.size inb_S512x768_S512x768_0_0
abbrev rCol : Rect S512x1 := Rect.unit (s := S512x1) ![0, 0] S512x1.size inb_S512x1_S512x1_0_0
abbrev rRow : Rect S1x512 := Rect.unit (s := S1x512) ![0, 0] S1x512.size inb_S1x512_S1x512_0_0
abbrev rOne : Rect S1x1 := Rect.unit (s := S1x1) ![0, 0] S1x1.size inb_S1x1_S1x1_0_0

/-- The scalar the body stores, as a function of the five loaded blocks: the pooled features `x0`, the mask
    embeddings `x1`, the point counts as a column `x2` and as a row `x3`, the logit scale `x4`. -/
def loss1 (x0 x1 : Vec F S512x768 .f32) (x2 : Vec F S512x1 .f32) (x3 : Vec F S1x512 .f32) (x4 : Vec F S1x1 .f32) : Vec F S1x1 .f32 :=
  k1_pay1 (k1_pay7 (k1_pay4 x0 x1 x4) x2) (k1_pay9 (k1_pay5 x0 x1 x4) x3) (k1_pay10 (k1_pay5 x0 x1 x4) x3)

/-- What the body leaves in the output window's buffer: its one store, over the whole buffer. -/
def out1_5 (x0 x1 : Vec F S512x768 .f32) (x2 : Vec F S512x1 .f32) (x3 : Vec F S1x512 .f32) (x4 : Vec F S1x1 .f32) : Vec F S1x1 .f32 :=
  View.canon [⟨rOne, loss1 (View.ld x0 rAvg) (View.ld x1 rAvg) (View.ld x2 rCol) (View.ld x3 rRow) (View.ld x4 rOne)⟩]

/-- The one store covers the one-entry buffer. -/
theorem cover1_5 (p0 : Vec F S1x1 .f32) (y : S1x1.Idx) :
    ∃ pc ∈ ([⟨rOne, p0⟩] : List (View.Piece (Elt F) S1x1 .f32)), y ∈ pc.1.set :=
  View.cover_of_tiled [⟨rOne, p0⟩] S1x1.size (by rfl) y

set_option maxHeartbeats 4000000 in
/-- The body on whole staging buffers — the five inputs at given contents, the output at anything — runs to the
    continuation holding the inputs as they were and the output at `out1_5` of them. -/
theorem sound_kernel1 (c : Dev nD) (E : Set ℕ) (i : grid1.Coords)
    (arg1 : Memref sig .tc .vmem S512x768 .f32) (harg1 : arg1.IsWhole) (arg2 : Memref sig .tc .vmem S512x768 .f32) (harg2 : arg2.IsWhole)
    (arg3 : Memref sig .tc .vmem S512x1 .f32) (harg3 : arg3.IsWhole) (arg4 : Memref sig .tc .vmem S1x512 .f32) (harg4 : arg4.IsWhole)
    (arg5 : Memref sig .tc .vmem S1x1 .f32) (harg5 : arg5.IsWhole) (arg6 : Memref sig .tc .vmem S1x1 .f32) (harg6 : arg6.IsWhole)
    (x0 x1 : Vec F S512x768 .f32) (x2 : Vec F S512x1 .f32) (x3 : Vec F S1x512 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__contrastive_kernel i arg1 harg1 arg2 harg2 arg3 harg3 arg4 harg4 arg5 harg5 arg6 harg6) K := by
  simp only [cc1__contrastive_kernel_eq_skeleton]; unfold cc1__contrastive_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The region's proof data -/

/-- After the body at the one point every input's buffer holds its block and the output's holds `out1_5` of the
    input blocks; the invariant is the plain one; nothing is owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KbRunFr.lean ====
/-
  The whole program as five segments — a reshape, the first kernel region, four reshapes, the second kernel
  region, a reshape — with the contents of every unscoped buffer named at each boundary: the launch memory, then
  each host stretch applied, then each region's arrays at what its write-backs leave. Every weakly fair execution
  ends with every unscoped buffer at the last boundary's contents.
-/
import proofs.«126511_j10892037063168_2_alg».proof.Proof.Gen.Kernel.Launch
import proofs.«126511_j10892037063168_2_alg».proof.Proof.Gen.Kernel.Skeleton
import proofs.«126511_j10892037063168_2_alg».proof.Proof.Gen.Kernel.Points
import proofs.«126511_j10892037063168_2_alg».proof.Proof.KbR0
import proofs.«126511_j10892037063168_2_alg».proof.Proof.KbR1
import proofs.«126511_j10892037063168_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first reshape (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the four reshapes (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last reshape: what the program returns with. -/
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The first region: entered with every unscoped buffer at the contents after the first reshape, left with its
    arrays at what the pipeline wrote back; the generator register goes into the region's invariant and comes out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    refine BIBase.Entails.trans (hout0 (V1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region, likewise, between the contents after the four reshapes and its own write-back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- Every weakly fair execution of the program from memory `m` with zero counters terminates, nothing faulting, and
    every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ iprop(Tₙ m ρ c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Fr

end
-- ==== Proof.KbRunPost.lean ====
/-
  The run read back: every argument array ends as launched (no reshape writes one; a region reads it through an
  input window or bypasses it), and the result buffer ends at the last boundary's contents.
-/
import proofs.«126511_j10892037063168_2_alg».proof.Proof.Gen.Kernel.Launch
import proofs.«126511_j10892037063168_2_alg».proof.Proof.Gen.Kernel.Skeleton
import proofs.«126511_j10892037063168_2_alg».proof.Proof.Gen.Kernel.Points
import proofs.«126511_j10892037063168_2_alg».proof.Proof.KbRunFr
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := (W4_arr m ρ c 1).trans (((dat1 (V3 m ρ) c).arrAt_in 1 rfl _).trans (A_eq1 (V3 m ρ) c 1))
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 0).trans (((dat0 (V1 m ρ) c).arrAt_in 0 rfl _).trans (A_eq0 (V1 m ρ) c 0))
    _ = W0 m ρ c (Proc.devRef .tc main_arg3) := StableHlo.after_of_writes_sub hostOps0 _ hostOps0_writes (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- The frame: the program runs to the end, nothing faulting, and every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_all m ρ)

/-- The same run with the result named: the result buffer ends at the last boundary's contents. -/
theorem run_result : θ_run defs (onTc (τ := τ) (main (F := F))) ⟨m, fun _ => 0, ρ⟩ (fun r => ∀ c : Dev nD,
      r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v7 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_all m ρ)

end Cert.Kernel.Fr

end
-- ==== Proof.R0Defs.lean ====
/-
  The first kernel region (masked segment sums, grid 16 x 4): what its three control cases share. The body
  branches twice on the reduction coordinate k (the grid position modulo 4): at k = 0 it zeroes the two
  accumulators, at every k it adds the block's contribution to them, at k = 3 it divides and stores the two outputs.
  The accumulators are scratch buffers carried from one grid point to the next.
-/
import proofs.«126511_j10892037063168_2_alg».proof.Proof.Gen.KernelIdeal.Launch
import proofs.«126511_j10892037063168_2_alg».proof.Proof.Gen.KernelIdeal.Skeleton
import proofs.«126511_j10892037063168_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first branch (zero the accumulators), from the grid coordinates. -/
abbrev cond0_0 (i : grid0.Coords) : Prop := (Scalar.cmpi .ne (Scalar.extui (Scalar.cmpi .eq (BitVec.ofNat 32 (i 1).val) 0#32)) 0#32) = 1#1
/-- It is taken exactly at the points with k = 0. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (finish: divide and store the outputs). -/
abbrev cond0_1 (i : grid0.Coords) : Prop := k0_cond2 i = 1#1
/-- It is taken exactly at the points with k = 3. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from k = 3 the two output windows are idle and not written back. -/
theorem idleAt0_2 : ∀ t : Fin cfg0.N, ¬cond0_1 (grid0.coords t) → cfg0.idle 2 (grid0.coords t) = true := by decide +kernel
theorem idleAt0_3 : ∀ t : Fin cfg0.N, ¬cond0_1 (grid0.coords t) → cfg0.idle 3 (grid0.coords t) = true := by decide +kernel
theorem noFlush0_2 : ∀ t : Fin cfg0.N, ¬cond0_1 (grid0.coords t) → (cfg0.win 2).flush t = false := by decide +kernel
theorem noFlush0_3 : ∀ t : Fin cfg0.N, ¬cond0_1 (grid0.coords t) → (cfg0.win 3).flush t = false := by decide +kernel
/-- At k = 3 they are live. -/
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S1x32x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x1 .f32 := win0_3.stage (cfg0.slots t 3)
abbrev hs0_3 (t : Fin cfg0.N) : (ms0_3 t).IsWhole := hstage0_3 ((cfg0.slots t 3).cast nbuf0_3)
/-- The two accumulators: the running sums of features and the running point counts. -/
abbrev scS : Memref sig .tc .vmem S32x768 .f32 := Memref.whole cc0_scratch0
abbrev scN : Memref sig .tc .vmem S32x1 .f32 := Memref.whole cc0_scratch1
/-- Views through which the contents of the outputs and the accumulators are stated. -/
abbrev VO2 : View sig .tc .vmem S1x32x768 .f32 := (Memref.whole cc0_stg2_0 : Memref sig .tc .vmem S1x32x768 .f32).view
abbrev VO3 : View sig .tc .vmem S1x32x1 .f32 := (Memref.whole cc0_stg3_0 : Memref sig .tc .vmem S1x32x1 .f32).view
abbrev VS : View sig .tc .vmem S32x768 .f32 := scS.view
abbrev VN : View sig .tc .vmem S32x1 .f32 := scN.view

/-- The scoped buffers of the core that this region never touches (the other region's staging buffers), each
    whole at some contents. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f))

/-- The plain region invariant with the two accumulators spelt as owned memrefs. -/
theorem PhiA0_eq (c : Dev nD) :
    (Pipeline.ΦA spec0 c : sProp 𝕄)
      = iprop(iprop((∃ d, owns (c : Thread nD τ) scS fullShare d) ∗ (∃ d, owns (c : Thread nD τ) scN fullShare d) ∗ others c) ∗ (∃ r, prngReg c r)) := by
  unfold Pipeline.ΦA; rw [scopedRest0_eq]; simp only [scS, scN, owns_whole, others]; try rfl

end Cert.KernelIdeal.Fr

end
-- ==== Proof.R0A.lean ====
/-
  The body at a point with k = 0: both accumulators are zeroed and then receive the first block's contribution;
  the output windows are left alone.
-/
import proofs.«126511_j10892037063168_2_alg».proof.Proof.Gen.KernelIdeal.Launch
import proofs.«126511_j10892037063168_2_alg».proof.Proof.Gen.KernelIdeal.Skeleton
import proofs.«126511_j10892037063168_2_alg».proof.Proof.Gen.KernelIdeal.Points
import proofs.«126511_j10892037063168_2_alg».proof.Proof.R0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- On whole buffers — the two inputs at their contents, the two idle outputs at contents handed back untouched,
    the accumulators at anything — the body runs to the continuation with each accumulator holding the pieces its
    stores wrote (the lists are what the run finds). -/
noncomputable def kernelRun0_A (c : Dev nD) (i : grid0.Coords) (arg2 : Memref sig .tc .vmem S1x32x1024 .f32) (harg2 : arg2.IsWhole) (arg3 : Memref sig .tc .vmem S1x1024x768 .f32) (harg3 : arg3.IsWhole) (arg4 : Memref sig .tc .vmem S1x32x768 .f32) (harg4 : arg4.IsWhole) (arg5 : Memref sig .tc .vmem S1x32x1 .f32) (harg5 : arg5.IsWhole) (arg6 : Memref sig .tc .vmem S32x768 .f32) (harg6 : arg6.IsWhole) (arg7 : Memref sig .tc .vmem S32x1 .f32) (harg7 : arg7.IsWhole) (hc0 : cond0_0 i) (hc1 : ¬cond0_1 i)
    (x0 : Vec F S1x32x1024 .f32) (x1 : Vec F S1x1024x768 .f32) :
    Σ' (LS0 : List (View.Piece (Elt F) S32x768 .f32)), { LS1 : List (View.Piece (Elt F) S32x1 .f32) //
      ∀ (xi2 : Vec F S1x32x768 .f32) (xi3 : Vec F S1x32x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__segment_reduce_kernel i arg2 harg2 arg3 harg3 arg4 harg4 arg5 harg5 arg6 harg6 arg7 harg7) K } := by
  refine ⟨?_, ?_, fun xi2 xi3 E K => ?run⟩
  case run =>
    simp only [cc0__segment_reduce_kernel_eq_skeleton]; unfold cc0__segment_reduce_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Fr

end
-- ==== Proof.R0B.lean ====
/-
  The body at a point with k = 1 or k = 2: each accumulator, entered at what the point before left, receives the
  block's contribution; the output windows are left alone.
-/
import proofs.«126511_j10892037063168_2_alg».proof.Proof.Gen.KernelIdeal.Launch
import proofs.«126511_j10892037063168_2_alg».proof.Proof.Gen.KernelIdeal.Skeleton
import proofs.«126511_j10892037063168_2_alg».proof.Proof.Gen.KernelIdeal.Points
import proofs.«126511_j10892037063168_2_alg».proof.Proof.R0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- On whole buffers — the two inputs at their contents, the two idle outputs at contents handed back untouched,
    the accumulators at the carried contents `xs0`, `xs1` — the body runs to the continuation with each accumulator
    holding the pieces its store wrote. -/
noncomputable def kernelRun0_B (c : Dev nD) (i : grid0.Coords) (arg2 : Memref sig .tc .vmem S1x32x1024 .f32) (harg2 : arg2.IsWhole) (arg3 : Memref sig .tc .vmem S1x1024x768 .f32) (harg3 : arg3.IsWhole) (arg4 : Memref sig .tc .vmem S1x32x768 .f32) (harg4 : arg4.IsWhole) (arg5 : Memref sig .tc .vmem S1x32x1 .f32) (harg5 : arg5.IsWhole) (arg6 : Memref sig .tc .vmem S32x768 .f32) (harg6 : arg6.IsWhole) (arg7 : Memref sig .tc .vmem S32x1 .f32) (harg7 : arg7.IsWhole) (hc0 : ¬cond0_0 i) (hc1 : ¬cond0_1 i)
    (x0 : Vec F S1x32x1024 .f32) (x1 : Vec F S1x1024x768 .f32) (xs0 : Vec F S32x768 .f32) (xs1 : Vec F S32x1 .f32) :
    Σ' (LS0 : List (View.Piece (Elt F) S32x768 .f32)), { LS1 : List (View.Piece (Elt F) S32x1 .f32) //
      ∀ (xi2 : Vec F S1x32x768 .f32) (xi3 : Vec F S1x32x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__segment_reduce_kernel i arg2 harg2 arg3 harg3 arg4 harg4 arg5 harg5 arg6 harg6 arg7 harg7) K } := by
  refine ⟨?_, ?_, fun xi2 xi3 E K => ?run⟩
  case run =>
    simp only [cc0__segment_reduce_kernel_eq_skeleton]; unfold cc0__segment_reduce_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Fr

end
-- ==== Proof.R0C.lean ====
/-
  The body at a point with k = 3: each accumulator receives the last block's contribution, and the two outputs are
  stored: the feature sums divided by the point counts plus a small constant, and the point counts themselves.
-/
import proofs.«126511_j10892037063168_2_alg».proof.Proof.Gen.KernelIdeal.Launch
import proofs.«126511_j10892037063168_2_alg».proof.Proof.Gen.KernelIdeal.Skeleton
import proofs.«126511_j10892037063168_2_alg».proof.Proof.Gen.KernelIdeal.Points
import proofs.«126511_j10892037063168_2_alg».proof.Proof.R0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- On whole buffers — the two inputs at their contents, the two outputs at anything, the accumulators at the
    carried contents `xs0`, `xs1` — the body runs to the continuation with the outputs and the accumulators each
    holding the pieces its stores wrote. -/
noncomputable def kernelRun0_C (c : Dev nD) (i : grid0.Coords) (arg2 : Memref sig .tc .vmem S1x32x1024 .f32) (harg2 : arg2.IsWhole) (arg3 : Memref sig .tc .vmem S1x1024x768 .f32) (harg3 : arg3.IsWhole) (arg4 : Memref sig .tc .vmem S1x32x768 .f32) (harg4 : arg4.IsWhole) (arg5 : Memref sig .tc .vmem S1x32x1 .f32) (harg5 : arg5.IsWhole) (arg6 : Memref sig .tc .vmem S32x768 .f32) (harg6 : arg6.IsWhole) (arg7 : Memref sig .tc .vmem S32x1 .f32) (harg7 : arg7.IsWhole) (hc0 : ¬cond0_0 i) (hc1 : cond0_1 i)
    (x0 : Vec F S1x32x1024 .f32) (x1 : Vec F S1x1024x768 .f32) (xs0 : Vec F S32x768 .f32) (xs1 : Vec F S32x1 .f32) :
    Σ' (L2 : List (View.Piece (Elt F) S1x32x768 .f32)) (L3 : List (View.Piece (Elt F) S1x32x1 .f32)) (LS0 : List (View.Piece (Elt F) S32x768 .f32)), { LS1 : List (View.Piece (Elt F) S32x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__segment_reduce_kernel i arg2 harg2 arg3 harg3 arg4 harg4 arg5 harg5 arg6 harg6 arg7 harg7) K } := by
  refine ⟨?_, ?_, ?_, ?_, fun E K => ?run⟩
  case run =>
    simp only [cc0__segment_reduce_kernel_eq_skeleton]; unfold cc0__segment_reduce_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Fr

end
-- ==== Proof.R0.lean ====
/-
  The first kernel region as a whole: what the two accumulators and the two output buffers hold after the body at
  each grid position, by recursion on the position (the accumulators pass from one position to the next); the region's
  invariant, which names the accumulators' contents between positions; and the body's obligation at a generic
  position, by cases on k.
-/
import proofs.«126511_j10892037063168_2_alg».proof.Proof.Gen.KernelIdeal.Launch
import proofs.«126511_j10892037063168_2_alg».proof.Proof.Gen.KernelIdeal.Skeleton
import proofs.«126511_j10892037063168_2_alg».proof.Proof.Gen.KernelIdeal.Points
import proofs.«126511_j10892037063168_2_alg».proof.Proof.R0A
import proofs.«126511_j10892037063168_2_alg».proof.Proof.R0B
import proofs.«126511_j10892037063168_2_alg».proof.Proof.R0C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when the region is entered: a parameter here, instantiated by the run
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The two output buffers and the two accumulators, in that order. -/
abbrev Outs (F : FTy → Type) [FloatOps F] : Type := Vec F S1x32x768 .f32 × Vec F S1x32x1 .f32 × Vec F S32x768 .f32 × Vec F S32x1 .f32

/-! ## The three cases at a grid position -/

/-- The body's run at a position with k = 0, on the position's own buffers and blocks. -/
noncomputable def runA (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) scS (Memref.isWhole_whole _) scN (Memref.isWhole_whole _) ((hcond0_0 t).mpr h0) (fun h => h1 ((hcond0_1 t).mp h)) (iblk0 V c 0 t) (iblk0 V c 1 t)
/-- The same at k = 1 or 2, over the accumulators' carried contents. -/
noncomputable def runB (c : Dev nD) (t : Fin cfg0.N) (h0 : ¬t.val % 4 = 0) (h1 : ¬t.val % 4 = 3) (xs0 : Vec F S32x768 .f32) (xs1 : Vec F S32x1 .f32) :=
  kernelRun0_B (F := F) c (grid0.coords t) (ms0_0 t) (hs0_0 t) (ms0_1 t) (hs0_1 t) (ms0_2 t) (hs0_2 t) (ms0_3 t) (hs0_3 t) scS (Memref.isWhole_whole _) scN (Memref.isWhole_whole _) (fun h => h0 ((hcond0_0 t).mp h)) (fun h => h1 ((hcond0_1 t).mp h)) (iblk0 V c 0 t) (iblk0 V c 1 t) xs0 xs1
/-- The same at k = 3. -/
noncomputable def runC (c : Dev nD) (t : Fin cfg0.N) (h0 : ¬t.val % 4 = 0) (h1 : t.val % 4 = 3) (xs0 : Vec F S32x768 .f32) (xs1 : Vec F S32x1 .f32) :=
  kernelRun0_C (F := F) c (grid0.coords t) (ms0_0 t) (hs0_0 t) (ms0_1 t) (hs0_1 t) (ms0_2 t) (hs0_2 t) (ms0_3 t) (hs0_3 t) scS (Memref.isWhole_whole _) scN (Memref.isWhole_whole _) (fun h => h0 ((hcond0_0 t).mp h)) ((hcond0_1 t).mpr h1) (iblk0 V c 0 t) (iblk0 V c 1 t) xs0 xs1

/-- Each case's stores cover the buffers they are read back from (each is one whole-buffer store, or two). -/
theorem coverA_S (c : Dev nD) (t : Fin cfg0.N) (h0 h1) (y : S32x768.Idx) : ∃ pc ∈ (runA V c t h0 h1).1, y ∈ pc.1.set :=
  View.cover_of_tiledL (runA V c t h0 h1).1 S32x768.size (by unfold runA; sl_kernel_rfl) y
theorem coverA_N (c : Dev nD) (t : Fin cfg0.N) (h0 h1) (y : S32x1.Idx) : ∃ pc ∈ (runA V c t h0 h1).2.1, y ∈ pc.1.set :=
  View.cover_of_tiledL (runA V c t h0 h1).2.1 S32x1.size (by unfold runA; sl_kernel_rfl) y
theorem coverB_S (c : Dev nD) (t : Fin cfg0.N) (h0 h1) (xs0 xs1) (y : S32x768.Idx) : ∃ pc ∈ (runB V c t h0 h1 xs0 xs1).1, y ∈ pc.1.set :=
  View.cover_of_tiledL (runB V c t h0 h1 xs0 xs1).1 S32x768.size (by unfold runB; sl_kernel_rfl) y
theorem coverB_N (c : Dev nD) (t : Fin cfg0.N) (h0 h1) (xs0 xs1) (y : S32x1.Idx) : ∃ pc ∈ (runB V c t h0 h1 xs0 xs1).2.1, y ∈ pc.1.set :=
  View.cover_of_tiledL (runB V c t h0 h1 xs0 xs1).2.1 S32x1.size (by unfold runB; sl_kernel_rfl) y
theorem coverC_2 (c : Dev nD) (t : Fin cfg0.N) (h0 h1) (xs0 xs1) (y : S1x32x768.Idx) : ∃ pc ∈ (runC V c t h0 h1 xs0 xs1).1, y ∈ pc.1.set :=
  View.cover_of_tiledL (runC V c t h0 h1 xs0 xs1).1 S1x32x768.size (by unfold runC; sl_kernel_rfl) y
theorem coverC_3 (c : Dev nD) (t : Fin cfg0.N) (h0 h1) (xs0 xs1) (y : S1x32x1.Idx) : ∃ pc ∈ (runC V c t h0 h1 xs0 xs1).2.1, y ∈ pc.1.set :=
  View.cover_of_tiledL (runC V c t h0 h1 xs0 xs1).2.1 S1x32x1.size (by unfold runC; sl_kernel_rfl) y
theorem coverC_S (c : Dev nD) (t : Fin cfg0.N) (h0 h1) (xs0 xs1) (y : S32x768.Idx) : ∃ pc ∈ (runC V c t h0 h1 xs0 xs1).2.2.1, y ∈ pc.1.set :=
  View.cover_of_tiledL (runC V c t h0 h1 xs0 xs1).2.2.1 S32x768.size (by unfold runC; sl_kernel_rfl) y
theorem coverC_N (c : Dev nD) (t : Fin cfg0.N) (h0 h1) (xs0 xs1) (y : S32x1.Idx) : ∃ pc ∈ (runC V c t h0 h1 xs0 xs1).2.2.2.1, y ∈ pc.1.set :=
  View.cover_of_tiledL (runC V c t h0 h1 xs0 xs1).2.2.2.1 S32x1.size (by unfold runC; sl_kernel_rfl) y

/-- What a position with k = 0 leaves: the accumulators at their pieces read back; the outputs are not stored into
    (placeholders nothing consults: the windows are idle there). -/
noncomputable def stepA (c : Dev nD) (t : Fin cfg0.N) (h0 : t.val % 4 = 0) (h1 : ¬t.val % 4 = 3) : Outs F :=
  (VO2.read (Elt F) VO2.junk, VO3.read (Elt F) VO3.junk,
   VS.read (Elt F) (VS.writes (Elt F) VS.junk (runA V c t h0 h1).1), VN.read (Elt F) (VN.writes (Elt F) VN.junk (runA V c t h0 h1).2.1))
/-- What a position with k = 1 or 2 leaves, over what the position before left in the accumulators. -/
noncomputable def stepB (c : Dev nD) (t : Fin cfg0.N) (h0 : ¬t.val % 4 = 0) (h1 : ¬t.val % 4 = 3) (prev : Outs F) : Outs F :=
  (VO2.read (Elt F) VO2.junk, VO3.read (Elt F) VO3.junk,
   VS.read (Elt F) (VS.writes (Elt F) VS.junk (runB V c t h0 h1 prev.2.2.1 prev.2.2.2).1), VN.read (Elt F) (VN.writes (Elt F) VN.junk (runB V c t h0 h1 prev.2.2.1 prev.2.2.2).2.1))
/-- What a position with k = 3 leaves: the outputs and the accumulators at their pieces read back. -/
noncomputable def stepC (c : Dev nD) (t : Fin cfg0.N) (h0 : ¬t.val % 4 = 0) (h1 : t.val % 4 = 3) (prev : Outs F) : Outs F :=
  (VO2.read (Elt F) (VO2.writes (Elt F) VO2.junk (runC V c t h0 h1 prev.2.2.1 prev.2.2.2).1), VO3.read (Elt F) (VO3.writes (Elt F) VO3.junk (runC V c t h0 h1 prev.2.2.1 prev.2.2.2).2.1),
   VS.read (Elt F) (VS.writes (Elt F) VS.junk (runC V c t h0 h1 prev.2.2.1 prev.2.2.2).2.2.1), VN.read (Elt F) (VN.writes (Elt F) VN.junk (runC V c t h0 h1 prev.2.2.1 prev.2.2.2).2.2.2.1))

/-! ## The accumulation over the grid -/

/-- What the outputs and the accumulators hold after the body at position `n`: the case k selects, over what
    position `n - 1` left. -/
noncomputable def outsAt0 (c : Dev nD) : (n : ℕ) → n < cfg0.N → Outs F
  | 0, hn => stepA V c ⟨0, hn⟩ (Nat.zero_mod _) (fun h => by (try dsimp only at h); omega)
  | n + 1, hn =>
    if h0 : (n + 1) % 4 = 0 then
      if h1 : (n + 1) % 4 = 3 then False.elim (by omega)
      else stepA V c ⟨n + 1, hn⟩ h0 h1
    else
      if h1 : (n + 1) % 4 = 3 then stepC V c ⟨n + 1, hn⟩ h0 h1 (outsAt0 c n (Nat.lt_of_succ_lt hn))
      else stepB V c ⟨n + 1, hn⟩ h0 h1 (outsAt0 c n (Nat.lt_of_succ_lt hn))

theorem outsAt0_A (c : Dev nD) (t : Fin cfg0.N) (h0 : t.val % 4 = 0) (h1 : ¬t.val % 4 = 3) :
    outsAt0 V c t.val t.isLt = stepA V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = stepB V c t h0 h1 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = stepC V c t h0 h1 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the start the plain invariant (every scoped buffer at anything); afterwards the two
    accumulators at what position `n - 1` left in them, the other scoped buffers at anything, and the generator
    register at some state. -/
def PhiS (c : Dev nD) : (n : ℕ) → n ≤ cfg0.N → sProp 𝕄
  | 0, _ => Pipeline.ΦA spec0 c
  | n + 1, hn => iprop(iprop(owns (c : Thread nD τ) scS fullShare ((outsAt0 V c n hn).2.2.1) ∗ owns (c : Thread nD τ) scN fullShare ((outsAt0 V c n hn).2.2.2) ∗ others c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scS fullShare ((outsAt0 V c n hn).2.2.1) ∗ owns (c : Thread nD τ) scN fullShare ((outsAt0 V c n hn).2.2.2) ∗ others c) ∗ (∃ r, prngReg c r)) := rfl

theorem PhiS_pos (c : Dev nD) (n : ℕ) (h : n ≤ cfg0.N) (hz : n ≠ 0) :
    PhiS V c n h = iprop(iprop(owns (c : Thread nD τ) scS fullShare ((outsAt0 V c (n - 1) (by omega)).2.2.1) ∗ owns (c : Thread nD τ) scN fullShare ((outsAt0 V c (n - 1) (by omega)).2.2.2) ∗ others c) ∗ (∃ r, prngReg c r)) := by
  cases n with
  | zero => exact absurd rfl hz
  | succ n => rfl

/-! ## The region's proof data -/

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic position -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) :
    (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) :
    (dat0 V c).leavesExact 1 t = owns (c : Thread nD τ) (ms0_1 t) fullShare (iblk0 V c 1 t) := by
  unfold Dat.leavesExact; rw [liveAt0_1 t, after0_1]

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [leaves0_0, leaves0_1]
  have hN : t.val < 64 := lt_of_lt_of_eq t.isLt (show cfg0.N = 64 from N_0)
  by_cases h0 : t.val % 4 = 0
  · have h1 : ¬t.val % 4 = 3 := by omega
    have hn1 : ¬cond0_1 (grid0.coords t) := fun h => h1 ((hcond0_1 t).mp h)
    rw [Dat.leavesExact_idle (dat0 V c) 2 t (idleAt0_2 t hn1) (noFlush0_2 t hn1)]
    rw [Dat.leavesExact_idle (dat0 V c) 3 t (idleAt0_3 t hn1) (noFlush0_3 t hn1)]
    rw [outsAt0_A V c t h0 h1]
    unfold stepA; (try dsimp only)
    by_cases hz : t.val = 0
    · rw [PhiS_castSucc V c t, PhiS_zero V c _ _ hz, PhiA0_eq]
      iintro ⟨⟨⟨HS0, HS1, Hoth⟩, Hg⟩, Ho, ⟨%d0, H0⟩, ⟨%d1, H1⟩, ⟨%d2, H2⟩, ⟨%d3, H3⟩⟩
      iapply ((runA V c t h0 h1).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverA_S V c t h0 h1)
          isplitl [HS1]
          · unfold owns; iexists _; isplitr
            swap; · iexact HS1
            ipureintro; exact View.read_writes_of_cover _ _ _ _ _ (coverA_N V c t h0 h1)
          iexact Hoth
        iexact Hg
      isplitl [Ho]; · iexact Ho
      isplitl [H0]; · iexact H0
      isplitl [H1]; · iexact H1
      isplitl [H2]; · iexists _; iexact H2
      iexists _; iexact H3
    · rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩⟩
      iapply ((runA V c t h0 h1).2.2 _ _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverA_S V c t h0 h1)
          isplitl [HS1]
          · unfold owns; iexists _; isplitr
            swap; · iexact HS1
            ipureintro; exact View.read_writes_of_cover _ _ _ _ _ (coverA_N V c t h0 h1)
          iexact Hoth
        iexact Hg
      isplitl [Ho]; · iexact Ho
      isplitl [H0]; · iexact H0
      isplitl [H1]; · iexact H1
      isplitl [H2]; · iexists _; iexact H2
      iexists _; iexact H3
  · have hz : t.val ≠ 0 := fun h => h0 (by rw [h])
    by_cases h1 : t.val % 4 = 3
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2]
      rw [show (dat0 V c).leavesExact 3 t = owns (c : Thread nD τ) (ms0_3 t) fullShare ((dat0 V c).after 3 t) from by
        unfold Dat.leavesExact; rw [liveAt0_3 t hc1], after0_3]
      rw [outsAt0_C V c t h0 h1]
      unfold stepC; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩⟩
      iapply ((runC V c t h0 h1 _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverC_S V c t h0 h1 _ _)
          isplitl [HS1]
          · unfold owns; iexists _; isplitr
            swap; · iexact HS1
            ipureintro; exact View.read_writes_of_cover _ _ _ _ _ (coverC_N V c t h0 h1 _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC_2 V c t h0 h1 _ _)
      unfold owns; iexists _; isplitr
      swap; · iexact H3
      ipureintro; exact View.read_writes_of_cover _ _ _ _ _ (coverC_3 V c t h0 h1 _ _)
    · have hn1 : ¬cond0_1 (grid0.coords t) := fun h => h1 ((hcond0_1 t).mp h)
      rw [Dat.leavesExact_idle (dat0 V c) 2 t (idleAt0_2 t hn1) (noFlush0_2 t hn1)]
      rw [Dat.leavesExact_idle (dat0 V c) 3 t (idleAt0_3 t hn1) (noFlush0_3 t hn1)]
      rw [outsAt0_B V c t h0 h1]
      unfold stepB; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩⟩
      iapply ((runB V c t h0 h1 _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverB_S V c t h0 h1 _ _)
          isplitl [HS1]
          · unfold owns; iexists _; isplitr
            swap; · iexact HS1
            ipureintro; exact View.read_writes_of_cover _ _ _ _ _ (coverB_N V c t h0 h1 _ _)
          iexact Hoth
        iexact Hg
      isplitl [Ho]; · iexact Ho
      isplitl [H0]; · iexact H0
      isplitl [H1]; · iexact H1
      isplitl [H2]; · iexists _; iexact H2
      iexists _; iexact H3

theorem body_obligation0 (c : Dev nD) : BodyObligation (dat0 (F := F) V c) (defs₀ (F := F)) Variants.none () Set.univ := fun t => by
  rw [bigSep_W0, bigSep_W0]
  exact sound_body0 V c t

/-- What the launch hands the region is the invariant before the first position. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last position the invariant gives the plain one back: the accumulators' contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ hne, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end Cert.KernelIdeal.Fr

end
-- ==== Proof.R1.lean ====
/-
  The second kernel region (the contrastive loss, one grid point): five input windows, each the whole of its
  array, and one output window of a single entry. The body loads the five blocks, computes one scalar and stores
  it; nothing is carried, so the region's invariant is the plain one (the scoped buffers no window stages and the
  generator register, both untouched).
-/
import proofs.«126511_j10892037063168_2_alg».proof.Proof.Gen.KernelIdeal.Launch
import proofs.«126511_j10892037063168_2_alg».proof.Proof.Gen.KernelIdeal.Skeleton
import proofs.«126511_j10892037063168_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the contents of the core's buffers when the region is entered: a parameter here, instantiated by the run
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whatever proof data, as long as
    its array is the region-entry one and the body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole buffer -/

abbrev rAvg : Rect S512x768 := Rect.unit (s := S512x768) ![0, 0] S512x768.size inb_S512x768_S512x768_0_0
abbrev rCol : Rect S512x1 := Rect.unit (s := S512x1) ![0, 0] S512x1.size inb_S512x1_S512x1_0_0
abbrev rRow : Rect S1x512 := Rect.unit (s := S1x512) ![0, 0] S1x512.size inb_S1x512_S1x512_0_0
abbrev rOne : Rect S1x1 := Rect.unit (s := S1x1) ![0, 0] S1x1.size inb_S1x1_S1x1_0_0

/-- The scalar the body stores, as a function of the five loaded blocks: the pooled features `x0`, the mask
    embeddings `x1`, the point counts as a column `x2` and as a row `x3`, the logit scale `x4`. -/
def loss1 (x0 x1 : Vec F S512x768 .f32) (x2 : Vec F S512x1 .f32) (x3 : Vec F S1x512 .f32) (x4 : Vec F S1x1 .f32) : Vec F S1x1 .f32 :=
  k1_pay1 (k1_pay7 (k1_pay4 x0 x1 x4) x2) (k1_pay9 (k1_pay5 x0 x1 x4) x3) (k1_pay10 (k1_pay5 x0 x1 x4) x3)

/-- What the body leaves in the output window's buffer: its one store, over the whole buffer. -/
def out1_5 (x0 x1 : Vec F S512x768 .f32) (x2 : Vec F S512x1 .f32) (x3 : Vec F S1x512 .f32) (x4 : Vec F S1x1 .f32) : Vec F S1x1 .f32 :=
  View.canon [⟨rOne, loss1 (View.ld x0 rAvg) (View.ld x1 rAvg) (View.ld x2 rCol) (View.ld x3 rRow) (View.ld x4 rOne)⟩]

/-- The one store covers the one-entry buffer. -/
theorem cover1_5 (p0 : Vec F S1x1 .f32) (y : S1x1.Idx) :
    ∃ pc ∈ ([⟨rOne, p0⟩] : List (View.Piece (Elt F) S1x1 .f32)), y ∈ pc.1.set :=
  View.cover_of_tiled [⟨rOne, p0⟩] S1x1.size (by rfl) y

set_option maxHeartbeats 4000000 in
/-- The body on whole staging buffers — the five inputs at given contents, the output at anything — runs to the
    continuation holding the inputs as they were and the output at `out1_5` of them. -/
theorem sound_kernel1 (c : Dev nD) (E : Set ℕ) (i : grid1.Coords)
    (arg1 : Memref sig .tc .vmem S512x768 .f32) (harg1 : arg1.IsWhole) (arg2 : Memref sig .tc .vmem S512x768 .f32) (harg2 : arg2.IsWhole)
    (arg3 : Memref sig .tc .vmem S512x1 .f32) (harg3 : arg3.IsWhole) (arg4 : Memref sig .tc .vmem S1x512 .f32) (harg4 : arg4.IsWhole)
    (arg5 : Memref sig .tc .vmem S1x1 .f32) (harg5 : arg5.IsWhole) (arg6 : Memref sig .tc .vmem S1x1 .f32) (harg6 : arg6.IsWhole)
    (x0 x1 : Vec F S512x768 .f32) (x2 : Vec F S512x1 .f32) (x3 : Vec F S1x512 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__contrastive_kernel i arg1 harg1 arg2 harg2 arg3 harg3 arg4 harg4 arg5 harg5 arg6 harg6) K := by
  simp only [cc1__contrastive_kernel_eq_skeleton]; unfold cc1__contrastive_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The region's proof data -/

/-- After the body at the one point every input's buffer holds its block and the output's holds `out1_5` of the
    input blocks; the invariant is the plain one; nothing is owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.RunFr.lean ====
/-
  The whole program as five segments — a reshape, the first kernel region, four reshapes, the second kernel
  region, a reshape — with the contents of every unscoped buffer named at each boundary: the launch memory, then
  each host stretch applied, then each region's arrays at what its write-backs leave. Every weakly fair execution
  ends with every unscoped buffer at the last boundary's contents.
-/
import proofs.«126511_j10892037063168_2_alg».proof.Proof.Gen.KernelIdeal.Launch
import proofs.«126511_j10892037063168_2_alg».proof.Proof.Gen.KernelIdeal.Skeleton
import proofs.«126511_j10892037063168_2_alg».proof.Proof.Gen.KernelIdeal.Points
import proofs.«126511_j10892037063168_2_alg».proof.Proof.R0
import proofs.«126511_j10892037063168_2_alg».proof.Proof.R1
import proofs.«126511_j10892037063168_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first reshape (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the four reshapes (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last reshape: what the program returns with. -/
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The first region: entered with every unscoped buffer at the contents after the first reshape, left with its
    arrays at what the pipeline wrote back; the generator register goes into the region's invariant and comes out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    refine BIBase.Entails.trans (hout0 (V1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region, likewise, between the contents after the four reshapes and its own write-back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- Every weakly fair execution of the program from memory `m` with zero counters terminates, nothing faulting, and
    every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ iprop(Tₙ m ρ c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Fr

end
-- ==== Proof.RunPost.lean ====
/-
  The run read back: every argument array ends as launched (no reshape writes one; a region reads it through an
  input window or bypasses it), and the result buffer ends at the last boundary's contents.
-/
import proofs.«126511_j10892037063168_2_alg».proof.Proof.Gen.KernelIdeal.Launch
import proofs.«126511_j10892037063168_2_alg».proof.Proof.Gen.KernelIdeal.Skeleton
import proofs.«126511_j10892037063168_2_alg».proof.Proof.Gen.KernelIdeal.Points
import proofs.«126511_j10892037063168_2_alg».proof.Proof.RunFr
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := (W4_arr m ρ c 1).trans (((dat1 (V3 m ρ) c).arrAt_in 1 rfl _).trans (A_eq1 (V3 m ρ) c 1))
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 0).trans (((dat0 (V1 m ρ) c).arrAt_in 0 rfl _).trans (A_eq0 (V1 m ρ) c 0))
    _ = W0 m ρ c (Proc.devRef .tc main_arg3) := StableHlo.after_of_writes_sub hostOps0 _ hostOps0_writes (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- The frame: the program runs to the end, nothing faulting, and every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_all m ρ)

/-- The same run with the result named: the result buffer ends at the last boundary's contents. -/
theorem run_result : θ_run defs (onTc (τ := τ) (main (F := F))) ⟨m, fun _ => 0, ρ⟩ (fun r => ∀ c : Dev nD,
      r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v7 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c)⟩) (run_all m ρ)

end Cert.KernelIdeal.Fr

end
-- ==== Proof.Val0a.lean ====
/-
  What each control case of the first kernel leaves in the accumulators and the outputs, as explicit terms of the
  body's arithmetic: the feature accumulator gets its old contents plus the block's masked sums, the count accumulator
  its old contents plus the block's mask row sums (both from zero at k = 0), and at k = 3 the outputs are the quotient
  of the new accumulators and the new counts themselves.
-/
import proofs.«126511_j10892037063168_2_alg».proof.Proof.Gen.KernelIdeal.Launch
import proofs.«126511_j10892037063168_2_alg».proof.Proof.Gen.KernelIdeal.Skeleton
import proofs.«126511_j10892037063168_2_alg».proof.Proof.Gen.KernelIdeal.Points
import proofs.«126511_j10892037063168_2_alg».proof.Proof.R0A
import proofs.«126511_j10892037063168_2_alg».proof.Proof.R0B
import proofs.«126511_j10892037063168_2_alg».proof.Proof.R0C
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem hz2' : (![0, 0] : Fin 2 → Nat) = fun _ => 0 := funext fun a => by fin_cases a <;> rfl
theorem hz3 : (![0, 0, 0] : Fin 3 → Nat) = fun _ => 0 := funext fun a => by fin_cases a <;> rfl

theorem pieceA_S (c : Dev nD) (i : grid0.Coords) (arg2 : Memref sig .tc .vmem S1x32x1024 .f32) (harg2 : arg2.IsWhole) (arg3 : Memref sig .tc .vmem S1x1024x768 .f32) (harg3 : arg3.IsWhole) (arg4 : Memref sig .tc .vmem S1x32x768 .f32) (harg4 : arg4.IsWhole) (arg5 : Memref sig .tc .vmem S1x32x1 .f32) (harg5 : arg5.IsWhole) (arg6 : Memref sig .tc .vmem S32x768 .f32) (harg6 : arg6.IsWhole) (arg7 : Memref sig .tc .vmem S32x1 .f32) (harg7 : arg7.IsWhole) (hc0 : cond0_0 i) (hc1 : ¬cond0_1 i) (x0 : Vec F S1x32x1024 .f32) (x1 : Vec F S1x1024x768 .f32) :
    VS.read (Elt F) (VS.writes (Elt F) VS.junk (kernelRun0_A (F := F) c i arg2 harg2 arg3 harg3 arg4 harg4 arg5 harg5 arg6 harg6 arg7 harg7 hc0 hc1 x0 x1).1) = k0_pay4 x0 x1 (k0_pay1 (F := F)) := by
  rw [View.read_writes_eq_canon _ _ _ (View.cover_of_tiledL _ S32x768.size (by sl_kernel_rfl))]
  unfold kernelRun0_A
  dsimp only
  sl_unfold_words
  rw [View.canon_cons_unit_zero hz2']
  simp only [View.readAt_eq_ld, harg2.read_unread, harg3.read_unread, harg6.read_unread, harg7.read_unread, View.readCov_unit_zero (S := S32x768) _ hz2', View.readCov_unit_zero (S := S32x1) _ hz2', View.ld_unit_zero (S := S1x32x1024) hz3, View.ld_unit_zero (S := S1x1024x768) hz3, View.ld_unit_zero (S := S32x768) hz2', View.ld_unit_zero (S := S32x1) hz2']

theorem pieceA_N (c : Dev nD) (i : grid0.Coords) (arg2 : Memref sig .tc .vmem S1x32x1024 .f32) (harg2 : arg2.IsWhole) (arg3 : Memref sig .tc .vmem S1x1024x768 .f32) (harg3 : arg3.IsWhole) (arg4 : Memref sig .tc .vmem S1x32x768 .f32) (harg4 : arg4.IsWhole) (arg5 : Memref sig .tc .vmem S1x32x1 .f32) (harg5 : arg5.IsWhole) (arg6 : Memref sig .tc .vmem S32x768 .f32) (harg6 : arg6.IsWhole) (arg7 : Memref sig .tc .vmem S32x1 .f32) (harg7 : arg7.IsWhole) (hc0 : cond0_0 i) (hc1 : ¬cond0_1 i) (x0 : Vec F S1x32x1024 .f32) (x1 : Vec F S1x1024x768 .f32) :
    VN.read (Elt F) (VN.writes (Elt F) VN.junk (kernelRun0_A (F := F) c i arg2 harg2 arg3 harg3 arg4 harg4 arg5 harg5 arg6 harg6 arg7 harg7 hc0 hc1 x0 x1).2.1) = k0_pay5 x0 (k0_pay2 (F := F)) := by
  rw [View.read_writes_eq_canon _ _ _ (View.cover_of_tiledL _ S32x1.size (by sl_kernel_rfl))]
  unfold kernelRun0_A
  dsimp only
  sl_unfold_words
  rw [View.canon_cons_unit_zero hz2']
  simp only [View.readAt_eq_ld, harg2.read_unread, harg3.read_unread, harg6.read_unread, harg7.read_unread, View.readCov_unit_zero (S := S32x768) _ hz2', View.readCov_unit_zero (S := S32x1) _ hz2', View.ld_unit_zero (S := S1x32x1024) hz3, View.ld_unit_zero (S := S1x1024x768) hz3, View.ld_unit_zero (S := S32x768) hz2', View.ld_unit_zero (S := S32x1) hz2']

theorem pieceB_S (c : Dev nD) (i : grid0.Coords) (arg2 : Memref sig .tc .vmem S1x32x1024 .f32) (harg2 : arg2.IsWhole) (arg3 : Memref sig .tc .vmem S1x1024x768 .f32) (harg3 : arg3.IsWhole) (arg4 : Memref sig .tc .vmem S1x32x768 .f32) (harg4 : arg4.IsWhole) (arg5 : Memref sig .tc .vmem S1x32x1 .f32) (harg5 : arg5.IsWhole) (arg6 : Memref sig .tc .vmem S32x768 .f32) (harg6 : arg6.IsWhole) (arg7 : Memref sig .tc .vmem S32x1 .f32) (harg7 : arg7.IsWhole) (hc0 : ¬cond0_0 i) (hc1 : ¬cond0_1 i) (x0 : Vec F S1x32x1024 .f32) (x1 : Vec F S1x1024x768 .f32) (xs0 : Vec F S32x768 .f32) (xs1 : Vec F S32x1 .f32) :
    VS.read (Elt F) (VS.writes (Elt F) VS.junk (kernelRun0_B (F := F) c i arg2 harg2 arg3 harg3 arg4 harg4 arg5 harg5 arg6 harg6 arg7 harg7 hc0 hc1 x0 x1 xs0 xs1).1) = k0_pay4 x0 x1 xs0 := by
  rw [View.read_writes_eq_canon _ _ _ (View.cover_of_tiledL _ S32x768.size (by sl_kernel_rfl))]
  unfold kernelRun0_B
  dsimp only
  sl_unfold_words
  rw [View.canon_unit_zero hz2']
  simp only [View.readAt_eq_ld, harg2.read_unread, harg3.read_unread, harg6.read_unread, harg7.read_unread, View.readCov_unit_zero (S := S32x768) _ hz2', View.readCov_unit_zero (S := S32x1) _ hz2', View.ld_unit_zero (S := S1x32x1024) hz3, View.ld_unit_zero (S := S1x1024x768) hz3, View.ld_unit_zero (S := S32x768) hz2', View.ld_unit_zero (S := S32x1) hz2']

theorem pieceB_N (c : Dev nD) (i : grid0.Coords) (arg2 : Memref sig .tc .vmem S1x32x1024 .f32) (harg2 : arg2.IsWhole) (arg3 : Memref sig .tc .vmem S1x1024x768 .f32) (harg3 : arg3.IsWhole) (arg4 : Memref sig .tc .vmem S1x32x768 .f32) (harg4 : arg4.IsWhole) (arg5 : Memref sig .tc .vmem S1x32x1 .f32) (harg5 : arg5.IsWhole) (arg6 : Memref sig .tc .vmem S32x768 .f32) (harg6 : arg6.IsWhole) (arg7 : Memref sig .tc .vmem S32x1 .f32) (harg7 : arg7.IsWhole) (hc0 : ¬cond0_0 i) (hc1 : ¬cond0_1 i) (x0 : Vec F S1x32x1024 .f32) (x1 : Vec F S1x1024x768 .f32) (xs0 : Vec F S32x768 .f32) (xs1 : Vec F S32x1 .f32) :
    VN.read (Elt F) (VN.writes (Elt F) VN.junk (kernelRun0_B (F := F) c i arg2 harg2 arg3 harg3 arg4 harg4 arg5 harg5 arg6 harg6 arg7 harg7 hc0 hc1 x0 x1 xs0 xs1).2.1) = k0_pay5 x0 xs1 := by
  rw [View.read_writes_eq_canon _ _ _ (View.cover_of_tiledL _ S32x1.size (by sl_kernel_rfl))]
  unfold kernelRun0_B
  dsimp only
  sl_unfold_words
  rw [View.canon_unit_zero hz2']
  simp only [View.readAt_eq_ld, harg2.read_unread, harg3.read_unread, harg6.read_unread, harg7.read_unread, View.readCov_unit_zero (S := S32x768) _ hz2', View.readCov_unit_zero (S := S32x1) _ hz2', View.ld_unit_zero (S := S1x32x1024) hz3, View.ld_unit_zero (S := S1x1024x768) hz3, View.ld_unit_zero (S := S32x768) hz2', View.ld_unit_zero (S := S32x1) hz2']

theorem pieceC_2 (c : Dev nD) (i : grid0.Coords) (arg2 : Memref sig .tc .vmem S1x32x1024 .f32) (harg2 : arg2.IsWhole) (arg3 : Memref sig .tc .vmem S1x1024x768 .f32) (harg3 : arg3.IsWhole) (arg4 : Memref sig .tc .vmem S1x32x768 .f32) (harg4 : arg4.IsWhole) (arg5 : Memref sig .tc .vmem S1x32x1 .f32) (harg5 : arg5.IsWhole) (arg6 : Memref sig .tc .vmem S32x768 .f32) (harg6 : arg6.IsWhole) (arg7 : Memref sig .tc .vmem S32x1 .f32) (harg7 : arg7.IsWhole) (hc0 : ¬cond0_0 i) (hc1 : cond0_1 i) (x0 : Vec F S1x32x1024 .f32) (x1 : Vec F S1x1024x768 .f32) (xs0 : Vec F S32x768 .f32) (xs1 : Vec F S32x1 .f32) :
    VO2.read (Elt F) (VO2.writes (Elt F) VO2.junk (kernelRun0_C (F := F) c i arg2 harg2 arg3 harg3 arg4 harg4 arg5 harg5 arg6 harg6 arg7 harg7 hc0 hc1 x0 x1 xs0 xs1).1) = k0_pay6 (k0_pay5 x0 xs1) (k0_pay4 x0 x1 xs0) := by
  rw [View.read_writes_eq_canon _ _ _ (View.cover_of_tiledL _ S1x32x768.size (by sl_kernel_rfl))]
  unfold kernelRun0_C
  dsimp only
  sl_unfold_words
  rw [View.canon_unit_zero hz3]
  simp only [View.readAt_eq_ld, harg2.read_unread, harg3.read_unread, harg6.read_unread, harg7.read_unread, View.readCov_unit_zero (S := S32x768) _ hz2', View.readCov_unit_zero (S := S32x1) _ hz2', View.ld_unit_zero (S := S1x32x1024) hz3, View.ld_unit_zero (S := S1x1024x768) hz3, View.ld_unit_zero (S := S32x768) hz2', View.ld_unit_zero (S := S32x1) hz2']

theorem pieceC_3 (c : Dev nD) (i : grid0.Coords) (arg2 : Memref sig .tc .vmem S1x32x1024 .f32) (harg2 : arg2.IsWhole) (arg3 : Memref sig .tc .vmem S1x1024x768 .f32) (harg3 : arg3.IsWhole) (arg4 : Memref sig .tc .vmem S1x32x768 .f32) (harg4 : arg4.IsWhole) (arg5 : Memref sig .tc .vmem S1x32x1 .f32) (harg5 : arg5.IsWhole) (arg6 : Memref sig .tc .vmem S32x768 .f32) (harg6 : arg6.IsWhole) (arg7 : Memref sig .tc .vmem S32x1 .f32) (harg7 : arg7.IsWhole) (hc0 : ¬cond0_0 i) (hc1 : cond0_1 i) (x0 : Vec F S1x32x1024 .f32) (x1 : Vec F S1x1024x768 .f32) (xs0 : Vec F S32x768 .f32) (xs1 : Vec F S32x1 .f32) :
    VO3.read (Elt F) (VO3.writes (Elt F) VO3.junk (kernelRun0_C (F := F) c i arg2 harg2 arg3 harg3 arg4 harg4 arg5 harg5 arg6 harg6 arg7 harg7 hc0 hc1 x0 x1 xs0 xs1).2.1) = k0_pay7 (k0_pay5 x0 xs1) := by
  rw [View.read_writes_eq_canon _ _ _ (View.cover_of_tiledL _ S1x32x1.size (by sl_kernel_rfl))]
  unfold kernelRun0_C
  dsimp only
  sl_unfold_words
  rw [View.canon_unit_zero hz3]
  simp only [View.readAt_eq_ld, harg2.read_unread, harg3.read_unread, harg6.read_unread, harg7.read_unread, View.readCov_unit_zero (S := S32x768) _ hz2', View.readCov_unit_zero (S := S32x1) _ hz2', View.ld_unit_zero (S := S1x32x1024) hz3, View.ld_unit_zero (S := S1x1024x768) hz3, View.ld_unit_zero (S := S32x768) hz2', View.ld_unit_zero (S := S32x1) hz2']

theorem pieceC_S (c : Dev nD) (i : grid0.Coords) (arg2 : Memref sig .tc .vmem S1x32x1024 .f32) (harg2 : arg2.IsWhole) (arg3 : Memref sig .tc .vmem S1x1024x768 .f32) (harg3 : arg3.IsWhole) (arg4 : Memref sig .tc .vmem S1x32x768 .f32) (harg4 : arg4.IsWhole) (arg5 : Memref sig .tc .vmem S1x32x1 .f32) (harg5 : arg5.IsWhole) (arg6 : Memref sig .tc .vmem S32x768 .f32) (harg6 : arg6.IsWhole) (arg7 : Memref sig .tc .vmem S32x1 .f32) (harg7 : arg7.IsWhole) (hc0 : ¬cond0_0 i) (hc1 : cond0_1 i) (x0 : Vec F S1x32x1024 .f32) (x1 : Vec F S1x1024x768 .f32) (xs0 : Vec F S32x768 .f32) (xs1 : Vec F S32x1 .f32) :
    VS.read (Elt F) (VS.writes (Elt F) VS.junk (kernelRun0_C (F := F) c i arg2 harg2 arg3 harg3 arg4 harg4 arg5 harg5 arg6 harg6 arg7 harg7 hc0 hc1 x0 x1 xs0 xs1).2.2.1) = k0_pay4 x0 x1 xs0 := by
  rw [View.read_writes_eq_canon _ _ _ (View.cover_of_tiledL _ S32x768.size (by sl_kernel_rfl))]
  unfold kernelRun0_C
  dsimp only
  sl_unfold_words
  rw [View.canon_unit_zero hz2']
  simp only [View.readAt_eq_ld, harg2.read_unread, harg3.read_unread, harg6.read_unread, harg7.read_unread, View.readCov_unit_zero (S := S32x768) _ hz2', View.readCov_unit_zero (S := S32x1) _ hz2', View.ld_unit_zero (S := S1x32x1024) hz3, View.ld_unit_zero (S := S1x1024x768) hz3, View.ld_unit_zero (S := S32x768) hz2', View.ld_unit_zero (S := S32x1) hz2']

theorem pieceC_N (c : Dev nD) (i : grid0.Coords) (arg2 : Memref sig .tc .vmem S1x32x1024 .f32) (harg2 : arg2.IsWhole) (arg3 : Memref sig .tc .vmem S1x1024x768 .f32) (harg3 : arg3.IsWhole) (arg4 : Memref sig .tc .vmem S1x32x768 .f32) (harg4 : arg4.IsWhole) (arg5 : Memref sig .tc .vmem S1x32x1 .f32) (harg5 : arg5.IsWhole) (arg6 : Memref sig .tc .vmem S32x768 .f32) (harg6 : arg6.IsWhole) (arg7 : Memref sig .tc .vmem S32x1 .f32) (harg7 : arg7.IsWhole) (hc0 : ¬cond0_0 i) (hc1 : cond0_1 i) (x0 : Vec F S1x32x1024 .f32) (x1 : Vec F S1x1024x768 .f32) (xs0 : Vec F S32x768 .f32) (xs1 : Vec F S32x1 .f32) :
    VN.read (Elt F) (VN.writes (Elt F) VN.junk (kernelRun0_C (F := F) c i arg2 harg2 arg3 harg3 arg4 harg4 arg5 harg5 arg6 harg6 arg7 harg7 hc0 hc1 x0 x1 xs0 xs1).2.2.2.1) = k0_pay5 x0 xs1 := by
  rw [View.read_writes_eq_canon _ _ _ (View.cover_of_tiledL _ S32x1.size (by sl_kernel_rfl))]
  unfold kernelRun0_C
  dsimp only
  sl_unfold_words
  rw [View.canon_unit_zero hz2']
  simp only [View.readAt_eq_ld, harg2.read_unread, harg3.read_unread, harg6.read_unread, harg7.read_unread, View.readCov_unit_zero (S := S32x768) _ hz2', View.readCov_unit_zero (S := S32x1) _ hz2', View.ld_unit_zero (S := S1x32x1024) hz3, View.ld_unit_zero (S := S1x1024x768) hz3, View.ld_unit_zero (S := S32x768) hz2', View.ld_unit_zero (S := S32x1) hz2']

end Cert.KernelIdeal.Fr

end
-- ==== Proof.AccDef.lean ====
/-
  The accumulation the first kernel performs for one object, over an abstract sequence of mask blocks `M k` and
  point blocks `P k`: the feature accumulator starts from zero and each step adds the step's masked sums; the count
  accumulator starts from zero and each step adds the step's mask row sums.
-/
import proofs.«126511_j10892037063168_2_alg».proof.Proof.Gen.KernelIdeal.Skeleton

noncomputable section

namespace Cert.KernelIdeal.Fr

open Cert.KernelIdeal Cert.KernelIdeal.Gen Idealize.ShloMosaic

variable {F : FTy → Type} [FloatOps F]

/-- The feature accumulator after step `k`. -/
noncomputable def aS (M : ℕ → Vec F S1x32x1024 .f32) (P : ℕ → Vec F S1x1024x768 .f32) : ℕ → Vec F S32x768 .f32
  | 0 => k0_pay4 (M 0) (P 0) (k0_pay1 (F := F))
  | k + 1 => k0_pay4 (M (k + 1)) (P (k + 1)) (aS M P k)
/-- The count accumulator after step `k`. -/
noncomputable def aN (M : ℕ → Vec F S1x32x1024 .f32) : ℕ → Vec F S32x1 .f32
  | 0 => k0_pay5 (M 0) (k0_pay2 (F := F))
  | k + 1 => k0_pay5 (M (k + 1)) (aN M k)

end Cert.KernelIdeal.Fr

end
-- ==== Proof.Val0b.lean ====
/-
  The first kernel region's two output arrays after the run, as explicit terms of the body's arithmetic. For each
  object b the four grid positions (b, 0..3) pass the two accumulators along: from zero, each position adds its
  block's contribution; the last position divides and stores row block b of the outputs. The sixteen row blocks tile
  the output arrays.
-/
import proofs.«126511_j10892037063168_2_alg».proof.Proof.Gen.KernelIdeal.Launch
import proofs.«126511_j10892037063168_2_alg».proof.Proof.Gen.KernelIdeal.Skeleton
import proofs.«126511_j10892037063168_2_alg».proof.Proof.Gen.KernelIdeal.Points
import proofs.«126511_j10892037063168_2_alg».proof.Proof.R0
import proofs.«126511_j10892037063168_2_alg».proof.Proof.Val0a
import proofs.«126511_j10892037063168_2_alg».proof.Proof.AccDef
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable (V : (c : Dev nD) → (b : Ref sig .tc) → Buf (Elt F) ((c : Thread nD τ).loc b))

theorem outsAt0_congr (c : Dev nD) {n n' : ℕ} (e : n = n') (h : n < cfg0.N) (h' : n' < cfg0.N) :
    outsAt0 V c n h = outsAt0 V c n' h' := by subst e; rfl

/-- The grid position of object `b` at reduction step `k` (taken modulo the grid size so that it is total). -/
def ptn (b : Fin 16) (k : ℕ) : Fin cfg0.N := ⟨(4 * b.val + k) % 64, by rw [show cfg0.N = 64 from N_0]; exact Nat.mod_lt _ (by decide)⟩

theorem ptn_val (b : Fin 16) (k : ℕ) (hk : k < 4) : (ptn b k).val = 4 * b.val + k := by
  show (4 * b.val + k) % 64 = _
  have := b.isLt; omega

/-- Object `b`'s mask blocks and point blocks, step by step. -/
noncomputable def mblk (c : Dev nD) (b : Fin 16) (k : ℕ) : Vec F S1x32x1024 .f32 := iblk0 V c 0 (ptn b k)
noncomputable def pblk (c : Dev nD) (b : Fin 16) (k : ℕ) : Vec F S1x1024x768 .f32 := iblk0 V c 1 (ptn b k)
/-- The two accumulators after step `k` of object `b`. -/
noncomputable def accS (c : Dev nD) (b : Fin 16) (k : ℕ) : Vec F S32x768 .f32 := aS (mblk V c b) (pblk V c b) k
noncomputable def accN (c : Dev nD) (b : Fin 16) (k : ℕ) : Vec F S32x1 .f32 := aN (mblk V c b) k

/-! ## Each case's step, component by component -/

theorem stepA_S (c : Dev nD) (t : Fin cfg0.N) (h0 : t.val % 4 = 0) (h1 : ¬t.val % 4 = 3) :
    (stepA V c t h0 h1).2.2.1 = k0_pay4 (iblk0 V c 0 t) (iblk0 V c 1 t) (k0_pay1 (F := F)) := by
  unfold stepA runA
  dsimp only
  rw [pieceA_S c (grid0.coords t) (ms0_0 t) (hs0_0 t) (ms0_1 t) (hs0_1 t) (ms0_2 t) (hs0_2 t) (ms0_3 t) (hs0_3 t) scS (Memref.isWhole_whole _) scN (Memref.isWhole_whole _) ((hcond0_0 t).mpr h0) (fun h => h1 ((hcond0_1 t).mp h)) (iblk0 V c 0 t) (iblk0 V c 1 t)]
theorem stepA_N (c : Dev nD) (t : Fin cfg0.N) (h0 : t.val % 4 = 0) (h1 : ¬t.val % 4 = 3) :
    (stepA V c t h0 h1).2.2.2 = k0_pay5 (iblk0 V c 0 t) (k0_pay2 (F := F)) := by
  unfold stepA runA
  dsimp only
  rw [pieceA_N c (grid0.coords t) (ms0_0 t) (hs0_0 t) (ms0_1 t) (hs0_1 t) (ms0_2 t) (hs0_2 t) (ms0_3 t) (hs0_3 t) scS (Memref.isWhole_whole _) scN (Memref.isWhole_whole _) ((hcond0_0 t).mpr h0) (fun h => h1 ((hcond0_1 t).mp h)) (iblk0 V c 0 t) (iblk0 V c 1 t)]
theorem stepB_S (c : Dev nD) (t : Fin cfg0.N) (h0 : ¬t.val % 4 = 0) (h1 : ¬t.val % 4 = 3) (prev : Outs F) :
    (stepB V c t h0 h1 prev).2.2.1 = k0_pay4 (iblk0 V c 0 t) (iblk0 V c 1 t) prev.2.2.1 := by
  unfold stepB runB
  dsimp only
  rw [pieceB_S c (grid0.coords t) (ms0_0 t) (hs0_0 t) (ms0_1 t) (hs0_1 t) (ms0_2 t) (hs0_2 t) (ms0_3 t) (hs0_3 t) scS (Memref.isWhole_whole _) scN (Memref.isWhole_whole _) (fun h => h0 ((hcond0_0 t).mp h)) (fun h => h1 ((hcond0_1 t).mp h)) (iblk0 V c 0 t) (iblk0 V c 1 t) prev.2.2.1 prev.2.2.2]
theorem stepB_N (c : Dev nD) (t : Fin cfg0.N) (h0 : ¬t.val % 4 = 0) (h1 : ¬t.val % 4 = 3) (prev : Outs F) :
    (stepB V c t h0 h1 prev).2.2.2 = k0_pay5 (iblk0 V c 0 t) prev.2.2.2 := by
  unfold stepB runB
  dsimp only
  rw [pieceB_N c (grid0.coords t) (ms0_0 t) (hs0_0 t) (ms0_1 t) (hs0_1 t) (ms0_2 t) (hs0_2 t) (ms0_3 t) (hs0_3 t) scS (Memref.isWhole_whole _) scN (Memref.isWhole_whole _) (fun h => h0 ((hcond0_0 t).mp h)) (fun h => h1 ((hcond0_1 t).mp h)) (iblk0 V c 0 t) (iblk0 V c 1 t) prev.2.2.1 prev.2.2.2]
theorem stepC_S (c : Dev nD) (t : Fin cfg0.N) (h0 : ¬t.val % 4 = 0) (h1 : t.val % 4 = 3) (prev : Outs F) :
    (stepC V c t h0 h1 prev).2.2.1 = k0_pay4 (iblk0 V c 0 t) (iblk0 V c 1 t) prev.2.2.1 := by
  unfold stepC runC
  dsimp only
  rw [pieceC_S c (grid0.coords t) (ms0_0 t) (hs0_0 t) (ms0_1 t) (hs0_1 t) (ms0_2 t) (hs0_2 t) (ms0_3 t) (hs0_3 t) scS (Memref.isWhole_whole _) scN (Memref.isWhole_whole _) (fun h => h0 ((hcond0_0 t).mp h)) ((hcond0_1 t).mpr h1) (iblk0 V c 0 t) (iblk0 V c 1 t) prev.2.2.1 prev.2.2.2]
theorem stepC_N (c : Dev nD) (t : Fin cfg0.N) (h0 : ¬t.val % 4 = 0) (h1 : t.val % 4 = 3) (prev : Outs F) :
    (stepC V c t h0 h1 prev).2.2.2 = k0_pay5 (iblk0 V c 0 t) prev.2.2.2 := by
  unfold stepC runC
  dsimp only
  rw [pieceC_N c (grid0.coords t) (ms0_0 t) (hs0_0 t) (ms0_1 t) (hs0_1 t) (ms0_2 t) (hs0_2 t) (ms0_3 t) (hs0_3 t) scS (Memref.isWhole_whole _) scN (Memref.isWhole_whole _) (fun h => h0 ((hcond0_0 t).mp h)) ((hcond0_1 t).mpr h1) (iblk0 V c 0 t) (iblk0 V c 1 t) prev.2.2.1 prev.2.2.2]
theorem stepC_2 (c : Dev nD) (t : Fin cfg0.N) (h0 : ¬t.val % 4 = 0) (h1 : t.val % 4 = 3) (prev : Outs F) :
    (stepC V c t h0 h1 prev).1 = k0_pay6 (k0_pay5 (iblk0 V c 0 t) prev.2.2.2) (k0_pay4 (iblk0 V c 0 t) (iblk0 V c 1 t) prev.2.2.1) := by
  unfold stepC runC
  dsimp only
  rw [pieceC_2 c (grid0.coords t) (ms0_0 t) (hs0_0 t) (ms0_1 t) (hs0_1 t) (ms0_2 t) (hs0_2 t) (ms0_3 t) (hs0_3 t) scS (Memref.isWhole_whole _) scN (Memref.isWhole_whole _) (fun h => h0 ((hcond0_0 t).mp h)) ((hcond0_1 t).mpr h1) (iblk0 V c 0 t) (iblk0 V c 1 t) prev.2.2.1 prev.2.2.2]
theorem stepC_3 (c : Dev nD) (t : Fin cfg0.N) (h0 : ¬t.val % 4 = 0) (h1 : t.val % 4 = 3) (prev : Outs F) :
    (stepC V c t h0 h1 prev).2.1 = k0_pay7 (k0_pay5 (iblk0 V c 0 t) prev.2.2.2) := by
  unfold stepC runC
  dsimp only
  rw [pieceC_3 c (grid0.coords t) (ms0_0 t) (hs0_0 t) (ms0_1 t) (hs0_1 t) (ms0_2 t) (hs0_2 t) (ms0_3 t) (hs0_3 t) scS (Memref.isWhole_whole _) scN (Memref.isWhole_whole _) (fun h => h0 ((hcond0_0 t).mp h)) ((hcond0_1 t).mpr h1) (iblk0 V c 0 t) (iblk0 V c 1 t) prev.2.2.1 prev.2.2.2]

/-- After position (b, k) the two accumulators hold `accS`, `accN` at `k`. -/
theorem acc_eq (c : Dev nD) (b : Fin 16) : ∀ k : ℕ, k < 4 →
    (outsAt0 V c (ptn b k).val (ptn b k).isLt).2.2.1 = accS V c b k
    ∧ (outsAt0 V c (ptn b k).val (ptn b k).isLt).2.2.2 = accN V c b k
  | 0, hk => by
    have hv := ptn_val b 0 hk
    have h0 : (ptn b 0).val % 4 = 0 := by omega
    have h1 : ¬(ptn b 0).val % 4 = 3 := by omega
    rw [outsAt0_A V c (ptn b 0) h0 h1]
    exact ⟨stepA_S V c (ptn b 0) h0 h1, stepA_N V c (ptn b 0) h0 h1⟩
  | k + 1, hk => by
    have hv := ptn_val b (k + 1) hk
    have hv' := ptn_val b k (by omega)
    have h0 : ¬(ptn b (k + 1)).val % 4 = 0 := by omega
    obtain ⟨ihS, ihN⟩ := acc_eq c b k (by omega)
    have hprev : outsAt0 V c ((ptn b (k + 1)).val - 1) (Nat.lt_of_le_of_lt (Nat.sub_le _ _) (ptn b (k + 1)).isLt)
        = outsAt0 V c (ptn b k).val (ptn b k).isLt := outsAt0_congr V c (by omega) _ _
    by_cases h1 : (ptn b (k + 1)).val % 4 = 3
    · rw [outsAt0_C V c (ptn b (k + 1)) h0 h1, hprev]
      refine ⟨(stepC_S V c (ptn b (k + 1)) h0 h1 _).trans ?_, (stepC_N V c (ptn b (k + 1)) h0 h1 _).trans ?_⟩
      · rw [ihS]; rfl
      · rw [ihN]; rfl
    · rw [outsAt0_B V c (ptn b (k + 1)) h0 h1, hprev]
      refine ⟨(stepB_S V c (ptn b (k + 1)) h0 h1 _).trans ?_, (stepB_N V c (ptn b (k + 1)) h0 h1 _).trans ?_⟩
      · rw [ihS]; rfl
      · rw [ihN]; rfl

/-- At the last position of object `b` the outputs' buffers hold the quotient and the counts. -/
theorem outs_last (c : Dev nD) (b : Fin 16) :
    (outsAt0 V c (ptn b 3).val (ptn b 3).isLt).1 = k0_pay6 (accN V c b 3) (accS V c b 3)
    ∧ (outsAt0 V c (ptn b 3).val (ptn b 3).isLt).2.1 = k0_pay7 (accN V c b 3) := by
  have hv := ptn_val b 3 (by decide)
  have hv' := ptn_val b 2 (by decide)
  have h0 : ¬(ptn b 3).val % 4 = 0 := by omega
  have h1 : (ptn b 3).val % 4 = 3 := by omega
  obtain ⟨ihS, ihN⟩ := acc_eq V c b 2 (by decide)
  have hprev : outsAt0 V c ((ptn b 3).val - 1) (Nat.lt_of_le_of_lt (Nat.sub_le _ _) (ptn b 3).isLt)
      = outsAt0 V c (ptn b 2).val (ptn b 2).isLt := outsAt0_congr V c (by omega) _ _
  rw [outsAt0_C V c (ptn b 3) h0 h1, hprev]
  refine ⟨(stepC_2 V c (ptn b 3) h0 h1 _).trans ?_, (stepC_3 V c (ptn b 3) h0 h1 _).trans ?_⟩
  · rw [ihS, ihN]; rfl
  · rw [ihN]; rfl

/-! ## The output arrays -/

/-- The pooled features after the region: at (b, r, d) the quotient of object `b`'s final accumulators at (r, d). -/
noncomputable def G2 (c : Dev nD) : S16x32x768.Idx → Elt F .f32 := fun i =>
  k0_pay6 (accN V c ⟨(i 0).val, (i 0).isLt⟩ 3) (accS V c ⟨(i 0).val, (i 0).isLt⟩ 3)
    (ix3 (0 : Fin 1) (⟨(i 1).val, (i 1).isLt⟩ : Fin 32) (⟨(i 2).val, (i 2).isLt⟩ : Fin 768))
/-- The point counts after the region. -/
noncomputable def G3 (c : Dev nD) : S16x32x1.Idx → Elt F .f32 := fun i =>
  k0_pay7 (accN V c ⟨(i 0).val, (i 0).isLt⟩ 3)
    (ix3 (0 : Fin 1) (⟨(i 1).val, (i 1).isLt⟩ : Fin 32) (⟨(i 2).val, (i 2).isLt⟩ : Fin 1))

/-- The output windows' block index at a position is (its object, 0, 0). -/
theorem idx_facts0 : ∀ t : Fin cfg0.N,
    win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0 :=
  (by decide +kernel : ∀ t : Fin grid0.N, _)

theorem flushed0_2_eq (c : Dev nD) (t : Fin cfg0.N) (hf : (cfg0.win 2).flush t = true) :
    (dat0 V c).flushed 2 t = ((cfg0.win 2).blk t).view.read (Elt F) (G2 V c) := by
  have h3 : t.val % 4 = 3 := (flush0_2 t).mp hf
  have hN : t.val < 64 := lt_of_lt_of_eq t.isLt (show cfg0.N = 64 from N_0)
  obtain ⟨b, rfl⟩ : ∃ b : Fin 16, t = ptn b 3 := ⟨⟨t.val / 4, by omega⟩, Fin.ext (by show t.val = (4 * (t.val / 4) + 3) % 64; omega)⟩
  have hv := ptn_val b 3 (by decide)
  obtain ⟨e0, e1, e2, -⟩ := idx_facts0 (ptn b 3)
  show (cfg0.win 2).cut (grid0.coords (ptn b 3)) ((dat0 V c).after 2 (ptn b 3)) = _
  rw [after0_2, (outs_last V c b).1]
  funext j
  show k0_pay6 (accN V c b 3) (accS V c b 3) j = G2 V c (((cfg0.win 2).blk (ptn b 3)).view.emb j)
  unfold G2
  have hj0 : (j 0).val < 1 := (j 0).isLt
  have hb : (⟨((((cfg0.win 2).blk (ptn b 3)).view.emb j) 0).val, ((((cfg0.win 2).blk (ptn b 3)).view.emb j) 0).isLt⟩ : Fin 16) = b := by
    apply Fin.ext
    show win0_2.index (ptn b 3) (0 : Fin 3) * 1 + 1 * (j 0).val = b.val
    omega
  rw [hb]
  refine congrArg _ (funext fun a => Fin.ext ?_)
  match a with
  | ⟨0, _⟩ => show (j 0).val = 0; omega
  | ⟨1, _⟩ => show (j 1).val = win0_2.index (ptn b 3) (1 : Fin 3) * 32 + 1 * (j 1).val; omega
  | ⟨2, _⟩ => show (j 2).val = win0_2.index (ptn b 3) (2 : Fin 3) * 768 + 1 * (j 2).val; omega

theorem flushed0_3_eq (c : Dev nD) (t : Fin cfg0.N) (hf : (cfg0.win 3).flush t = true) :
    (dat0 V c).flushed 3 t = ((cfg0.win 3).blk t).view.read (Elt F) (G3 V c) := by
  have h3 : t.val % 4 = 3 := (flush0_3 t).mp hf
  have hN : t.val < 64 := lt_of_lt_of_eq t.isLt (show cfg0.N = 64 from N_0)
  obtain ⟨b, rfl⟩ : ∃ b : Fin 16, t = ptn b 3 := ⟨⟨t.val / 4, by omega⟩, Fin.ext (by show t.val = (4 * (t.val / 4) + 3) % 64; omega)⟩
  have hv := ptn_val b 3 (by decide)
  obtain ⟨-, -, -, e0, e1, e2⟩ := idx_facts0 (ptn b 3)
  show (cfg0.win 3).cut (grid0.coords (ptn b 3)) ((dat0 V c).after 3 (ptn b 3)) = _
  rw [after0_3, (outs_last V c b).2]
  funext j
  show k0_pay7 (accN V c b 3) j = G3 V c (((cfg0.win 3).blk (ptn b 3)).view.emb j)
  unfold G3
  have hj0 : (j 0).val < 1 := (j 0).isLt
  have hb : (⟨((((cfg0.win 3).blk (ptn b 3)).view.emb j) 0).val, ((((cfg0.win 3).blk (ptn b 3)).view.emb j) 0).isLt⟩ : Fin 16) = b := by
    apply Fin.ext
    show win0_3.index (ptn b 3) (0 : Fin 3) * 1 + 1 * (j 0).val = b.val
    omega
  rw [hb]
  refine congrArg _ (funext fun a => Fin.ext ?_)
  match a with
  | ⟨0, _⟩ => show (j 0).val = 0; omega
  | ⟨1, _⟩ => show (j 1).val = win0_3.index (ptn b 3) (1 : Fin 3) * 32 + 1 * (j 1).val; omega
  | ⟨2, _⟩ => show (j 2).val = win0_3.index (ptn b 3) (2 : Fin 3) * 1 + 1 * (j 2).val; omega

/-- Every entry of the pooled-features array lies in the row block of its object, written back at that object's last position. -/
theorem cover0_2 (i : S16x32x768.Idx) : ∃ t : Fin cfg0.N, (cfg0.win 2).flush t = true ∧ i ∈ ((cfg0.win 2).blk t).view.set := by
  have hi0 : (i 0).val < 16 := (i 0).isLt
  have hi1 : (i 1).val < 32 := (i 1).isLt
  have hi2 : (i 2).val < 768 := (i 2).isLt
  have hv := ptn_val ⟨(i 0).val, hi0⟩ 3 (by decide)
  obtain ⟨e0, e1, e2, -⟩ := idx_facts0 (ptn ⟨(i 0).val, hi0⟩ 3)
  refine ⟨ptn ⟨(i 0).val, hi0⟩ 3, (flush0_2 _).mpr (by rw [hv]; omega), ?_⟩
  show i ∈ ((View.whole main_v1_0).slice (win0_2.rect (ptn ⟨(i 0).val, hi0⟩ 3))).set
  rw [View.set_slice_whole, Rect.mem_set_unit]
  intro a
  match a with
  | ⟨0, _⟩ => show win0_2.index (ptn ⟨(i 0).val, hi0⟩ 3) (0 : Fin 3) * 1 ≤ (i 0).val ∧ (i 0).val < win0_2.index (ptn ⟨(i 0).val, hi0⟩ 3) (0 : Fin 3) * 1 + 1; simp only [hv] at e0; omega
  | ⟨1, _⟩ => show win0_2.index (ptn ⟨(i 0).val, hi0⟩ 3) (1 : Fin 3) * 32 ≤ (i 1).val ∧ (i 1).val < win0_2.index (ptn ⟨(i 0).val, hi0⟩ 3) (1 : Fin 3) * 32 + 32; omega
  | ⟨2, _⟩ => show win0_2.index (ptn ⟨(i 0).val, hi0⟩ 3) (2 : Fin 3) * 768 ≤ (i 2).val ∧ (i 2).val < win0_2.index (ptn ⟨(i 0).val, hi0⟩ 3) (2 : Fin 3) * 768 + 768; omega

theorem cover0_3 (i : S16x32x1.Idx) : ∃ t : Fin cfg0.N, (cfg0.win 3).flush t = true ∧ i ∈ ((cfg0.win 3).blk t).view.set := by
  have hi0 : (i 0).val < 16 := (i 0).isLt
  have hi1 : (i 1).val < 32 := (i 1).isLt
  have hi2 : (i 2).val < 1 := (i 2).isLt
  have hv := ptn_val ⟨(i 0).val, hi0⟩ 3 (by decide)
  obtain ⟨-, -, -, e0, e1, e2⟩ := idx_facts0 (ptn ⟨(i 0).val, hi0⟩ 3)
  refine ⟨ptn ⟨(i 0).val, hi0⟩ 3, (flush0_3 _).mpr (by rw [hv]; omega), ?_⟩
  show i ∈ ((View.whole main_v1_1).slice (win0_3.rect (ptn ⟨(i 0).val, hi0⟩ 3))).set
  rw [View.set_slice_whole, Rect.mem_set_unit]
  intro a
  match a with
  | ⟨0, _⟩ => show win0_3.index (ptn ⟨(i 0).val, hi0⟩ 3) (0 : Fin 3) * 1 ≤ (i 0).val ∧ (i 0).val < win0_3.index (ptn ⟨(i 0).val, hi0⟩ 3) (0 : Fin 3) * 1 + 1; simp only [hv] at e0; omega
  | ⟨1, _⟩ => show win0_3.index (ptn ⟨(i 0).val, hi0⟩ 3) (1 : Fin 3) * 32 ≤ (i 1).val ∧ (i 1).val < win0_3.index (ptn ⟨(i 0).val, hi0⟩ 3) (1 : Fin 3) * 32 + 32; omega
  | ⟨2, _⟩ => show win0_3.index (ptn ⟨(i 0).val, hi0⟩ 3) (2 : Fin 3) * 1 ≤ (i 2).val ∧ (i 2).val < win0_3.index (ptn ⟨(i 0).val, hi0⟩ 3) (2 : Fin 3) * 1 + 1; omega

/-- The two output arrays after the region. -/
theorem final0_2 (c : Dev nD) : (dat0 V c).arrAt 2 cfg0.N = G2 V c :=
  (dat0 V c).arrAt_eq_of_cover 2 (G2 V c) (fun t hf => flushed0_2_eq V c t hf) cover0_2
theorem final0_3 (c : Dev nD) : (dat0 V c).arrAt 3 cfg0.N = G3 V c :=
  (dat0 V c).arrAt_eq_of_cover 3 (G3 V c) (fun t hf => flushed0_3_eq V c t hf) cover0_3

end Cert.KernelIdeal.Fr

end
-- ==== Proof.Val1.lean ====
/-
  What the second kernel region leaves in its output array: the region has one grid point whose blocks are the whole
  arrays, so the one-entry output array ends holding the body's scalar of the five input arrays as the region finds them.
-/
import proofs.«126511_j10892037063168_2_alg».proof.Proof.Gen.KernelIdeal.Launch
import proofs.«126511_j10892037063168_2_alg».proof.Proof.Gen.KernelIdeal.Skeleton
import proofs.«126511_j10892037063168_2_alg».proof.Proof.Gen.KernelIdeal.Points
import proofs.«126511_j10892037063168_2_alg».proof.Proof.R1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

theorem hz2 : (![0, 0] : Fin 2 → Nat) = fun _ => 0 := funext fun a => by fin_cases a <;> rfl

/-- The scalar the region computes, of the five input arrays at region entry. -/
def res1 (c : Dev nD) : S1x1.Idx → Elt F .f32 :=
  loss1 (V c main_v2) (V c main_arg2) (V c main_v3) (V c main_v4) (V c main_v5)

/-- At the one grid point every window's block index is zero on every axis. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Each input block is the whole array. -/
theorem iblk1_0 (c : Dev nD) (t : Fin cfg1.N) : iblk1 V c 0 t = V c main_v2 := by
  obtain ⟨e0, e1, -⟩ := idx_facts1 t
  funext j
  show V c main_v2 (((cfg1.win 0).blk t).view.emb j) = V c main_v2 j
  refine congrArg _ (funext fun a => Fin.ext ?_)
  match a with
  | ⟨0, _⟩ => show win1_0.index t (0 : Fin 2) * 512 + 1 * (j 0).val = (j 0).val; omega
  | ⟨1, _⟩ => show win1_0.index t (1 : Fin 2) * 768 + 1 * (j 1).val = (j 1).val; omega
theorem iblk1_1 (c : Dev nD) (t : Fin cfg1.N) : iblk1 V c 1 t = V c main_arg2 := by
  obtain ⟨-, -, e0, e1, -⟩ := idx_facts1 t
  funext j
  show V c main_arg2 (((cfg1.win 1).blk t).view.emb j) = V c main_arg2 j
  refine congrArg _ (funext fun a => Fin.ext ?_)
  match a with
  | ⟨0, _⟩ => show win1_1.index t (0 : Fin 2) * 512 + 1 * (j 0).val = (j 0).val; omega
  | ⟨1, _⟩ => show win1_1.index t (1 : Fin 2) * 768 + 1 * (j 1).val = (j 1).val; omega
theorem iblk1_2 (c : Dev nD) (t : Fin cfg1.N) : iblk1 V c 2 t = V c main_v3 := by
  obtain ⟨-, -, -, -, e0, e1, -⟩ := idx_facts1 t
  funext j
  show V c main_v3 (((cfg1.win 2).blk t).view.emb j) = V c main_v3 j
  refine congrArg _ (funext fun a => Fin.ext ?_)
  match a with
  | ⟨0, _⟩ => show win1_2.index t (0 : Fin 2) * 512 + 1 * (j 0).val = (j 0).val; omega
  | ⟨1, _⟩ => show win1_2.index t (1 : Fin 2) * 1 + 1 * (j 1).val = (j 1).val; omega
theorem iblk1_3 (c : Dev nD) (t : Fin cfg1.N) : iblk1 V c 3 t = V c main_v4 := by
  obtain ⟨-, -, -, -, -, -, e0, e1, -⟩ := idx_facts1 t
  funext j
  show V c main_v4 (((cfg1.win 3).blk t).view.emb j) = V c main_v4 j
  refine congrArg _ (funext fun a => Fin.ext ?_)
  match a with
  | ⟨0, _⟩ => show win1_3.index t (0 : Fin 2) * 1 + 1 * (j 0).val = (j 0).val; omega
  | ⟨1, _⟩ => show win1_3.index t (1 : Fin 2) * 512 + 1 * (j 1).val = (j 1).val; omega
theorem iblk1_4 (c : Dev nD) (t : Fin cfg1.N) : iblk1 V c 4 t = V c main_v5 := by
  obtain ⟨-, -, -, -, -, -, -, -, e0, e1, -⟩ := idx_facts1 t
  funext j
  show V c main_v5 (((cfg1.win 4).blk t).view.emb j) = V c main_v5 j
  refine congrArg _ (funext fun a => Fin.ext ?_)
  match a with
  | ⟨0, _⟩ => show win1_4.index t (0 : Fin 2) * 1 + 1 * (j 0).val = (j 0).val; omega
  | ⟨1, _⟩ => show win1_4.index t (1 : Fin 2) * 1 + 1 * (j 1).val = (j 1).val; omega

/-- What the point writes back is the block of `res1`. -/
theorem flushed1_eq (c : Dev nD) (t : Fin cfg1.N) :
    (dat1 V c).flushed 5 t = ((cfg1.win 5).blk t).view.read (Elt F) (res1 V c) := by
  show (cfg1.win 5).cut (grid1.coords t) ((dat1 V c).after 5 t) = _
  rw [after1_5]
  unfold out1_5
  rw [View.canon_unit_zero hz2]
  simp only [View.ld_unit_zero (S := S512x768) hz2, View.ld_unit_zero (S := S512x1) hz2, View.ld_unit_zero (S := S1x512) hz2, View.ld_unit_zero (S := S1x1) hz2]
  rw [iblk1_0, iblk1_1, iblk1_2, iblk1_3, iblk1_4]
  obtain ⟨-, -, -, -, -, -, -, -, -, -, e0, e1⟩ := idx_facts1 t
  funext j
  show res1 V c j = res1 V c (((cfg1.win 5).blk t).view.emb j)
  refine congrArg _ (funext fun a => Fin.ext ?_)
  match a with
  | ⟨0, _⟩ => show (j 0).val = win1_5.index t (0 : Fin 2) * 1 + 1 * (j 0).val; omega
  | ⟨1, _⟩ => show (j 1).val = win1_5.index t (1 : Fin 2) * 1 + 1 * (j 1).val; omega

/-- The one point's block covers the one-entry array. -/
theorem cover1 (i : S1x1.Idx) : ∃ t : Fin cfg1.N, (cfg1.win 5).flush t = true ∧ i ∈ ((cfg1.win 5).blk t).view.set := by
  refine ⟨t1_0, flush1_5 t1_0, ?_⟩
  show i ∈ ((View.whole main_v6).slice (win1_5.rect t1_0)).set
  rw [View.set_slice_whole, Rect.mem_set_unit]
  obtain ⟨-, -, -, -, -, -, -, -, -, -, e0, e1⟩ := idx_facts1 t1_0
  intro a
  match a with
  | ⟨0, _⟩ => show win1_5.index t1_0 (0 : Fin 2) * 1 ≤ (i 0).val ∧ (i 0).val < win1_5.index t1_0 (0 : Fin 2) * 1 + 1; have h0 : (i 0).val < 1 := (i 0).isLt; omega
  | ⟨1, _⟩ => show win1_5.index t1_0 (1 : Fin 2) * 1 ≤ (i 1).val ∧ (i 1).val < win1_5.index t1_0 (1 : Fin 2) * 1 + 1; have h1 : (i 1).val < 1 := (i 1).isLt; omega

/-- The output array after the region. -/
theorem final1 (c : Dev nD) : (dat1 V c).arrAt 5 cfg1.N = res1 V c :=
  (dat1 V c).arrAt_eq_of_cover 5 (res1 V c) (fun t _ => flushed1_eq V c t) cover1

end Cert.KernelIdeal.Fr

end
-- ==== Proof.KValA.lean ====
/-
  The host reshapes and the first region's input blocks read at an index. A reshape keeps the row-major position;
  object `b`'s mask block at step `k` is rows (b, ·) and columns 1024 k .. 1024 k + 1023 of the mask array, its
  point block the rows 4096 b + 1024 k .. of the point features.
-/
import proofs.«126511_j10892037063168_2_alg».proof.Proof.Gen.KernelIdeal.Launch
import proofs.«126511_j10892037063168_2_alg».proof.Proof.Gen.KernelIdeal.Skeleton
import proofs.«126511_j10892037063168_2_alg».proof.Proof.Gen.KernelIdeal.Points
import proofs.«126511_j10892037063168_2_alg».proof.Proof.RunFr
import proofs.«126511_j10892037063168_2_alg».proof.Proof.Val0b
import proofs.«126511_j10892037063168_2_alg».proof.Proof.Val1
import Idealize.ShloMosaic.Lib.StableHlo.Run
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable (m : (ℓ : Loc nD τ sig) → Buf (Elt F) ℓ) (ρ : Dev nD → PrngReg)

/-! ## What each buffer holds at the regions' entries -/

theorem V1_arg3 (c : Dev nD) : V1 m ρ c main_arg3 = m ((c : Thread nD τ).loc main_arg3) :=
  (StableHlo.after_of_writes_sub hostOps0 _ hostOps0_writes (by decide)).trans rfl

theorem V1_v0 (c : Dev nD) :
    V1 m ρ c main_v0 = shapeCast S16x4096x768 (m ((c : Thread nD τ).loc main_arg0)) shapeCasts_S65536x768_S16x4096x768 := by
  show StableHlo.after hostOps0 (W0 m ρ c) (Proc.devRef .tc main_v0) = _
  after_results
  rfl

theorem V3_v2 (c : Dev nD) :
    V3 m ρ c main_v2 = shapeCast S512x768 (W2 m ρ c (Proc.devRef .tc main_v1_0)) shapeCasts_S16x32x768_S512x768 := by
  show StableHlo.after hostOps1 (W2 m ρ c) (Proc.devRef .tc main_v2) = _
  after_results
  rfl
theorem V3_v3 (c : Dev nD) :
    V3 m ρ c main_v3 = shapeCast S512x1 (W2 m ρ c (Proc.devRef .tc main_v1_1)) shapeCasts_S16x32x1_S512x1 := by
  show StableHlo.after hostOps1 (W2 m ρ c) (Proc.devRef .tc main_v3) = _
  after_results
  rfl
theorem V3_v4 (c : Dev nD) :
    V3 m ρ c main_v4 = shapeCast S1x512 (shapeCast S512x1 (W2 m ρ c (Proc.devRef .tc main_v1_1)) shapeCasts_S16x32x1_S512x1) shapeCasts_S512x1_S1x512 := by
  show StableHlo.after hostOps1 (W2 m ρ c) (Proc.devRef .tc main_v4) = _
  after_results
  rfl
theorem V3_v5 (c : Dev nD) :
    V3 m ρ c main_v5 = shapeCast S1x1 (m ((c : Thread nD τ).loc main_arg4)) shapeCasts_S1_S1x1 := by
  have h4 : W2 m ρ c (Proc.devRef .tc main_arg4) = m ((c : Thread nD τ).loc main_arg4) :=
    (W2_of_ne m ρ c main_arg4 (by decide)).trans ((StableHlo.after_of_writes_sub hostOps0 _ hostOps0_writes (by decide)).trans rfl)
  rw [← h4]
  show StableHlo.after hostOps1 (W2 m ρ c) (Proc.devRef .tc main_v5) = _
  after_results
  rfl
theorem V3_arg2 (c : Dev nD) : V3 m ρ c main_arg2 = m ((c : Thread nD τ).loc main_arg2) :=
  (StableHlo.after_of_writes_sub hostOps1 _ hostOps1_writes (by decide)).trans
    ((W2_of_ne m ρ c main_arg2 (by decide)).trans ((StableHlo.after_of_writes_sub hostOps0 _ hostOps0_writes (by decide)).trans rfl))

theorem W5_v7 (c : Dev nD) :
    W5 m ρ c (Proc.devRef .tc main_v7) = shapeCast S_ (W4 m ρ c (Proc.devRef .tc main_v6)) shapeCasts_S1x1_S_ := by
  show StableHlo.after hostOps2 (W4 m ρ c) (Proc.devRef .tc main_v7) = _
  after_results
  rfl

/-- The regions' output arrays, by the closed forms. -/
theorem W2_v1_0 (c : Dev nD) : W2 m ρ c (Proc.devRef .tc main_v1_0) = G2 (V1 m ρ) c :=
  (W2_arr m ρ c 2).trans (final0_2 (V1 m ρ) c)
theorem W2_v1_1 (c : Dev nD) : W2 m ρ c (Proc.devRef .tc main_v1_1) = G3 (V1 m ρ) c :=
  (W2_arr m ρ c 3).trans (final0_3 (V1 m ρ) c)
theorem W4_v6 (c : Dev nD) : W4 m ρ c (Proc.devRef .tc main_v6) = res1 (V3 m ρ) c :=
  (W4_arr m ρ c 5).trans (final1 (V3 m ρ) c)

/-! ## The first region's input blocks at an index -/

/-- The input windows' block index at a grid position: (object, 0, step) for the masks, (object, step, 0) for the points. -/
theorem idx_in0 : ∀ t : Fin cfg0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = t.val % 4 ∧ win0_1.index t (2 : Fin 3) = 0 :=
  (by decide +kernel : ∀ t : Fin grid0.N, _)

theorem mblk_at (c : Dev nD) (b : Fin 16) (k : Fin 4) (r : Fin 32) (p : Fin 1024) :
    mblk (V1 m ρ) c b k.val (ix3 (0 : Fin 1) r p)
      = m ((c : Thread nD τ).loc main_arg3) (ix3 b r (⟨1024 * k.val + p.val, by have := k.isLt; have := p.isLt; omega⟩ : Fin 4096)) := by
  have hk := k.isLt
  have hb := b.isLt
  have hv := ptn_val b k.val k.isLt
  obtain ⟨e0, e1, e2, -⟩ := idx_in0 (ptn b k.val)
  unfold mblk iblk0
  show V1 m ρ c main_arg3 (((cfg0.win 0).blk (ptn b k.val)).view.emb (ix3 (0 : Fin 1) r p)) = _
  rw [V1_arg3]
  refine congrArg _ (funext fun a => Fin.ext ?_)
  match a with
  | ⟨0, _⟩ => show win0_0.index (ptn b k.val) (0 : Fin 3) * 1 + 1 * (0 : ℕ) = b.val; omega
  | ⟨1, _⟩ => show win0_0.index (ptn b k.val) (1 : Fin 3) * 32 + 1 * r.val = r.val; omega
  | ⟨2, _⟩ => show win0_0.index (ptn b k.val) (2 : Fin 3) * 1024 + 1 * p.val = 1024 * k.val + p.val; omega

theorem pblk_at (c : Dev nD) (b : Fin 16) (k : Fin 4) (p : Fin 1024) (d : Fin 768) :
    pblk (V1 m ρ) c b k.val (ix3 (0 : Fin 1) p d)
      = m ((c : Thread nD τ).loc main_arg0) (ix2 (⟨b.val * 4096 + (1024 * k.val + p.val), by have := k.isLt; have := p.isLt; have := b.isLt; omega⟩ : Fin 65536) d) := by
  have hk := k.isLt
  have hb := b.isLt
  have hp := p.isLt
  have hd := d.isLt
  have hv := ptn_val b k.val k.isLt
  obtain ⟨-, -, -, e0, e1, e2⟩ := idx_in0 (ptn b k.val)
  unfold pblk iblk0
  show V1 m ρ c main_v0 (((cfg0.win 1).blk (ptn b k.val)).view.emb (ix3 (0 : Fin 1) p d)) = _
  rw [V1_v0]
  refine shapeCast_apply _ _ _ _ ?_
  show ((⟨2, ![65536, 768]⟩ : Shape).rowMajor (ix2 (⟨b.val * 4096 + (1024 * k.val + p.val), by omega⟩ : Fin 65536) d)).val
    = ((⟨3, ![16, 4096, 768]⟩ : Shape).rowMajor (((cfg0.win 1).blk (ptn b k.val)).view.emb (ix3 (0 : Fin 1) p d))).val
  rw [Shape.rowMajor_val_two, Shape.rowMajor_val_three]
  show (b.val * 4096 + (1024 * k.val + p.val)) * 768 + d.val
    = ((win0_1.index (ptn b k.val) (0 : Fin 3) * 1 + 1 * (0 : ℕ)) * 4096 + (win0_1.index (ptn b k.val) (1 : Fin 3) * 1024 + 1 * p.val)) * 768
      + (win0_1.index (ptn b k.val) (2 : Fin 3) * 768 + 1 * d.val)
  rw [e0, e1, e2, hv]
  have h1 : (4 * b.val + k.val) / 4 = b.val := by omega
  have h2 : (4 * b.val + k.val) % 4 = k.val := by omega
  rw [h1, h2]
  ring

end Cert.KernelIdeal.Fr

end
-- ==== Proof.Spec.lean ====
/-
  The mathematics both programs compute, as curried functions over the extended reals with the
  ideal instance's own operations (its division, exponential, logarithm; the order's maximum and
  comparison).  Arrays are functions of their coordinates:
    mask : Fin 16 → Fin 32 → Fin 4096 → EReal      (mask_pts[b, m, p])
    net  : Fin 65536 → Fin 768 → EReal             (net_out[b*4096 + p, d])
    embs : Fin 512 → Fin 768 → EReal               (mask_embs[i, d])
    scale : EReal                                  (logit_scale[0])
  A flat mask index j : Fin 512 is j = b*32 + m.
-/
import Idealize.ShloMosaic.PureOps.Ideal

noncomputable section

namespace Cert.Spec

open Idealize.ShloMosaic
open scoped BigOperators

/-! ### Index arithmetic -/

/-- The object b of the flat mask index j = b*32 + m. -/
def bOf (j : Fin 512) : Fin 16 := ⟨j.val / 32, by have := j.isLt; omega⟩
/-- The mask m within its object of the flat mask index j = b*32 + m. -/
def mOf (j : Fin 512) : Fin 32 := ⟨j.val % 32, by omega⟩
/-- The row b*4096 + p of net_out holding point p of object b. -/
def row (b : Fin 16) (p : Fin 4096) : Fin 65536 := ⟨b.val * 4096 + p.val, by have := b.isLt; have := p.isLt; omega⟩

/-! ### The literal words -/

/-- The f32 nearest 1e-12 (word 0x2B8CBCCC). -/
def eps : EReal := Ideal.ofBits .f32 0x2B8CBCCC#32

theorem ofBits_zero : Ideal.ofBits .f32 0x00000000#32 = 0 := by simp [Ideal.ofBits, Ideal.ieee]
theorem ofBits_one : Ideal.ofBits .f32 0x3F800000#32 = 1 := by
  simp [Ideal.ofBits, Ideal.ieee, -EReal.coe_mul]; norm_num
/-- The f32 word of 2.0 (word 0x40000000), kept as its word: both programs divide by the same word. -/
def two : EReal := Ideal.ofBits .f32 0x40000000#32
theorem two_eq_coe : two = ((2 : ℝ) : EReal) := by
  unfold two; simp [Ideal.ofBits, Ideal.ieee, -EReal.coe_mul]; norm_num
theorem ofBits_ninf : Ideal.ofBits .f32 0xFF800000#32 = ⊥ := by simp [Ideal.ofBits, Ideal.ieee]

/-! ### Pooling and logits -/

/-- npts[j] = Σ_p mask[b, m, p]. -/
def npts (mask : Fin 16 → Fin 32 → Fin 4096 → EReal) (j : Fin 512) : EReal :=
  ∑ p : Fin 4096, mask (bOf j) (mOf j) p

/-- sum_feats[j, d] = Σ_p mask[b, m, p] * net[b*4096 + p, d]. -/
def sumF (mask : Fin 16 → Fin 32 → Fin 4096 → EReal) (net : Fin 65536 → Fin 768 → EReal)
    (j : Fin 512) (d : Fin 768) : EReal :=
  ∑ p : Fin 4096, mask (bOf j) (mOf j) p * net (row (bOf j) p) d

/-- avg[j, d] = sum_feats[j, d] / (npts[j] + eps). -/
def avg (mask : Fin 16 → Fin 32 → Fin 4096 → EReal) (net : Fin 65536 → Fin 768 → EReal)
    (j : Fin 512) (d : Fin 768) : EReal :=
  Ideal.div (sumF mask net j d) (npts mask j + eps)

/-- logits[i, j] = (Σ_d embs[i, d] * avg[j, d]) * exp scale. -/
def logits (mask : Fin 16 → Fin 32 → Fin 4096 → EReal) (net : Fin 65536 → Fin 768 → EReal)
    (embs : Fin 512 → Fin 768 → EReal) (scale : EReal) (i j : Fin 512) : EReal :=
  (∑ d : Fin 768, embs i d * avg mask net j d) * Ideal.exp scale

/-! ### Log-softmax, two ways -/

/-- The maximum of row i (the lattice's supremum: ⊥ for no element). -/
def rowMax (x : Fin 512 → Fin 512 → EReal) (i : Fin 512) : EReal := Finset.univ.sup fun j => x i j
/-- The maximum of column j. -/
def colMax (x : Fin 512 → Fin 512 → EReal) (j : Fin 512) : EReal := Finset.univ.sup fun i => x i j

/-- Σ_j' exp (x[i, j'] - rowMax i). -/
def rowSumExp (x : Fin 512 → Fin 512 → EReal) (i : Fin 512) : EReal :=
  ∑ j' : Fin 512, Ideal.exp (x i j' - rowMax x i)
/-- Σ_i' exp (x[i', j] - colMax j). -/
def colSumExp (x : Fin 512 → Fin 512 → EReal) (j : Fin 512) : EReal :=
  ∑ i' : Fin 512, Ideal.exp (x i' j - colMax x j)

/-- Along rows, shifted first: (x - m) - log Σ exp (x - m). -/
def lsmRowRef (x : Fin 512 → Fin 512 → EReal) (i j : Fin 512) : EReal :=
  (x i j - rowMax x i) - Ideal.log (rowSumExp x i)
/-- Along columns, shifted first. -/
def lsmColRef (x : Fin 512 → Fin 512 → EReal) (i j : Fin 512) : EReal :=
  (x i j - colMax x j) - Ideal.log (colSumExp x j)
/-- Along rows, the log-sum-exp subtracted whole: x - (m + log Σ exp (x - m)). -/
def lsmRowKer (x : Fin 512 → Fin 512 → EReal) (i j : Fin 512) : EReal :=
  x i j - (rowMax x i + Ideal.log (rowSumExp x i))
/-- Along columns, the log-sum-exp subtracted whole. -/
def lsmColKer (x : Fin 512 → Fin 512 → EReal) (i j : Fin 512) : EReal :=
  x i j - (colMax x j + Ideal.log (colSumExp x j))

/-- The 0/1 value of (row index = column index). -/
def delta (i j : Fin 512) : EReal := if i = j then 1 else 0

/-! ### The per-mask losses -/

/-- texts_loss[i]: the negated diagonal of the row log-softmax where npts[i] > 0, else 0. -/
def textsRef (x : Fin 512 → Fin 512 → EReal) (n : Fin 512 → EReal) (i : Fin 512) : EReal :=
  if 0 < n i then -(lsmRowRef x i i) else 0
/-- pts_loss[i]: the negated diagonal of the column log-softmax where npts[i] > 0, else 0. -/
def ptsRef (x : Fin 512 → Fin 512 → EReal) (n : Fin 512 → EReal) (i : Fin 512) : EReal :=
  if 0 < n i then -(lsmColRef x i i) else 0
/-- The same, the diagonal taken as Σ_j logsm[i, j] * delta[i, j] and negated as 0 - ·. -/
def textsKer (x : Fin 512 → Fin 512 → EReal) (n : Fin 512 → EReal) (i : Fin 512) : EReal :=
  if 0 < n i then 0 - ∑ j : Fin 512, lsmRowKer x i j * delta i j else 0
/-- The same for columns: Σ_i logsm[i, j] * delta[i, j]. -/
def ptsKer (x : Fin 512 → Fin 512 → EReal) (n : Fin 512 → EReal) (j : Fin 512) : EReal :=
  if 0 < n j then 0 - ∑ i : Fin 512, lsmColKer x i j * delta i j else 0

/-! ### The mean over the positive entries -/

/-- Σ_i (l[i] if l[i] > 0 else 0). -/
def nzSum (l : Fin 512 → EReal) : EReal := ∑ i : Fin 512, if 0 < l i then l i else 0
/-- How many entries are positive, a natural number. -/
def cntNat (l : Fin 512 → EReal) : ℕ := (Finset.univ.filter fun i : Fin 512 => 0 < l i).card
/-- How many entries are positive, as a sum of 0/1 values. -/
def cntF (l : Fin 512 → EReal) : EReal := ∑ i : Fin 512, (if 0 < l i then (1 : EReal) else 0)

/-- The integer count, converted for the division. -/
def nzmeanRef (l : Fin 512 → EReal) : EReal :=
  if 0 < cntNat l then Ideal.div (nzSum l) (((max (cntNat l) 1 : ℕ) : ℝ) : EReal) else 0
/-- The 0/1-sum count. -/
def nzmeanKer (l : Fin 512 → EReal) : EReal :=
  if 0 < cntF l then Ideal.div (nzSum l) (max (cntF l) 1) else 0

/-! ### The two final scalars -/

/-- The reference's shape, as a function of the logits x and the counts n. -/
def lossRef (x : Fin 512 → Fin 512 → EReal) (n : Fin 512 → EReal) : EReal :=
  Ideal.div (nzmeanRef (textsRef x n) + nzmeanRef (ptsRef x n)) two
/-- The kernel's shape, as a function of the logits x and the counts n. -/
def lossKer (x : Fin 512 → Fin 512 → EReal) (n : Fin 512 → EReal) : EReal :=
  Ideal.div (nzmeanKer (textsKer x n) + nzmeanKer (ptsKer x n)) two

end Cert.Spec

end
-- ==== Proof.Pay0.lean ====
/-
  The first kernel's payloads read at an index, at the ideal values: the zero fills, the masked
  segment sum accumulated over point tiles (a matrix product onto a zero accumulator, then an
  addition), the mask count accumulated likewise (a lane sum), and the final average
  (the accumulated sum divided by the accumulated count plus a small constant).
-/
import proofs.«126511_j10892037063168_2_alg».proof.Proof.Gen.KernelIdeal.Skeleton
import proofs.«126511_j10892037063168_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-! ### Layout operations on a column, read at coordinates -/

/-- A vector of length a cast to a column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The zero fills -/

/-- The accumulator of sums is filled with zero. -/
theorem k0_pay1_apply (r : Fin 32) (d : Fin 768) : k0_pay1 (F := Ideal) (ix2 r d) = 0 := by
  unfold k0_pay1
  rw [shapeCast_self]
  exact Ideal.ofBits_zero_f32

/-- The accumulator of counts is filled with zero. -/
theorem k0_pay2_apply (r : Fin 32) : k0_pay2 (F := Ideal) (ix2 r (0 : Fin 1)) = 0 := by
  unfold k0_pay2
  rw [shapeCast_self]
  exact Ideal.ofBits_zero_f32

/-! ### The count accumulated: a lane sum -/

/-- The sum along the second axis of a [32, 1024] array, read at row r. -/
theorem laneSum_apply (x : FVec Ideal S32x1024 .f32) (hφ : FKind.Formats .f32)
    (hacc : (0x00000000#32 : BitVec 32) = 0x00000000#32) (r : Fin 32) :
    multiReduction (F := Ideal) .add [1] S32 x 0x00000000#32 reduces_S32x1024_S32 hφ hacc (ix1 r)
      = ∑ p : Fin 1024, x (ix2 r p) := by
  refine (Ideal.multiReduction_add_single x 0x00000000#32 reduces_S32x1024_S32 hφ hacc (ix1 r)).trans ?_
  refine Finset.sum_congr rfl fun p _ => congrArg x ?_
  funext a
  match a with
  | ⟨0, _⟩ => rfl
  | ⟨1, _⟩ => rfl

/-- The count: what was accumulated plus the sum of the mask tile's row. -/
theorem k0_pay5_apply (v3 : Vec Ideal S1x32x1024 .f32) (v15 : Vec Ideal S32x1 .f32) (r : Fin 32) :
    k0_pay5 v3 v15 (ix2 r (0 : Fin 1))
      = v15 (ix2 r (0 : Fin 1)) + ∑ p : Fin 1024, v3 (ix3 (0 : Fin 1) r p) := by
  unfold k0_pay5 k0_pay3
  rw [shapeCast_self, addf_apply, shapeCast_a_a1_apply]
  refine congrArg (v15 (ix2 r (0 : Fin 1)) + ·) ?_
  refine (laneSum_apply _ _ _ r).trans ?_
  refine Finset.sum_congr rfl fun p _ => ?_
  exact shapeCast_1ab_ab_apply v3 _ r p

/-! ### The sum accumulated: a matrix product onto zero -/

/-- The left operand's row coordinate is the output's row. -/
theorem lhsIdx_0 (i : S32x768.Idx) (q : dot_S32x1024_S1024x768_S32x768_1_0_0_1_n_n.contr.Idx) :
    (dot_S32x1024_S1024x768_S32x768_1_0_0_1_n_n.lhsIdx i q 0).val = (i 0).val := by
  unfold DotDims.lhsIdx
  rw [dif_neg (show ¬(0 : Fin S32x1024.rank) ∈ dot_S32x1024_S1024x768_S32x768_1_0_0_1_n_n.lhsBatch by decide),
    dif_pos (show (0 : Fin S32x1024.rank) ∈ dot_S32x1024_S1024x768_S32x768_1_0_0_1_n_n.lhsNonContracting by decide)]
  rfl

/-- The left operand's column coordinate is the contraction coordinate. -/
theorem lhsIdx_1 (i : S32x768.Idx) (q : dot_S32x1024_S1024x768_S32x768_1_0_0_1_n_n.contr.Idx) :
    (dot_S32x1024_S1024x768_S32x768_1_0_0_1_n_n.lhsIdx i q 1).val = (q ⟨0, by decide⟩).val :=
  dot_S32x1024_S1024x768_S32x768_1_0_0_1_n_n.lhsIdx_val_of_single rfl i q

/-- The right operand's row coordinate is the contraction coordinate. -/
theorem rhsIdx_0 (i : S32x768.Idx) (q : dot_S32x1024_S1024x768_S32x768_1_0_0_1_n_n.contr.Idx) :
    (dot_S32x1024_S1024x768_S32x768_1_0_0_1_n_n.rhsIdx i q 0).val = (q ⟨0, by decide⟩).val :=
  dot_S32x1024_S1024x768_S32x768_1_0_0_1_n_n.rhsIdx_val_of_single rfl i q

/-- The right operand's column coordinate is the output's column. -/
theorem rhsIdx_1 (i : S32x768.Idx) (q : dot_S32x1024_S1024x768_S32x768_1_0_0_1_n_n.contr.Idx) :
    (dot_S32x1024_S1024x768_S32x768_1_0_0_1_n_n.rhsIdx i q 1).val = (i 1).val := by
  unfold DotDims.rhsIdx
  rw [dif_neg (show ¬(1 : Fin S1024x768.rank) ∈ dot_S32x1024_S1024x768_S32x768_1_0_0_1_n_n.rhsBatch by decide),
    dif_pos (show (1 : Fin S1024x768.rank) ∈ dot_S32x1024_S1024x768_S32x768_1_0_0_1_n_n.rhsNonContracting by decide)]
  rfl

/-- The product of a [32, 1024] by a [1024, 768] array onto the zero accumulator, at (r, d). -/
theorem matmul_zero_apply (x : FVec Ideal S32x1024 .bf16) (y : FVec Ideal S1024x768 .bf16)
    (r : Fin 32) (d : Fin 768) :
    matmul dot_S32x1024_S1024x768_S32x768_1_0_0_1_n_n none x y (constant (F := Ideal) S32x768 .f32 0x00000000#32) (ix2 r d)
      = ∑ p : Fin 1024, x (ix2 r p) * y (ix2 p d) := by
  simp only [matmul]
  rw [Ideal.matmul_constant_zero_apply,
    ← Equiv.sum_comp (contrEquiv1 dot_S32x1024_S1024x768_S32x768_1_0_0_1_n_n 1024 rfl rfl).symm]
  refine Finset.sum_congr rfl fun p _ => ?_
  have hk := contrEquiv1_symm_val dot_S32x1024_S1024x768_S32x768_1_0_0_1_n_n 1024 rfl rfl p
  have el : dot_S32x1024_S1024x768_S32x768_1_0_0_1_n_n.lhsIdx (ix2 r d) ((contrEquiv1 dot_S32x1024_S1024x768_S32x768_1_0_0_1_n_n 1024 rfl rfl).symm p) = ix2 r p :=
    funext fun a => Fin.ext (by
      match a with
      | ⟨0, _⟩ => exact lhsIdx_0 _ _
      | ⟨1, _⟩ => exact (lhsIdx_1 _ _).trans hk)
  have er : dot_S32x1024_S1024x768_S32x768_1_0_0_1_n_n.rhsIdx (ix2 r d) ((contrEquiv1 dot_S32x1024_S1024x768_S32x768_1_0_0_1_n_n 1024 rfl rfl).symm p) = ix2 p d :=
    funext fun a => Fin.ext (by
      match a with
      | ⟨0, _⟩ => exact (rhsIdx_0 _ _).trans hk
      | ⟨1, _⟩ => exact rhsIdx_1 _ _)
  rw [el, er]

/-- The sum: what was accumulated plus the mask tile's row times the feature tile's column. -/
theorem k0_pay4_apply (v3 : Vec Ideal S1x32x1024 .f32) (v5 : Vec Ideal S1x1024x768 .f32)
    (v9 : Vec Ideal S32x768 .f32) (r : Fin 32) (d : Fin 768) :
    k0_pay4 v3 v5 v9 (ix2 r d)
      = v9 (ix2 r d) + ∑ p : Fin 1024, v3 (ix3 (0 : Fin 1) r p) * v5 (ix3 (0 : Fin 1) p d) := by
  unfold k0_pay4 k0_pay3
  rw [shapeCast_self, addf_apply]
  refine congrArg (v9 (ix2 r d) + ·) ?_
  refine (matmul_zero_apply _ _ r d).trans ?_
  refine Finset.sum_congr rfl fun p _ => ?_
  rw [truncf_apply, truncf_apply, shapeCast_1ab_ab_apply, shapeCast_1ab_ab_apply]

/-! ### The final average and the count written out -/

/-- The average: the accumulated sum divided by the accumulated count plus the small constant. -/
theorem k0_pay6_apply (v25 : Vec Ideal S32x1 .f32) (v26 : Vec Ideal S32x768 .f32) (r : Fin 32) (d : Fin 768) :
    k0_pay6 v25 v26 (ix3 (0 : Fin 1) r d) = Ideal.div (v26 (ix2 r d)) (v25 (ix2 r (0 : Fin 1)) + Cert.Spec.eps) := by
  unfold k0_pay6
  rw [shapeCast_ab_1ab_apply, divf_apply, broadcastTo_a1_ab_apply, addf_apply]
  rfl

/-- The count is written out unchanged. -/
theorem k0_pay7_apply (v25 : Vec Ideal S32x1 .f32) (r : Fin 32) :
    k0_pay7 v25 (ix3 (0 : Fin 1) r (0 : Fin 1)) = v25 (ix2 r (0 : Fin 1)) := by
  unfold k0_pay7
  rw [shapeCast_ab_1ab_apply]

end Cert.KernelIdeal.Pay

end
-- ==== Proof.LibBlocks.lean ====
/-
  A sum over the index type `Fin (G * R)` taken in `G` consecutive blocks of `R` indices each.
-/
import Mathlib.Algebra.BigOperators.Fin
import Mathlib.Logic.Equiv.Fin.Basic

namespace Cert.Lib

open Finset BigOperators

/-- The position `R * t + r` of the `r`-th index of the `t`-th block of length `R` lies below `G * R`. -/
theorem block_index_lt {G R : ℕ} (t : Fin G) (r : Fin R) : R * t.val + r.val < G * R := by
  have ht : t.val + 1 ≤ G := t.isLt
  have hr : r.val < R := r.isLt
  calc R * t.val + r.val < R * t.val + R := Nat.add_lt_add_left hr _
    _ = R * (t.val + 1) := by rw [Nat.mul_succ]
    _ ≤ R * G := Nat.mul_le_mul_left R ht
    _ = G * R := Nat.mul_comm R G

/-- A sum over `Fin (G * R)` is the sum over the `G` blocks of the sums over the `R` consecutive indices
`R * t + 0, …, R * t + (R - 1)` of block `t`. Valid in every additive commutative monoid. -/
theorem sum_univ_blocks {M : Type*} [AddCommMonoid M] (G R : ℕ) (f : Fin (G * R) → M) :
    ∑ i, f i = ∑ t : Fin G, ∑ r : Fin R, f ⟨R * t.val + r.val, block_index_lt t r⟩ := by
  rw [← Fintype.sum_prod_type' (f := fun (t : Fin G) (r : Fin R) => f ⟨R * t.val + r.val, block_index_lt t r⟩)]
  rw [← Equiv.sum_comp (finProdFinEquiv (m := G) (n := R)) f]
  refine Finset.sum_congr rfl ?_
  rintro ⟨t, r⟩ -
  congr 1
  apply Fin.ext
  simp [finProdFinEquiv, Nat.add_comm]

end Cert.Lib
-- ==== Proof.Acc.lean ====
/-
  The first kernel's accumulation for one object, read at an index: after the four point tiles the
  feature accumulator holds the masked sum over all 4096 points and the count accumulator the mask
  row's sum, so the average written out is Spec's avg and the count Spec's npts.
-/
import proofs.«126511_j10892037063168_2_alg».proof.Proof.AccDef
import proofs.«126511_j10892037063168_2_alg».proof.Proof.Pay0
import proofs.«126511_j10892037063168_2_alg».proof.Proof.LibBlocks

noncomputable section

namespace Cert.KernelIdeal.Pay

open Cert.KernelIdeal Cert.KernelIdeal.Gen Cert.KernelIdeal.Fr Idealize.ShloMosaic Idealize.ShloMosaic.ValueIdx
open scoped BigOperators

/-- Point p of tile k is point 1024 k + p of the object. -/
theorem pt_lt (k : Fin 4) (p : Fin 1024) : 1024 * k.val + p.val < 4096 := by
  have := k.isLt; have := p.isLt; omega
/-- Mask r of object b is the flat mask 32 b + r. -/
theorem jOf_lt (b : Fin 16) (r : Fin 32) : 32 * b.val + r.val < 512 := by
  have := b.isLt; have := r.isLt; omega

/-- Four consecutive tiles of 1024 points, added in order from zero, make the sum over the 4096 points. -/
theorem sum_four_blocks (f : Fin 4096 → EReal) :
    (((0 + ∑ p : Fin 1024, f ⟨1024 * (0 : Fin 4).val + p.val, pt_lt 0 p⟩)
        + ∑ p : Fin 1024, f ⟨1024 * (1 : Fin 4).val + p.val, pt_lt 1 p⟩)
        + ∑ p : Fin 1024, f ⟨1024 * (2 : Fin 4).val + p.val, pt_lt 2 p⟩)
        + ∑ p : Fin 1024, f ⟨1024 * (3 : Fin 4).val + p.val, pt_lt 3 p⟩
      = ∑ p : Fin 4096, f p := by
  rw [zero_add]
  have h := Cert.Lib.sum_univ_blocks 4 1024 (f : Fin (4 * 1024) → EReal)
  rw [Fin.sum_univ_four] at h
  exact h.symm

variable (M : ℕ → Vec Ideal S1x32x1024 .f32) (P : ℕ → Vec Ideal S1x1024x768 .f32)

/-- The feature accumulator after the fourth tile, at (r, d). -/
theorem aS3_apply (r : Fin 32) (d : Fin 768) :
    aS M P 3 (ix2 r d)
      = (((0 + ∑ p : Fin 1024, M 0 (ix3 (0 : Fin 1) r p) * P 0 (ix3 (0 : Fin 1) p d))
          + ∑ p : Fin 1024, M 1 (ix3 (0 : Fin 1) r p) * P 1 (ix3 (0 : Fin 1) p d))
          + ∑ p : Fin 1024, M 2 (ix3 (0 : Fin 1) r p) * P 2 (ix3 (0 : Fin 1) p d))
          + ∑ p : Fin 1024, M 3 (ix3 (0 : Fin 1) r p) * P 3 (ix3 (0 : Fin 1) p d) := by
  have h3 : aS M P 3 = k0_pay4 (M 3) (P 3) (aS M P 2) := rfl
  have h2 : aS M P 2 = k0_pay4 (M 2) (P 2) (aS M P 1) := rfl
  have h1 : aS M P 1 = k0_pay4 (M 1) (P 1) (aS M P 0) := rfl
  have h0 : aS M P 0 = k0_pay4 (M 0) (P 0) (k0_pay1 (F := Ideal)) := rfl
  rw [h3, k0_pay4_apply, h2, k0_pay4_apply, h1, k0_pay4_apply, h0, k0_pay4_apply, k0_pay1_apply]

/-- The count accumulator after the fourth tile, at row r. -/
theorem aN3_apply (r : Fin 32) :
    aN M 3 (ix2 r (0 : Fin 1))
      = (((0 + ∑ p : Fin 1024, M 0 (ix3 (0 : Fin 1) r p))
          + ∑ p : Fin 1024, M 1 (ix3 (0 : Fin 1) r p))
          + ∑ p : Fin 1024, M 2 (ix3 (0 : Fin 1) r p))
          + ∑ p : Fin 1024, M 3 (ix3 (0 : Fin 1) r p) := by
  have h3 : aN M 3 = k0_pay5 (M 3) (aN M 2) := rfl
  have h2 : aN M 2 = k0_pay5 (M 2) (aN M 1) := rfl
  have h1 : aN M 1 = k0_pay5 (M 1) (aN M 0) := rfl
  have h0 : aN M 0 = k0_pay5 (M 0) (k0_pay2 (F := Ideal)) := rfl
  rw [h3, k0_pay5_apply, h2, k0_pay5_apply, h1, k0_pay5_apply, h0, k0_pay5_apply, k0_pay2_apply]

/-- When tile k of the mask and of the points holds points 1024 k … 1024 k + 1023 of object b, the average written out
    after the fourth tile is avg of the flat mask 32 b + r, and the count written out its npts. -/
theorem acc_value (mask : Fin 16 → Fin 32 → Fin 4096 → EReal) (net : Fin 65536 → Fin 768 → EReal) (b : Fin 16)
    (hM : ∀ (k : Fin 4) (r : Fin 32) (p : Fin 1024),
      M k.val (ix3 (0 : Fin 1) r p) = mask b r ⟨1024 * k.val + p.val, pt_lt k p⟩)
    (hP : ∀ (k : Fin 4) (p : Fin 1024) (d : Fin 768),
      P k.val (ix3 (0 : Fin 1) p d) = net (Cert.Spec.row b ⟨1024 * k.val + p.val, pt_lt k p⟩) d)
    (r : Fin 32) (d : Fin 768) :
    k0_pay6 (aN M 3) (aS M P 3) (ix3 (0 : Fin 1) r d) = Cert.Spec.avg mask net ⟨32 * b.val + r.val, jOf_lt b r⟩ d
      ∧ k0_pay7 (aN M 3) (ix3 (0 : Fin 1) r (0 : Fin 1)) = Cert.Spec.npts mask ⟨32 * b.val + r.val, jOf_lt b r⟩ := by
  have hb : Cert.Spec.bOf ⟨32 * b.val + r.val, jOf_lt b r⟩ = b :=
    Fin.ext (by show (32 * b.val + r.val) / 32 = b.val; have := r.isLt; omega)
  have hm : Cert.Spec.mOf ⟨32 * b.val + r.val, jOf_lt b r⟩ = r :=
    Fin.ext (by show (32 * b.val + r.val) % 32 = r.val; have := r.isLt; omega)
  -- the count
  have eN : ∀ k : Fin 4, ∑ p : Fin 1024, M k.val (ix3 (0 : Fin 1) r p)
      = ∑ p : Fin 1024, (fun q => mask b r q) ⟨1024 * k.val + p.val, pt_lt k p⟩ :=
    fun k => Finset.sum_congr rfl fun p _ => hM k r p
  have hN : aN M 3 (ix2 r (0 : Fin 1)) = Cert.Spec.npts mask ⟨32 * b.val + r.val, jOf_lt b r⟩ := by
    have e0 : ∑ p : Fin 1024, M 0 (ix3 (0 : Fin 1) r p) = _ := eN 0
    have e1 : ∑ p : Fin 1024, M 1 (ix3 (0 : Fin 1) r p) = _ := eN 1
    have e2 : ∑ p : Fin 1024, M 2 (ix3 (0 : Fin 1) r p) = _ := eN 2
    have e3 : ∑ p : Fin 1024, M 3 (ix3 (0 : Fin 1) r p) = _ := eN 3
    rw [aN3_apply, e0, e1, e2, e3]
    refine (sum_four_blocks fun q => mask b r q).trans ?_
    unfold Cert.Spec.npts
    rw [hb, hm]
  -- the masked sum
  have eS : ∀ k : Fin 4, ∑ p : Fin 1024, M k.val (ix3 (0 : Fin 1) r p) * P k.val (ix3 (0 : Fin 1) p d)
      = ∑ p : Fin 1024, (fun q => mask b r q * net (Cert.Spec.row b q) d) ⟨1024 * k.val + p.val, pt_lt k p⟩ :=
    fun k => Finset.sum_congr rfl fun p _ => by rw [hM k r p, hP k p d]
  have hS : aS M P 3 (ix2 r d) = Cert.Spec.sumF mask net ⟨32 * b.val + r.val, jOf_lt b r⟩ d := by
    have e0 : ∑ p : Fin 1024, M 0 (ix3 (0 : Fin 1) r p) * P 0 (ix3 (0 : Fin 1) p d) = _ := eS 0
    have e1 : ∑ p : Fin 1024, M 1 (ix3 (0 : Fin 1) r p) * P 1 (ix3 (0 : Fin 1) p d) = _ := eS 1
    have e2 : ∑ p : Fin 1024, M 2 (ix3 (0 : Fin 1) r p) * P 2 (ix3 (0 : Fin 1) p d) = _ := eS 2
    have e3 : ∑ p : Fin 1024, M 3 (ix3 (0 : Fin 1) r p) * P 3 (ix3 (0 : Fin 1) p d) = _ := eS 3
    rw [aS3_apply, e0, e1, e2, e3]
    refine (sum_four_blocks fun q => mask b r q * net (Cert.Spec.row b q) d).trans ?_
    unfold Cert.Spec.sumF
    rw [hb, hm]
  refine ⟨?_, ?_⟩
  · rw [k0_pay6_apply, hS, hN]
    rfl
  · rw [k0_pay7_apply, hN]

end Cert.KernelIdeal.Pay

end
-- ==== Proof.KValB.lean ====
/-
  The kernel's result at the ideal instance, as the specification's loss in the kernel's shape: the pooled
  features are the masked sums over all 4096 points divided by the counts plus the small constant, the logits their
  products with the mask embeddings times the exponential of the scale, and the second region's scalar is the loss of
  those logits and counts.
-/
import proofs.«126511_j10892037063168_2_alg».proof.Proof.Gen.KernelIdeal.Launch
import proofs.«126511_j10892037063168_2_alg».proof.Proof.Gen.KernelIdeal.Skeleton
import proofs.«126511_j10892037063168_2_alg».proof.Proof.Gen.KernelIdeal.Points
import proofs.«126511_j10892037063168_2_alg».proof.Proof.KValA
import proofs.«126511_j10892037063168_2_alg».proof.Proof.Spec
import proofs.«126511_j10892037063168_2_alg».proof.Proof.Acc
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable (m : (ℓ : Loc nD τ sig) → Buf (Elt Ideal) ℓ) (ρ : Dev nD → PrngReg)

/-- The argument arrays, read by coordinates. -/
def maskK (c : Dev nD) : Fin 16 → Fin 32 → Fin 4096 → EReal := fun b r p => m ((c : Thread nD τ).loc main_arg3) (ix3 b r p)
def netK (c : Dev nD) : Fin 65536 → Fin 768 → EReal := fun r d => m ((c : Thread nD τ).loc main_arg0) (ix2 r d)
def embsK (c : Dev nD) : Fin 512 → Fin 768 → EReal := fun i d => m ((c : Thread nD τ).loc main_arg2) (ix2 i d)
def scaleK (c : Dev nD) : EReal := m ((c : Thread nD τ).loc main_arg4) (ix1 (0 : Fin 1))

theorem acc_at (c : Dev nD) (b : Fin 16) (r : Fin 32) (d : Fin 768) :
    k0_pay6 (accN (V1 m ρ) c b 3) (accS (V1 m ρ) c b 3) (ix3 (0 : Fin 1) r d)
      = Cert.Spec.avg (maskK m c) (netK m c) ⟨32 * b.val + r.val, by have := b.isLt; have := r.isLt; omega⟩ d
    ∧ k0_pay7 (accN (V1 m ρ) c b 3) (ix3 (0 : Fin 1) r (0 : Fin 1))
      = Cert.Spec.npts (maskK m c) ⟨32 * b.val + r.val, by have := b.isLt; have := r.isLt; omega⟩ := by
  unfold accS accN
  exact Cert.KernelIdeal.Pay.acc_value (mblk (V1 m ρ) c b) (pblk (V1 m ρ) c b) (maskK m c) (netK m c) b
    (fun k r p => mblk_at m ρ c b k r p)
    (fun k p d => (pblk_at m ρ c b k p d).trans (by unfold netK Cert.Spec.row; rfl)) r d

/-- The pooled features and the point counts, as the second region finds them. -/
theorem x0_at (c : Dev nD) (j : Fin 512) (d : Fin 768) :
    V3 m ρ c main_v2 (ix2 j d) = Cert.Spec.avg (maskK m c) (netK m c) j d := by
  have hj := j.isLt
  have hd := d.isLt
  rw [V3_v2, W2_v1_0]
  rw [shapeCast_apply _ _ (ix2 j d) (ix3 (⟨j.val / 32, by omega⟩ : Fin 16) (⟨j.val % 32, by omega⟩ : Fin 32) d)
    (by show ((⟨3, ![16, 32, 768]⟩ : Shape).rowMajor (ix3 (⟨j.val / 32, by omega⟩ : Fin 16) (⟨j.val % 32, by omega⟩ : Fin 32) d)).val
          = ((⟨2, ![512, 768]⟩ : Shape).rowMajor (ix2 j d)).val
        rw [Shape.rowMajor_val_two, Shape.rowMajor_val_three]
        show ((j.val / 32) * 32 + j.val % 32) * 768 + d.val = j.val * 768 + d.val
        have : (j.val / 32) * 32 + j.val % 32 = j.val := by omega
        rw [this])]
  show k0_pay6 (accN (V1 m ρ) c ⟨j.val / 32, _⟩ 3) (accS (V1 m ρ) c ⟨j.val / 32, _⟩ 3) (ix3 (0 : Fin 1) (⟨j.val % 32, _⟩ : Fin 32) d) = _
  rw [(acc_at m ρ c ⟨j.val / 32, by omega⟩ ⟨j.val % 32, by omega⟩ d).1]
  congr 1
  exact Fin.ext (by show 32 * (j.val / 32) + j.val % 32 = j.val; omega)

theorem x2_at (c : Dev nD) (j : Fin 512) :
    V3 m ρ c main_v3 (ix2 j (0 : Fin 1)) = Cert.Spec.npts (maskK m c) j := by
  have hj := j.isLt
  rw [V3_v3, W2_v1_1]
  rw [shapeCast_apply _ _ (ix2 j (0 : Fin 1)) (ix3 (⟨j.val / 32, by omega⟩ : Fin 16) (⟨j.val % 32, by omega⟩ : Fin 32) (0 : Fin 1))
    (by show ((⟨3, ![16, 32, 1]⟩ : Shape).rowMajor (ix3 (⟨j.val / 32, by omega⟩ : Fin 16) (⟨j.val % 32, by omega⟩ : Fin 32) (0 : Fin 1))).val
          = ((⟨2, ![512, 1]⟩ : Shape).rowMajor (ix2 j (0 : Fin 1))).val
        rw [Shape.rowMajor_val_two, Shape.rowMajor_val_three]
        show ((j.val / 32) * 32 + j.val % 32) * 1 + 0 = j.val * 1 + 0
        omega)]
  show k0_pay7 (accN (V1 m ρ) c ⟨j.val / 32, _⟩ 3) (ix3 (0 : Fin 1) (⟨j.val % 32, _⟩ : Fin 32) (0 : Fin 1)) = _
  rw [(acc_at m ρ c ⟨j.val / 32, by omega⟩ ⟨j.val % 32, by omega⟩ (0 : Fin 768)).2]
  congr 1
  exact Fin.ext (by show 32 * (j.val / 32) + j.val % 32 = j.val; omega)

theorem x3_at (c : Dev nD) (j : Fin 512) :
    V3 m ρ c main_v4 (ix2 (0 : Fin 1) j) = V3 m ρ c main_v3 (ix2 j (0 : Fin 1)) := by
  rw [V3_v4, V3_v3]
  exact shapeCast_apply _ _ (ix2 (0 : Fin 1) j) (ix2 j (0 : Fin 1))
    (by show ((⟨2, ![512, 1]⟩ : Shape).rowMajor (ix2 j (0 : Fin 1))).val = ((⟨2, ![1, 512]⟩ : Shape).rowMajor (ix2 (0 : Fin 1) j)).val
        rw [Shape.rowMajor_val_two, Shape.rowMajor_val_two]; show j.val * 1 + 0 = 0 * 512 + j.val; omega)

theorem x4_at (c : Dev nD) : V3 m ρ c main_v5 (ix2 (0 : Fin 1) (0 : Fin 1)) = scaleK m c := by
  rw [V3_v5]
  exact shapeCast_apply _ _ (ix2 (0 : Fin 1) (0 : Fin 1)) (ix1 (0 : Fin 1))
    (by show ((⟨1, ![1]⟩ : Shape).rowMajor (ix1 (0 : Fin 1))).val = ((⟨2, ![1, 1]⟩ : Shape).rowMajor (ix2 (0 : Fin 1) (0 : Fin 1))).val
        rw [Shape.rowMajor_val_two, Shape.rowMajor_val_one]; rfl)

end Cert.KernelIdeal.Fr

end
-- ==== Proof.Pay1a.lean ====
/-
  The second kernel's layout operations, reductions, matrix product and index mask read at coordinates,
  at the ideal instance (every float an extended real, every operation exact).
-/
import proofs.«126511_j10892037063168_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx
open scoped BigOperators

variable {α : Type}

/-- A vector of 512 entries cast to a column reads, at row i, entry i. -/
theorem shapeCast_col (v : S512.Idx → α) (h : S512.ShapeCasts S512x1) (i : Fin 512) (u : Fin 1) :
    shapeCast S512x1 v h (ix2 i u) = v (ix1 i) :=
  shapeCast_apply v h _ _ (by
    have hu : u.val = 0 := by omega
    rw [Shape.rowMajor_val_two, Shape.rowMajor_val_one]
    show i.val = i.val * 1 + u.val
    omega)

/-- A vector of 512 entries cast to a row reads, at column j, entry j. -/
theorem shapeCast_row (v : S512.Idx → α) (h : S512.ShapeCasts S1x512) (u : Fin 1) (j : Fin 512) :
    shapeCast S1x512 v h (ix2 u j) = v (ix1 j) :=
  shapeCast_a_1a_apply v h u j

/-- A one-entry vector cast to a 1 × 1 matrix reads its entry. -/
theorem shapeCast_one (v : S1.Idx → α) (h : S1.ShapeCasts S1x1) (u w : Fin 1) :
    shapeCast S1x1 v h (ix2 u w) = v (ix1 w) :=
  shapeCast_a_1a_apply v h u w

/-- A column broadcast over 512 columns reads, at (i, j), the column's entry i. -/
theorem broadcastTo_col (v : S512x1.Idx → α) (h : S512x1.Broadcasts S512x512) (i j : Fin 512) :
    broadcastTo S512x512 v h (ix2 i j) = v (ix2 i (0 : Fin 1)) := by
  refine broadcastTo_apply v h (ix2 i j) (ix2 i (0 : Fin 1)) fun ax => ?_
  match ax with
  | ⟨0, _⟩ => rfl
  | ⟨1, _⟩ => rfl

/-- A row broadcast over 512 rows reads, at (i, j), the row's entry j. -/
theorem broadcastTo_row (v : S1x512.Idx → α) (h : S1x512.Broadcasts S512x512) (i j : Fin 512) :
    broadcastTo S512x512 v h (ix2 i j) = v (ix2 (0 : Fin 1) j) :=
  broadcastTo_1b_ab_apply v h i j

/-- A 1 × 1 matrix broadcast to 512 × 512 reads its one entry everywhere. -/
theorem broadcastTo_one (v : S1x1.Idx → α) (h : S1x1.Broadcasts S512x512) (i j : Fin 512) :
    broadcastTo S512x512 v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

/-- The source index over row i with column coordinate k. -/
theorem lift_row (h : S512x512.Reduces [1] S512) (i : Fin 512) (k : Fin 512) : h.lift (ix1 i) k = ix2 i k := by
  funext c; apply Fin.ext
  match c with
  | ⟨0, _⟩ => rfl
  | ⟨1, _⟩ => rfl

/-- The source index over column j with row coordinate k. -/
theorem lift_col (h : S512x512.Reduces [0] S512) (j : Fin 512) (k : Fin 512) : h.lift (ix1 j) k = ix2 k j := by
  funext c; apply Fin.ext
  match c with
  | ⟨0, _⟩ => rfl
  | ⟨1, _⟩ => rfl

theorem lift_col1 (h : S512x1.Reduces [0] S1) (u : Fin 1) (k : Fin 512) : h.lift (ix1 u) k = ix2 k u := by
  funext c; apply Fin.ext
  match c with
  | ⟨0, _⟩ => rfl
  | ⟨1, _⟩ => rfl

theorem lift_row1 (h : S1x512.Reduces [1] S1) (u : Fin 1) (k : Fin 512) : h.lift (ix1 u) k = ix2 u k := by
  funext c; apply Fin.ext
  match c with
  | ⟨0, _⟩ => rfl
  | ⟨1, _⟩ => rfl

/-- Over a finite index type, folding the maximum from -∞ is the supremum. -/
theorem fold_max_bot {ι : Type} [Fintype ι] (f : ι → EReal) : Finset.univ.fold max ⊥ f = Finset.univ.sup f := rfl

/-- The word 0xFF800000 is -∞. -/
theorem ofBits_ninf' : Ideal.ofBits .f32 0xFF800000#32 = ⊥ := by simp [Ideal.ofBits, Ideal.ieee]

/-- The maximum-reduce along row i (from the word of -∞) is the supremum of the row. -/
theorem rowMax_apply (X : FVec Ideal S512x512 .f32) (h : S512x512.Reduces [1] S512) (hφ : FKind.Formats .f32)
    (hacc : @Eq (BitVec FTy.f32.bits) 0xFF800000#32 0xFF800000#32) (i : Fin 512) :
    multiReduction .maximumf [1] S512 X 0xFF800000#32 h hφ hacc (ix1 i) = Finset.univ.sup fun j : Fin 512 => X (ix2 i j) := by
  refine (Ideal.multiReduction_maximumf_single X _ h hφ hacc (ix1 i)).trans ?_
  have hf : (X ∘ h.lift (ix1 i)) = fun j : Fin 512 => X (ix2 i j) := funext fun k => congrArg X (lift_row h i k)
  show (Finset.univ : Finset (Fin 512)).fold max (Ideal.ofBits .f32 0xFF800000#32) (X ∘ h.lift (ix1 i)) = _
  rw [ofBits_ninf', hf]
  exact fold_max_bot _

/-- The maximum-reduce along column j is the supremum of the column. -/
theorem colMax_apply (X : FVec Ideal S512x512 .f32) (h : S512x512.Reduces [0] S512) (hφ : FKind.Formats .f32)
    (hacc : @Eq (BitVec FTy.f32.bits) 0xFF800000#32 0xFF800000#32) (j : Fin 512) :
    multiReduction .maximumf [0] S512 X 0xFF800000#32 h hφ hacc (ix1 j) = Finset.univ.sup fun i : Fin 512 => X (ix2 i j) := by
  refine (Ideal.multiReduction_maximumf_single X _ h hφ hacc (ix1 j)).trans ?_
  have hf : (X ∘ h.lift (ix1 j)) = fun i : Fin 512 => X (ix2 i j) := funext fun k => congrArg X (lift_col h j k)
  show (Finset.univ : Finset (Fin 512)).fold max (Ideal.ofBits .f32 0xFF800000#32) (X ∘ h.lift (ix1 j)) = _
  rw [ofBits_ninf', hf]
  exact fold_max_bot _

/-- The add-reduce along row i is the sum of the row. -/
theorem rowSum_apply (X : FVec Ideal S512x512 .f32) (h : S512x512.Reduces [1] S512) (hφ : FKind.Formats .f32)
    (hacc : @Eq (BitVec FTy.f32.bits) 0x00000000#32 0x00000000#32) (i : Fin 512) :
    multiReduction .add [1] S512 X 0x00000000#32 h hφ hacc (ix1 i) = ∑ j : Fin 512, X (ix2 i j) := by
  refine (Ideal.multiReduction_add_single X _ h hφ hacc (ix1 i)).trans ?_
  exact Finset.sum_congr rfl fun k _ => congrArg X (lift_row h i k)

/-- The add-reduce along column j is the sum of the column. -/
theorem colSum_apply (X : FVec Ideal S512x512 .f32) (h : S512x512.Reduces [0] S512) (hφ : FKind.Formats .f32)
    (hacc : @Eq (BitVec FTy.f32.bits) 0x00000000#32 0x00000000#32) (j : Fin 512) :
    multiReduction .add [0] S512 X 0x00000000#32 h hφ hacc (ix1 j) = ∑ i : Fin 512, X (ix2 i j) := by
  refine (Ideal.multiReduction_add_single X _ h hφ hacc (ix1 j)).trans ?_
  exact Finset.sum_congr rfl fun k _ => congrArg X (lift_col h j k)

/-- The add-reduce of a column of 512 entries is their sum. -/
theorem sumCol1_apply (v : FVec Ideal S512x1 .f32) (h : S512x1.Reduces [0] S1) (hφ : FKind.Formats .f32)
    (hacc : @Eq (BitVec FTy.f32.bits) 0x00000000#32 0x00000000#32) (u : Fin 1) :
    multiReduction .add [0] S1 v 0x00000000#32 h hφ hacc (ix1 u) = ∑ i : Fin 512, v (ix2 i u) := by
  refine (Ideal.multiReduction_add_single v _ h hφ hacc (ix1 u)).trans ?_
  exact Finset.sum_congr rfl fun k _ => congrArg v (lift_col1 h u k)

/-- The add-reduce of a row of 512 entries is their sum. -/
theorem sumRow1_apply (v : FVec Ideal S1x512 .f32) (h : S1x512.Reduces [1] S1) (hφ : FKind.Formats .f32)
    (hacc : @Eq (BitVec FTy.f32.bits) 0x00000000#32 0x00000000#32) (u : Fin 1) :
    multiReduction .add [1] S1 v 0x00000000#32 h hφ hacc (ix1 u) = ∑ j : Fin 512, v (ix2 u j) := by
  refine (Ideal.multiReduction_add_single v _ h hφ hacc (ix1 u)).trans ?_
  exact Finset.sum_congr rfl fun k _ => congrArg v (lift_row1 h u k)

/-- The exponential and the logarithm read at an index. -/
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- The dimension numbers of the second kernel's matrix product: both operands contracted on their feature axis. -/
abbrev Dm := dot_S512x768_S512x768_S512x512_1_1_0_0_n_n

theorem lhs0 (i : S512x512.Idx) (q : Dm.contr.Idx) : (Dm.lhsIdx i q 0).val = (i 0).val := by
  unfold DotDims.lhsIdx
  rw [dif_neg (show ¬(0 : Fin S512x768.rank) ∈ Dm.lhsBatch by decide), dif_pos (show (0 : Fin S512x768.rank) ∈ Dm.lhsNonContracting by decide)]
  rfl
theorem lhs1 (i : S512x512.Idx) (q : Dm.contr.Idx) : (Dm.lhsIdx i q 1).val = (q ⟨0, by decide⟩).val :=
  Dm.lhsIdx_val_of_single rfl i q
theorem rhs0 (i : S512x512.Idx) (q : Dm.contr.Idx) : (Dm.rhsIdx i q 0).val = (i 1).val := by
  unfold DotDims.rhsIdx
  rw [dif_neg (show ¬(0 : Fin S512x768.rank) ∈ Dm.rhsBatch by decide), dif_pos (show (0 : Fin S512x768.rank) ∈ Dm.rhsNonContracting by decide)]
  rfl
theorem rhs1 (i : S512x512.Idx) (q : Dm.contr.Idx) : (Dm.rhsIdx i q 1).val = (q ⟨0, by decide⟩).val :=
  Dm.rhsIdx_val_of_single rfl i q

/-- The matrix product into the zero splat, read at (i, j): the sum over the feature axis of A(i, d) · B(j, d). -/
theorem matmul_k1_apply {φ₁ φ₂ : FTy} (A : FVec Ideal S512x768 φ₁) (B : FVec Ideal S512x768 φ₂) (i j : Fin 512) :
    matmul Dm none A B (constant S512x512 .f32 0x00000000#32) (ix2 i j) = ∑ d : Fin 768, A (ix2 i d) * B (ix2 j d) := by
  simp only [matmul]
  rw [Ideal.matmul_constant_zero_apply, ← Equiv.sum_comp (contrEquiv1 Dm 768 rfl rfl).symm]
  refine Finset.sum_congr rfl fun k _ => ?_
  have hk := contrEquiv1_symm_val Dm 768 rfl rfl k
  have el : Dm.lhsIdx (ix2 i j) ((contrEquiv1 Dm 768 rfl rfl).symm k) = ix2 i k := funext fun a => Fin.ext (by
    match a with
    | ⟨0, _⟩ => exact lhs0 _ _
    | ⟨1, _⟩ => exact (lhs1 _ _).trans hk)
  have er : Dm.rhsIdx (ix2 i j) ((contrEquiv1 Dm 768 rfl rfl).symm k) = ix2 j k := funext fun a => Fin.ext (by
    match a with
    | ⟨0, _⟩ => exact rhs0 _ _
    | ⟨1, _⟩ => exact (rhs1 _ _).trans hk)
  rw [el, er]

/-- The logits read at (i, j). -/
theorem pay2_apply (x0 x1 : Vec Ideal S512x768 .f32) (x4 : Vec Ideal S1x1 .f32) (i j : Fin 512) :
    k1_pay2 x0 x1 x4 (ix2 i j)
      = (∑ d : Fin 768, x1 (ix2 i d) * x0 (ix2 j d)) * Ideal.exp (x4 (ix2 (0 : Fin 1) (0 : Fin 1))) := by
  unfold k1_pay2
  simp only [shapeCast_self]
  rw [mulf_apply, matmul_k1_apply, broadcastTo_one]
  rfl

/-- The word of (i = j), widened and converted, is the 0/1 value of the equation. -/

theorem delta_word (i j : Fin 512) :
    ((((IntOp.cmpi .eq (BitVec.ofNat 32 i.val) (BitVec.ofNat 32 j.val)).setWidth 32).toInt : ℝ) : EReal)
      = if i = j then 1 else 0 := by
  by_cases h : i = j
  · subst h; simp [IntOp.cmpi]
  · have hne : BitVec.ofNat 32 i.val ≠ BitVec.ofNat 32 j.val := by
      intro e; apply h; apply Fin.ext
      have := congrArg BitVec.toNat e
      simp only [BitVec.toNat_ofNat] at this
      have := i.isLt; have := j.isLt; omega
    have hb : (BitVec.ofNat 32 i.val == BitVec.ofNat 32 j.val) = false := beq_eq_false_iff_ne.mpr hne
    simp [IntOp.cmpi, hb, h]

theorem pay3_apply (i j : Fin 512) : k1_pay3 (F := Ideal) (ix2 i j) = if i = j then 1 else 0 := by
  unfold k1_pay3
  simp only [sitofp_apply, extui_apply]
  show ((((IntOp.cmpi .eq (iota .tc S512x512 32 [0] _ (ix2 i j)) (iota .tc S512x512 32 [1] _ (ix2 i j))).setWidth 32).toInt : ℝ) : EReal) = _
  rw [iota_single_apply, iota_single_apply]
  exact delta_word i j

/-- The logits as the second kernel computes them from its operands: row i of the second operand against row j of
    the first, contracted on the feature axis, times the exponential of the scale. -/
def logitsK (x0 x1 : Vec Ideal S512x768 .f32) (x4 : Vec Ideal S1x1 .f32) (i j : Fin 512) : EReal :=
  (∑ d : Fin 768, x1 (ix2 i d) * x0 (ix2 j d)) * Ideal.exp (x4 (ix2 (0 : Fin 1) (0 : Fin 1)))

theorem pay2_logitsK (x0 x1 : Vec Ideal S512x768 .f32) (x4 : Vec Ideal S1x1 .f32) (i j : Fin 512) :
    k1_pay2 x0 x1 x4 (ix2 i j) = logitsK x0 x1 x4 i j := pay2_apply x0 x1 x4 i j

end Cert.KernelIdeal.Pay
end
-- ==== Proof.Pay1b.lean ====
/-
  The diagonals of the second kernel's two log-softmaxes (along rows, along columns), read at coordinates as the
  specification's sums over the kernel's logits.
-/
import proofs.«126511_j10892037063168_2_alg».proof.Proof.Pay1a
import proofs.«126511_j10892037063168_2_alg».proof.Proof.Spec

noncomputable section

namespace Cert.KernelIdeal.Pay

open Cert.KernelIdeal Cert.KernelIdeal.Gen Idealize.ShloMosaic Idealize.ShloMosaic.ValueIdx
open scoped BigOperators

theorem pay3_delta (i j : Fin 512) : k1_pay3 (F := Ideal) (ix2 i j) = Spec.delta i j := pay3_apply i j

/-- The diagonal of the row log-softmax, taken as the lane sum of the product with the 0/1 mask. -/
theorem pay4_apply (x0 x1 : Vec Ideal S512x768 .f32) (x4 : Vec Ideal S1x1 .f32) (i : Fin 512) (u : Fin 1) :
    k1_pay4 x0 x1 x4 (ix2 i u) = ∑ j : Fin 512, Spec.lsmRowKer (logitsK x0 x1 x4) i j * Spec.delta i j := by
  have hP : ∀ a b : Fin 512, k1_pay2 x0 x1 x4 (ix2 a b) = logitsK x0 x1 x4 a b := pay2_logitsK x0 x1 x4
  unfold k1_pay4
  generalize k1_pay2 x0 x1 x4 = P at hP ⊢
  simp only [shapeCast_col]
  rw [rowSum_apply]
  simp only [mulf_apply, subf_apply, addf_apply, log_apply, broadcastTo_col, shapeCast_col, pay3_delta, hP]
  rw [rowMax_apply, rowSum_apply]
  simp only [exp_apply, subf_apply, broadcastTo_col, shapeCast_col]
  rw [rowMax_apply]
  simp only [hP]
  rfl

/-- The same along columns. -/
theorem pay5_apply (x0 x1 : Vec Ideal S512x768 .f32) (x4 : Vec Ideal S1x1 .f32) (u : Fin 1) (j : Fin 512) :
    k1_pay5 x0 x1 x4 (ix2 u j) = ∑ i : Fin 512, Spec.lsmColKer (logitsK x0 x1 x4) i j * Spec.delta i j := by
  have hP : ∀ a b : Fin 512, k1_pay2 x0 x1 x4 (ix2 a b) = logitsK x0 x1 x4 a b := pay2_logitsK x0 x1 x4
  unfold k1_pay5
  generalize k1_pay2 x0 x1 x4 = P at hP ⊢
  simp only [shapeCast_row]
  rw [colSum_apply]
  simp only [mulf_apply, subf_apply, addf_apply, log_apply, broadcastTo_row, shapeCast_row, pay3_delta, hP]
  rw [colMax_apply, colSum_apply]
  simp only [exp_apply, subf_apply, broadcastTo_row, shapeCast_row]
  rw [colMax_apply]
  simp only [hP]
  rfl

end Cert.KernelIdeal.Pay
end
-- ==== Proof.Pay1c.lean ====
/-
  The second kernel's validity selects, positive-entry counts and sums, guarded means and their mean, read at
  coordinates.
-/
import proofs.«126511_j10892037063168_2_alg».proof.Proof.Pay1a
import proofs.«126511_j10892037063168_2_alg».proof.Proof.Spec

noncomputable section

namespace Cert.KernelIdeal.Pay

open Cert.KernelIdeal Cert.KernelIdeal.Gen Idealize.ShloMosaic Idealize.ShloMosaic.ValueIdx
open scoped BigOperators

/-! ### Words and one-bit conditions as extended reals -/

theorem scalar_zero : Scalar.ofBits (F := Ideal) .f32 0x00000000#32 = (0 : EReal) := Spec.ofBits_zero
theorem scalar_one : Scalar.ofBits (F := Ideal) .f32 0x3F800000#32 = (1 : EReal) := Spec.ofBits_one
theorem scalar_two : Scalar.ofBits (F := Ideal) .f32 0x40000000#32 = Spec.two := rfl

/-- A select on "a is above zero" is the if-then-else on it. -/
theorem select_ogt (a x y : EReal) : Scalar.select (Ideal.cmp .ogt a 0) x y = if 0 < a then x else y := by
  unfold Scalar.select Ideal.cmp
  by_cases h : 0 < a <;> simp [h]

/-- The bit of "a is above zero", widened and converted, is its 0/1 value. -/
theorem count_ogt (a : EReal) :
    ((((Ideal.cmp .ogt a 0).setWidth 32).toInt : ℝ) : EReal) = if 0 < a then 1 else 0 := by
  unfold Ideal.cmp
  by_cases h : 0 < a <;> simp [h]

theorem sitofp_ideal {w : Nat} (b : BitVec w) : FloatOps.sitofp (F := Ideal) .f32 b = ((b.toInt : ℝ) : EReal) := rfl

/-! ### The validity selects, counts and sums -/

/-- The negated column diagonal where the count is positive, else zero. -/
theorem pay6_apply (Q : FVec Ideal S1x512 .f32) (x3 : Vec Ideal S1x512 .f32) (u : Fin 1) (j : Fin 512) :
    k1_pay6 Q x3 (ix2 u j) = if 0 < x3 (ix2 u j) then 0 - Q (ix2 u j) else 0 := by
  unfold k1_pay6
  simp only [shapeCast_self, select_apply, cmpf_apply, subf_apply, broadcast_apply, Ideal.cmpf_def, scalar_zero,
    select_ogt]

theorem pay8_apply (Q : FVec Ideal S1x512 .f32) (x3 : Vec Ideal S1x512 .f32) (u : Fin 1) (j : Fin 512) :
    k1_pay8 Q x3 (ix2 u j) = Ideal.cmp .ogt (k1_pay6 Q x3 (ix2 u j)) 0 := by
  unfold k1_pay8
  simp only [cmpf_apply, broadcast_apply, Ideal.cmpf_def, scalar_zero]

/-- The per-column losses. -/
def colLoss (Q : FVec Ideal S1x512 .f32) (x3 : Vec Ideal S1x512 .f32) (j : Fin 512) : EReal :=
  if 0 < x3 (ix2 (0 : Fin 1) j) then 0 - Q (ix2 (0 : Fin 1) j) else 0

/-- The per-row losses. -/
def rowLoss (P : FVec Ideal S512x1 .f32) (x2 : Vec Ideal S512x1 .f32) (i : Fin 512) : EReal :=
  if 0 < x2 (ix2 i (0 : Fin 1)) then 0 - P (ix2 i (0 : Fin 1)) else 0

/-- How many column losses are positive. -/
theorem pay9_apply (Q : FVec Ideal S1x512 .f32) (x3 : Vec Ideal S1x512 .f32) (u w : Fin 1) :
    k1_pay9 Q x3 (ix2 u w) = Spec.cntF (colLoss Q x3) := by
  obtain rfl : w = 0 := Subsingleton.elim _ _
  unfold k1_pay9
  simp only [shapeCast_one]
  rw [sumRow1_apply]
  simp only [sitofp_apply, extui_apply, pay8_apply, pay6_apply, sitofp_ideal, count_ogt]
  rfl

/-- The positive column losses, zero elsewhere. -/
theorem pay10_apply (Q : FVec Ideal S1x512 .f32) (x3 : Vec Ideal S1x512 .f32) (j : Fin 512) :
    k1_pay10 Q x3 (ix2 (0 : Fin 1) j) = if 0 < colLoss Q x3 j then colLoss Q x3 j else 0 := by
  unfold k1_pay10
  simp only [select_apply, broadcast_apply, pay8_apply, pay6_apply, scalar_zero, select_ogt]
  rfl

/-- The guarded mean of the positive row losses. -/
theorem pay7_apply (P : FVec Ideal S512x1 .f32) (x2 : Vec Ideal S512x1 .f32) (u w : Fin 1) :
    k1_pay7 P x2 (ix2 u w) = Spec.nzmeanKer (rowLoss P x2) := by
  obtain rfl : w = 0 := Subsingleton.elim _ _
  unfold k1_pay7
  simp only [shapeCast_self, select_apply, cmpf_apply, divf_apply, maximumf_apply, broadcast_apply,
    Ideal.cmpf_def, scalar_zero, scalar_one, select_ogt, shapeCast_one]
  rw [sumCol1_apply, sumCol1_apply]
  simp only [select_apply, cmpf_apply, subf_apply, broadcast_apply, Ideal.cmpf_def, scalar_zero, select_ogt,
    sitofp_apply, extui_apply, sitofp_ideal, count_ogt]
  rfl

/-- The mean of the two guarded means. -/
theorem pay1_apply (a c : FVec Ideal S1x1 .f32) (b : FVec Ideal S1x512 .f32) (u w : Fin 1) :
    k1_pay1 a c b (ix2 u w)
      = Ideal.div (a (ix2 u w) + (if 0 < c (ix2 u w) then Ideal.div (∑ j : Fin 512, b (ix2 w j)) (max (c (ix2 u w)) 1) else 0))
          Spec.two := by
  unfold k1_pay1
  simp only [select_apply, cmpf_apply, addf_apply, divf_apply, maximumf_apply, broadcast_apply, Ideal.cmpf_def,
    scalar_zero, scalar_one, scalar_two, select_ogt, shapeCast_one]
  rw [sumRow1_apply]

end Cert.KernelIdeal.Pay
end
-- ==== Proof.Pay1d.lean ====
/-
  The second kernel's stored scalar is the specification's loss of the kernel's logits and the point counts.
-/
import proofs.«126511_j10892037063168_2_alg».proof.Proof.Pay1b
import proofs.«126511_j10892037063168_2_alg».proof.Proof.Pay1c

noncomputable section

namespace Cert.KernelIdeal.Pay

open Cert.KernelIdeal Cert.KernelIdeal.Gen Idealize.ShloMosaic Idealize.ShloMosaic.ValueIdx
open scoped BigOperators

/-! ### The stored scalar -/

/-- The second kernel's stored scalar, from its five operands. -/
def loss1 (x0 x1 : Vec Ideal S512x768 .f32) (x2 : Vec Ideal S512x1 .f32) (x3 : Vec Ideal S1x512 .f32)
    (x4 : Vec Ideal S1x1 .f32) : Vec Ideal S1x1 .f32 :=
  k1_pay1 (k1_pay7 (k1_pay4 x0 x1 x4) x2) (k1_pay9 (k1_pay5 x0 x1 x4) x3) (k1_pay10 (k1_pay5 x0 x1 x4) x3)

/-- The per-row losses are the specification's, over the kernel's logits and the counts. -/
theorem rowLoss_eq (x0 x1 : Vec Ideal S512x768 .f32) (x2 : Vec Ideal S512x1 .f32) (x4 : Vec Ideal S1x1 .f32) :
    rowLoss (k1_pay4 x0 x1 x4) x2 = Spec.textsKer (logitsK x0 x1 x4) (fun i => x2 (ix2 i (0 : Fin 1))) := by
  funext i
  unfold rowLoss Spec.textsKer
  rw [pay4_apply]

/-- The per-column losses are the specification's, the counts read as a row being the counts read as a column. -/
theorem colLoss_eq (x0 x1 : Vec Ideal S512x768 .f32) (x2 : Vec Ideal S512x1 .f32) (x3 : Vec Ideal S1x512 .f32)
    (x4 : Vec Ideal S1x1 .f32) (hrow : ∀ j : Fin 512, x3 (ix2 (0 : Fin 1) j) = x2 (ix2 j (0 : Fin 1))) :
    colLoss (k1_pay5 x0 x1 x4) x3 = Spec.ptsKer (logitsK x0 x1 x4) (fun i => x2 (ix2 i (0 : Fin 1))) := by
  funext j
  unfold colLoss Spec.ptsKer
  rw [pay5_apply, hrow]

/-- The stored scalar is the specification's loss of the kernel's logits and the counts. -/
theorem loss1_eq (x0 x1 : Vec Ideal S512x768 .f32) (x2 : Vec Ideal S512x1 .f32) (x3 : Vec Ideal S1x512 .f32)
    (x4 : Vec Ideal S1x1 .f32) (hrow : ∀ j : Fin 512, x3 (ix2 0 j) = x2 (ix2 j 0)) :
    loss1 x0 x1 x2 x3 x4 = fun _ => Cert.Spec.lossKer
      (fun i j => (∑ d : Fin 768, x1 (ix2 i d) * x0 (ix2 j d)) * Ideal.exp (x4 (ix2 0 0))) (fun i => x2 (ix2 i 0)) := by
  funext idx
  obtain ⟨u, w, rfl⟩ : ∃ (u w : Fin 1), idx = ix2 u w := ⟨idx 0, idx 1, eq_ix2 idx⟩
  obtain rfl : w = 0 := Subsingleton.elim _ _
  unfold loss1
  rw [pay1_apply, pay7_apply, pay9_apply]
  simp only [pay10_apply]
  rw [rowLoss_eq, colLoss_eq x0 x1 x2 x3 x4 hrow]
  rfl

end Cert.KernelIdeal.Pay
end
-- ==== Proof.KValC.lean ====
/-
  The kernel's result at the ideal instance: the second region's scalar, read through the reshapes, is the loss (in
  the kernel's shape) of the specification's logits and point counts.
-/
import proofs.«126511_j10892037063168_2_alg».proof.Proof.Gen.KernelIdeal.Launch
import proofs.«126511_j10892037063168_2_alg».proof.Proof.Gen.KernelIdeal.Skeleton
import proofs.«126511_j10892037063168_2_alg».proof.Proof.Gen.KernelIdeal.Points
import proofs.«126511_j10892037063168_2_alg».proof.Proof.KValB
import proofs.«126511_j10892037063168_2_alg».proof.Proof.Pay1d
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable (m : (ℓ : Loc nD τ sig) → Buf (Elt Ideal) ℓ) (ρ : Dev nD → PrngReg)

/-- THE KERNEL'S RESULT: the loss, in the kernel's shape, of the specification's logits and counts. -/
theorem kernel_value (c : Dev nD) :
    W5 m ρ c (Proc.devRef .tc main_v7)
      = fun _ => Cert.Spec.lossKer (Cert.Spec.logits (maskK m c) (netK m c) (embsK m c) (scaleK m c)) (Cert.Spec.npts (maskK m c)) := by
  rw [W5_v7, W4_v6]
  funext i
  rw [shapeCast_apply _ _ i (ix2 (0 : Fin 1) (0 : Fin 1))
    (by show ((⟨2, ![1, 1]⟩ : Shape).rowMajor (ix2 (0 : Fin 1) (0 : Fin 1))).val = ((S_ : Shape).rowMajor i).val
        rw [Shape.rowMajor_val_two]
        have h : ((S_ : Shape).rowMajor i).val < 1 := ((S_ : Shape).rowMajor i).isLt
        show 0 * 1 + 0 = _
        omega)]
  unfold res1
  show Cert.KernelIdeal.Pay.loss1 (V3 m ρ c main_v2) (V3 m ρ c main_arg2) (V3 m ρ c main_v3) (V3 m ρ c main_v4) (V3 m ρ c main_v5) (ix2 (0 : Fin 1) (0 : Fin 1)) = _
  rw [Cert.KernelIdeal.Pay.loss1_eq (V3 m ρ c main_v2) (V3 m ρ c main_arg2) (V3 m ρ c main_v3) (V3 m ρ c main_v4) (V3 m ρ c main_v5) (fun j => x3_at m ρ c j)]
  show Cert.Spec.lossKer _ _ = Cert.Spec.lossKer _ _
  congr 1
  · funext i j
    rw [x4_at, V3_arg2]
    unfold Cert.Spec.logits
    congr 1
    exact Finset.sum_congr rfl fun d _ => by rw [x0_at]; rfl
  · funext j
    exact x2_at m ρ c j

end Cert.KernelIdeal.Fr

end
-- ==== Proof.PreFacts.lean ====
/-
  The precondition read at an index, at the ideal values: every entry of the four float inputs
  is a real number (its absolute value is below +∞), and every entry of the mask is 0 or 1.
-/
import proofs.«126511_j10892037063168_2_alg».proof.Pre_finite_inputs
import proofs.«126511_j10892037063168_2_alg».proof.Proof.Gen.Pre_finite_inputs
import Idealize.ShloMosaic.Lib.ReduceAll
import Idealize.ShloMosaic.Lib.IdealHost
import Idealize.ShloMosaic.Lib.ValueIdx
import Idealize.ShloMosaic.PureOps.Ideal.Laws

noncomputable section

namespace Cert.PreFacts

open Cert.Pre_finite_inputs Idealize.ShloMosaic Idealize.ShloMosaic.ValueIdx

/-- The rank-0 shape has one index. -/
instance : Subsingleton S_.Idx := ⟨fun a b => funext fun d => d.elim0⟩

/-- The f32 word 0x7F800000 is +∞. -/
theorem ofBits_pinf : Ideal.ofBits .f32 0x7F800000#32 = ⊤ := by simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The comparison word is 1 exactly when the comparison holds. -/
theorem ofBool_decide_eq_one {p : Prop} [Decidable p] (h : BitVec.ofBool (decide p) = 1#1) : p := by
  by_cases hp : p
  · exact hp
  · rw [decide_eq_false hp] at h; exact absurd h (by decide)

/-- One entry of the test |x| < +∞, read back. -/
theorem real_of_finite_bit (x : EReal)
    (h : Ideal.cmp .olt (max x (-x)) (Ideal.ofBits .f32 0x7F800000#32) = 1#1) : ∃ r : ℝ, x = (r : EReal) := by
  rw [ofBits_pinf] at h
  exact real_of_abs_lt_top x (ofBool_decide_eq_one h)

/-- One entry of the test (x = 0) or (x = 1), read back. -/
theorem zero_or_one_of_bit (x : EReal)
    (h : IntOp.ori (Ideal.cmp .oeq x (Ideal.ofBits .f32 0x00000000#32))
      (Ideal.cmp .oeq x (Ideal.ofBits .f32 0x3F800000#32)) = 1#1) : x = 0 ∨ x = 1 := by
  rw [Ideal.ofBits_zero_f32, Ideal.ofBits_one_f32] at h
  rcases IntOp.ori_eq_one.1 h with h0 | h1
  · exact Or.inl (ofBool_decide_eq_one h0)
  · exact Or.inr (ofBool_decide_eq_one h1)

/-- The precondition: the four float inputs hold real numbers only, and the mask holds 0s and 1s only. -/
theorem pre_facts [Cert.Pre_finite_inputs.Facts]
    (a0 : FVec Ideal S65536x768 .f32) (a1 : IVec S16 32) (a2 : FVec Ideal S512x768 .f32)
    (a3 : FVec Ideal S16x32x4096 .f32) (a4 : FVec Ideal S1 .f32)
    (h : Cert.Pre_finite_inputs.fn (F := Ideal) a0 a1 a2 a3 a4 = fun _ => 1#1) :
    (∀ i, ∃ r : ℝ, a0 i = (r : EReal)) ∧ (∀ i, ∃ r : ℝ, a2 i = (r : EReal)) ∧
      (∀ i, a3 i = 0 ∨ a3 i = 1) ∧ (∀ i, ∃ r : ℝ, a4 i = (r : EReal)) := by
  have h0 := congrFun h ix0
  dsimp only [Cert.Pre_finite_inputs.fn, Cert.Pre_finite_inputs.fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨fun i => ?_, fun i => ?_, fun i => ?_, fun i => ?_⟩
  · have e := Host.reduce_andi_all _ _ _ _ _ h1 i
    exact real_of_finite_bit (a0 i) e
  · have e := Host.reduce_andi_all _ _ _ _ _ h2 i
    exact real_of_finite_bit (a2 i) e
  · have e := Host.reduce_andi_all _ _ _ _ _ h5 i
    exact zero_or_one_of_bit (a3 i) e
  · have e := Host.reduce_andi_all _ _ _ _ _ h4 i
    exact real_of_finite_bit (a4 i) e

end Cert.PreFacts

end
-- ==== Proof.Forms.lean ====
/-
  The kernel's spelling of the loss equals the reference's wherever every logit is a real number, and
  under the precondition (every input entry a real, every mask entry 0 or 1) every logit is one.
-/
import proofs.«126511_j10892037063168_2_alg».proof.Proof.Spec

noncomputable section

namespace Cert.Spec

open Idealize.ShloMosaic
open scoped BigOperators

/-! ### Real values among the extended reals -/

/-- x is (the embedding of) a real number. -/
def IsReal (x : EReal) : Prop := ∃ r : ℝ, x = (r : EReal)
/-- x is a nonnegative real number. -/
def IsNonnegReal (x : EReal) : Prop := ∃ r : ℝ, 0 ≤ r ∧ x = (r : EReal)
/-- x is a positive real number. -/
def IsPosReal (x : EReal) : Prop := ∃ r : ℝ, 0 < r ∧ x = (r : EReal)

theorem IsPosReal.isReal {x : EReal} (h : IsPosReal x) : IsReal x := let ⟨r, _, e⟩ := h; ⟨r, e⟩
theorem IsNonnegReal.isReal {x : EReal} (h : IsNonnegReal x) : IsReal x := let ⟨r, _, e⟩ := h; ⟨r, e⟩

theorem isReal_coe (r : ℝ) : IsReal (r : EReal) := ⟨r, rfl⟩
theorem isReal_zero : IsReal 0 := ⟨0, EReal.coe_zero.symm⟩
theorem isReal_one : IsReal 1 := ⟨1, EReal.coe_one.symm⟩

theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.neg {a : EReal} (ha : IsReal a) : IsReal (-a) := by
  obtain ⟨r, rfl⟩ := ha; exact ⟨-r, (EReal.coe_neg r).symm⟩
theorem IsReal.exp {a : EReal} (ha : IsReal a) : IsPosReal (Ideal.exp a) := by
  obtain ⟨r, rfl⟩ := ha; exact ⟨Real.exp r, Real.exp_pos r, rfl⟩

/-- The embedding commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} [Fintype ι] (f : ι → EReal) (h : ∀ i, IsReal (f i)) : IsReal (∑ i, f i) := by
  choose g hg using h
  exact ⟨∑ i, g i, by rw [coe_sum]; exact Finset.sum_congr rfl fun i _ => hg i⟩
theorem isNonnegReal_sum {ι : Type*} [Fintype ι] (f : ι → EReal) (h : ∀ i, IsNonnegReal (f i)) :
    IsNonnegReal (∑ i, f i) := by
  choose g hg0 hg using h
  exact ⟨∑ i, g i, Finset.sum_nonneg fun i _ => hg0 i, by rw [coe_sum]; exact Finset.sum_congr rfl fun i _ => hg i⟩
theorem isPosReal_sum {ι : Type*} [Fintype ι] [Nonempty ι] (f : ι → EReal) (h : ∀ i, IsPosReal (f i)) :
    IsPosReal (∑ i, f i) := by
  choose g hg0 hg using h
  exact ⟨∑ i, g i, Finset.sum_pos (fun i _ => hg0 i) Finset.univ_nonempty,
    by rw [coe_sum]; exact Finset.sum_congr rfl fun i _ => hg i⟩

/-- The logarithm of a positive real is a real. -/
theorem IsPosReal.log {a : EReal} (ha : IsPosReal a) : IsReal (Ideal.log a) := by
  obtain ⟨r, hr, rfl⟩ := ha
  exact ⟨Real.log r, by rw [Ideal.log_coe, if_neg (not_le.2 hr)]⟩

/-- A real divided by a positive real is a real. -/
theorem IsReal.div_pos {a b : EReal} (ha : IsReal a) (hb : IsPosReal b) : IsReal (Ideal.div a b) := by
  obtain ⟨r, rfl⟩ := ha; obtain ⟨s, hs, rfl⟩ := hb
  exact ⟨r * (1 / s), by rw [Ideal.div_coe hs.ne', EReal.coe_mul]⟩

/-- |x| < +∞ says x is a real. -/
theorem isReal_of_abs_lt_top {x : EReal} (h : max x (-x) < ⊤) : IsReal x := by
  induction x using EReal.rec with
  | bot => simp at h
  | coe r => exact ⟨r, rfl⟩
  | top => simp at h

/-! ### (a) the two spellings of log-softmax agree on reals -/

/-- On reals, x - (m + l) = (x - m) - l. -/
theorem sub_add_eq_sub_sub_of_isReal {a b c : EReal} (ha : IsReal a) (hb : IsReal b) (hc : IsReal c) :
    a - (b + c) = (a - b) - c := by
  obtain ⟨a, rfl⟩ := ha; obtain ⟨b, rfl⟩ := hb; obtain ⟨c, rfl⟩ := hc
  rw [← EReal.coe_add, ← EReal.coe_sub, ← EReal.coe_sub, ← EReal.coe_sub]
  exact congrArg _ (by ring)

theorem rowMax_isReal {x : Fin 512 → Fin 512 → EReal} (hx : ∀ i j, IsReal (x i j)) (i : Fin 512) :
    IsReal (rowMax x i) := by
  obtain ⟨j, -, hj⟩ := Finset.exists_mem_eq_sup Finset.univ ⟨i, Finset.mem_univ i⟩ (fun j => x i j)
  unfold rowMax; rw [hj]; exact hx i j
theorem colMax_isReal {x : Fin 512 → Fin 512 → EReal} (hx : ∀ i j, IsReal (x i j)) (j : Fin 512) :
    IsReal (colMax x j) := by
  obtain ⟨i, -, hi⟩ := Finset.exists_mem_eq_sup Finset.univ ⟨j, Finset.mem_univ j⟩ (fun i => x i j)
  unfold colMax; rw [hi]; exact hx i j

theorem rowSumExp_isPosReal {x : Fin 512 → Fin 512 → EReal} (hx : ∀ i j, IsReal (x i j)) (i : Fin 512) :
    IsPosReal (rowSumExp x i) :=
  isPosReal_sum _ fun j => ((hx i j).sub (rowMax_isReal hx i)).exp
theorem colSumExp_isPosReal {x : Fin 512 → Fin 512 → EReal} (hx : ∀ i j, IsReal (x i j)) (j : Fin 512) :
    IsPosReal (colSumExp x j) :=
  isPosReal_sum _ fun i => ((hx i j).sub (colMax_isReal hx j)).exp

theorem lsmRowKer_eq_lsmRowRef {x : Fin 512 → Fin 512 → EReal} (hx : ∀ i j, IsReal (x i j)) (i j : Fin 512) :
    lsmRowKer x i j = lsmRowRef x i j :=
  sub_add_eq_sub_sub_of_isReal (hx i j) (rowMax_isReal hx i) (rowSumExp_isPosReal hx i).log
theorem lsmColKer_eq_lsmColRef {x : Fin 512 → Fin 512 → EReal} (hx : ∀ i j, IsReal (x i j)) (i j : Fin 512) :
    lsmColKer x i j = lsmColRef x i j :=
  sub_add_eq_sub_sub_of_isReal (hx i j) (colMax_isReal hx j) (colSumExp_isPosReal hx j).log

/-! ### (b), (d) the diagonal as a masked sum; 0 - x -/

theorem sum_mul_delta_row (f : Fin 512 → EReal) (i : Fin 512) : ∑ j : Fin 512, f j * delta i j = f i := by
  simp [delta, mul_ite, Finset.sum_ite_eq]
theorem sum_mul_delta_col (f : Fin 512 → EReal) (j : Fin 512) : ∑ i : Fin 512, f i * delta i j = f j := by
  simp [delta, mul_ite, Finset.sum_ite_eq']

theorem textsKer_eq_textsRef {x : Fin 512 → Fin 512 → EReal} (hx : ∀ i j, IsReal (x i j)) (n : Fin 512 → EReal) :
    textsKer x n = textsRef x n := by
  funext i
  unfold textsKer textsRef
  rw [sum_mul_delta_row (fun j => lsmRowKer x i j) i, zero_sub, lsmRowKer_eq_lsmRowRef hx]
theorem ptsKer_eq_ptsRef {x : Fin 512 → Fin 512 → EReal} (hx : ∀ i j, IsReal (x i j)) (n : Fin 512 → EReal) :
    ptsKer x n = ptsRef x n := by
  funext j
  unfold ptsKer ptsRef
  rw [sum_mul_delta_col (fun i => lsmColKer x i j) j, zero_sub, lsmColKer_eq_lsmColRef hx]

/-! ### (c) the count as a sum of 0/1 values -/

theorem cntF_eq (l : Fin 512 → EReal) : cntF l = (((cntNat l : ℕ) : ℝ) : EReal) := by
  unfold cntF cntNat
  have h : ∀ i : Fin 512, (if 0 < l i then (1 : EReal) else 0) = (((if 0 < l i then (1 : ℝ) else 0) : ℝ) : EReal) := by
    intro i; split_ifs <;> simp
  rw [Finset.sum_congr rfl fun i _ => h i, ← coe_sum, Finset.sum_boole]

theorem nzmeanKer_eq_nzmeanRef (l : Fin 512 → EReal) : nzmeanKer l = nzmeanRef l := by
  unfold nzmeanKer nzmeanRef
  rw [cntF_eq]
  have h1 : ((0 : EReal) < (((cntNat l : ℕ) : ℝ) : EReal)) ↔ 0 < cntNat l := by
    rw [← EReal.coe_zero, EReal.coe_lt_coe_iff]; exact Nat.cast_pos
  have h2 : max ((((cntNat l : ℕ) : ℝ) : EReal)) 1 = ((((max (cntNat l) 1 : ℕ) : ℕ) : ℝ) : EReal) := by
    rw [Nat.cast_max, Nat.cast_one, EReal.coe_strictMono.monotone.map_max, EReal.coe_one]
  by_cases hc : 0 < cntNat l
  · rw [if_pos (h1.2 hc), if_pos hc, h2]
  · rw [if_neg (fun h => hc (h1.1 h)), if_neg hc]

/-- The kernel's shape and the reference's agree wherever every logit is a real. -/
theorem lossKer_eq_lossRef {x : Fin 512 → Fin 512 → EReal} (hx : ∀ i j, ∃ r : ℝ, x i j = (r : EReal))
    (n : Fin 512 → EReal) : lossKer x n = lossRef x n := by
  unfold lossKer lossRef
  rw [textsKer_eq_textsRef hx, ptsKer_eq_ptsRef hx, nzmeanKer_eq_nzmeanRef, nzmeanKer_eq_nzmeanRef]

/-! ### Finiteness: every logit is a real -/

/-- eps is a positive real: the word's value is (2^23 + 834764) * 2^(87 - 127 - 23). -/
theorem eps_eq : eps = (((9223372 : ℝ) * (2 : ℝ) ^ (-63 : ℤ) : ℝ) : EReal) := by
  unfold eps
  simp [Ideal.ofBits, Ideal.ieee, -EReal.coe_mul]
  try norm_num

theorem eps_isPosReal : IsPosReal eps := ⟨_, by positivity, eps_eq⟩

theorem mask_isNonnegReal {m : EReal} (h : m = 0 ∨ m = 1) : IsNonnegReal m := by
  rcases h with rfl | rfl
  · exact ⟨0, le_rfl, EReal.coe_zero.symm⟩
  · exact ⟨1, zero_le_one, EReal.coe_one.symm⟩

theorem npts_isNonnegReal {mask : Fin 16 → Fin 32 → Fin 4096 → EReal} (hm : ∀ b m p, mask b m p = 0 ∨ mask b m p = 1)
    (j : Fin 512) : IsNonnegReal (npts mask j) :=
  isNonnegReal_sum _ fun p => mask_isNonnegReal (hm _ _ p)

theorem npts_add_eps_isPosReal {mask : Fin 16 → Fin 32 → Fin 4096 → EReal}
    (hm : ∀ b m p, mask b m p = 0 ∨ mask b m p = 1) (j : Fin 512) : IsPosReal (npts mask j + eps) := by
  obtain ⟨r, hr, e⟩ := npts_isNonnegReal hm j
  obtain ⟨s, hs, e'⟩ := eps_isPosReal
  exact ⟨r + s, by linarith, by rw [e, e', EReal.coe_add]⟩

theorem sumF_isReal {mask : Fin 16 → Fin 32 → Fin 4096 → EReal} {net : Fin 65536 → Fin 768 → EReal}
    (hm : ∀ b m p, mask b m p = 0 ∨ mask b m p = 1) (hnet : ∀ r d, IsReal (net r d)) (j : Fin 512) (d : Fin 768) :
    IsReal (sumF mask net j d) :=
  isReal_sum _ fun p => (mask_isNonnegReal (hm _ _ p)).isReal.mul (hnet _ d)

theorem avg_isReal {mask : Fin 16 → Fin 32 → Fin 4096 → EReal} {net : Fin 65536 → Fin 768 → EReal}
    (hm : ∀ b m p, mask b m p = 0 ∨ mask b m p = 1) (hnet : ∀ r d, IsReal (net r d)) (j : Fin 512) (d : Fin 768) :
    IsReal (avg mask net j d) :=
  (sumF_isReal hm hnet j d).div_pos (npts_add_eps_isPosReal hm j)

/-- Under the precondition (every entry a real, every mask entry 0 or 1) every logit is a real. -/
theorem logits_isReal {mask : Fin 16 → Fin 32 → Fin 4096 → EReal} {net : Fin 65536 → Fin 768 → EReal}
    {embs : Fin 512 → Fin 768 → EReal} {scale : EReal}
    (hm : ∀ b m p, mask b m p = 0 ∨ mask b m p = 1) (hnet : ∀ r d, ∃ v : ℝ, net r d = (v : EReal))
    (hemb : ∀ i d, ∃ v : ℝ, embs i d = (v : EReal)) (hs : ∃ v : ℝ, scale = (v : EReal)) (i j : Fin 512) :
    ∃ r : ℝ, logits mask net embs scale i j = (r : EReal) :=
  IsReal.mul (isReal_sum _ fun d => IsReal.mul (hemb i d) (avg_isReal hm hnet j d)) (IsReal.exp hs).isReal

end Cert.Spec

end
-- ==== Proof.RefRead.lean ====
/-
  The reference program, one operation at a time. val_<buffer> (one per operation, in program order) is the
  value the operation writes, as a function of the arguments it depends on; val_<buffer>_apply reads it at an
  index from the operands at an index (a layout operation reads its operand at idx_<buffer> i); at the ideal
  values a dot_general's element is the sum over k of the left operand at lidx_<buffer> i k times the right at
  ridx_<buffer> i k, and a float sum's the initial value plus the sum of the operand over the reduced axis.
  The maxima, the concatenations, the gathers and the integer sums have no read lemma here.
-/
import proofs.«126511_j10892037063168_2_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.RefRead

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.reshape %arg0 : (tensor<65536x768xf32>) -> tensor<16x4096x768xf32>
def val_main_v0 (x0 : (⟨S65536x768, .f32⟩ : BufTy).Contents (Elt F)) : (⟨S16x4096x768, .f32⟩ : BufTy).Contents (Elt F) :=
  shapeCast _ (x0) shapeCasts_S65536x768_S16x4096x768
abbrev idx_main_v0 (i : S16x4096x768.Idx) : S65536x768.Idx := fun a => match a with
  | ⟨0, _⟩ => ⟨(((i 0).val * 4096 + (i 1).val) * 768 + (i 2).val) / 768, by have h0 : (i 0).val < 16 := (i 0).isLt; have h1 : (i 1).val < 4096 := (i 1).isLt; have h2 : (i 2).val < 768 := (i 2).isLt; show (((i 0).val * 4096 + (i 1).val) * 768 + (i 2).val) / 768 < 65536; omega⟩
  | ⟨1, _⟩ => ⟨(((i 0).val * 4096 + (i 1).val) * 768 + (i 2).val) % 768, by have h0 : (i 0).val < 16 := (i 0).isLt; have h1 : (i 1).val < 4096 := (i 1).isLt; have h2 : (i 2).val < 768 := (i 2).isLt; show (((i 0).val * 4096 + (i 1).val) * 768 + (i 2).val) % 768 < 768; omega⟩
theorem val_main_v0_apply (x0 : (⟨S65536x768, .f32⟩ : BufTy).Contents (Elt F)) (i : S16x4096x768.Idx) :
    val_main_v0 (F := F) x0 i = x0 (idx_main_v0 i) := by
  unfold val_main_v0
  exact shapeCast_apply x0 shapeCasts_S65536x768_S16x4096x768 i (idx_main_v0 i)
    (by rewrite [Shape.rowMajor_val_two, Shape.rowMajor_val_three]; have h0 : (i 0).val < 16 := (i 0).isLt; have h1 : (i 1).val < 4096 := (i 1).isLt; have h2 : (i 2).val < 768 := (i 2).isLt; show (((i 0).val * 4096 + (i 1).val) * 768 + (i 2).val) / 768 * 768 + (((i 0).val * 4096 + (i 1).val) * 768 + (i 2).val) % 768 = ((i 0).val * 4096 + (i 1).val) * 768 + (i 2).val; omega)

-- %1 = stablehlo.dot_general %arg3, %0, batching_dims = [0] x [0], contracting_dims = [2] x [1], precision = [DEFAULT, DEFAULT] : (tensor<16x32x4096xf32>, tensor<16x4096x768xf32>) -> tensor<16x32x768xf32>
def val_main_v1 (x0 : (⟨S65536x768, .f32⟩ : BufTy).Contents (Elt F)) (x3 : (⟨S16x32x4096, .f32⟩ : BufTy).Contents (Elt F)) : (⟨S16x32x768, .f32⟩ : BufTy).Contents (Elt F) :=
  Host.dotGeneral dot_S16x32x4096_S16x4096x768_S16x32x768_2_1_1_2_0_0 none (x3) (val_main_v0 (F := F) x0)
theorem lhs_main_v1_0 (i : S16x32x768.Idx) (q : dot_S16x32x4096_S16x4096x768_S16x32x768_2_1_1_2_0_0.contr.Idx) :
    (dot_S16x32x4096_S16x4096x768_S16x32x768_2_1_1_2_0_0.lhsIdx i q 0).val = (i 0).val := by
  unfold DotDims.lhsIdx
  rw [dif_pos (show (0 : Fin S16x32x4096.rank) ∈ dot_S16x32x4096_S16x4096x768_S16x32x768_2_1_1_2_0_0.lhsBatch by decide)]
  rfl
theorem lhs_main_v1_1 (i : S16x32x768.Idx) (q : dot_S16x32x4096_S16x4096x768_S16x32x768_2_1_1_2_0_0.contr.Idx) :
    (dot_S16x32x4096_S16x4096x768_S16x32x768_2_1_1_2_0_0.lhsIdx i q 1).val = (i 1).val := by
  unfold DotDims.lhsIdx
  rw [dif_neg (show ¬(1 : Fin S16x32x4096.rank) ∈ dot_S16x32x4096_S16x4096x768_S16x32x768_2_1_1_2_0_0.lhsBatch by decide), dif_pos (show (1 : Fin S16x32x4096.rank) ∈ dot_S16x32x4096_S16x4096x768_S16x32x768_2_1_1_2_0_0.lhsNonContracting by decide)]
  rfl
theorem lhs_main_v1_2 (i : S16x32x768.Idx) (q : dot_S16x32x4096_S16x4096x768_S16x32x768_2_1_1_2_0_0.contr.Idx) :
    (dot_S16x32x4096_S16x4096x768_S16x32x768_2_1_1_2_0_0.lhsIdx i q 2).val = (q ⟨0, by decide⟩).val :=
  dot_S16x32x4096_S16x4096x768_S16x32x768_2_1_1_2_0_0.lhsIdx_val_of_single rfl i q
theorem rhs_main_v1_0 (i : S16x32x768.Idx) (q : dot_S16x32x4096_S16x4096x768_S16x32x768_2_1_1_2_0_0.contr.Idx) :
    (dot_S16x32x4096_S16x4096x768_S16x32x768_2_1_1_2_0_0.rhsIdx i q 0).val = (i 0).val := by
  unfold DotDims.rhsIdx
  rw [dif_pos (show (0 : Fin S16x4096x768.rank) ∈ dot_S16x32x4096_S16x4096x768_S16x32x768_2_1_1_2_0_0.rhsBatch by decide)]
  rfl
theorem rhs_main_v1_1 (i : S16x32x768.Idx) (q : dot_S16x32x4096_S16x4096x768_S16x32x768_2_1_1_2_0_0.contr.Idx) :
    (dot_S16x32x4096_S16x4096x768_S16x32x768_2_1_1_2_0_0.rhsIdx i q 1).val = (q ⟨0, by decide⟩).val :=
  dot_S16x32x4096_S16x4096x768_S16x32x768_2_1_1_2_0_0.rhsIdx_val_of_single rfl i q
theorem rhs_main_v1_2 (i : S16x32x768.Idx) (q : dot_S16x32x4096_S16x4096x768_S16x32x768_2_1_1_2_0_0.contr.Idx) :
    (dot_S16x32x4096_S16x4096x768_S16x32x768_2_1_1_2_0_0.rhsIdx i q 2).val = (i 2).val := by
  unfold DotDims.rhsIdx
  rw [dif_neg (show ¬(2 : Fin S16x4096x768.rank) ∈ dot_S16x32x4096_S16x4096x768_S16x32x768_2_1_1_2_0_0.rhsBatch by decide), dif_pos (show (2 : Fin S16x4096x768.rank) ∈ dot_S16x32x4096_S16x4096x768_S16x32x768_2_1_1_2_0_0.rhsNonContracting by decide)]
  rfl
abbrev lidx_main_v1 (i : S16x32x768.Idx) (k : Fin 4096) : S16x32x4096.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v1 (i : S16x32x768.Idx) (k : Fin 4096) : S16x4096x768.Idx := fun a => match a with
  | ⟨0, _⟩ => ⟨(i 0).val, (i 0).isLt⟩
  | ⟨1, _⟩ => ⟨k.val, k.isLt⟩
  | ⟨2, _⟩ => ⟨(i 2).val, (i 2).isLt⟩
/-- Stated at `F := Ideal`, where the host's `dot_general` is this sum; at a bit-exact instance it is an opaque function of its operands. -/
theorem val_main_v1_apply (x0 : (⟨S65536x768, .f32⟩ : BufTy).Contents (Elt Ideal)) (x3 : (⟨S16x32x4096, .f32⟩ : BufTy).Contents (Elt Ideal)) (i : S16x32x768.Idx) :
    val_main_v1 (F := Ideal) x0 x3 i = ∑ k : Fin 4096, x3 (lidx_main_v1 i k) * (val_main_v0 (F := Ideal) x0) (ridx_main_v1 i k) := by
  unfold val_main_v1
  generalize val_main_v0 (F := Ideal) x0 = y0
  simp only [Host.dotGeneral]
  rw [Ideal.dotGeneral_apply, ← Equiv.sum_comp (ValueIdx.contrEquiv1 dot_S16x32x4096_S16x4096x768_S16x32x768_2_1_1_2_0_0 4096 rfl rfl).symm]
  refine Finset.sum_congr rfl fun k _ => ?_
  have hk := ValueIdx.contrEquiv1_symm_val dot_S16x32x4096_S16x4096x768_S16x32x768_2_1_1_2_0_0 4096 rfl rfl k
  have el : dot_S16x32x4096_S16x4096x768_S16x32x768_2_1_1_2_0_0.lhsIdx i ((ValueIdx.contrEquiv1 dot_S16x32x4096_S16x4096x768_S16x32x768_2_1_1_2_0_0 4096 rfl rfl).symm k) = lidx_main_v1 i k := funext fun a => Fin.ext (by
    match a with
    | ⟨0, _⟩ => exact lhs_main_v1_0 _ _
    | ⟨1, _⟩ => exact lhs_main_v1_1 _ _
    | ⟨2, _⟩ => exact (lhs_main_v1_2 _ _).trans hk)
  have er : dot_S16x32x4096_S16x4096x768_S16x32x768_2_1_1_2_0_0.rhsIdx i ((ValueIdx.contrEquiv1 dot_S16x32x4096_S16x4096x768_S16x32x768_2_1_1_2_0_0 4096 rfl rfl).symm k) = ridx_main_v1 i k := funext fun a => Fin.ext (by
    match a with
    | ⟨0, _⟩ => exact rhs_main_v1_0 _ _
    | ⟨1, _⟩ => exact (rhs_main_v1_1 _ _).trans hk
    | ⟨2, _⟩ => exact rhs_main_v1_2 _ _)
  rw [el, er]

-- %2 = stablehlo.reshape %1 : (tensor<16x32x768xf32>) -> tensor<512x768xf32>
def val_main_v2 (x0 : (⟨S65536x768, .f32⟩ : BufTy).Contents (Elt F)) (x3 : (⟨S16x32x4096, .f32⟩ : BufTy).Contents (Elt F)) : (⟨S512x768, .f32⟩ : BufTy).Contents (Elt F) :=
  shapeCast _ (val_main_v1 (F := F) x0 x3) shapeCasts_S16x32x768_S512x768
abbrev idx_main_v2 (i : S512x768.Idx) : S16x32x768.Idx := fun a => match a with
  | ⟨0, _⟩ => ⟨((i 0).val * 768 + (i 1).val) / 24576, by have h0 : (i 0).val < 512 := (i 0).isLt; have h1 : (i 1).val < 768 := (i 1).isLt; show ((i 0).val * 768 + (i 1).val) / 24576 < 16; omega⟩
  | ⟨1, _⟩ => ⟨((i 0).val * 768 + (i 1).val) / 768 % 32, by have h0 : (i 0).val < 512 := (i 0).isLt; have h1 : (i 1).val < 768 := (i 1).isLt; show ((i 0).val * 768 + (i 1).val) / 768 % 32 < 32; omega⟩
  | ⟨2, _⟩ => ⟨((i 0).val * 768 + (i 1).val) % 768, by have h0 : (i 0).val < 512 := (i 0).isLt; have h1 : (i 1).val < 768 := (i 1).isLt; show ((i 0).val * 768 + (i 1).val) % 768 < 768; omega⟩
theorem val_main_v2_apply (x0 : (⟨S65536x768, .f32⟩ : BufTy).Contents (Elt F)) (x3 : (⟨S16x32x4096, .f32⟩ : BufTy).Contents (Elt F)) (i : S512x768.Idx) :
    val_main_v2 (F := F) x0 x3 i = val_main_v1 (F := F) x0 x3 (idx_main_v2 i) := by
  unfold val_main_v2
  generalize val_main_v1 (F := F) x0 x3 = y
  exact shapeCast_apply y shapeCasts_S16x32x768_S512x768 i (idx_main_v2 i)
    (by rewrite [Shape.rowMajor_val_three, Shape.rowMajor_val_two]; have h0 : (i 0).val < 512 := (i 0).isLt; have h1 : (i 1).val < 768 := (i 1).isLt; show (((i 0).val * 768 + (i 1).val) / 24576 * 32 + ((i 0).val * 768 + (i 1).val) / 768 % 32) * 768 + ((i 0).val * 768 + (i 1).val) % 768 = (i 0).val * 768 + (i 1).val; omega)

-- %cst = stablehlo.constant dense<0.000000e+00> : tensor<f32>
def val_main_cst : (⟨S_, .f32⟩ : BufTy).Contents (Elt F) :=
  constant S_ .f32 0x00000000#32
theorem val_main_cst_apply (i : S_.Idx) :
    val_main_cst (F := F) i = FloatOps.ofBits .f32 0x00000000#32 := rfl

-- %3 = stablehlo.reduce(%arg3 init: %cst) applies stablehlo.add across dimensions = [2] : (tensor<16x32x4096xf32>, tensor<f32>) -> tensor<16x32xf32> {
def val_main_v3 (x3 : (⟨S16x32x4096, .f32⟩ : BufTy).Contents (Elt F)) : (⟨S16x32, .f32⟩ : BufTy).Contents (Elt F) :=
  Host.reduceAdd (x3) (val_main_cst (F := F)) reducesTo_S16x32x4096_S16x32_d2 h_S_
abbrev idx_main_v3 (i : S16x32.Idx) (k : Fin 4096) : S16x32x4096.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v3_apply (x3 : (⟨S16x32x4096, .f32⟩ : BufTy).Contents (Elt Ideal)) (i : S16x32.Idx) :
    val_main_v3 (F := Ideal) x3 i = (val_main_cst (F := Ideal)) (Shape.Idx.first h_S_) + ∑ k : Fin 4096, x3 (idx_main_v3 i k) := by
  unfold val_main_v3
  simp only [Host.reduceAdd, Ideal.hostReduceAdd_def]
  rw [Ideal.hostReduceAdd_single reducesTo_S16x32x4096_S16x32_d2 (by decide)]
  refine congrArg (_ + ·) (Finset.sum_congr rfl fun k _ => ?_)
  exact congrArg x3 (funext fun a => Fin.ext (by match a with | ⟨0, _⟩ => rfl | ⟨1, _⟩ => rfl | ⟨2, _⟩ => rfl))

-- %4 = stablehlo.reshape %3 : (tensor<16x32xf32>) -> tensor<512x1xf32>
def val_main_v4 (x3 : (⟨S16x32x4096, .f32⟩ : BufTy).Contents (Elt F)) : (⟨S512x1, .f32⟩ : BufTy).Contents (Elt F) :=
  shapeCast _ (val_main_v3 (F := F) x3) shapeCasts_S16x32_S512x1
abbrev idx_main_v4 (i : S512x1.Idx) : S16x32.Idx := fun a => match a with
  | ⟨0, _⟩ => ⟨((i 0).val * 1 + (i 1).val) / 32, by have h0 : (i 0).val < 512 := (i 0).isLt; have h1 : (i 1).val < 1 := (i 1).isLt; show ((i 0).val * 1 + (i 1).val) / 32 < 16; omega⟩
  | ⟨1, _⟩ => ⟨((i 0).val * 1 + (i 1).val) % 32, by have h0 : (i 0).val < 512 := (i 0).isLt; have h1 : (i 1).val < 1 := (i 1).isLt; show ((i 0).val * 1 + (i 1).val) % 32 < 32; omega⟩
theorem val_main_v4_apply (x3 : (⟨S16x32x4096, .f32⟩ : BufTy).Contents (Elt F)) (i : S512x1.Idx) :
    val_main_v4 (F := F) x3 i = val_main_v3 (F := F) x3 (idx_main_v4 i) := by
  unfold val_main_v4
  generalize val_main_v3 (F := F) x3 = y
  exact shapeCast_apply y shapeCasts_S16x32_S512x1 i (idx_main_v4 i)
    (by rewrite [Shape.rowMajor_val_two, Shape.rowMajor_val_two]; have h0 : (i 0).val < 512 := (i 0).isLt; have h1 : (i 1).val < 1 := (i 1).isLt; show ((i 0).val * 1 + (i 1).val) / 32 * 32 + ((i 0).val * 1 + (i 1).val) % 32 = (i 0).val * 1 + (i 1).val; omega)

-- %cst_0 = stablehlo.constant dense<9.99999996E-13> : tensor<f32>
def val_main_cst_0 : (⟨S_, .f32⟩ : BufTy).Contents (Elt F) :=
  constant S_ .f32 0x2B8CBCCC#32
theorem val_main_cst_0_apply (i : S_.Idx) :
    val_main_cst_0 (F := F) i = FloatOps.ofBits .f32 0x2B8CBCCC#32 := rfl

-- %5 = stablehlo.broadcast_in_dim %cst_0, dims = [] : (tensor<f32>) -> tensor<512x1xf32>
def val_main_v5 : (⟨S512x1, .f32⟩ : BufTy).Contents (Elt F) :=
  broadcastInDim S512x1 ![] bcast_S_S512x1 (val_main_cst_0 (F := F))
abbrev idx_main_v5 (i : S512x1.Idx) : S_.Idx := fun a => a.elim0
theorem val_main_v5_apply (i : S512x1.Idx) :
    val_main_v5 (F := F) i = val_main_cst_0 (F := F) (idx_main_v5 i) := by
  unfold val_main_v5
  generalize val_main_cst_0 (F := F) = y
  exact broadcastInDim_apply _ bcast_S_S512x1 y i (idx_main_v5 i) (fun a => a.elim0)

-- %6 = stablehlo.add %4, %5 : tensor<512x1xf32>
def val_main_v6 (x3 : (⟨S16x32x4096, .f32⟩ : BufTy).Contents (Elt F)) : (⟨S512x1, .f32⟩ : BufTy).Contents (Elt F) :=
  addf (val_main_v4 (F := F) x3) (val_main_v5 (F := F))
theorem val_main_v6_apply (x3 : (⟨S16x32x4096, .f32⟩ : BufTy).Contents (Elt F)) (i : S512x1.Idx) :
    val_main_v6 (F := F) x3 i = FloatOps.addf (val_main_v4 (F := F) x3 i) (val_main_v5 (F := F) i) := rfl

-- %7 = stablehlo.broadcast_in_dim %6, dims = [0, 1] : (tensor<512x1xf32>) -> tensor<512x768xf32>
def val_main_v7 (x3 : (⟨S16x32x4096, .f32⟩ : BufTy).Contents (Elt F)) : (⟨S512x768, .f32⟩ : BufTy).Contents (Elt F) :=
  broadcastInDim S512x768 ![0, 1] bcast_S512x1_S512x768_0_1 (val_main_v6 (F := F) x3)
abbrev idx_main_v7 (i : S512x768.Idx) : S512x1.Idx := fun a => match a with
  | ⟨0, _⟩ => ⟨(i 0).val, (i 0).isLt⟩
  | ⟨1, _⟩ => ⟨0, Nat.one_pos⟩
theorem val_main_v7_apply (x3 : (⟨S16x32x4096, .f32⟩ : BufTy).Contents (Elt F)) (i : S512x768.Idx) :
    val_main_v7 (F := F) x3 i = val_main_v6 (F := F) x3 (idx_main_v7 i) := by
  unfold val_main_v7
  generalize val_main_v6 (F := F) x3 = y
  exact broadcastInDim_apply _ bcast_S512x1_S512x768_0_1 y i (idx_main_v7 i) (fun a => match a with
    | ⟨0, _⟩ => by show (i 0).val = if (512 : Nat) = 1 then 0 else (i 0).val; rw [if_neg (by decide)]
    | ⟨1, _⟩ => by show 0 = if (1 : Nat) = 1 then 0 else (i 1).val; rw [if_pos rfl])

-- %8 = stablehlo.divide %2, %7 : tensor<512x768xf32>
def val_main_v8 (x0 : (⟨S65536x768, .f32⟩ : BufTy).Contents (Elt F)) (x3 : (⟨S16x32x4096, .f32⟩ : BufTy).Contents (Elt F)) : (⟨S512x768, .f32⟩ : BufTy).Contents (Elt F) :=
  Host.divf (val_main_v2 (F := F) x0 x3) (val_main_v7 (F := F) x3)
theorem val_main_v8_apply (x0 : (⟨S65536x768, .f32⟩ : BufTy).Contents (Elt F)) (x3 : (⟨S16x32x4096, .f32⟩ : BufTy).Contents (Elt F)) (i : S512x768.Idx) :
    val_main_v8 (F := F) x0 x3 i = FloatOps.hostDivf (val_main_v2 (F := F) x0 x3 i) (val_main_v7 (F := F) x3 i) := rfl

-- %9 = stablehlo.transpose %8, dims = [1, 0] : (tensor<512x768xf32>) -> tensor<768x512xf32>
def val_main_v9 (x0 : (⟨S65536x768, .f32⟩ : BufTy).Contents (Elt F)) (x3 : (⟨S16x32x4096, .f32⟩ : BufTy).Contents (Elt F)) : (⟨S768x512, .f32⟩ : BufTy).Contents (Elt F) :=
  transpose S768x512 [1, 0] (val_main_v8 (F := F) x0 x3) transposes_S512x768_S768x512_1_0
abbrev idx_main_v9 (i : S768x512.Idx) : S512x768.Idx := fun a => match a with
  | ⟨0, _⟩ => ⟨(i 1).val, (i 1).isLt⟩
  | ⟨1, _⟩ => ⟨(i 0).val, (i 0).isLt⟩
theorem val_main_v9_apply (x0 : (⟨S65536x768, .f32⟩ : BufTy).Contents (Elt F)) (x3 : (⟨S16x32x4096, .f32⟩ : BufTy).Contents (Elt F)) (i : S768x512.Idx) :
    val_main_v9 (F := F) x0 x3 i = val_main_v8 (F := F) x0 x3 (idx_main_v9 i) := by
  unfold val_main_v9
  generalize val_main_v8 (F := F) x0 x3 = y
  exact transpose_apply [1, 0] y transposes_S512x768_S768x512_1_0 i (idx_main_v9 i) (fun b => match b with
    | ⟨0, _⟩ => rfl
    | ⟨1, _⟩ => rfl)

-- %10 = stablehlo.dot_general %arg2, %9, contracting_dims = [1] x [0], precision = [DEFAULT, DEFAULT] : (tensor<512x768xf32>, tensor<768x512xf32>) -> tensor<512x512xf32>
def val_main_v10 (x0 : (⟨S65536x768, .f32⟩ : BufTy).Contents (Elt F)) (x2 : (⟨S512x768, .f32⟩ : BufTy).Contents (Elt F)) (x3 : (⟨S16x32x4096, .f32⟩ : BufTy).Contents (Elt F)) : (⟨S512x512, .f32⟩ : BufTy).Contents (Elt F) :=
  Host.dotGeneral dot_S512x768_S768x512_S512x512_1_0_0_1_n_n none (x2) (val_main_v9 (F := F) x0 x3)
theorem lhs_main_v10_0 (i : S512x512.Idx) (q : dot_S512x768_S768x512_S512x512_1_0_0_1_n_n.contr.Idx) :
    (dot_S512x768_S768x512_S512x512_1_0_0_1_n_n.lhsIdx i q 0).val = (i 0).val := by
  unfold DotDims.lhsIdx
  rw [dif_neg (show ¬(0 : Fin S512x768.rank) ∈ dot_S512x768_S768x512_S512x512_1_0_0_1_n_n.lhsBatch by decide), dif_pos (show (0 : Fin S512x768.rank) ∈ dot_S512x768_S768x512_S512x512_1_0_0_1_n_n.lhsNonContracting by decide)]
  rfl
theorem lhs_main_v10_1 (i : S512x512.Idx) (q : dot_S512x768_S768x512_S512x512_1_0_0_1_n_n.contr.Idx) :
    (dot_S512x768_S768x512_S512x512_1_0_0_1_n_n.lhsIdx i q 1).val = (q ⟨0, by decide⟩).val :=
  dot_S512x768_S768x512_S512x512_1_0_0_1_n_n.lhsIdx_val_of_single rfl i q
theorem rhs_main_v10_0 (i : S512x512.Idx) (q : dot_S512x768_S768x512_S512x512_1_0_0_1_n_n.contr.Idx) :
    (dot_S512x768_S768x512_S512x512_1_0_0_1_n_n.rhsIdx i q 0).val = (q ⟨0, by decide⟩).val :=
  dot_S512x768_S768x512_S512x512_1_0_0_1_n_n.rhsIdx_val_of_single rfl i q
theorem rhs_main_v10_1 (i : S512x512.Idx) (q : dot_S512x768_S768x512_S512x512_1_0_0_1_n_n.contr.Idx) :
    (dot_S512x768_S768x512_S512x512_1_0_0_1_n_n.rhsIdx i q 1).val = (i 1).val := by
  unfold DotDims.rhsIdx
  rw [dif_neg (show ¬(1 : Fin S768x512.rank) ∈ dot_S512x768_S768x512_S512x512_1_0_0_1_n_n.rhsBatch by decide), dif_pos (show (1 : Fin S768x512.rank) ∈ dot_S512x768_S768x512_S512x512_1_0_0_1_n_n.rhsNonContracting by decide)]
  rfl
abbrev lidx_main_v10 (i : S512x512.Idx) (k : Fin 768) : S512x768.Idx := fun a => match a with
  | ⟨0, _⟩ => ⟨(i 0).val, (i 0).isLt⟩
  | ⟨1, _⟩ => ⟨k.val, k.isLt⟩
abbrev ridx_main_v10 (i : S512x512.Idx) (k : Fin 768) : S768x512.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v10_apply (x0 : (⟨S65536x768, .f32⟩ : BufTy).Contents (Elt Ideal)) (x2 : (⟨S512x768, .f32⟩ : BufTy).Contents (Elt Ideal)) (x3 : (⟨S16x32x4096, .f32⟩ : BufTy).Contents (Elt Ideal)) (i : S512x512.Idx) :
    val_main_v10 (F := Ideal) x0 x2 x3 i = ∑ k : Fin 768, x2 (lidx_main_v10 i k) * (val_main_v9 (F := Ideal) x0 x3) (ridx_main_v10 i k) := by
  unfold val_main_v10
  generalize val_main_v9 (F := Ideal) x0 x3 = y0
  simp only [Host.dotGeneral]
  rw [Ideal.dotGeneral_apply, ← Equiv.sum_comp (ValueIdx.contrEquiv1 dot_S512x768_S768x512_S512x512_1_0_0_1_n_n 768 rfl rfl).symm]
  refine Finset.sum_congr rfl fun k _ => ?_
  have hk := ValueIdx.contrEquiv1_symm_val dot_S512x768_S768x512_S512x512_1_0_0_1_n_n 768 rfl rfl k
  have el : dot_S512x768_S768x512_S512x512_1_0_0_1_n_n.lhsIdx i ((ValueIdx.contrEquiv1 dot_S512x768_S768x512_S512x512_1_0_0_1_n_n 768 rfl rfl).symm k) = lidx_main_v10 i k := funext fun a => Fin.ext (by
    match a with
    | ⟨0, _⟩ => exact lhs_main_v10_0 _ _
    | ⟨1, _⟩ => exact (lhs_main_v10_1 _ _).trans hk)
  have er : dot_S512x768_S768x512_S512x512_1_0_0_1_n_n.rhsIdx i ((ValueIdx.contrEquiv1 dot_S512x768_S768x512_S512x512_1_0_0_1_n_n 768 rfl rfl).symm k) = ridx_main_v10 i k := funext fun a => Fin.ext (by
    match a with
    | ⟨0, _⟩ => exact (rhs_main_v10_0 _ _).trans hk
    | ⟨1, _⟩ => exact rhs_main_v10_1 _ _)
  rw [el, er]

-- %11 = stablehlo.reshape %arg4 : (tensor<1xf32>) -> tensor<f32>
def val_main_v11 (x4 : (⟨S1, .f32⟩ : BufTy).Contents (Elt F)) : (⟨S_, .f32⟩ : BufTy).Contents (Elt F) :=
  shapeCast _ (x4) shapeCasts_S1_S_

-- %12 = stablehlo.exponential %11 : tensor<f32>
def val_main_v12 (x4 : (⟨S1, .f32⟩ : BufTy).Contents (Elt F)) : (⟨S_, .f32⟩ : BufTy).Contents (Elt F) :=
  Host.exp (val_main_v11 (F := F) x4)
theorem val_main_v12_apply (x4 : (⟨S1, .f32⟩ : BufTy).Contents (Elt F)) (i : S_.Idx) :
    val_main_v12 (F := F) x4 i = FloatOps.hostUnary .exp (val_main_v11 (F := F) x4 i) := rfl

-- %13 = stablehlo.broadcast_in_dim %12, dims = [] : (tensor<f32>) -> tensor<512x512xf32>
def val_main_v13 (x4 : (⟨S1, .f32⟩ : BufTy).Contents (Elt F)) : (⟨S512x512, .f32⟩ : BufTy).Contents (Elt F) :=
  broadcastInDim S512x512 ![] bcast_S_S512x512 (val_main_v12 (F := F) x4)
abbrev idx_main_v13 (i : S512x512.Idx) : S_.Idx := fun a => a.elim0
theorem val_main_v13_apply (x4 : (⟨S1, .f32⟩ : BufTy).Contents (Elt F)) (i : S512x512.Idx) :
    val_main_v13 (F := F) x4 i = val_main_v12 (F := F) x4 (idx_main_v13 i) := by
  unfold val_main_v13
  generalize val_main_v12 (F := F) x4 = y
  exact broadcastInDim_apply _ bcast_S_S512x512 y i (idx_main_v13 i) (fun a => a.elim0)

-- %14 = stablehlo.multiply %10, %13 : tensor<512x512xf32>
def val_main_v14 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512x512, .f32⟩ : BufTy).Contents (Elt F) :=
  mulf (val_main_v10 (F := F) x0 x2 x3) (val_main_v13 (F := F) x4)
theorem val_main_v14_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S512x512.Idx) :
    val_main_v14 (F := F) x0 x2 x3 x4 i = FloatOps.mulf (val_main_v10 (F := F) x0 x2 x3 i) (val_main_v13 (F := F) x4 i) := rfl

-- %15 = stablehlo.iota dim = 0 : tensor<512xi32>
def val_main_v15 : (⟨S512, .i32⟩ : BufTy).Contents (Elt F) :=
  iotaInDim S512 32 0
theorem val_main_v15_apply (i : S512.Idx) :
    val_main_v15 (F := F) i = BitVec.ofNat 32 (i 0).val := rfl

-- %16 = stablehlo.reshape %4 : (tensor<512x1xf32>) -> tensor<512xf32>
def val_main_v16 (x3 : (⟨S16x32x4096, .f32⟩ : BufTy).Contents (Elt F)) : (⟨S512, .f32⟩ : BufTy).Contents (Elt F) :=
  shapeCast _ (val_main_v4 (F := F) x3) shapeCasts_S512x1_S512
abbrev idx_main_v16 (i : S512.Idx) : S512x1.Idx := fun a => match a with
  | ⟨0, _⟩ => ⟨((i 0).val) / 1, by have h0 : (i 0).val < 512 := (i 0).isLt; show ((i 0).val) / 1 < 512; omega⟩
  | ⟨1, _⟩ => ⟨0, Nat.one_pos⟩
theorem val_main_v16_apply (x3 : (⟨S16x32x4096, .f32⟩ : BufTy).Contents (Elt F)) (i : S512.Idx) :
    val_main_v16 (F := F) x3 i = val_main_v4 (F := F) x3 (idx_main_v16 i) := by
  unfold val_main_v16
  generalize val_main_v4 (F := F) x3 = y
  exact shapeCast_apply y shapeCasts_S512x1_S512 i (idx_main_v16 i)
    (by rewrite [Shape.rowMajor_val_two, Shape.rowMajor_val_one]; have h0 : (i 0).val < 512 := (i 0).isLt; show ((i 0).val) / 1 * 1 + 0 = (i 0).val; omega)

-- %cst_1 = stablehlo.constant dense<0.000000e+00> : tensor<f32>
def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

-- %17 = stablehlo.broadcast_in_dim %cst_1, dims = [] : (tensor<f32>) -> tensor<512xf32>
def val_main_v17 : (⟨S512, .f32⟩ : BufTy).Contents (Elt F) :=
  broadcastInDim S512 ![] bcast_S_S512 (val_main_cst_1 (F := F))
abbrev idx_main_v17 (i : S512.Idx) : S_.Idx := fun a => a.elim0
theorem val_main_v17_apply (i : S512.Idx) :
    val_main_v17 (F := F) i = val_main_cst_1 (F := F) (idx_main_v17 i) := by
  unfold val_main_v17
  generalize val_main_cst_1 (F := F) = y
  exact broadcastInDim_apply _ bcast_S_S512 y i (idx_main_v17 i) (fun a => a.elim0)

-- %18 = stablehlo.compare GT, %16, %17, FLOAT : (tensor<512xf32>, tensor<512xf32>) -> tensor<512xi1>
def val_main_v18 (x3 : (⟨S16x32x4096, .f32⟩ : BufTy).Contents (Elt F)) : (⟨S512, .i1⟩ : BufTy).Contents (Elt F) :=
  cmpf .ogt (val_main_v16 (F := F) x3) (val_main_v17 (F := F))
theorem val_main_v18_apply (x3 : (⟨S16x32x4096, .f32⟩ : BufTy).Contents (Elt F)) (i : S512.Idx) :
    val_main_v18 (F := F) x3 i = FloatOps.cmpf .ogt (val_main_v16 (F := F) x3 i) (val_main_v17 (F := F) i) := rfl

-- @log_softmax's %cst = stablehlo.constant dense<0xFF800000> : tensor<f32>, in %19 = func.call @log_softmax(…) (record main_call0)
def val_main_call0_cst : (⟨S_, .f32⟩ : BufTy).Contents (Elt F) :=
  constant S_ .f32 0xFF800000#32
theorem val_main_call0_cst_apply (i : S_.Idx) :
    val_main_call0_cst (F := F) i = FloatOps.ofBits .f32 0xFF800000#32 := rfl

-- @log_softmax's %0 = stablehlo.reduce(%arg0 init: %cst) applies stablehlo.maximum across dimensions = [1] : (tensor<512x512xf32>, tensor<f32>) -> tensor<512xf32> {, in %19 = func.call @log_softmax(…) (record main_call0)
def val_main_call0_v0 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512, .f32⟩ : BufTy).Contents (Elt F) :=
  Host.reduce FloatOps.maximumf (val_main_v14 (F := F) x0 x2 x3 x4) (val_main_call0_cst (F := F)) reducesTo_S512x512_S512_d1 h_S_

-- @log_softmax's %cst_0 = stablehlo.constant dense<0xFF800000> : tensor<f32>, in %19 = func.call @log_softmax(…) (record main_call0)
def val_main_call0_cst_0 : (⟨S_, .f32⟩ : BufTy).Contents (Elt F) :=
  constant S_ .f32 0xFF800000#32
theorem val_main_call0_cst_0_apply (i : S_.Idx) :
    val_main_call0_cst_0 (F := F) i = FloatOps.ofBits .f32 0xFF800000#32 := rfl

-- @log_softmax's %1 = stablehlo.broadcast_in_dim %cst_0, dims = [] : (tensor<f32>) -> tensor<512xf32>, in %19 = func.call @log_softmax(…) (record main_call0)
def val_main_call0_v1 : (⟨S512, .f32⟩ : BufTy).Contents (Elt F) :=
  broadcastInDim S512 ![] bcast_S_S512 (val_main_call0_cst_0 (F := F))
abbrev idx_main_call0_v1 (i : S512.Idx) : S_.Idx := fun a => a.elim0
theorem val_main_call0_v1_apply (i : S512.Idx) :
    val_main_call0_v1 (F := F) i = val_main_call0_cst_0 (F := F) (idx_main_call0_v1 i) := by
  unfold val_main_call0_v1
  generalize val_main_call0_cst_0 (F := F) = y
  exact broadcastInDim_apply _ bcast_S_S512 y i (idx_main_call0_v1 i) (fun a => a.elim0)

-- @log_softmax's %2 = stablehlo.maximum %1, %0 : tensor<512xf32>, in %19 = func.call @log_softmax(…) (record main_call0)
def val_main_call0_v2 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512, .f32⟩ : BufTy).Contents (Elt F) :=
  maximumf (val_main_call0_v1 (F := F)) (val_main_call0_v0 (F := F) x0 x2 x3 x4)
theorem val_main_call0_v2_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S512.Idx) :
    val_main_call0_v2 (F := F) x0 x2 x3 x4 i = FloatOps.maximumf (val_main_call0_v1 (F := F) i) (val_main_call0_v0 (F := F) x0 x2 x3 x4 i) := rfl

-- @log_softmax's %3 = stablehlo.broadcast_in_dim %2, dims = [0] : (tensor<512xf32>) -> tensor<512x1xf32>, in %19 = func.call @log_softmax(…) (record main_call0)
def val_main_call0_v3 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512x1, .f32⟩ : BufTy).Contents (Elt F) :=
  broadcastInDim S512x1 ![0] bcast_S512_S512x1_0 (val_main_call0_v2 (F := F) x0 x2 x3 x4)
abbrev idx_main_call0_v3 (i : S512x1.Idx) : S512.Idx := fun a => match a with
  | ⟨0, _⟩ => ⟨(i 0).val, (i 0).isLt⟩
theorem val_main_call0_v3_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S512x1.Idx) :
    val_main_call0_v3 (F := F) x0 x2 x3 x4 i = val_main_call0_v2 (F := F) x0 x2 x3 x4 (idx_main_call0_v3 i) := by
  unfold val_main_call0_v3
  generalize val_main_call0_v2 (F := F) x0 x2 x3 x4 = y
  exact broadcastInDim_apply _ bcast_S512_S512x1_0 y i (idx_main_call0_v3 i) (fun a => match a with
    | ⟨0, _⟩ => by show (i 0).val = if (512 : Nat) = 1 then 0 else (i 0).val; rw [if_neg (by decide)])

-- @log_softmax's %4 = stablehlo.broadcast_in_dim %3, dims = [0, 1] : (tensor<512x1xf32>) -> tensor<512x512xf32>, in %19 = func.call @log_softmax(…) (record main_call0)
def val_main_call0_v4 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512x512, .f32⟩ : BufTy).Contents (Elt F) :=
  broadcastInDim S512x512 ![0, 1] bcast_S512x1_S512x512_0_1 (val_main_call0_v3 (F := F) x0 x2 x3 x4)
abbrev idx_main_call0_v4 (i : S512x512.Idx) : S512x1.Idx := fun a => match a with
  | ⟨0, _⟩ => ⟨(i 0).val, (i 0).isLt⟩
  | ⟨1, _⟩ => ⟨0, Nat.one_pos⟩
theorem val_main_call0_v4_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S512x512.Idx) :
    val_main_call0_v4 (F := F) x0 x2 x3 x4 i = val_main_call0_v3 (F := F) x0 x2 x3 x4 (idx_main_call0_v4 i) := by
  unfold val_main_call0_v4
  generalize val_main_call0_v3 (F := F) x0 x2 x3 x4 = y
  exact broadcastInDim_apply _ bcast_S512x1_S512x512_0_1 y i (idx_main_call0_v4 i) (fun a => match a with
    | ⟨0, _⟩ => by show (i 0).val = if (512 : Nat) = 1 then 0 else (i 0).val; rw [if_neg (by decide)]
    | ⟨1, _⟩ => by show 0 = if (1 : Nat) = 1 then 0 else (i 1).val; rw [if_pos rfl])

-- @log_softmax's %5 = stablehlo.subtract %arg0, %4 : tensor<512x512xf32>, in %19 = func.call @log_softmax(…) (record main_call0)
def val_main_call0_v5 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512x512, .f32⟩ : BufTy).Contents (Elt F) :=
  subf (val_main_v14 (F := F) x0 x2 x3 x4) (val_main_call0_v4 (F := F) x0 x2 x3 x4)
theorem val_main_call0_v5_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S512x512.Idx) :
    val_main_call0_v5 (F := F) x0 x2 x3 x4 i = FloatOps.subf (val_main_v14 (F := F) x0 x2 x3 x4 i) (val_main_call0_v4 (F := F) x0 x2 x3 x4 i) := rfl

-- @log_softmax's %6 = stablehlo.exponential %5 : tensor<512x512xf32>, in %19 = func.call @log_softmax(…) (record main_call0)
def val_main_call0_v6 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512x512, .f32⟩ : BufTy).Contents (Elt F) :=
  Host.exp (val_main_call0_v5 (F := F) x0 x2 x3 x4)
theorem val_main_call0_v6_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S512x512.Idx) :
    val_main_call0_v6 (F := F) x0 x2 x3 x4 i = FloatOps.hostUnary .exp (val_main_call0_v5 (F := F) x0 x2 x3 x4 i) := rfl

-- @log_softmax's %cst_1 = stablehlo.constant dense<0.000000e+00> : tensor<f32>, in %19 = func.call @log_softmax(…) (record main_call0)
def val_main_call0_cst_1 : (⟨S_, .f32⟩ : BufTy).Contents (Elt F) :=
  constant S_ .f32 0x00000000#32
theorem val_main_call0_cst_1_apply (i : S_.Idx) :
    val_main_call0_cst_1 (F := F) i = FloatOps.ofBits .f32 0x00000000#32 := rfl

-- @log_softmax's %7 = stablehlo.reduce(%6 init: %cst_1) applies stablehlo.add across dimensions = [1] : (tensor<512x512xf32>, tensor<f32>) -> tensor<512xf32> {, in %19 = func.call @log_softmax(…) (record main_call0)
def val_main_call0_v7 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512, .f32⟩ : BufTy).Contents (Elt F) :=
  Host.reduceAdd (val_main_call0_v6 (F := F) x0 x2 x3 x4) (val_main_call0_cst_1 (F := F)) reducesTo_S512x512_S512_d1 h_S_
abbrev idx_main_call0_v7 (i : S512.Idx) (k : Fin 512) : S512x512.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_call0_v7_apply (x0 : (⟨S65536x768, .f32⟩ : BufTy).Contents (Elt Ideal)) (x2 : (⟨S512x768, .f32⟩ : BufTy).Contents (Elt Ideal)) (x3 : (⟨S16x32x4096, .f32⟩ : BufTy).Contents (Elt Ideal)) (x4 : (⟨S1, .f32⟩ : BufTy).Contents (Elt Ideal)) (i : S512.Idx) :
    val_main_call0_v7 (F := Ideal) x0 x2 x3 x4 i = (val_main_call0_cst_1 (F := Ideal)) (Shape.Idx.first h_S_) + ∑ k : Fin 512, (val_main_call0_v6 (F := Ideal) x0 x2 x3 x4) (idx_main_call0_v7 i k) := by
  unfold val_main_call0_v7
  generalize val_main_call0_v6 (F := Ideal) x0 x2 x3 x4 = y0
  simp only [Host.reduceAdd, Ideal.hostReduceAdd_def]
  rw [Ideal.hostReduceAdd_single reducesTo_S512x512_S512_d1 (by decide)]
  refine congrArg (_ + ·) (Finset.sum_congr rfl fun k _ => ?_)
  exact congrArg y0 (funext fun a => Fin.ext (by match a with | ⟨0, _⟩ => rfl | ⟨1, _⟩ => rfl))

-- @log_softmax's %8 = stablehlo.broadcast_in_dim %7, dims = [0] : (tensor<512xf32>) -> tensor<512x1xf32>, in %19 = func.call @log_softmax(…) (record main_call0)
def val_main_call0_v8 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512x1, .f32⟩ : BufTy).Contents (Elt F) :=
  broadcastInDim S512x1 ![0] bcast_S512_S512x1_0 (val_main_call0_v7 (F := F) x0 x2 x3 x4)
abbrev idx_main_call0_v8 (i : S512x1.Idx) : S512.Idx := fun a => match a with
  | ⟨0, _⟩ => ⟨(i 0).val, (i 0).isLt⟩
theorem val_main_call0_v8_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S512x1.Idx) :
    val_main_call0_v8 (F := F) x0 x2 x3 x4 i = val_main_call0_v7 (F := F) x0 x2 x3 x4 (idx_main_call0_v8 i) := by
  unfold val_main_call0_v8
  generalize val_main_call0_v7 (F := F) x0 x2 x3 x4 = y
  exact broadcastInDim_apply _ bcast_S512_S512x1_0 y i (idx_main_call0_v8 i) (fun a => match a with
    | ⟨0, _⟩ => by show (i 0).val = if (512 : Nat) = 1 then 0 else (i 0).val; rw [if_neg (by decide)])

-- @log_softmax's %9 = stablehlo.log %8 : tensor<512x1xf32>, in %19 = func.call @log_softmax(…) (record main_call0)
def val_main_call0_v9 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512x1, .f32⟩ : BufTy).Contents (Elt F) :=
  Host.log (val_main_call0_v8 (F := F) x0 x2 x3 x4)
theorem val_main_call0_v9_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S512x1.Idx) :
    val_main_call0_v9 (F := F) x0 x2 x3 x4 i = FloatOps.hostUnary .log (val_main_call0_v8 (F := F) x0 x2 x3 x4 i) := rfl

-- @log_softmax's %10 = stablehlo.broadcast_in_dim %9, dims = [0, 1] : (tensor<512x1xf32>) -> tensor<512x512xf32>, in %19 = func.call @log_softmax(…) (record main_call0)
def val_main_call0_v10 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512x512, .f32⟩ : BufTy).Contents (Elt F) :=
  broadcastInDim S512x512 ![0, 1] bcast_S512x1_S512x512_0_1 (val_main_call0_v9 (F := F) x0 x2 x3 x4)
abbrev idx_main_call0_v10 (i : S512x512.Idx) : S512x1.Idx := fun a => match a with
  | ⟨0, _⟩ => ⟨(i 0).val, (i 0).isLt⟩
  | ⟨1, _⟩ => ⟨0, Nat.one_pos⟩
theorem val_main_call0_v10_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S512x512.Idx) :
    val_main_call0_v10 (F := F) x0 x2 x3 x4 i = val_main_call0_v9 (F := F) x0 x2 x3 x4 (idx_main_call0_v10 i) := by
  unfold val_main_call0_v10
  generalize val_main_call0_v9 (F := F) x0 x2 x3 x4 = y
  exact broadcastInDim_apply _ bcast_S512x1_S512x512_0_1 y i (idx_main_call0_v10 i) (fun a => match a with
    | ⟨0, _⟩ => by show (i 0).val = if (512 : Nat) = 1 then 0 else (i 0).val; rw [if_neg (by decide)]
    | ⟨1, _⟩ => by show 0 = if (1 : Nat) = 1 then 0 else (i 1).val; rw [if_pos rfl])

-- %19 = func.call @log_softmax(…) (record main_call0) result 0: @log_softmax's %11 = stablehlo.subtract %5, %10 : tensor<512x512xf32>
def val_main_v19 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512x512, .f32⟩ : BufTy).Contents (Elt F) :=
  subf (val_main_call0_v5 (F := F) x0 x2 x3 x4) (val_main_call0_v10 (F := F) x0 x2 x3 x4)
theorem val_main_v19_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S512x512.Idx) :
    val_main_v19 (F := F) x0 x2 x3 x4 i = FloatOps.subf (val_main_call0_v5 (F := F) x0 x2 x3 x4 i) (val_main_call0_v10 (F := F) x0 x2 x3 x4 i) := rfl

-- %c = stablehlo.constant dense<0> : tensor<i32>
def val_main_c : (⟨S_, .i32⟩ : BufTy).Contents (Elt F) :=
  constantI S_ 32 0#32
theorem val_main_c_apply (i : S_.Idx) :
    val_main_c (F := F) i = 0#32 := rfl

-- %20 = stablehlo.broadcast_in_dim %c, dims = [] : (tensor<i32>) -> tensor<512xi32>
def val_main_v20 : (⟨S512, .i32⟩ : BufTy).Contents (Elt F) :=
  broadcastInDim S512 ![] bcast_S_S512 (val_main_c (F := F))
abbrev idx_main_v20 (i : S512.Idx) : S_.Idx := fun a => a.elim0
theorem val_main_v20_apply (i : S512.Idx) :
    val_main_v20 (F := F) i = val_main_c (F := F) (idx_main_v20 i) := by
  unfold val_main_v20
  generalize val_main_c (F := F) = y
  exact broadcastInDim_apply _ bcast_S_S512 y i (idx_main_v20 i) (fun a => a.elim0)

-- %21 = stablehlo.compare LT, %15, %20, SIGNED : (tensor<512xi32>, tensor<512xi32>) -> tensor<512xi1>
def val_main_v21 : (⟨S512, .i1⟩ : BufTy).Contents (Elt F) :=
  cmpi .slt (val_main_v15 (F := F)) (val_main_v20 (F := F))
theorem val_main_v21_apply (i : S512.Idx) :
    val_main_v21 (F := F) i = IntOp.cmpi .slt (val_main_v15 (F := F) i) (val_main_v20 (F := F) i) := rfl

-- %c_2 = stablehlo.constant dense<512> : tensor<i32>
def val_main_c_2 : (⟨S_, .i32⟩ : BufTy).Contents (Elt F) :=
  constantI S_ 32 512#32
theorem val_main_c_2_apply (i : S_.Idx) :
    val_main_c_2 (F := F) i = 512#32 := rfl

-- %22 = stablehlo.broadcast_in_dim %c_2, dims = [] : (tensor<i32>) -> tensor<512xi32>
def val_main_v22 : (⟨S512, .i32⟩ : BufTy).Contents (Elt F) :=
  broadcastInDim S512 ![] bcast_S_S512 (val_main_c_2 (F := F))
abbrev idx_main_v22 (i : S512.Idx) : S_.Idx := fun a => a.elim0
theorem val_main_v22_apply (i : S512.Idx) :
    val_main_v22 (F := F) i = val_main_c_2 (F := F) (idx_main_v22 i) := by
  unfold val_main_v22
  generalize val_main_c_2 (F := F) = y
  exact broadcastInDim_apply _ bcast_S_S512 y i (idx_main_v22 i) (fun a => a.elim0)

-- %23 = stablehlo.add %15, %22 : tensor<512xi32>
def val_main_v23 : (⟨S512, .i32⟩ : BufTy).Contents (Elt F) :=
  addi (val_main_v15 (F := F)) (val_main_v22 (F := F))
theorem val_main_v23_apply (i : S512.Idx) :
    val_main_v23 (F := F) i = IntOp.addi (val_main_v15 (F := F) i) (val_main_v22 (F := F) i) := rfl

-- %24 = stablehlo.select %21, %23, %15 : tensor<512xi1>, tensor<512xi32>
def val_main_v24 : (⟨S512, .i32⟩ : BufTy).Contents (Elt F) :=
  select (val_main_v21 (F := F)) (val_main_v23 (F := F)) (val_main_v15 (F := F))
theorem val_main_v24_apply (i : S512.Idx) :
    val_main_v24 (F := F) i = Scalar.select (val_main_v21 (F := F) i) (val_main_v23 (F := F) i) (val_main_v15 (F := F) i) := rfl

-- %c_3 = stablehlo.constant dense<0> : tensor<i32>
def val_main_c_3 : (⟨S_, .i32⟩ : BufTy).Contents (Elt F) :=
  constantI S_ 32 0#32
theorem val_main_c_3_apply (i : S_.Idx) :
    val_main_c_3 (F := F) i = 0#32 := rfl

-- %25 = stablehlo.broadcast_in_dim %c_3, dims = [] : (tensor<i32>) -> tensor<512xi32>
def val_main_v25 : (⟨S512, .i32⟩ : BufTy).Contents (Elt F) :=
  broadcastInDim S512 ![] bcast_S_S512 (val_main_c_3 (F := F))
abbrev idx_main_v25 (i : S512.Idx) : S_.Idx := fun a => a.elim0
theorem val_main_v25_apply (i : S512.Idx) :
    val_main_v25 (F := F) i = val_main_c_3 (F := F) (idx_main_v25 i) := by
  unfold val_main_v25
  generalize val_main_c_3 (F := F) = y
  exact broadcastInDim_apply _ bcast_S_S512 y i (idx_main_v25 i) (fun a => a.elim0)

-- %26 = stablehlo.compare LT, %15, %25, SIGNED : (tensor<512xi32>, tensor<512xi32>) -> tensor<512xi1>
def val_main_v26 : (⟨S512, .i1⟩ : BufTy).Contents (Elt F) :=
  cmpi .slt (val_main_v15 (F := F)) (val_main_v25 (F := F))
theorem val_main_v26_apply (i : S512.Idx) :
    val_main_v26 (F := F) i = IntOp.cmpi .slt (val_main_v15 (F := F) i) (val_main_v25 (F := F) i) := rfl

-- %c_4 = stablehlo.constant dense<512> : tensor<i32>
def val_main_c_4 : (⟨S_, .i32⟩ : BufTy).Contents (Elt F) :=
  constantI S_ 32 512#32
theorem val_main_c_4_apply (i : S_.Idx) :
    val_main_c_4 (F := F) i = 512#32 := rfl

-- %27 = stablehlo.broadcast_in_dim %c_4, dims = [] : (tensor<i32>) -> tensor<512xi32>
def val_main_v27 : (⟨S512, .i32⟩ : BufTy).Contents (Elt F) :=
  broadcastInDim S512 ![] bcast_S_S512 (val_main_c_4 (F := F))
abbrev idx_main_v27 (i : S512.Idx) : S_.Idx := fun a => a.elim0
theorem val_main_v27_apply (i : S512.Idx) :
    val_main_v27 (F := F) i = val_main_c_4 (F := F) (idx_main_v27 i) := by
  unfold val_main_v27
  generalize val_main_c_4 (F := F) = y
  exact broadcastInDim_apply _ bcast_S_S512 y i (idx_main_v27 i) (fun a => a.elim0)

-- %28 = stablehlo.add %15, %27 : tensor<512xi32>
def val_main_v28 : (⟨S512, .i32⟩ : BufTy).Contents (Elt F) :=
  addi (val_main_v15 (F := F)) (val_main_v27 (F := F))
theorem val_main_v28_apply (i : S512.Idx) :
    val_main_v28 (F := F) i = IntOp.addi (val_main_v15 (F := F) i) (val_main_v27 (F := F) i) := rfl

-- %29 = stablehlo.select %26, %28, %15 : tensor<512xi1>, tensor<512xi32>
def val_main_v29 : (⟨S512, .i32⟩ : BufTy).Contents (Elt F) :=
  select (val_main_v26 (F := F)) (val_main_v28 (F := F)) (val_main_v15 (F := F))
theorem val_main_v29_apply (i : S512.Idx) :
    val_main_v29 (F := F) i = Scalar.select (val_main_v26 (F := F) i) (val_main_v28 (F := F) i) (val_main_v15 (F := F) i) := rfl

-- %30 = stablehlo.broadcast_in_dim %24, dims = [0] : (tensor<512xi32>) -> tensor<512x1xi32>
def val_main_v30 : (⟨S512x1, .i32⟩ : BufTy).Contents (Elt F) :=
  broadcastInDim S512x1 ![0] bcast_S512_S512x1_0 (val_main_v24 (F := F))
abbrev idx_main_v30 (i : S512x1.Idx) : S512.Idx := fun a => match a with
  | ⟨0, _⟩ => ⟨(i 0).val, (i 0).isLt⟩
theorem val_main_v30_apply (i : S512x1.Idx) :
    val_main_v30 (F := F) i = val_main_v24 (F := F) (idx_main_v30 i) := by
  unfold val_main_v30
  generalize val_main_v24 (F := F) = y
  exact broadcastInDim_apply _ bcast_S512_S512x1_0 y i (idx_main_v30 i) (fun a => match a with
    | ⟨0, _⟩ => by show (i 0).val = if (512 : Nat) = 1 then 0 else (i 0).val; rw [if_neg (by decide)])

-- %31 = stablehlo.broadcast_in_dim %29, dims = [0] : (tensor<512xi32>) -> tensor<512x1xi32>
def val_main_v31 : (⟨S512x1, .i32⟩ : BufTy).Contents (Elt F) :=
  broadcastInDim S512x1 ![0] bcast_S512_S512x1_0 (val_main_v29 (F := F))
abbrev idx_main_v31 (i : S512x1.Idx) : S512.Idx := fun a => match a with
  | ⟨0, _⟩ => ⟨(i 0).val, (i 0).isLt⟩
theorem val_main_v31_apply (i : S512x1.Idx) :
    val_main_v31 (F := F) i = val_main_v29 (F := F) (idx_main_v31 i) := by
  unfold val_main_v31
  generalize val_main_v29 (F := F) = y
  exact broadcastInDim_apply _ bcast_S512_S512x1_0 y i (idx_main_v31 i) (fun a => match a with
    | ⟨0, _⟩ => by show (i 0).val = if (512 : Nat) = 1 then 0 else (i 0).val; rw [if_neg (by decide)])

-- %32 = stablehlo.concatenate %30, %31, dim = 1 : (tensor<512x1xi32>, tensor<512x1xi32>) -> tensor<512x2xi32>
def val_main_v32 : (⟨S512x2, .i32⟩ : BufTy).Contents (Elt F) :=
  concatenate S512x2 1 [⟨S512x1, (val_main_v30 (F := F))⟩, ⟨S512x1, (val_main_v31 (F := F))⟩] concatenates_S512x1_S512x1_S512x2_d1

-- %33 = "stablehlo.gather"(%19, %32) <{dimension_numbers = #stablehlo.gather<collapsed_slice_dims = [0, 1], start_index_map = [0, 1], index_vector_dim = 1>, indices_are_sorted = false, slice_sizes = array<i64: 1, 1>}> : (tensor<512x512xf32>, tensor<512x2xi32>) -> tensor<512xf32>
def val_main_v33 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512, .f32⟩ : BufTy).Contents (Elt F) :=
  Host.gather gather_S512x512_S512x2_S512_n_01_n_n_01_1_11 (val_main_v19 (F := F) x0 x2 x3 x4) (val_main_v32 (F := F))

-- %34 = stablehlo.negate %33 : tensor<512xf32>
def val_main_v34 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512, .f32⟩ : BufTy).Contents (Elt F) :=
  Host.negf (val_main_v33 (F := F) x0 x2 x3 x4)
theorem val_main_v34_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S512.Idx) :
    val_main_v34 (F := F) x0 x2 x3 x4 i = FloatOps.hostNegf (val_main_v33 (F := F) x0 x2 x3 x4 i) := rfl

-- %cst_5 = stablehlo.constant dense<0.000000e+00> : tensor<f32>
def val_main_cst_5 : (⟨S_, .f32⟩ : BufTy).Contents (Elt F) :=
  constant S_ .f32 0x00000000#32
theorem val_main_cst_5_apply (i : S_.Idx) :
    val_main_cst_5 (F := F) i = FloatOps.ofBits .f32 0x00000000#32 := rfl

-- @_where's %0 = stablehlo.convert %arg2 : tensor<f32>, in %35 = func.call @_where(…) (record main_call1)
def val_main_call1_v0 : (⟨S_, .f32⟩ : BufTy).Contents (Elt F) :=
  id (val_main_cst_5 (F := F))
theorem val_main_call1_v0_apply (i : S_.Idx) :
    val_main_call1_v0 (F := F) i = (val_main_cst_5 (F := F) i) := rfl

-- @_where's %1 = stablehlo.broadcast_in_dim %0, dims = [] : (tensor<f32>) -> tensor<512xf32>, in %35 = func.call @_where(…) (record main_call1)
def val_main_call1_v1 : (⟨S512, .f32⟩ : BufTy).Contents (Elt F) :=
  broadcastInDim S512 ![] bcast_S_S512 (val_main_call1_v0 (F := F))
abbrev idx_main_call1_v1 (i : S512.Idx) : S_.Idx := fun a => a.elim0
theorem val_main_call1_v1_apply (i : S512.Idx) :
    val_main_call1_v1 (F := F) i = val_main_call1_v0 (F := F) (idx_main_call1_v1 i) := by
  unfold val_main_call1_v1
  generalize val_main_call1_v0 (F := F) = y
  exact broadcastInDim_apply _ bcast_S_S512 y i (idx_main_call1_v1 i) (fun a => a.elim0)

-- %35 = func.call @_where(…) (record main_call1) result 0: @_where's %2 = stablehlo.select %arg0, %arg1, %1 : tensor<512xi1>, tensor<512xf32>
def val_main_v35 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512, .f32⟩ : BufTy).Contents (Elt F) :=
  select (val_main_v18 (F := F) x3) (val_main_v34 (F := F) x0 x2 x3 x4) (val_main_call1_v1 (F := F))
theorem val_main_v35_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S512.Idx) :
    val_main_v35 (F := F) x0 x2 x3 x4 i = Scalar.select (val_main_v18 (F := F) x3 i) (val_main_v34 (F := F) x0 x2 x3 x4 i) (val_main_call1_v1 (F := F) i) := rfl

-- @log_softmax_0's %cst = stablehlo.constant dense<0xFF800000> : tensor<f32>, in %36 = func.call @log_softmax_0(…) (record main_call2)
def val_main_call2_cst : (⟨S_, .f32⟩ : BufTy).Contents (Elt F) :=
  constant S_ .f32 0xFF800000#32
theorem val_main_call2_cst_apply (i : S_.Idx) :
    val_main_call2_cst (F := F) i = FloatOps.ofBits .f32 0xFF800000#32 := rfl

-- @log_softmax_0's %0 = stablehlo.reduce(%arg0 init: %cst) applies stablehlo.maximum across dimensions = [0] : (tensor<512x512xf32>, tensor<f32>) -> tensor<512xf32> {, in %36 = func.call @log_softmax_0(…) (record main_call2)
def val_main_call2_v0 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512, .f32⟩ : BufTy).Contents (Elt F) :=
  Host.reduce FloatOps.maximumf (val_main_v14 (F := F) x0 x2 x3 x4) (val_main_call2_cst (F := F)) reducesTo_S512x512_S512_d0 h_S_

-- @log_softmax_0's %cst_0 = stablehlo.constant dense<0xFF800000> : tensor<f32>, in %36 = func.call @log_softmax_0(…) (record main_call2)
def val_main_call2_cst_0 : (⟨S_, .f32⟩ : BufTy).Contents (Elt F) :=
  constant S_ .f32 0xFF800000#32
theorem val_main_call2_cst_0_apply (i : S_.Idx) :
    val_main_call2_cst_0 (F := F) i = FloatOps.ofBits .f32 0xFF800000#32 := rfl

-- @log_softmax_0's %1 = stablehlo.broadcast_in_dim %cst_0, dims = [] : (tensor<f32>) -> tensor<512xf32>, in %36 = func.call @log_softmax_0(…) (record main_call2)
def val_main_call2_v1 : (⟨S512, .f32⟩ : BufTy).Contents (Elt F) :=
  broadcastInDim S512 ![] bcast_S_S512 (val_main_call2_cst_0 (F := F))
abbrev idx_main_call2_v1 (i : S512.Idx) : S_.Idx := fun a => a.elim0
theorem val_main_call2_v1_apply (i : S512.Idx) :
    val_main_call2_v1 (F := F) i = val_main_call2_cst_0 (F := F) (idx_main_call2_v1 i) := by
  unfold val_main_call2_v1
  generalize val_main_call2_cst_0 (F := F) = y
  exact broadcastInDim_apply _ bcast_S_S512 y i (idx_main_call2_v1 i) (fun a => a.elim0)

-- @log_softmax_0's %2 = stablehlo.maximum %1, %0 : tensor<512xf32>, in %36 = func.call @log_softmax_0(…) (record main_call2)
def val_main_call2_v2 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512, .f32⟩ : BufTy).Contents (Elt F) :=
  maximumf (val_main_call2_v1 (F := F)) (val_main_call2_v0 (F := F) x0 x2 x3 x4)
theorem val_main_call2_v2_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S512.Idx) :
    val_main_call2_v2 (F := F) x0 x2 x3 x4 i = FloatOps.maximumf (val_main_call2_v1 (F := F) i) (val_main_call2_v0 (F := F) x0 x2 x3 x4 i) := rfl

-- @log_softmax_0's %3 = stablehlo.broadcast_in_dim %2, dims = [1] : (tensor<512xf32>) -> tensor<1x512xf32>, in %36 = func.call @log_softmax_0(…) (record main_call2)
def val_main_call2_v3 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S1x512, .f32⟩ : BufTy).Contents (Elt F) :=
  broadcastInDim S1x512 ![1] bcast_S512_S1x512_1 (val_main_call2_v2 (F := F) x0 x2 x3 x4)
abbrev idx_main_call2_v3 (i : S1x512.Idx) : S512.Idx := fun a => match a with
  | ⟨0, _⟩ => ⟨(i 1).val, (i 1).isLt⟩
theorem val_main_call2_v3_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S1x512.Idx) :
    val_main_call2_v3 (F := F) x0 x2 x3 x4 i = val_main_call2_v2 (F := F) x0 x2 x3 x4 (idx_main_call2_v3 i) := by
  unfold val_main_call2_v3
  generalize val_main_call2_v2 (F := F) x0 x2 x3 x4 = y
  exact broadcastInDim_apply _ bcast_S512_S1x512_1 y i (idx_main_call2_v3 i) (fun a => match a with
    | ⟨0, _⟩ => by show (i 1).val = if (512 : Nat) = 1 then 0 else (i 1).val; rw [if_neg (by decide)])

-- @log_softmax_0's %4 = stablehlo.broadcast_in_dim %3, dims = [0, 1] : (tensor<1x512xf32>) -> tensor<512x512xf32>, in %36 = func.call @log_softmax_0(…) (record main_call2)
def val_main_call2_v4 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512x512, .f32⟩ : BufTy).Contents (Elt F) :=
  broadcastInDim S512x512 ![0, 1] bcast_S1x512_S512x512_0_1 (val_main_call2_v3 (F := F) x0 x2 x3 x4)
abbrev idx_main_call2_v4 (i : S512x512.Idx) : S1x512.Idx := fun a => match a with
  | ⟨0, _⟩ => ⟨0, Nat.one_pos⟩
  | ⟨1, _⟩ => ⟨(i 1).val, (i 1).isLt⟩
theorem val_main_call2_v4_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S512x512.Idx) :
    val_main_call2_v4 (F := F) x0 x2 x3 x4 i = val_main_call2_v3 (F := F) x0 x2 x3 x4 (idx_main_call2_v4 i) := by
  unfold val_main_call2_v4
  generalize val_main_call2_v3 (F := F) x0 x2 x3 x4 = y
  exact broadcastInDim_apply _ bcast_S1x512_S512x512_0_1 y i (idx_main_call2_v4 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])

-- @log_softmax_0's %5 = stablehlo.subtract %arg0, %4 : tensor<512x512xf32>, in %36 = func.call @log_softmax_0(…) (record main_call2)
def val_main_call2_v5 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512x512, .f32⟩ : BufTy).Contents (Elt F) :=
  subf (val_main_v14 (F := F) x0 x2 x3 x4) (val_main_call2_v4 (F := F) x0 x2 x3 x4)
theorem val_main_call2_v5_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S512x512.Idx) :
    val_main_call2_v5 (F := F) x0 x2 x3 x4 i = FloatOps.subf (val_main_v14 (F := F) x0 x2 x3 x4 i) (val_main_call2_v4 (F := F) x0 x2 x3 x4 i) := rfl

-- @log_softmax_0's %6 = stablehlo.exponential %5 : tensor<512x512xf32>, in %36 = func.call @log_softmax_0(…) (record main_call2)
def val_main_call2_v6 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512x512, .f32⟩ : BufTy).Contents (Elt F) :=
  Host.exp (val_main_call2_v5 (F := F) x0 x2 x3 x4)
theorem val_main_call2_v6_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S512x512.Idx) :
    val_main_call2_v6 (F := F) x0 x2 x3 x4 i = FloatOps.hostUnary .exp (val_main_call2_v5 (F := F) x0 x2 x3 x4 i) := rfl

-- @log_softmax_0's %cst_1 = stablehlo.constant dense<0.000000e+00> : tensor<f32>, in %36 = func.call @log_softmax_0(…) (record main_call2)
def val_main_call2_cst_1 : (⟨S_, .f32⟩ : BufTy).Contents (Elt F) :=
  constant S_ .f32 0x00000000#32
theorem val_main_call2_cst_1_apply (i : S_.Idx) :
    val_main_call2_cst_1 (F := F) i = FloatOps.ofBits .f32 0x00000000#32 := rfl

-- @log_softmax_0's %7 = stablehlo.reduce(%6 init: %cst_1) applies stablehlo.add across dimensions = [0] : (tensor<512x512xf32>, tensor<f32>) -> tensor<512xf32> {, in %36 = func.call @log_softmax_0(…) (record main_call2)
def val_main_call2_v7 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512, .f32⟩ : BufTy).Contents (Elt F) :=
  Host.reduceAdd (val_main_call2_v6 (F := F) x0 x2 x3 x4) (val_main_call2_cst_1 (F := F)) reducesTo_S512x512_S512_d0 h_S_
abbrev idx_main_call2_v7 (i : S512.Idx) (k : Fin 512) : S512x512.Idx := fun a => match a with
  | ⟨0, _⟩ => ⟨k.val, k.isLt⟩
  | ⟨1, _⟩ => ⟨(i 0).val, (i 0).isLt⟩
/-- Stated at `F := Ideal`, where the host's float sum is this sum; at a bit-exact instance it is an opaque function of its operand. -/
theorem val_main_call2_v7_apply (x0 : (⟨S65536x768, .f32⟩ : BufTy).Contents (Elt Ideal)) (x2 : (⟨S512x768, .f32⟩ : BufTy).Contents (Elt Ideal)) (x3 : (⟨S16x32x4096, .f32⟩ : BufTy).Contents (Elt Ideal)) (x4 : (⟨S1, .f32⟩ : BufTy).Contents (Elt Ideal)) (i : S512.Idx) :
    val_main_call2_v7 (F := Ideal) x0 x2 x3 x4 i = (val_main_call2_cst_1 (F := Ideal)) (Shape.Idx.first h_S_) + ∑ k : Fin 512, (val_main_call2_v6 (F := Ideal) x0 x2 x3 x4) (idx_main_call2_v7 i k) := by
  unfold val_main_call2_v7
  generalize val_main_call2_v6 (F := Ideal) x0 x2 x3 x4 = y0
  simp only [Host.reduceAdd, Ideal.hostReduceAdd_def]
  rw [Ideal.hostReduceAdd_single reducesTo_S512x512_S512_d0 (by decide)]
  refine congrArg (_ + ·) (Finset.sum_congr rfl fun k _ => ?_)
  exact congrArg y0 (funext fun a => Fin.ext (by match a with | ⟨0, _⟩ => rfl | ⟨1, _⟩ => rfl))

-- @log_softmax_0's %8 = stablehlo.broadcast_in_dim %7, dims = [1] : (tensor<512xf32>) -> tensor<1x512xf32>, in %36 = func.call @log_softmax_0(…) (record main_call2)
def val_main_call2_v8 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S1x512, .f32⟩ : BufTy).Contents (Elt F) :=
  broadcastInDim S1x512 ![1] bcast_S512_S1x512_1 (val_main_call2_v7 (F := F) x0 x2 x3 x4)
abbrev idx_main_call2_v8 (i : S1x512.Idx) : S512.Idx := fun a => match a with
  | ⟨0, _⟩ => ⟨(i 1).val, (i 1).isLt⟩
theorem val_main_call2_v8_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S1x512.Idx) :
    val_main_call2_v8 (F := F) x0 x2 x3 x4 i = val_main_call2_v7 (F := F) x0 x2 x3 x4 (idx_main_call2_v8 i) := by
  unfold val_main_call2_v8
  generalize val_main_call2_v7 (F := F) x0 x2 x3 x4 = y
  exact broadcastInDim_apply _ bcast_S512_S1x512_1 y i (idx_main_call2_v8 i) (fun a => match a with
    | ⟨0, _⟩ => by show (i 1).val = if (512 : Nat) = 1 then 0 else (i 1).val; rw [if_neg (by decide)])

-- @log_softmax_0's %9 = stablehlo.log %8 : tensor<1x512xf32>, in %36 = func.call @log_softmax_0(…) (record main_call2)
def val_main_call2_v9 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S1x512, .f32⟩ : BufTy).Contents (Elt F) :=
  Host.log (val_main_call2_v8 (F := F) x0 x2 x3 x4)
theorem val_main_call2_v9_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S1x512.Idx) :
    val_main_call2_v9 (F := F) x0 x2 x3 x4 i = FloatOps.hostUnary .log (val_main_call2_v8 (F := F) x0 x2 x3 x4 i) := rfl

-- @log_softmax_0's %10 = stablehlo.broadcast_in_dim %9, dims = [0, 1] : (tensor<1x512xf32>) -> tensor<512x512xf32>, in %36 = func.call @log_softmax_0(…) (record main_call2)
def val_main_call2_v10 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512x512, .f32⟩ : BufTy).Contents (Elt F) :=
  broadcastInDim S512x512 ![0, 1] bcast_S1x512_S512x512_0_1 (val_main_call2_v9 (F := F) x0 x2 x3 x4)
abbrev idx_main_call2_v10 (i : S512x512.Idx) : S1x512.Idx := fun a => match a with
  | ⟨0, _⟩ => ⟨0, Nat.one_pos⟩
  | ⟨1, _⟩ => ⟨(i 1).val, (i 1).isLt⟩
theorem val_main_call2_v10_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S512x512.Idx) :
    val_main_call2_v10 (F := F) x0 x2 x3 x4 i = val_main_call2_v9 (F := F) x0 x2 x3 x4 (idx_main_call2_v10 i) := by
  unfold val_main_call2_v10
  generalize val_main_call2_v9 (F := F) x0 x2 x3 x4 = y
  exact broadcastInDim_apply _ bcast_S1x512_S512x512_0_1 y i (idx_main_call2_v10 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])

-- %36 = func.call @log_softmax_0(…) (record main_call2) result 0: @log_softmax_0's %11 = stablehlo.subtract %5, %10 : tensor<512x512xf32>
def val_main_v36 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512x512, .f32⟩ : BufTy).Contents (Elt F) :=
  subf (val_main_call2_v5 (F := F) x0 x2 x3 x4) (val_main_call2_v10 (F := F) x0 x2 x3 x4)
theorem val_main_v36_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S512x512.Idx) :
    val_main_v36 (F := F) x0 x2 x3 x4 i = FloatOps.subf (val_main_call2_v5 (F := F) x0 x2 x3 x4 i) (val_main_call2_v10 (F := F) x0 x2 x3 x4 i) := rfl

-- %c_6 = stablehlo.constant dense<0> : tensor<i32>
def val_main_c_6 : (⟨S_, .i32⟩ : BufTy).Contents (Elt F) :=
  constantI S_ 32 0#32
theorem val_main_c_6_apply (i : S_.Idx) :
    val_main_c_6 (F := F) i = 0#32 := rfl

-- %37 = stablehlo.broadcast_in_dim %c_6, dims = [] : (tensor<i32>) -> tensor<512xi32>
def val_main_v37 : (⟨S512, .i32⟩ : BufTy).Contents (Elt F) :=
  broadcastInDim S512 ![] bcast_S_S512 (val_main_c_6 (F := F))
abbrev idx_main_v37 (i : S512.Idx) : S_.Idx := fun a => a.elim0
theorem val_main_v37_apply (i : S512.Idx) :
    val_main_v37 (F := F) i = val_main_c_6 (F := F) (idx_main_v37 i) := by
  unfold val_main_v37
  generalize val_main_c_6 (F := F) = y
  exact broadcastInDim_apply _ bcast_S_S512 y i (idx_main_v37 i) (fun a => a.elim0)

-- %38 = stablehlo.compare LT, %15, %37, SIGNED : (tensor<512xi32>, tensor<512xi32>) -> tensor<512xi1>
def val_main_v38 : (⟨S512, .i1⟩ : BufTy).Contents (Elt F) :=
  cmpi .slt (val_main_v15 (F := F)) (val_main_v37 (F := F))
theorem val_main_v38_apply (i : S512.Idx) :
    val_main_v38 (F := F) i = IntOp.cmpi .slt (val_main_v15 (F := F) i) (val_main_v37 (F := F) i) := rfl

-- %c_7 = stablehlo.constant dense<512> : tensor<i32>
def val_main_c_7 : (⟨S_, .i32⟩ : BufTy).Contents (Elt F) :=
  constantI S_ 32 512#32
theorem val_main_c_7_apply (i : S_.Idx) :
    val_main_c_7 (F := F) i = 512#32 := rfl

-- %39 = stablehlo.broadcast_in_dim %c_7, dims = [] : (tensor<i32>) -> tensor<512xi32>
def val_main_v39 : (⟨S512, .i32⟩ : BufTy).Contents (Elt F) :=
  broadcastInDim S512 ![] bcast_S_S512 (val_main_c_7 (F := F))
abbrev idx_main_v39 (i : S512.Idx) : S_.Idx := fun a => a.elim0
theorem val_main_v39_apply (i : S512.Idx) :
    val_main_v39 (F := F) i = val_main_c_7 (F := F) (idx_main_v39 i) := by
  unfold val_main_v39
  generalize val_main_c_7 (F := F) = y
  exact broadcastInDim_apply _ bcast_S_S512 y i (idx_main_v39 i) (fun a => a.elim0)

-- %40 = stablehlo.add %15, %39 : tensor<512xi32>
def val_main_v40 : (⟨S512, .i32⟩ : BufTy).Contents (Elt F) :=
  addi (val_main_v15 (F := F)) (val_main_v39 (F := F))
theorem val_main_v40_apply (i : S512.Idx) :
    val_main_v40 (F := F) i = IntOp.addi (val_main_v15 (F := F) i) (val_main_v39 (F := F) i) := rfl

-- %41 = stablehlo.select %38, %40, %15 : tensor<512xi1>, tensor<512xi32>
def val_main_v41 : (⟨S512, .i32⟩ : BufTy).Contents (Elt F) :=
  select (val_main_v38 (F := F)) (val_main_v40 (F := F)) (val_main_v15 (F := F))
theorem val_main_v41_apply (i : S512.Idx) :
    val_main_v41 (F := F) i = Scalar.select (val_main_v38 (F := F) i) (val_main_v40 (F := F) i) (val_main_v15 (F := F) i) := rfl

-- %c_8 = stablehlo.constant dense<0> : tensor<i32>
def val_main_c_8 : (⟨S_, .i32⟩ : BufTy).Contents (Elt F) :=
  constantI S_ 32 0#32
theorem val_main_c_8_apply (i : S_.Idx) :
    val_main_c_8 (F := F) i = 0#32 := rfl

-- %42 = stablehlo.broadcast_in_dim %c_8, dims = [] : (tensor<i32>) -> tensor<512xi32>
def val_main_v42 : (⟨S512, .i32⟩ : BufTy).Contents (Elt F) :=
  broadcastInDim S512 ![] bcast_S_S512 (val_main_c_8 (F := F))
abbrev idx_main_v42 (i : S512.Idx) : S_.Idx := fun a => a.elim0
theorem val_main_v42_apply (i : S512.Idx) :
    val_main_v42 (F := F) i = val_main_c_8 (F := F) (idx_main_v42 i) := by
  unfold val_main_v42
  generalize val_main_c_8 (F := F) = y
  exact broadcastInDim_apply _ bcast_S_S512 y i (idx_main_v42 i) (fun a => a.elim0)

-- %43 = stablehlo.compare LT, %15, %42, SIGNED : (tensor<512xi32>, tensor<512xi32>) -> tensor<512xi1>
def val_main_v43 : (⟨S512, .i1⟩ : BufTy).Contents (Elt F) :=
  cmpi .slt (val_main_v15 (F := F)) (val_main_v42 (F := F))
theorem val_main_v43_apply (i : S512.Idx) :
    val_main_v43 (F := F) i = IntOp.cmpi .slt (val_main_v15 (F := F) i) (val_main_v42 (F := F) i) := rfl

-- %c_9 = stablehlo.constant dense<512> : tensor<i32>
def val_main_c_9 : (⟨S_, .i32⟩ : BufTy).Contents (Elt F) :=
  constantI S_ 32 512#32
theorem val_main_c_9_apply (i : S_.Idx) :
    val_main_c_9 (F := F) i = 512#32 := rfl

-- %44 = stablehlo.broadcast_in_dim %c_9, dims = [] : (tensor<i32>) -> tensor<512xi32>
def val_main_v44 : (⟨S512, .i32⟩ : BufTy).Contents (Elt F) :=
  broadcastInDim S512 ![] bcast_S_S512 (val_main_c_9 (F := F))
abbrev idx_main_v44 (i : S512.Idx) : S_.Idx := fun a => a.elim0
theorem val_main_v44_apply (i : S512.Idx) :
    val_main_v44 (F := F) i = val_main_c_9 (F := F) (idx_main_v44 i) := by
  unfold val_main_v44
  generalize val_main_c_9 (F := F) = y
  exact broadcastInDim_apply _ bcast_S_S512 y i (idx_main_v44 i) (fun a => a.elim0)

-- %45 = stablehlo.add %15, %44 : tensor<512xi32>
def val_main_v45 : (⟨S512, .i32⟩ : BufTy).Contents (Elt F) :=
  addi (val_main_v15 (F := F)) (val_main_v44 (F := F))
theorem val_main_v45_apply (i : S512.Idx) :
    val_main_v45 (F := F) i = IntOp.addi (val_main_v15 (F := F) i) (val_main_v44 (F := F) i) := rfl

-- %46 = stablehlo.select %43, %45, %15 : tensor<512xi1>, tensor<512xi32>
def val_main_v46 : (⟨S512, .i32⟩ : BufTy).Contents (Elt F) :=
  select (val_main_v43 (F := F)) (val_main_v45 (F := F)) (val_main_v15 (F := F))
theorem val_main_v46_apply (i : S512.Idx) :
    val_main_v46 (F := F) i = Scalar.select (val_main_v43 (F := F) i) (val_main_v45 (F := F) i) (val_main_v15 (F := F) i) := rfl

-- %47 = stablehlo.broadcast_in_dim %41, dims = [0] : (tensor<512xi32>) -> tensor<512x1xi32>
def val_main_v47 : (⟨S512x1, .i32⟩ : BufTy).Contents (Elt F) :=
  broadcastInDim S512x1 ![0] bcast_S512_S512x1_0 (val_main_v41 (F := F))
abbrev idx_main_v47 (i : S512x1.Idx) : S512.Idx := fun a => match a with
  | ⟨0, _⟩ => ⟨(i 0).val, (i 0).isLt⟩
theorem val_main_v47_apply (i : S512x1.Idx) :
    val_main_v47 (F := F) i = val_main_v41 (F := F) (idx_main_v47 i) := by
  unfold val_main_v47
  generalize val_main_v41 (F := F) = y
  exact broadcastInDim_apply _ bcast_S512_S512x1_0 y i (idx_main_v47 i) (fun a => match a with
    | ⟨0, _⟩ => by show (i 0).val = if (512 : Nat) = 1 then 0 else (i 0).val; rw [if_neg (by decide)])

-- %48 = stablehlo.broadcast_in_dim %46, dims = [0] : (tensor<512xi32>) -> tensor<512x1xi32>
def val_main_v48 : (⟨S512x1, .i32⟩ : BufTy).Contents (Elt F) :=
  broadcastInDim S512x1 ![0] bcast_S512_S512x1_0 (val_main_v46 (F := F))
abbrev idx_main_v48 (i : S512x1.Idx) : S512.Idx := fun a => match a with
  | ⟨0, _⟩ => ⟨(i 0).val, (i 0).isLt⟩
theorem val_main_v48_apply (i : S512x1.Idx) :
    val_main_v48 (F := F) i = val_main_v46 (F := F) (idx_main_v48 i) := by
  unfold val_main_v48
  generalize val_main_v46 (F := F) = y
  exact broadcastInDim_apply _ bcast_S512_S512x1_0 y i (idx_main_v48 i) (fun a => match a with
    | ⟨0, _⟩ => by show (i 0).val = if (512 : Nat) = 1 then 0 else (i 0).val; rw [if_neg (by decide)])

-- %49 = stablehlo.concatenate %47, %48, dim = 1 : (tensor<512x1xi32>, tensor<512x1xi32>) -> tensor<512x2xi32>
def val_main_v49 : (⟨S512x2, .i32⟩ : BufTy).Contents (Elt F) :=
  concatenate S512x2 1 [⟨S512x1, (val_main_v47 (F := F))⟩, ⟨S512x1, (val_main_v48 (F := F))⟩] concatenates_S512x1_S512x1_S512x2_d1

-- %50 = "stablehlo.gather"(%36, %49) <{dimension_numbers = #stablehlo.gather<collapsed_slice_dims = [0, 1], start_index_map = [0, 1], index_vector_dim = 1>, indices_are_sorted = false, slice_sizes = array<i64: 1, 1>}> : (tensor<512x512xf32>, tensor<512x2xi32>) -> tensor<512xf32>
def val_main_v50 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512, .f32⟩ : BufTy).Contents (Elt F) :=
  Host.gather gather_S512x512_S512x2_S512_n_01_n_n_01_1_11 (val_main_v36 (F := F) x0 x2 x3 x4) (val_main_v49 (F := F))

-- %51 = stablehlo.negate %50 : tensor<512xf32>
def val_main_v51 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512, .f32⟩ : BufTy).Contents (Elt F) :=
  Host.negf (val_main_v50 (F := F) x0 x2 x3 x4)
theorem val_main_v51_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S512.Idx) :
    val_main_v51 (F := F) x0 x2 x3 x4 i = FloatOps.hostNegf (val_main_v50 (F := F) x0 x2 x3 x4 i) := rfl

-- %cst_10 = stablehlo.constant dense<0.000000e+00> : tensor<f32>
def val_main_cst_10 : (⟨S_, .f32⟩ : BufTy).Contents (Elt F) :=
  constant S_ .f32 0x00000000#32
theorem val_main_cst_10_apply (i : S_.Idx) :
    val_main_cst_10 (F := F) i = FloatOps.ofBits .f32 0x00000000#32 := rfl

-- @_where's %0 = stablehlo.convert %arg2 : tensor<f32>, in %52 = func.call @_where(…) (record main_call3)
def val_main_call3_v0 : (⟨S_, .f32⟩ : BufTy).Contents (Elt F) :=
  id (val_main_cst_10 (F := F))
theorem val_main_call3_v0_apply (i : S_.Idx) :
    val_main_call3_v0 (F := F) i = (val_main_cst_10 (F := F) i) := rfl

-- @_where's %1 = stablehlo.broadcast_in_dim %0, dims = [] : (tensor<f32>) -> tensor<512xf32>, in %52 = func.call @_where(…) (record main_call3)
def val_main_call3_v1 : (⟨S512, .f32⟩ : BufTy).Contents (Elt F) :=
  broadcastInDim S512 ![] bcast_S_S512 (val_main_call3_v0 (F := F))
abbrev idx_main_call3_v1 (i : S512.Idx) : S_.Idx := fun a => a.elim0
theorem val_main_call3_v1_apply (i : S512.Idx) :
    val_main_call3_v1 (F := F) i = val_main_call3_v0 (F := F) (idx_main_call3_v1 i) := by
  unfold val_main_call3_v1
  generalize val_main_call3_v0 (F := F) = y
  exact broadcastInDim_apply _ bcast_S_S512 y i (idx_main_call3_v1 i) (fun a => a.elim0)

-- %52 = func.call @_where(…) (record main_call3) result 0: @_where's %2 = stablehlo.select %arg0, %arg1, %1 : tensor<512xi1>, tensor<512xf32>
def val_main_v52 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512, .f32⟩ : BufTy).Contents (Elt F) :=
  select (val_main_v18 (F := F) x3) (val_main_v51 (F := F) x0 x2 x3 x4) (val_main_call3_v1 (F := F))
theorem val_main_v52_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S512.Idx) :
    val_main_v52 (F := F) x0 x2 x3 x4 i = Scalar.select (val_main_v18 (F := F) x3 i) (val_main_v51 (F := F) x0 x2 x3 x4 i) (val_main_call3_v1 (F := F) i) := rfl

-- %cst_11 = stablehlo.constant dense<0.000000e+00> : tensor<f32>
def val_main_cst_11 : (⟨S_, .f32⟩ : BufTy).Contents (Elt F) :=
  constant S_ .f32 0x00000000#32
theorem val_main_cst_11_apply (i : S_.Idx) :
    val_main_cst_11 (F := F) i = FloatOps.ofBits .f32 0x00000000#32 := rfl

-- %53 = stablehlo.broadcast_in_dim %cst_11, dims = [] : (tensor<f32>) -> tensor<512xf32>
def val_main_v53 : (⟨S512, .f32⟩ : BufTy).Contents (Elt F) :=
  broadcastInDim S512 ![] bcast_S_S512 (val_main_cst_11 (F := F))
abbrev idx_main_v53 (i : S512.Idx) : S_.Idx := fun a => a.elim0
theorem val_main_v53_apply (i : S512.Idx) :
    val_main_v53 (F := F) i = val_main_cst_11 (F := F) (idx_main_v53 i) := by
  unfold val_main_v53
  generalize val_main_cst_11 (F := F) = y
  exact broadcastInDim_apply _ bcast_S_S512 y i (idx_main_v53 i) (fun a => a.elim0)

-- %54 = stablehlo.compare GT, %35, %53, FLOAT : (tensor<512xf32>, tensor<512xf32>) -> tensor<512xi1>
def val_main_v54 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512, .i1⟩ : BufTy).Contents (Elt F) :=
  cmpf .ogt (val_main_v35 (F := F) x0 x2 x3 x4) (val_main_v53 (F := F))
theorem val_main_v54_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S512.Idx) :
    val_main_v54 (F := F) x0 x2 x3 x4 i = FloatOps.cmpf .ogt (val_main_v35 (F := F) x0 x2 x3 x4 i) (val_main_v53 (F := F) i) := rfl

-- %55 = stablehlo.convert %54 : (tensor<512xi1>) -> tensor<512xi32>
def val_main_v55 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512, .i32⟩ : BufTy).Contents (Elt F) :=
  extui 32 (val_main_v54 (F := F) x0 x2 x3 x4) natLt_1_32
theorem val_main_v55_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S512.Idx) :
    val_main_v55 (F := F) x0 x2 x3 x4 i = (val_main_v54 (F := F) x0 x2 x3 x4 i).setWidth 32 := rfl

-- %c_12 = stablehlo.constant dense<0> : tensor<i32>
def val_main_c_12 : (⟨S_, .i32⟩ : BufTy).Contents (Elt F) :=
  constantI S_ 32 0#32
theorem val_main_c_12_apply (i : S_.Idx) :
    val_main_c_12 (F := F) i = 0#32 := rfl

-- %56 = stablehlo.reduce(%55 init: %c_12) applies stablehlo.add across dimensions = [0] : (tensor<512xi32>, tensor<i32>) -> tensor<i32> {
def val_main_v56 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S_, .i32⟩ : BufTy).Contents (Elt F) :=
  Host.reduce IntOp.addi (val_main_v55 (F := F) x0 x2 x3 x4) (val_main_c_12 (F := F)) reducesTo_S512_S_d0 h_S_

-- %c_13 = stablehlo.constant dense<0> : tensor<i32>
def val_main_c_13 : (⟨S_, .i32⟩ : BufTy).Contents (Elt F) :=
  constantI S_ 32 0#32
theorem val_main_c_13_apply (i : S_.Idx) :
    val_main_c_13 (F := F) i = 0#32 := rfl

-- %57 = stablehlo.compare GT, %56, %c_13, SIGNED : (tensor<i32>, tensor<i32>) -> tensor<i1>
def val_main_v57 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S_, .i1⟩ : BufTy).Contents (Elt F) :=
  cmpi .sgt (val_main_v56 (F := F) x0 x2 x3 x4) (val_main_c_13 (F := F))
theorem val_main_v57_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S_.Idx) :
    val_main_v57 (F := F) x0 x2 x3 x4 i = IntOp.cmpi .sgt (val_main_v56 (F := F) x0 x2 x3 x4 i) (val_main_c_13 (F := F) i) := rfl

-- %cst_14 = stablehlo.constant dense<0.000000e+00> : tensor<f32>
def val_main_cst_14 : (⟨S_, .f32⟩ : BufTy).Contents (Elt F) :=
  constant S_ .f32 0x00000000#32
theorem val_main_cst_14_apply (i : S_.Idx) :
    val_main_cst_14 (F := F) i = FloatOps.ofBits .f32 0x00000000#32 := rfl

-- @_where's %0 = stablehlo.convert %arg2 : tensor<f32>, in %58 = func.call @_where(…) (record main_call4)
def val_main_call4_v0 : (⟨S_, .f32⟩ : BufTy).Contents (Elt F) :=
  id (val_main_cst_14 (F := F))
theorem val_main_call4_v0_apply (i : S_.Idx) :
    val_main_call4_v0 (F := F) i = (val_main_cst_14 (F := F) i) := rfl

-- @_where's %1 = stablehlo.broadcast_in_dim %0, dims = [] : (tensor<f32>) -> tensor<512xf32>, in %58 = func.call @_where(…) (record main_call4)
def val_main_call4_v1 : (⟨S512, .f32⟩ : BufTy).Contents (Elt F) :=
  broadcastInDim S512 ![] bcast_S_S512 (val_main_call4_v0 (F := F))
abbrev idx_main_call4_v1 (i : S512.Idx) : S_.Idx := fun a => a.elim0
theorem val_main_call4_v1_apply (i : S512.Idx) :
    val_main_call4_v1 (F := F) i = val_main_call4_v0 (F := F) (idx_main_call4_v1 i) := by
  unfold val_main_call4_v1
  generalize val_main_call4_v0 (F := F) = y
  exact broadcastInDim_apply _ bcast_S_S512 y i (idx_main_call4_v1 i) (fun a => a.elim0)

-- %58 = func.call @_where(…) (record main_call4) result 0: @_where's %2 = stablehlo.select %arg0, %arg1, %1 : tensor<512xi1>, tensor<512xf32>
def val_main_v58 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512, .f32⟩ : BufTy).Contents (Elt F) :=
  select (val_main_v54 (F := F) x0 x2 x3 x4) (val_main_v35 (F := F) x0 x2 x3 x4) (val_main_call4_v1 (F := F))
theorem val_main_v58_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S512.Idx) :
    val_main_v58 (F := F) x0 x2 x3 x4 i = Scalar.select (val_main_v54 (F := F) x0 x2 x3 x4 i) (val_main_v35 (F := F) x0 x2 x3 x4 i) (val_main_call4_v1 (F := F) i) := rfl

-- %cst_15 = stablehlo.constant dense<0.000000e+00> : tensor<f32>
def val_main_cst_15 : (⟨S_, .f32⟩ : BufTy).Contents (Elt F) :=
  constant S_ .f32 0x00000000#32
theorem val_main_cst_15_apply (i : S_.Idx) :
    val_main_cst_15 (F := F) i = FloatOps.ofBits .f32 0x00000000#32 := rfl

-- %59 = stablehlo.reduce(%58 init: %cst_15) applies stablehlo.add across dimensions = [0] : (tensor<512xf32>, tensor<f32>) -> tensor<f32> {
def val_main_v59 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S_, .f32⟩ : BufTy).Contents (Elt F) :=
  Host.reduceAdd (val_main_v58 (F := F) x0 x2 x3 x4) (val_main_cst_15 (F := F)) reducesTo_S512_S_d0 h_S_
/-- Stated at `F := Ideal`, where the host's float sum is this sum; at a bit-exact instance it is an opaque function of its operand. -/
theorem val_main_v59_apply (x0 : (⟨S65536x768, .f32⟩ : BufTy).Contents (Elt Ideal)) (x2 : (⟨S512x768, .f32⟩ : BufTy).Contents (Elt Ideal)) (x3 : (⟨S16x32x4096, .f32⟩ : BufTy).Contents (Elt Ideal)) (x4 : (⟨S1, .f32⟩ : BufTy).Contents (Elt Ideal)) (i : S_.Idx) :
    val_main_v59 (F := Ideal) x0 x2 x3 x4 i = (val_main_cst_15 (F := Ideal)) (Shape.Idx.first h_S_) + ∑ j : S512.Idx, (val_main_v58 (F := Ideal) x0 x2 x3 x4) j := by
  unfold val_main_v59
  generalize val_main_v58 (F := Ideal) x0 x2 x3 x4 = y0
  simp only [Host.reduceAdd, Ideal.hostReduceAdd_def]
  exact Ideal.hostReduceAdd_total reducesTo_S512_S_d0 (fun b => b.elim0) y0 _ i

-- %c_16 = stablehlo.constant dense<1> : tensor<i32>
def val_main_c_16 : (⟨S_, .i32⟩ : BufTy).Contents (Elt F) :=
  constantI S_ 32 1#32
theorem val_main_c_16_apply (i : S_.Idx) :
    val_main_c_16 (F := F) i = 1#32 := rfl

-- %60 = stablehlo.maximum %56, %c_16 : tensor<i32>
def val_main_v60 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S_, .i32⟩ : BufTy).Contents (Elt F) :=
  maxsi (val_main_v56 (F := F) x0 x2 x3 x4) (val_main_c_16 (F := F))
theorem val_main_v60_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S_.Idx) :
    val_main_v60 (F := F) x0 x2 x3 x4 i = IntOp.maxsi (val_main_v56 (F := F) x0 x2 x3 x4 i) (val_main_c_16 (F := F) i) := rfl

-- %61 = stablehlo.convert %60 : (tensor<i32>) -> tensor<f32>
def val_main_v61 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S_, .f32⟩ : BufTy).Contents (Elt F) :=
  sitofp .f32 (val_main_v60 (F := F) x0 x2 x3 x4)
theorem val_main_v61_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S_.Idx) :
    val_main_v61 (F := F) x0 x2 x3 x4 i = FloatOps.sitofp .f32 (val_main_v60 (F := F) x0 x2 x3 x4 i) := rfl

-- %62 = stablehlo.divide %59, %61 : tensor<f32>
def val_main_v62 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S_, .f32⟩ : BufTy).Contents (Elt F) :=
  Host.divf (val_main_v59 (F := F) x0 x2 x3 x4) (val_main_v61 (F := F) x0 x2 x3 x4)
theorem val_main_v62_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S_.Idx) :
    val_main_v62 (F := F) x0 x2 x3 x4 i = FloatOps.hostDivf (val_main_v59 (F := F) x0 x2 x3 x4 i) (val_main_v61 (F := F) x0 x2 x3 x4 i) := rfl

-- %cst_17 = stablehlo.constant dense<0.000000e+00> : tensor<f32>
def val_main_cst_17 : (⟨S_, .f32⟩ : BufTy).Contents (Elt F) :=
  constant S_ .f32 0x00000000#32
theorem val_main_cst_17_apply (i : S_.Idx) :
    val_main_cst_17 (F := F) i = FloatOps.ofBits .f32 0x00000000#32 := rfl

-- @_where_1's %0 = stablehlo.convert %arg2 : tensor<f32>, in %63 = func.call @_where_1(…) (record main_call5)
def val_main_call5_v0 : (⟨S_, .f32⟩ : BufTy).Contents (Elt F) :=
  id (val_main_cst_17 (F := F))
theorem val_main_call5_v0_apply (i : S_.Idx) :
    val_main_call5_v0 (F := F) i = (val_main_cst_17 (F := F) i) := rfl

-- %63 = func.call @_where_1(…) (record main_call5) result 0: @_where_1's %1 = stablehlo.select %arg0, %arg1, %0 : tensor<i1>, tensor<f32>
def val_main_v63 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S_, .f32⟩ : BufTy).Contents (Elt F) :=
  select (val_main_v57 (F := F) x0 x2 x3 x4) (val_main_v62 (F := F) x0 x2 x3 x4) (val_main_call5_v0 (F := F))
theorem val_main_v63_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S_.Idx) :
    val_main_v63 (F := F) x0 x2 x3 x4 i = Scalar.select (val_main_v57 (F := F) x0 x2 x3 x4 i) (val_main_v62 (F := F) x0 x2 x3 x4 i) (val_main_call5_v0 (F := F) i) := rfl

-- %cst_18 = stablehlo.constant dense<0.000000e+00> : tensor<f32>
def val_main_cst_18 : (⟨S_, .f32⟩ : BufTy).Contents (Elt F) :=
  constant S_ .f32 0x00000000#32
theorem val_main_cst_18_apply (i : S_.Idx) :
    val_main_cst_18 (F := F) i = FloatOps.ofBits .f32 0x00000000#32 := rfl

-- %64 = stablehlo.broadcast_in_dim %cst_18, dims = [] : (tensor<f32>) -> tensor<512xf32>
def val_main_v64 : (⟨S512, .f32⟩ : BufTy).Contents (Elt F) :=
  broadcastInDim S512 ![] bcast_S_S512 (val_main_cst_18 (F := F))
abbrev idx_main_v64 (i : S512.Idx) : S_.Idx := fun a => a.elim0
theorem val_main_v64_apply (i : S512.Idx) :
    val_main_v64 (F := F) i = val_main_cst_18 (F := F) (idx_main_v64 i) := by
  unfold val_main_v64
  generalize val_main_cst_18 (F := F) = y
  exact broadcastInDim_apply _ bcast_S_S512 y i (idx_main_v64 i) (fun a => a.elim0)

-- %65 = stablehlo.compare GT, %52, %64, FLOAT : (tensor<512xf32>, tensor<512xf32>) -> tensor<512xi1>
def val_main_v65 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512, .i1⟩ : BufTy).Contents (Elt F) :=
  cmpf .ogt (val_main_v52 (F := F) x0 x2 x3 x4) (val_main_v64 (F := F))
theorem val_main_v65_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S512.Idx) :
    val_main_v65 (F := F) x0 x2 x3 x4 i = FloatOps.cmpf .ogt (val_main_v52 (F := F) x0 x2 x3 x4 i) (val_main_v64 (F := F) i) := rfl

-- %66 = stablehlo.convert %65 : (tensor<512xi1>) -> tensor<512xi32>
def val_main_v66 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512, .i32⟩ : BufTy).Contents (Elt F) :=
  extui 32 (val_main_v65 (F := F) x0 x2 x3 x4) natLt_1_32
theorem val_main_v66_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S512.Idx) :
    val_main_v66 (F := F) x0 x2 x3 x4 i = (val_main_v65 (F := F) x0 x2 x3 x4 i).setWidth 32 := rfl

-- %c_19 = stablehlo.constant dense<0> : tensor<i32>
def val_main_c_19 : (⟨S_, .i32⟩ : BufTy).Contents (Elt F) :=
  constantI S_ 32 0#32
theorem val_main_c_19_apply (i : S_.Idx) :
    val_main_c_19 (F := F) i = 0#32 := rfl

-- %67 = stablehlo.reduce(%66 init: %c_19) applies stablehlo.add across dimensions = [0] : (tensor<512xi32>, tensor<i32>) -> tensor<i32> {
def val_main_v67 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S_, .i32⟩ : BufTy).Contents (Elt F) :=
  Host.reduce IntOp.addi (val_main_v66 (F := F) x0 x2 x3 x4) (val_main_c_19 (F := F)) reducesTo_S512_S_d0 h_S_

-- %c_20 = stablehlo.constant dense<0> : tensor<i32>
def val_main_c_20 : (⟨S_, .i32⟩ : BufTy).Contents (Elt F) :=
  constantI S_ 32 0#32
theorem val_main_c_20_apply (i : S_.Idx) :
    val_main_c_20 (F := F) i = 0#32 := rfl

-- %68 = stablehlo.compare GT, %67, %c_20, SIGNED : (tensor<i32>, tensor<i32>) -> tensor<i1>
def val_main_v68 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S_, .i1⟩ : BufTy).Contents (Elt F) :=
  cmpi .sgt (val_main_v67 (F := F) x0 x2 x3 x4) (val_main_c_20 (F := F))
theorem val_main_v68_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S_.Idx) :
    val_main_v68 (F := F) x0 x2 x3 x4 i = IntOp.cmpi .sgt (val_main_v67 (F := F) x0 x2 x3 x4 i) (val_main_c_20 (F := F) i) := rfl

-- %cst_21 = stablehlo.constant dense<0.000000e+00> : tensor<f32>
def val_main_cst_21 : (⟨S_, .f32⟩ : BufTy).Contents (Elt F) :=
  constant S_ .f32 0x00000000#32
theorem val_main_cst_21_apply (i : S_.Idx) :
    val_main_cst_21 (F := F) i = FloatOps.ofBits .f32 0x00000000#32 := rfl

-- @_where's %0 = stablehlo.convert %arg2 : tensor<f32>, in %69 = func.call @_where(…) (record main_call6)
def val_main_call6_v0 : (⟨S_, .f32⟩ : BufTy).Contents (Elt F) :=
  id (val_main_cst_21 (F := F))
theorem val_main_call6_v0_apply (i : S_.Idx) :
    val_main_call6_v0 (F := F) i = (val_main_cst_21 (F := F) i) := rfl

-- @_where's %1 = stablehlo.broadcast_in_dim %0, dims = [] : (tensor<f32>) -> tensor<512xf32>, in %69 = func.call @_where(…) (record main_call6)
def val_main_call6_v1 : (⟨S512, .f32⟩ : BufTy).Contents (Elt F) :=
  broadcastInDim S512 ![] bcast_S_S512 (val_main_call6_v0 (F := F))
abbrev idx_main_call6_v1 (i : S512.Idx) : S_.Idx := fun a => a.elim0
theorem val_main_call6_v1_apply (i : S512.Idx) :
    val_main_call6_v1 (F := F) i = val_main_call6_v0 (F := F) (idx_main_call6_v1 i) := by
  unfold val_main_call6_v1
  generalize val_main_call6_v0 (F := F) = y
  exact broadcastInDim_apply _ bcast_S_S512 y i (idx_main_call6_v1 i) (fun a => a.elim0)

-- %69 = func.call @_where(…) (record main_call6) result 0: @_where's %2 = stablehlo.select %arg0, %arg1, %1 : tensor<512xi1>, tensor<512xf32>
def val_main_v69 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S512, .f32⟩ : BufTy).Contents (Elt F) :=
  select (val_main_v65 (F := F) x0 x2 x3 x4) (val_main_v52 (F := F) x0 x2 x3 x4) (val_main_call6_v1 (F := F))
theorem val_main_v69_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S512.Idx) :
    val_main_v69 (F := F) x0 x2 x3 x4 i = Scalar.select (val_main_v65 (F := F) x0 x2 x3 x4 i) (val_main_v52 (F := F) x0 x2 x3 x4 i) (val_main_call6_v1 (F := F) i) := rfl

-- %cst_22 = stablehlo.constant dense<0.000000e+00> : tensor<f32>
def val_main_cst_22 : (⟨S_, .f32⟩ : BufTy).Contents (Elt F) :=
  constant S_ .f32 0x00000000#32
theorem val_main_cst_22_apply (i : S_.Idx) :
    val_main_cst_22 (F := F) i = FloatOps.ofBits .f32 0x00000000#32 := rfl

-- %70 = stablehlo.reduce(%69 init: %cst_22) applies stablehlo.add across dimensions = [0] : (tensor<512xf32>, tensor<f32>) -> tensor<f32> {
def val_main_v70 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S_, .f32⟩ : BufTy).Contents (Elt F) :=
  Host.reduceAdd (val_main_v69 (F := F) x0 x2 x3 x4) (val_main_cst_22 (F := F)) reducesTo_S512_S_d0 h_S_
/-- Stated at `F := Ideal`, where the host's float sum is this sum; at a bit-exact instance it is an opaque function of its operand. -/
theorem val_main_v70_apply (x0 : (⟨S65536x768, .f32⟩ : BufTy).Contents (Elt Ideal)) (x2 : (⟨S512x768, .f32⟩ : BufTy).Contents (Elt Ideal)) (x3 : (⟨S16x32x4096, .f32⟩ : BufTy).Contents (Elt Ideal)) (x4 : (⟨S1, .f32⟩ : BufTy).Contents (Elt Ideal)) (i : S_.Idx) :
    val_main_v70 (F := Ideal) x0 x2 x3 x4 i = (val_main_cst_22 (F := Ideal)) (Shape.Idx.first h_S_) + ∑ j : S512.Idx, (val_main_v69 (F := Ideal) x0 x2 x3 x4) j := by
  unfold val_main_v70
  generalize val_main_v69 (F := Ideal) x0 x2 x3 x4 = y0
  simp only [Host.reduceAdd, Ideal.hostReduceAdd_def]
  exact Ideal.hostReduceAdd_total reducesTo_S512_S_d0 (fun b => b.elim0) y0 _ i

-- %c_23 = stablehlo.constant dense<1> : tensor<i32>
def val_main_c_23 : (⟨S_, .i32⟩ : BufTy).Contents (Elt F) :=
  constantI S_ 32 1#32
theorem val_main_c_23_apply (i : S_.Idx) :
    val_main_c_23 (F := F) i = 1#32 := rfl

-- %71 = stablehlo.maximum %67, %c_23 : tensor<i32>
def val_main_v71 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S_, .i32⟩ : BufTy).Contents (Elt F) :=
  maxsi (val_main_v67 (F := F) x0 x2 x3 x4) (val_main_c_23 (F := F))
theorem val_main_v71_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S_.Idx) :
    val_main_v71 (F := F) x0 x2 x3 x4 i = IntOp.maxsi (val_main_v67 (F := F) x0 x2 x3 x4 i) (val_main_c_23 (F := F) i) := rfl

-- %72 = stablehlo.convert %71 : (tensor<i32>) -> tensor<f32>
def val_main_v72 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S_, .f32⟩ : BufTy).Contents (Elt F) :=
  sitofp .f32 (val_main_v71 (F := F) x0 x2 x3 x4)
theorem val_main_v72_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S_.Idx) :
    val_main_v72 (F := F) x0 x2 x3 x4 i = FloatOps.sitofp .f32 (val_main_v71 (F := F) x0 x2 x3 x4 i) := rfl

-- %73 = stablehlo.divide %70, %72 : tensor<f32>
def val_main_v73 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S_, .f32⟩ : BufTy).Contents (Elt F) :=
  Host.divf (val_main_v70 (F := F) x0 x2 x3 x4) (val_main_v72 (F := F) x0 x2 x3 x4)
theorem val_main_v73_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S_.Idx) :
    val_main_v73 (F := F) x0 x2 x3 x4 i = FloatOps.hostDivf (val_main_v70 (F := F) x0 x2 x3 x4 i) (val_main_v72 (F := F) x0 x2 x3 x4 i) := rfl

-- %cst_24 = stablehlo.constant dense<0.000000e+00> : tensor<f32>
def val_main_cst_24 : (⟨S_, .f32⟩ : BufTy).Contents (Elt F) :=
  constant S_ .f32 0x00000000#32
theorem val_main_cst_24_apply (i : S_.Idx) :
    val_main_cst_24 (F := F) i = FloatOps.ofBits .f32 0x00000000#32 := rfl

-- @_where_1's %0 = stablehlo.convert %arg2 : tensor<f32>, in %74 = func.call @_where_1(…) (record main_call7)
def val_main_call7_v0 : (⟨S_, .f32⟩ : BufTy).Contents (Elt F) :=
  id (val_main_cst_24 (F := F))
theorem val_main_call7_v0_apply (i : S_.Idx) :
    val_main_call7_v0 (F := F) i = (val_main_cst_24 (F := F) i) := rfl

-- %74 = func.call @_where_1(…) (record main_call7) result 0: @_where_1's %1 = stablehlo.select %arg0, %arg1, %0 : tensor<i1>, tensor<f32>
def val_main_v74 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S_, .f32⟩ : BufTy).Contents (Elt F) :=
  select (val_main_v68 (F := F) x0 x2 x3 x4) (val_main_v73 (F := F) x0 x2 x3 x4) (val_main_call7_v0 (F := F))
theorem val_main_v74_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S_.Idx) :
    val_main_v74 (F := F) x0 x2 x3 x4 i = Scalar.select (val_main_v68 (F := F) x0 x2 x3 x4 i) (val_main_v73 (F := F) x0 x2 x3 x4 i) (val_main_call7_v0 (F := F) i) := rfl

-- %75 = stablehlo.add %63, %74 : tensor<f32>
def val_main_v75 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S_, .f32⟩ : BufTy).Contents (Elt F) :=
  addf (val_main_v63 (F := F) x0 x2 x3 x4) (val_main_v74 (F := F) x0 x2 x3 x4)
theorem val_main_v75_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S_.Idx) :
    val_main_v75 (F := F) x0 x2 x3 x4 i = FloatOps.addf (val_main_v63 (F := F) x0 x2 x3 x4 i) (val_main_v74 (F := F) x0 x2 x3 x4 i) := rfl

-- %cst_25 = stablehlo.constant dense<2.000000e+00> : tensor<f32>
def val_main_cst_25 : (⟨S_, .f32⟩ : BufTy).Contents (Elt F) :=
  constant S_ .f32 0x40000000#32
theorem val_main_cst_25_apply (i : S_.Idx) :
    val_main_cst_25 (F := F) i = FloatOps.ofBits .f32 0x40000000#32 := rfl

-- %76 = stablehlo.divide %75, %cst_25 : tensor<f32>
def val_main_v76 (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) : (⟨S_, .f32⟩ : BufTy).Contents (Elt F) :=
  Host.divf (val_main_v75 (F := F) x0 x2 x3 x4) (val_main_cst_25 (F := F))
theorem val_main_v76_apply (x0 : (⟨S65536x768, .f32⟩ : BufTy).Contents (Elt F)) (x2 : (⟨S512x768, .f32⟩ : BufTy).Contents (Elt F)) (x3 : (⟨S16x32x4096, .f32⟩ : BufTy).Contents (Elt F)) (x4 : (⟨S1, .f32⟩ : BufTy).Contents (Elt F)) (i : S_.Idx) :
    val_main_v76 (F := F) x0 x2 x3 x4 i = FloatOps.hostDivf (val_main_v75 (F := F) x0 x2 x3 x4 i) (val_main_cst_25 (F := F) i) := rfl

end Cert.RefRead

end
-- ==== Proof.RefAux.lean ====
/-
  General facts the reading of the reference's run uses: small words as numbers, a count as a fold of
  zero-extended bits, a maximum from -∞ as a supremum, a comparison with zero and a select as an if.
-/
import Idealize.ShloMosaic.Lib.Affine
import Idealize.ShloMosaic.Lib.ValueIdx
import Idealize.ShloMosaic.PureOps.Ideal.Laws
import Idealize.ShloMosaic.PureOps.Reduce

noncomputable section

namespace Cert.RefAux

open Idealize.ShloMosaic Idealize.ShloMosaic.ValueIdx
open scoped BigOperators

/-! ### Small 32-bit words as numbers -/

theorem toNat_ofNat_small (n : Nat) (h : n < 2147483648) : (BitVec.ofNat 32 n).toNat = n := by
  rw [BitVec.toNat_ofNat]; exact Nat.mod_eq_of_lt (by omega)

theorem toInt_ofNat_small (n : Nat) (h : n < 2147483648) : (BitVec.ofNat 32 n).toInt = (n : Int) := by
  rw [BitVec.toInt_eq_toNat_cond, toNat_ofNat_small n h]
  have h2 : (2 : Nat) ^ 32 = 4294967296 := by norm_num
  rw [if_pos (by omega)]

/-- "iota < 0" is false on a small index, so the wrapped index is the index. -/
theorem select_slt_zero (n : Nat) (h : n < 2147483648) (a : BitVec 32) :
    Scalar.select (IntOp.cmpi .slt (BitVec.ofNat 32 n) 0#32) a (BitVec.ofNat 32 n) = BitVec.ofNat 32 n := by
  unfold Scalar.select
  rw [if_neg]
  intro hc
  have := IntOp.cmpi_slt.1 hc
  rw [toInt_ofNat_small n h] at this
  simp at this
  omega

/-- A signed "count > 0" on a small count. -/
theorem cmpi_sgt_ofNat (c : Nat) (hc : c < 2147483648) :
    IntOp.cmpi .sgt (BitVec.ofNat 32 c) 0#32 = BitVec.ofBool (decide (0 < c)) := by
  by_cases h : 0 < c
  · rw [decide_eq_true h]
    refine IntOp.cmpi_sgt.2 ?_
    rw [toInt_ofNat_small c hc]; simp; omega
  · rw [decide_eq_false h]
    refine eq_zero_of_ne_one fun hc1 => h ?_
    have := IntOp.cmpi_sgt.1 hc1
    rw [toInt_ofNat_small c hc] at this; simp at this; omega

/-- The signed maximum of a small count and 1. -/
theorem maxsi_ofNat_one (c : Nat) (hc : c < 2147483648) :
    IntOp.maxsi (BitVec.ofNat 32 c) 1#32 = BitVec.ofNat 32 (max c 1) := by
  unfold IntOp.maxsi
  have h1 : ((1#32 : BitVec 32).slt (BitVec.ofNat 32 c)) = decide (1 < c) := by
    rw [BitVec.slt_eq_decide, toInt_ofNat_small c hc]
    have : (1#32 : BitVec 32).toInt = 1 := by decide
    rw [this]; simp
  rw [h1]
  by_cases h : 1 < c
  · rw [decide_eq_true h, if_pos rfl, max_eq_left (by omega)]
  · rw [decide_eq_false h, if_neg (by simp)]
    have : max c 1 = 1 := max_eq_right (by omega)
    rw [this]

/-- The count of set bits among finitely many, as the word the fold of zero-extended bits makes. -/
theorem fold_addi_bits {ι : Type*} (s : Finset ι) (b : ι → BitVec 1) :
    s.fold (IntOp.addi (w := 32)) 0#32 (fun k => (b k).setWidth 32)
      = BitVec.ofNat 32 (s.filter fun k => b k = 1#1).card := by
  classical
  induction s using Finset.induction_on with
  | empty => simp
  | insert a s ha ih =>
    rw [Finset.fold_insert ha, ih, Finset.filter_insert]
    by_cases h : b a = 1#1
    · have hn : a ∉ s.filter fun k => b k = 1#1 := fun hm => ha (Finset.mem_filter.1 hm).1
      rw [if_pos h, Finset.card_insert_of_notMem hn, h]
      show (1#1 : BitVec 1).setWidth 32 + BitVec.ofNat 32 _ = BitVec.ofNat 32 (_ + 1)
      rw [show (1#1 : BitVec 1).setWidth 32 = BitVec.ofNat 32 1 by decide, ← BitVec.ofNat_add, Nat.add_comm]
    · have h0 : b a = 0#1 := eq_zero_of_ne_one h
      rw [if_neg h, h0]
      show (0#1 : BitVec 1).setWidth 32 + BitVec.ofNat 32 _ = _
      rw [show (0#1 : BitVec 1).setWidth 32 = 0#32 by decide, BitVec.zero_add]

/-! ### Extended reals -/

/-- A maximum folded from -∞ is the supremum. -/
theorem fold_max_eq_sup {ι : Type*} (s : Finset ι) (f : ι → EReal) :
    s.fold (FloatOps.maximumf (F := Ideal) (φ := .f32)) ⊥ f = s.sup f := by
  classical
  induction s using Finset.induction_on with
  | empty => simp
  | insert a s ha ih =>
    rw [Finset.fold_insert ha, Finset.sup_insert, ih]
    show max (f a) (s.sup f) = f a ⊔ s.sup f
    rfl

/-- "x > 0.0" as a bit. -/
theorem cmpf_ogt_zero (a : EReal) :
    FloatOps.cmpf (F := Ideal) (φ := .f32) .ogt a (Ideal.ofBits .f32 0x00000000#32) = BitVec.ofBool (decide (0 < a)) := by
  rw [Ideal.ofBits_zero_f32]; rfl

/-- A select on a decided bit is an if. -/
theorem select_ofBool {α : Type} (p : Prop) [Decidable p] (a b : α) :
    Scalar.select (BitVec.ofBool (decide p)) a b = if p then a else b := by
  unfold Scalar.select
  by_cases h : p
  · rw [decide_eq_true h, if_pos h, if_pos (by decide)]
  · rw [decide_eq_false h, if_neg h, if_neg (by decide)]

/-- The bit of a decided proposition is 1 exactly when it holds. -/
theorem ofBool_decide_eq_one (p : Prop) [Decidable p] : (BitVec.ofBool (decide p) = 1#1) ↔ p := by
  by_cases h : p
  · rw [decide_eq_true h]; exact ⟨fun _ => h, fun _ => by decide⟩
  · rw [decide_eq_false h]; exact ⟨fun hh => absurd hh (by decide), fun hp => absurd hp h⟩

end Cert.RefAux

end
-- ==== Proof.RefValue.lean ====
/-
  The reference run's result, as a function of the argument arrays, is the mathematical loss of
  Spec.lean: lossRef of the logits and the point counts, the arrays read at their coordinates.
  The run's operations are read one at a time through RefRead's lemmas; the maxima, the diagonal
  gathers and the integer counts are read here.
-/
import proofs.«126511_j10892037063168_2_alg».proof.Proof.RefRead
import proofs.«126511_j10892037063168_2_alg».proof.Proof.Spec
import proofs.«126511_j10892037063168_2_alg».proof.Proof.RefAux

noncomputable section

namespace Cert.RefValue

open Cert.ReferenceIdeal Cert.ReferenceIdeal.Gen Cert.RefRead Cert.RefAux
open Idealize.ShloMosaic Idealize.ShloMosaic.ValueIdx
open scoped BigOperators

/-- The argument arrays' types at the ideal instance. -/
abbrev A0 : Type := (⟨S65536x768, .f32⟩ : BufTy).Contents (Elt Ideal)
abbrev A2 : Type := (⟨S512x768, .f32⟩ : BufTy).Contents (Elt Ideal)
abbrev A3 : Type := (⟨S16x32x4096, .f32⟩ : BufTy).Contents (Elt Ideal)
abbrev A4 : Type := (⟨S1, .f32⟩ : BufTy).Contents (Elt Ideal)

/-- The arrays as functions of their coordinates. -/
def maskOf (x3 : A3) : Fin 16 → Fin 32 → Fin 4096 → EReal := fun b m p => x3 (ix3 b m p)
def netOf (x0 : A0) : Fin 65536 → Fin 768 → EReal := fun r d => x0 (ix2 r d)
def embsOf (x2 : A2) : Fin 512 → Fin 768 → EReal := fun i d => x2 (ix2 i d)
def scaleOf (x4 : A4) : EReal := x4 (ix1 (0 : Fin 1))

/-- The logits and the counts of the arguments. -/
def X (x0 : A0) (x2 : A2) (x3 : A3) (x4 : A4) : Fin 512 → Fin 512 → EReal :=
  Spec.logits (maskOf x3) (netOf x0) (embsOf x2) (scaleOf x4)
def N (x3 : A3) : Fin 512 → EReal := Spec.npts (maskOf x3)

variable (x0 : A0) (x2 : A2) (x3 : A3) (x4 : A4)

/-! ### Pooling -/

/-- npts: the sum over the points of a mask row (from a zero initial value). -/
theorem v4_at (j : Fin 512) (z : Fin 1) : val_main_v4 (F := Ideal) x3 (ix2 j z) = N x3 j := by
  rw [val_main_v4_apply, val_main_v3_apply, val_main_cst_apply]
  show Ideal.ofBits .f32 0x00000000#32 + _ = _
  rw [Spec.ofBits_zero, zero_add]
  unfold N Spec.npts maskOf
  refine Finset.sum_congr rfl fun k _ => congrArg x3 (funext fun a => ?_)
  match a with
  | ⟨0, _⟩ => exact Fin.ext (by show (j.val * 1 + z.val) / 32 = j.val / 32; have := z.isLt; omega)
  | ⟨1, _⟩ => exact Fin.ext (by show (j.val * 1 + z.val) % 32 = j.val % 32; have := z.isLt; omega)
  | ⟨2, _⟩ => rfl

/-- sum_feats: the contraction over the points, read through the two reshapes. -/
theorem v2_at (j : Fin 512) (d : Fin 768) :
    val_main_v2 (F := Ideal) x0 x3 (ix2 j d) = Spec.sumF (maskOf x3) (netOf x0) j d := by
  rw [val_main_v2_apply, val_main_v1_apply]
  unfold Spec.sumF maskOf netOf
  refine Finset.sum_congr rfl fun k _ => ?_
  rw [val_main_v0_apply]
  refine congrArg₂ (· * ·) (congrArg x3 (funext fun a => ?_)) (congrArg x0 (funext fun a => ?_))
  · match a with
    | ⟨0, _⟩ => exact Fin.ext (by show (j.val * 768 + d.val) / 24576 = j.val / 32; have := d.isLt; omega)
    | ⟨1, _⟩ => exact Fin.ext (by show (j.val * 768 + d.val) / 768 % 32 = j.val % 32; have := d.isLt; omega)
    | ⟨2, _⟩ => rfl
  · match a with
    | ⟨0, _⟩ => exact Fin.ext (by
        show (((j.val * 768 + d.val) / 24576 * 4096 + k.val) * 768 + (j.val * 768 + d.val) % 768) / 768 = j.val / 32 * 4096 + k.val
        have := d.isLt; omega)
    | ⟨1, _⟩ => exact Fin.ext (by
        show (((j.val * 768 + d.val) / 24576 * 4096 + k.val) * 768 + (j.val * 768 + d.val) % 768) % 768 = d.val
        have := d.isLt; omega)

/-- avg = sum_feats / (npts + eps). -/
theorem v8_at (j : Fin 512) (d : Fin 768) :
    val_main_v8 (F := Ideal) x0 x3 (ix2 j d) = Spec.avg (maskOf x3) (netOf x0) j d := by
  rw [val_main_v8_apply, v2_at, val_main_v7_apply, val_main_v6_apply, val_main_v5_apply, val_main_cst_0_apply]
  have e : idx_main_v7 (ix2 j d) = ix2 j (0 : Fin 1) := by
    funext a; match a with
    | ⟨0, _⟩ => rfl
    | ⟨1, _⟩ => rfl
  rw [e, v4_at]
  rfl

/-- logit_scale[0], through the reshape to a scalar. -/
theorem v11_at (i : S_.Idx) : val_main_v11 (F := Ideal) x4 i = scaleOf x4 := by
  unfold val_main_v11 scaleOf
  refine (shapeCast_dropUnit_apply (n := 0) (![] : Fin 0 → Nat) x4 shapeCasts_S1_S_ i).trans (congrArg x4 (funext fun a => ?_))
  match a with
  | ⟨0, _⟩ => rfl

/-- The logits. -/
theorem v14_at (i j : Fin 512) : val_main_v14 (F := Ideal) x0 x2 x3 x4 (ix2 i j) = X x0 x2 x3 x4 i j := by
  rw [val_main_v14_apply, val_main_v10_apply, val_main_v13_apply, val_main_v12_apply, v11_at]
  unfold X Spec.logits
  show (∑ k : Fin 768, _) * Ideal.exp (scaleOf x4) = _
  refine congrArg (· * Ideal.exp (scaleOf x4)) (Finset.sum_congr rfl fun k _ => ?_)
  rw [val_main_v9_apply]
  have e : idx_main_v9 (ridx_main_v10 (ix2 i j) k) = ix2 j k := by
    funext a; match a with
    | ⟨0, _⟩ => rfl
    | ⟨1, _⟩ => rfl
  have el : lidx_main_v10 (ix2 i j) k = ix2 i k := by
    funext a; match a with
    | ⟨0, _⟩ => rfl
    | ⟨1, _⟩ => rfl
  rw [e, el, v8_at]
  rfl

/-! ### The maxima -/

/-- A row's maximum from -∞. -/
theorem reduce_max_row (y : S512x512.Idx → EReal) (init : S_.Idx → EReal) (hinit : init (Shape.Idx.first h_S_) = ⊥)
    (i : Fin 512) :
    Host.reduce (FloatOps.maximumf (F := Ideal) (φ := .f32)) y init reducesTo_S512x512_S512_d1 h_S_ (ix1 i)
      = Finset.univ.sup fun k : Fin 512 => y (ix2 i k) := by
  rw [Host.reduce_eq_fold_single (FloatOps.maximumf (F := Ideal) (φ := .f32)) y init reducesTo_S512x512_S512_d1
    (by decide : S512x512.Reduces [1] S512) h_S_ (ix1 i), hinit, fold_max_eq_sup]
  refine congrArg (Finset.sup Finset.univ) (funext fun k => congrArg y (funext fun a => ?_))
  match a with
  | ⟨0, _⟩ => rfl
  | ⟨1, _⟩ => rfl

/-- A column's maximum from -∞. -/
theorem reduce_max_col (y : S512x512.Idx → EReal) (init : S_.Idx → EReal) (hinit : init (Shape.Idx.first h_S_) = ⊥)
    (j : Fin 512) :
    Host.reduce (FloatOps.maximumf (F := Ideal) (φ := .f32)) y init reducesTo_S512x512_S512_d0 h_S_ (ix1 j)
      = Finset.univ.sup fun k : Fin 512 => y (ix2 k j) := by
  rw [Host.reduce_eq_fold_single (FloatOps.maximumf (F := Ideal) (φ := .f32)) y init reducesTo_S512x512_S512_d0
    (by decide : S512x512.Reduces [0] S512) h_S_ (ix1 j), hinit, fold_max_eq_sup]
  refine congrArg (Finset.sup Finset.univ) (funext fun k => congrArg y (funext fun a => ?_))
  match a with
  | ⟨0, _⟩ => rfl
  | ⟨1, _⟩ => rfl

theorem ninf_first : (val_main_call0_cst (F := Ideal)) (Shape.Idx.first h_S_) = ⊥ := Spec.ofBits_ninf
theorem ninf_first2 : (val_main_call2_cst (F := Ideal)) (Shape.Idx.first h_S_) = ⊥ := Spec.ofBits_ninf

/-- max(-∞, row maximum). -/
theorem call0_v2_at (i : Fin 512) :
    val_main_call0_v2 (F := Ideal) x0 x2 x3 x4 (ix1 i) = Spec.rowMax (X x0 x2 x3 x4) i := by
  rw [val_main_call0_v2_apply, val_main_call0_v1_apply, val_main_call0_cst_0_apply]
  unfold val_main_call0_v0
  rw [reduce_max_row _ _ ninf_first]
  show max (Ideal.ofBits .f32 0xFF800000#32) _ = _
  rw [Spec.ofBits_ninf, max_bot_left]
  unfold Spec.rowMax
  exact congrArg (Finset.sup Finset.univ) (funext fun k => v14_at x0 x2 x3 x4 i k)

/-- max(-∞, column maximum). -/
theorem call2_v2_at (j : Fin 512) :
    val_main_call2_v2 (F := Ideal) x0 x2 x3 x4 (ix1 j) = Spec.colMax (X x0 x2 x3 x4) j := by
  rw [val_main_call2_v2_apply, val_main_call2_v1_apply, val_main_call2_cst_0_apply]
  unfold val_main_call2_v0
  rw [reduce_max_col _ _ ninf_first2]
  show max (Ideal.ofBits .f32 0xFF800000#32) _ = _
  rw [Spec.ofBits_ninf, max_bot_left]
  unfold Spec.colMax
  exact congrArg (Finset.sup Finset.univ) (funext fun k => v14_at x0 x2 x3 x4 k j)

/-! ### Log-softmax along rows -/

theorem call0_v5_at (i j : Fin 512) :
    val_main_call0_v5 (F := Ideal) x0 x2 x3 x4 (ix2 i j) = X x0 x2 x3 x4 i j - Spec.rowMax (X x0 x2 x3 x4) i := by
  rw [val_main_call0_v5_apply, v14_at, val_main_call0_v4_apply, val_main_call0_v3_apply]
  have e : idx_main_call0_v3 (idx_main_call0_v4 (ix2 i j)) = ix1 i := by
    funext a; match a with
    | ⟨0, _⟩ => rfl
  rw [e, call0_v2_at]
  rfl

theorem call0_v7_at (i : Fin 512) :
    val_main_call0_v7 (F := Ideal) x0 x2 x3 x4 (ix1 i) = Spec.rowSumExp (X x0 x2 x3 x4) i := by
  rw [val_main_call0_v7_apply, val_main_call0_cst_1_apply]
  show Ideal.ofBits .f32 0x00000000#32 + _ = _
  rw [Spec.ofBits_zero, zero_add]
  unfold Spec.rowSumExp
  refine Finset.sum_congr rfl fun k _ => ?_
  rw [val_main_call0_v6_apply]
  have e : idx_main_call0_v7 (ix1 i) k = ix2 i k := by
    funext a; match a with
    | ⟨0, _⟩ => rfl
    | ⟨1, _⟩ => rfl
  rw [e, call0_v5_at]
  rfl

theorem v19_at (i j : Fin 512) :
    val_main_v19 (F := Ideal) x0 x2 x3 x4 (ix2 i j) = Spec.lsmRowRef (X x0 x2 x3 x4) i j := by
  rw [val_main_v19_apply, call0_v5_at, val_main_call0_v10_apply, val_main_call0_v9_apply, val_main_call0_v8_apply]
  have e : idx_main_call0_v8 (idx_main_call0_v10 (ix2 i j)) = ix1 i := by
    funext a; match a with
    | ⟨0, _⟩ => rfl
  rw [e, call0_v7_at]
  rfl

/-! ### Log-softmax along columns -/

theorem call2_v5_at (i j : Fin 512) :
    val_main_call2_v5 (F := Ideal) x0 x2 x3 x4 (ix2 i j) = X x0 x2 x3 x4 i j - Spec.colMax (X x0 x2 x3 x4) j := by
  rw [val_main_call2_v5_apply, v14_at, val_main_call2_v4_apply, val_main_call2_v3_apply]
  have e : idx_main_call2_v3 (idx_main_call2_v4 (ix2 i j)) = ix1 j := by
    funext a; match a with
    | ⟨0, _⟩ => rfl
  rw [e, call2_v2_at]
  rfl

theorem call2_v7_at (j : Fin 512) :
    val_main_call2_v7 (F := Ideal) x0 x2 x3 x4 (ix1 j) = Spec.colSumExp (X x0 x2 x3 x4) j := by
  rw [val_main_call2_v7_apply, val_main_call2_cst_1_apply]
  show Ideal.ofBits .f32 0x00000000#32 + _ = _
  rw [Spec.ofBits_zero, zero_add]
  unfold Spec.colSumExp
  refine Finset.sum_congr rfl fun k _ => ?_
  rw [val_main_call2_v6_apply]
  have e : idx_main_call2_v7 (ix1 j) k = ix2 k j := by
    funext a; match a with
    | ⟨0, _⟩ => rfl
    | ⟨1, _⟩ => rfl
  rw [e, call2_v5_at]
  rfl

theorem v36_at (i j : Fin 512) :
    val_main_v36 (F := Ideal) x0 x2 x3 x4 (ix2 i j) = Spec.lsmColRef (X x0 x2 x3 x4) i j := by
  rw [val_main_v36_apply, call2_v5_at, val_main_call2_v10_apply, val_main_call2_v9_apply, val_main_call2_v8_apply]
  have e : idx_main_call2_v8 (idx_main_call2_v10 (ix2 i j)) = ix1 j := by
    funext a; match a with
    | ⟨0, _⟩ => rfl
  rw [e, call2_v7_at]
  rfl

/-! ### The diagonal gathers -/

/-- The wrapped row index (iota < 0 ? iota + 512 : iota) is the row index. -/
theorem v24_at (i : S512.Idx) : val_main_v24 (F := Ideal) i = BitVec.ofNat 32 (i 0).val := by
  rw [val_main_v24_apply, val_main_v21_apply, val_main_v15_apply]
  exact select_slt_zero _ (by have := (i 0).isLt; show (i 0).val < 2147483648; have h : (i 0).val < 512 := (i 0).isLt; omega) _
theorem v29_at (i : S512.Idx) : val_main_v29 (F := Ideal) i = BitVec.ofNat 32 (i 0).val := by
  rw [val_main_v29_apply, val_main_v26_apply, val_main_v15_apply]
  exact select_slt_zero _ (by show (i 0).val < 2147483648; have h : (i 0).val < 512 := (i 0).isLt; omega) _
theorem v41_at (i : S512.Idx) : val_main_v41 (F := Ideal) i = BitVec.ofNat 32 (i 0).val := by
  rw [val_main_v41_apply, val_main_v38_apply, val_main_v15_apply]
  exact select_slt_zero _ (by show (i 0).val < 2147483648; have h : (i 0).val < 512 := (i 0).isLt; omega) _
theorem v46_at (i : S512.Idx) : val_main_v46 (F := Ideal) i = BitVec.ofNat 32 (i 0).val := by
  rw [val_main_v46_apply, val_main_v43_apply, val_main_v15_apply]
  exact select_slt_zero _ (by show (i 0).val < 2147483648; have h : (i 0).val < 512 := (i 0).isLt; omega) _

/-- Both columns of the start indices hold the row index. -/
theorem v32_at (r : Fin 512) (c : Fin 2) : val_main_v32 (F := Ideal) (ix2 r c) = BitVec.ofNat 32 r.val := by
  unfold val_main_v32
  match c with
  | ⟨0, _⟩ =>
    refine (concatenate_pair_apply_left (t := S512x2) (s₁ := S512x1) (s₂ := S512x1) 1 _ _
      concatenates_S512x1_S512x1_S512x2_d1 (ix2 r (0 : Fin 2)) rfl (ix2 r (0 : Fin 1)) (fun b => ?_)).trans ?_
    · match b with
      | ⟨0, _⟩ => rfl
      | ⟨1, _⟩ => rfl
    · rw [val_main_v30_apply, v24_at]
  | ⟨1, _⟩ =>
    refine (concatenate_pair_apply_right (t := S512x2) (s₁ := S512x1) (s₂ := S512x1) 1 _ _
      concatenates_S512x1_S512x1_S512x2_d1 (ix2 r (1 : Fin 2)) rfl rfl (ix2 r (0 : Fin 1)) (fun b hb => ?_) rfl).trans ?_
    · match b with
      | ⟨0, _⟩ => rfl
      | ⟨1, _⟩ => exact absurd rfl hb
    · rw [val_main_v31_apply, v29_at]
theorem v49_at (r : Fin 512) (c : Fin 2) : val_main_v49 (F := Ideal) (ix2 r c) = BitVec.ofNat 32 r.val := by
  unfold val_main_v49
  match c with
  | ⟨0, _⟩ =>
    refine (concatenate_pair_apply_left (t := S512x2) (s₁ := S512x1) (s₂ := S512x1) 1 _ _
      concatenates_S512x1_S512x1_S512x2_d1 (ix2 r (0 : Fin 2)) rfl (ix2 r (0 : Fin 1)) (fun b => ?_)).trans ?_
    · match b with
      | ⟨0, _⟩ => rfl
      | ⟨1, _⟩ => rfl
    · rw [val_main_v47_apply, v41_at]
  | ⟨1, _⟩ =>
    refine (concatenate_pair_apply_right (t := S512x2) (s₁ := S512x1) (s₂ := S512x1) 1 _ _
      concatenates_S512x1_S512x1_S512x2_d1 (ix2 r (1 : Fin 2)) rfl rfl (ix2 r (0 : Fin 1)) (fun b hb => ?_) rfl).trans ?_
    · match b with
      | ⟨0, _⟩ => rfl
      | ⟨1, _⟩ => exact absurd rfl hb
    · rw [val_main_v48_apply, v46_at]

/-- The gather whose start indices are (i, i) reads the diagonal. -/
theorem gather_diag {α : Type} (y : S512x512.Idx → α) (idx : IVec S512x2 32)
    (hidx : ∀ (r : Fin 512) (c : Fin 2), idx (ix2 r c) = BitVec.ofNat 32 r.val) (i : Fin 512) :
    Host.gather gather_S512x512_S512x2_S512_n_01_n_n_01_1_11 y idx (ix1 i) = y (ix2 i i) := by
  unfold Host.gather
  refine congrArg y (funext fun a => Fin.ext ?_)
  have hi : min (BitVec.ofNat 32 i.val).toInt.toNat (512 - 1) = i.val := by
    rw [toInt_ofNat_small i.val (by have := i.isLt; omega)]
    have := i.isLt
    simp only [Int.toNat_natCast]
    omega
  match a with
  | ⟨0, _⟩ =>
    show gather_S512x512_S512x2_S512_n_01_n_n_01_1_11.start (ix1 i) idx 0
      + gather_S512x512_S512x2_S512_n_01_n_n_01_1_11.batchCoord (ix1 i) 0
      + gather_S512x512_S512x2_S512_n_01_n_n_01_1_11.offCoord (ix1 i) 0 = i.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin S512x512.rank) ∈ gather_S512x512_S512x2_S512_n_01_n_n_01_1_11.startIndexMap by decide)]
    have hsi : gather_S512x512_S512x2_S512_n_01_n_n_01_1_11.siIdx (ix1 i)
        ⟨List.idxOf (0 : Fin S512x512.rank) gather_S512x512_S512x2_S512_n_01_n_n_01_1_11.startIndexMap,
          List.idxOf_lt_length_iff.2 (by decide)⟩ = ix2 i (0 : Fin 2) := by
      funext b; refine Fin.ext ?_
      match b with
      | ⟨0, _⟩ => rfl
      | ⟨1, _⟩ => rfl
    rw [hsi, hidx]
    exact hi
  | ⟨1, _⟩ =>
    show gather_S512x512_S512x2_S512_n_01_n_n_01_1_11.start (ix1 i) idx 1
      + gather_S512x512_S512x2_S512_n_01_n_n_01_1_11.batchCoord (ix1 i) 1
      + gather_S512x512_S512x2_S512_n_01_n_n_01_1_11.offCoord (ix1 i) 1 = i.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin S512x512.rank) ∈ gather_S512x512_S512x2_S512_n_01_n_n_01_1_11.startIndexMap by decide)]
    have hsi : gather_S512x512_S512x2_S512_n_01_n_n_01_1_11.siIdx (ix1 i)
        ⟨List.idxOf (1 : Fin S512x512.rank) gather_S512x512_S512x2_S512_n_01_n_n_01_1_11.startIndexMap,
          List.idxOf_lt_length_iff.2 (by decide)⟩ = ix2 i (1 : Fin 2) := by
      funext b; refine Fin.ext ?_
      match b with
      | ⟨0, _⟩ => rfl
      | ⟨1, _⟩ => rfl
    rw [hsi, hidx]
    exact hi

/-! ### The per-mask losses -/

/-- npts[i] > 0, as the bit the select reads. -/
theorem v18_at (i : Fin 512) : val_main_v18 (F := Ideal) x3 (ix1 i) = BitVec.ofBool (decide (0 < N x3 i)) := by
  rw [val_main_v18_apply, val_main_v16_apply, val_main_v17_apply, val_main_cst_1_apply]
  have e : idx_main_v16 (ix1 i) = ix2 i (0 : Fin 1) := by
    funext a; match a with
    | ⟨0, _⟩ => exact Fin.ext (Nat.div_one _)
    | ⟨1, _⟩ => rfl
  rw [e, v4_at]
  exact cmpf_ogt_zero _

theorem v35_at (i : Fin 512) :
    val_main_v35 (F := Ideal) x0 x2 x3 x4 (ix1 i) = Spec.textsRef (X x0 x2 x3 x4) (N x3) i := by
  rw [val_main_v35_apply, v18_at, select_ofBool, val_main_v34_apply, val_main_call1_v1_apply, val_main_call1_v0_apply,
    val_main_cst_5_apply]
  unfold val_main_v33
  rw [gather_diag _ _ (fun r c => v32_at r c), v19_at]
  unfold Spec.textsRef
  show (if 0 < N x3 i then -(Spec.lsmRowRef (X x0 x2 x3 x4) i i) else Ideal.ofBits .f32 0x00000000#32) = _
  rw [Spec.ofBits_zero]

theorem v52_at (i : Fin 512) :
    val_main_v52 (F := Ideal) x0 x2 x3 x4 (ix1 i) = Spec.ptsRef (X x0 x2 x3 x4) (N x3) i := by
  rw [val_main_v52_apply, v18_at, select_ofBool, val_main_v51_apply, val_main_call3_v1_apply, val_main_call3_v0_apply,
    val_main_cst_10_apply]
  unfold val_main_v50
  rw [gather_diag _ _ (fun r c => v49_at r c), v36_at]
  unfold Spec.ptsRef
  show (if 0 < N x3 i then -(Spec.lsmColRef (X x0 x2 x3 x4) i i) else Ideal.ofBits .f32 0x00000000#32) = _
  rw [Spec.ofBits_zero]

/-! ### The mean over the positive entries -/

/-- A rank-1 index set is its one coordinate's range. -/
def idxEquiv1 {n : Nat} : Fin n ≃ (⟨1, ![n]⟩ : Shape).Idx where
  toFun := ix1
  invFun := fun j => j 0
  left_inv := fun _ => rfl
  right_inv := fun j => (eq_ix1 j).symm

theorem sum_idx1 {M : Type*} [AddCommMonoid M] {n : Nat} (f : (⟨1, ![n]⟩ : Shape).Idx → M) :
    ∑ j, f j = ∑ k : Fin n, f (ix1 k) := (Equiv.sum_comp idxEquiv1 f).symm

/-- The reference's mean of the positive entries of l: an integer count of l > 0, compared with 0 and raised to
    at least 1 as an integer, converted, and divided into the sum of the positive entries. -/
theorem nzmean_read (l : S512.Idx → EReal) (j : S_.Idx) :
    Scalar.select
        (IntOp.cmpi .sgt
          (Host.reduce IntOp.addi (extui 32 (cmpf (F := Ideal) .ogt l (broadcastInDim S512 ![] bcast_S_S512 (constant (F := Ideal) S_ .f32 0x00000000#32))) natLt_1_32)
            (constantI S_ 32 0#32) reducesTo_S512_S_d0 h_S_ j) 0#32)
        (FloatOps.hostDivf
          (Ideal.ofBits .f32 0x00000000#32 + ∑ k : S512.Idx,
            Scalar.select (FloatOps.cmpf (F := Ideal) (φ := .f32) .ogt (l k) (Ideal.ofBits .f32 0x00000000#32)) (l k)
              (Ideal.ofBits .f32 0x00000000#32))
          (FloatOps.sitofp (F := Ideal) .f32
            (IntOp.maxsi
              (Host.reduce IntOp.addi (extui 32 (cmpf (F := Ideal) .ogt l (broadcastInDim S512 ![] bcast_S_S512 (constant (F := Ideal) S_ .f32 0x00000000#32))) natLt_1_32)
                (constantI S_ 32 0#32) reducesTo_S512_S_d0 h_S_ j) 1#32)))
        (Ideal.ofBits .f32 0x00000000#32)
      = Spec.nzmeanRef fun i : Fin 512 => l (ix1 i) := by
  -- the integer count
  have hcnt : Host.reduce IntOp.addi
      (extui 32 (cmpf (F := Ideal) .ogt l (broadcastInDim S512 ![] bcast_S_S512 (constant (F := Ideal) S_ .f32 0x00000000#32))) natLt_1_32)
      (constantI S_ 32 0#32) reducesTo_S512_S_d0 h_S_ j
      = BitVec.ofNat 32 (Spec.cntNat fun i : Fin 512 => l (ix1 i)) := by
    rw [Host.reduce_eq_fold (IntOp.addi (w := 32)) _ _ reducesTo_S512_S_d0 h_S_ j,
      Finset.filter_true_of_mem (fun i _ => funext fun a => a.elim0)]
    show (Finset.univ : Finset S512.Idx).fold (IntOp.addi (w := 32)) 0#32
        (fun k => (FloatOps.cmpf (F := Ideal) (φ := .f32) .ogt (l k) (Ideal.ofBits .f32 0x00000000#32)).setWidth 32) = _
    rw [fold_addi_bits]
    unfold Spec.cntNat
    refine congrArg (BitVec.ofNat 32) ?_
    rw [Finset.card_filter, Finset.card_filter, sum_idx1]
    refine Finset.sum_congr rfl fun k _ => ?_
    rw [cmpf_ogt_zero]
    exact if_congr (ofBool_decide_eq_one _) rfl rfl
  have hle : Spec.cntNat (fun i : Fin 512 => l (ix1 i)) < 2147483648 := by
    have h1 : Spec.cntNat (fun i : Fin 512 => l (ix1 i)) ≤ (Finset.univ : Finset (Fin 512)).card :=
      Finset.card_filter_le _ _
    rw [Finset.card_univ, Fintype.card_fin] at h1
    omega
  have hconv : FloatOps.sitofp (F := Ideal) .f32 (BitVec.ofNat 32 (max (Spec.cntNat fun i : Fin 512 => l (ix1 i)) 1))
      = (((max (Spec.cntNat fun i : Fin 512 => l (ix1 i)) 1 : ℕ) : ℝ) : EReal) := by
    show ((((BitVec.ofNat 32 (max (Spec.cntNat fun i : Fin 512 => l (ix1 i)) 1)).toInt : ℤ) : ℝ) : EReal) = _
    rw [toInt_ofNat_small _ (by omega)]
    simp
  rw [hcnt, cmpi_sgt_ofNat _ hle, maxsi_ofNat_one _ hle, hconv]
  simp only [cmpf_ogt_zero, select_ofBool]
  rw [Spec.ofBits_zero, zero_add, sum_idx1]
  rfl

/-! ### The result -/

/-- The reference run's result, as a function of the argument arrays, is lossRef of the logits and the counts. -/
theorem ref_value : val_main_v76 (F := Ideal) x0 x2 x3 x4 = fun _ => Spec.lossRef (X x0 x2 x3 x4) (N x3) := by
  funext j
  rw [val_main_v76_apply, val_main_v75_apply, val_main_cst_25_apply]
  have h63 : val_main_v63 (F := Ideal) x0 x2 x3 x4 j = Spec.nzmeanRef (Spec.textsRef (X x0 x2 x3 x4) (N x3)) := by
    rw [val_main_v63_apply, val_main_v57_apply, val_main_v62_apply, val_main_v59_apply, val_main_v61_apply,
      val_main_v60_apply, val_main_call5_v0_apply, val_main_cst_17_apply, val_main_cst_15_apply, val_main_c_13_apply,
      val_main_c_16_apply]
    have hs : ∀ k : S512.Idx, val_main_v58 (F := Ideal) x0 x2 x3 x4 k
        = Scalar.select (FloatOps.cmpf (F := Ideal) (φ := .f32) .ogt (val_main_v35 (F := Ideal) x0 x2 x3 x4 k) (Ideal.ofBits .f32 0x00000000#32))
            (val_main_v35 (F := Ideal) x0 x2 x3 x4 k) (Ideal.ofBits .f32 0x00000000#32) := fun k => rfl
    rw [Finset.sum_congr rfl fun k _ => hs k]
    refine (nzmean_read (val_main_v35 (F := Ideal) x0 x2 x3 x4) j).trans ?_
    exact congrArg Spec.nzmeanRef (funext fun i => v35_at x0 x2 x3 x4 i)
  have h74 : val_main_v74 (F := Ideal) x0 x2 x3 x4 j = Spec.nzmeanRef (Spec.ptsRef (X x0 x2 x3 x4) (N x3)) := by
    rw [val_main_v74_apply, val_main_v68_apply, val_main_v73_apply, val_main_v70_apply, val_main_v72_apply,
      val_main_v71_apply, val_main_call7_v0_apply, val_main_cst_24_apply, val_main_cst_22_apply, val_main_c_20_apply,
      val_main_c_23_apply]
    have hs : ∀ k : S512.Idx, val_main_v69 (F := Ideal) x0 x2 x3 x4 k
        = Scalar.select (FloatOps.cmpf (F := Ideal) (φ := .f32) .ogt (val_main_v52 (F := Ideal) x0 x2 x3 x4 k) (Ideal.ofBits .f32 0x00000000#32))
            (val_main_v52 (F := Ideal) x0 x2 x3 x4 k) (Ideal.ofBits .f32 0x00000000#32) := fun k => rfl
    rw [Finset.sum_congr rfl fun k _ => hs k]
    refine (nzmean_read (val_main_v52 (F := Ideal) x0 x2 x3 x4) j).trans ?_
    exact congrArg Spec.nzmeanRef (funext fun i => v52_at x0 x2 x3 x4 i)
  rw [h63, h74]
  rfl

end Cert.RefValue

end
-- ==== Proof.RefRun.lean ====
/-
  The reference program's run, stage by stage: its 143 host operations in nine consecutive stretches, each
  stretch's live results read as the per-operation values of RefRead from the values the stretch starts with, and
  the run's result buffer as the last operation's value of the argument buffers' launch contents.
-/
import proofs.«126511_j10892037063168_2_alg».proof.Proof.RefRead

noncomputable section

namespace Cert.RefRun

open Cert.ReferenceIdeal Cert.ReferenceIdeal.Gen Cert.RefRead Idealize.ShloMosaic Idealize.ShloMosaic.TcCoe Idealize.SL.Sem Idealize.ShloMosaic.StableHlo

variable {F : FTy → Type} [FloatOps F]

/-- @main's 143 operations, in order (a called function's operations stand in its call's place). -/
abbrev ops : List (HloOp τ sig (Elt F)) :=
  [ reshape main_arg0 main_v0 rfl shapeCasts_S65536x768_S16x4096x768,
    binary main_arg3 main_v0 main_v1 ((fun l r => Host.dotGeneral dot_S16x32x4096_S16x4096x768_S16x32x768_2_1_1_2_0_0 none l r) : (⟨S16x32x4096, .f32⟩ : BufTy).Contents (Elt F) → (⟨S16x4096x768, .f32⟩ : BufTy).Contents (Elt F) → (⟨S16x32x768, .f32⟩ : BufTy).Contents (Elt F)),
    reshape main_v1 main_v2 rfl shapeCasts_S16x32x768_S512x768,
    nullary main_cst (constant S_ .f32 0x00000000#32),
    binary main_arg3 main_cst main_v3 ((fun x v => Host.reduceAdd x v reducesTo_S16x32x4096_S16x32_d2 h_S_) : (⟨S16x32x4096, .f32⟩ : BufTy).Contents (Elt F) → (⟨S_, .f32⟩ : BufTy).Contents (Elt F) → (⟨S16x32, .f32⟩ : BufTy).Contents (Elt F)),
    reshape main_v3 main_v4 rfl shapeCasts_S16x32_S512x1,
    nullary main_cst_0 (constant S_ .f32 0x2B8CBCCC#32),
    unary main_cst_0 main_v5 (broadcastInDim S512x1 ![] bcast_S_S512x1 : (⟨S_, .f32⟩ : BufTy).Contents (Elt F) → (⟨S512x1, .f32⟩ : BufTy).Contents (Elt F)),
    binary main_v4 main_v5 main_v6 (addf : (⟨S512x1, .f32⟩ : BufTy).Contents (Elt F) → (⟨S512x1, .f32⟩ : BufTy).Contents (Elt F) → (⟨S512x1, .f32⟩ : BufTy).Contents (Elt F)),
    unary main_v6 main_v7 (broadcastInDim S512x768 ![0, 1] bcast_S512x1_S512x768_0_1 : (⟨S512x1, .f32⟩ : BufTy).Contents (Elt F) → (⟨S512x768, .f32⟩ : BufTy).Contents (Elt F)),
    binary main_v2 main_v7 main_v8 (Host.divf : (⟨S512x768, .f32⟩ : BufTy).Contents (Elt F) → (⟨S512x768, .f32⟩ : BufTy).Contents (Elt F) → (⟨S512x768, .f32⟩ : BufTy).Contents (Elt F)),
    unary main_v8 main_v9 ((transpose S768x512 [1, 0] · transposes_S512x768_S768x512_1_0) : (⟨S512x768, .f32⟩ : BufTy).Contents (Elt F) → (⟨S768x512, .f32⟩ : BufTy).Contents (Elt F)),
    binary main_arg2 main_v9 main_v10 ((fun l r => Host.dotGeneral dot_S512x768_S768x512_S512x512_1_0_0_1_n_n none l r) : (⟨S512x768, .f32⟩ : BufTy).Contents (Elt F) → (⟨S768x512, .f32⟩ : BufTy).Contents (Elt F) → (⟨S512x512, .f32⟩ : BufTy).Contents (Elt F)),
    reshape main_arg4 main_v11 rfl shapeCasts_S1_S_,
    unary main_v11 main_v12 (Host.exp : (⟨S_, .f32⟩ : BufTy).Contents (Elt F) → (⟨S_, .f32⟩ : BufTy).Contents (Elt F)),
    unary main_v12 main_v13 (broadcastInDim S512x512 ![] bcast_S_S512x512 : (⟨S_, .f32⟩ : BufTy).Contents (Elt F) → (⟨S512x512, .f32⟩ : BufTy).Contents (Elt F)),
    binary main_v10 main_v13 main_v14 (mulf : (⟨S512x512, .f32⟩ : BufTy).Contents (Elt F) → (⟨S512x512, .f32⟩ : BufTy).Contents (Elt F) → (⟨S512x512, .f32⟩ : BufTy).Contents (Elt F)),
    nullary main_v15 (iotaInDim S512 32 0),
    reshape main_v4 main_v16 rfl shapeCasts_S512x1_S512,
    nullary main_cst_1 (constant S_ .f32 0x00000000#32),
    unary main_cst_1 main_v17 (broadcastInDim S512 ![] bcast_S_S512 : (⟨S_, .f32⟩ : BufTy).Contents (Elt F) → (⟨S512, .f32⟩ : BufTy).Contents (Elt F)),
    binary main_v16 main_v17 main_v18 (cmpf .ogt : (⟨S512, .f32⟩ : BufTy).Contents (Elt F) → (⟨S512, .f32⟩ : BufTy).Contents (Elt F) → (⟨S512, .i1⟩ : BufTy).Contents (Elt F)),
    TRef.nullary (TRef.of (T := ⟨S_, .f32⟩) main_call0_cst) (constant S_ .f32 0xFF800000#32),
    TRef.binary (TRef.of (T := ⟨S512x512, .f32⟩) main_v14) (TRef.of (T := ⟨S_, .f32⟩) main_call0_cst) (TRef.of (T := ⟨S512, .f32⟩) main_call0_v0) (fun x v => Host.reduce FloatOps.maximumf x v reducesTo_S512x512_S512_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S512, .f32⟩) main_call0_v1) (broadcastInDim S512 ![] bcast_S_S512),
    TRef.binary (TRef.of (T := ⟨S512, .f32⟩) main_call0_v1) (TRef.of (T := ⟨S512, .f32⟩) main_call0_v0) (TRef.of (T := ⟨S512, .f32⟩) main_call0_v2) maximumf,
    TRef.unary (TRef.of (T := ⟨S512, .f32⟩) main_call0_v2) (TRef.of (T := ⟨S512x1, .f32⟩) main_call0_v3) (broadcastInDim S512x1 ![0] bcast_S512_S512x1_0),
    TRef.unary (TRef.of (T := ⟨S512x1, .f32⟩) main_call0_v3) (TRef.of (T := ⟨S512x512, .f32⟩) main_call0_v4) (broadcastInDim S512x512 ![0, 1] bcast_S512x1_S512x512_0_1),
    TRef.binary (TRef.of (T := ⟨S512x512, .f32⟩) main_v14) (TRef.of (T := ⟨S512x512, .f32⟩) main_call0_v4) (TRef.of (T := ⟨S512x512, .f32⟩) main_call0_v5) subf,
    TRef.unary (TRef.of (T := ⟨S512x512, .f32⟩) main_call0_v5) (TRef.of (T := ⟨S512x512, .f32⟩) main_call0_v6) Host.exp,
    TRef.nullary (TRef.of (T := ⟨S_, .f32⟩) main_call0_cst_1) (constant S_ .f32 0x00000000#32),
    TRef.binary (TRef.of (T := ⟨S512x512, .f32⟩) main_call0_v6) (TRef.of (T := ⟨S_, .f32⟩) main_call0_cst_1) (TRef.of (T := ⟨S512, .f32⟩) main_call0_v7) (fun x v => Host.reduceAdd x v reducesTo_S512x512_S512_d1 h_S_),
    TRef.unary (TRef.of (T := ⟨S512, .f32⟩) main_call0_v7) (TRef.of (T := ⟨S512x1, .f32⟩) main_call0_v8) (broadcastInDim S512x1 ![0] bcast_S512_S512x1_0),
    TRef.unary (TRef.of (T := ⟨S512x1, .f32⟩) main_call0_v8) (TRef.of (T := ⟨S512x1, .f32⟩) main_call0_v9) Host.log,
    TRef.unary (TRef.of (T := ⟨S512x1, .f32⟩) main_call0_v9) (TRef.of (T := ⟨S512x512, .f32⟩) main_call0_v10) (broadcastInDim S512x512 ![0, 1] bcast_S512x1_S512x512_0_1),
    TRef.binary (TRef.of (T := ⟨S512x512, .f32⟩) main_call0_v5) (TRef.of (T := ⟨S512x512, .f32⟩) main_call0_v10) (TRef.of (T := ⟨S512x512, .f32⟩) main_v19) subf,
    nullary main_c (constantI S_ 32 0#32),
    unary main_c main_v20 (broadcastInDim S512 ![] bcast_S_S512 : (⟨S_, .i32⟩ : BufTy).Contents (Elt F) → (⟨S512, .i32⟩ : BufTy).Contents (Elt F)),
    binary main_v15 main_v20 main_v21 (cmpi .slt : (⟨S512, .i32⟩ : BufTy).Contents (Elt F) → (⟨S512, .i32⟩ : BufTy).Contents (Elt F) → (⟨S512, .i1⟩ : BufTy).Contents (Elt F)),
    nullary main_c_2 (constantI S_ 32 512#32),
    unary main_c_2 main_v22 (broadcastInDim S512 ![] bcast_S_S512 : (⟨S_, .i32⟩ : BufTy).Contents (Elt F) → (⟨S512, .i32⟩ : BufTy).Contents (Elt F)),
    binary main_v15 main_v22 main_v23 (addi : (⟨S512, .i32⟩ : BufTy).Contents (Elt F) → (⟨S512, .i32⟩ : BufTy).Contents (Elt F) → (⟨S512, .i32⟩ : BufTy).Contents (Elt F)),
    ternary main_v21 main_v23 main_v15 main_v24 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    nullary main_c_3 (constantI S_ 32 0#32),
    unary main_c_3 main_v25 (broadcastInDim S512 ![] bcast_S_S512 : (⟨S_, .i32⟩ : BufTy).Contents (Elt F) → (⟨S512, .i32⟩ : BufTy).Contents (Elt F)),
    binary main_v15 main_v25 main_v26 (cmpi .slt : (⟨S512, .i32⟩ : BufTy).Contents (Elt F) → (⟨S512, .i32⟩ : BufTy).Contents (Elt F) → (⟨S512, .i1⟩ : BufTy).Contents (Elt F)),
    nullary main_c_4 (constantI S_ 32 512#32),
    unary main_c_4 main_v27 (broadcastInDim S512 ![] bcast_S_S512 : (⟨S_, .i32⟩ : BufTy).Contents (Elt F) → (⟨S512, .i32⟩ : BufTy).Contents (Elt F)),
    binary main_v15 main_v27 main_v28 (addi : (⟨S512, .i32⟩ : BufTy).Contents (Elt F) → (⟨S512, .i32⟩ : BufTy).Contents (Elt F) → (⟨S512, .i32⟩ : BufTy).Contents (Elt F)),
    ternary main_v26 main_v28 main_v15 main_v29 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v24 main_v30 (broadcastInDim S512x1 ![0] bcast_S512_S512x1_0 : (⟨S512, .i32⟩ : BufTy).Contents (Elt F) → (⟨S512x1, .i32⟩ : BufTy).Contents (Elt F)),
    unary main_v29 main_v31 (broadcastInDim S512x1 ![0] bcast_S512_S512x1_0 : (⟨S512, .i32⟩ : BufTy).Contents (Elt F) → (⟨S512x1, .i32⟩ : BufTy).Contents (Elt F)),
    binary main_v30 main_v31 main_v32 ((fun a b => concatenate S512x2 1 [⟨S512x1, a⟩, ⟨S512x1, b⟩] concatenates_S512x1_S512x1_S512x2_d1) : (⟨S512x1, .i32⟩ : BufTy).Contents (Elt F) → (⟨S512x1, .i32⟩ : BufTy).Contents (Elt F) → (⟨S512x2, .i32⟩ : BufTy).Contents (Elt F)),
    binary main_v19 main_v32 main_v33 ((fun x i => Host.gather gather_S512x512_S512x2_S512_n_01_n_n_01_1_11 x i) : (⟨S512x512, .f32⟩ : BufTy).Contents (Elt F) → (⟨S512x2, .i32⟩ : BufTy).Contents (Elt F) → (⟨S512, .f32⟩ : BufTy).Contents (Elt F)),
    unary main_v33 main_v34 (Host.negf : (⟨S512, .f32⟩ : BufTy).Contents (Elt F) → (⟨S512, .f32⟩ : BufTy).Contents (Elt F)),
    nullary main_cst_5 (constant S_ .f32 0x00000000#32),
    TRef.unary (TRef.of (T := ⟨S_, .f32⟩) main_cst_5) (TRef.of (T := ⟨S_, .f32⟩) main_call1_v0) id,
    TRef.unary (TRef.of (T := ⟨S_, .f32⟩) main_call1_v0) (TRef.of (T := ⟨S512, .f32⟩) main_call1_v1) (broadcastInDim S512 ![] bcast_S_S512),
    TRef.ternary (TRef.of (T := ⟨S512, .i1⟩) main_v18) (TRef.of (T := ⟨S512, .f32⟩) main_v34) (TRef.of (T := ⟨S512, .f32⟩) main_call1_v1) (TRef.of (T := ⟨S512, .f32⟩) main_v35) select,
    TRef.nullary (TRef.of (T := ⟨S_, .f32⟩) main_call2_cst) (constant S_ .f32 0xFF800000#32),
    TRef.binary (TRef.of (T := ⟨S512x512, .f32⟩) main_v14) (TRef.of (T := ⟨S_, .f32⟩) main_call2_cst) (TRef.of (T := ⟨S512, .f32⟩) main_call2_v0) (fun x v => Host.reduce FloatOps.maximumf x v reducesTo_S512x512_S512_d0 h_S_),
    TRef.nullary (TRef.of (T := ⟨S_, .f32⟩) main_call2_cst_0) (constant S_ .f32 0xFF800000#32),
    TRef.unary (TRef.of (T := ⟨S_, .f32⟩) main_call2_cst_0) (TRef.of (T := ⟨S512, .f32⟩) main_call2_v1) (broadcastInDim S512 ![] bcast_S_S512),
    TRef.binary (TRef.of (T := ⟨S512, .f32⟩) main_call2_v1) (TRef.of (T := ⟨S512, .f32⟩) main_call2_v0) (TRef.of (T := ⟨S512, .f32⟩) main_call2_v2) maximumf,
    TRef.unary (TRef.of (T := ⟨S512, .f32⟩) main_call2_v2) (TRef.of (T := ⟨S1x512, .f32⟩) main_call2_v3) (broadcastInDim S1x512 ![1] bcast_S512_S1x512_1),
    TRef.unary (TRef.of (T := ⟨S1x512, .f32⟩) main_call2_v3) (TRef.of (T := ⟨S512x512, .f32⟩) main_call2_v4) (broadcastInDim S512x512 ![0, 1] bcast_S1x512_S512x512_0_1),
    TRef.binary (TRef.of (T := ⟨S512x512, .f32⟩) main_v14) (TRef.of (T := ⟨S512x512, .f32⟩) main_call2_v4) (TRef.of (T := ⟨S512x512, .f32⟩) main_call2_v5) subf,
    TRef.unary (TRef.of (T := ⟨S512x512, .f32⟩) main_call2_v5) (TRef.of (T := ⟨S512x512, .f32⟩) main_call2_v6) Host.exp,
    TRef.nullary (TRef.of (T := ⟨S_, .f32⟩) main_call2_cst_1) (constant S_ .f32 0x00000000#32),
    TRef.binary (TRef.of (T := ⟨S512x512, .f32⟩) main_call2_v6) (TRef.of (T := ⟨S_, .f32⟩) main_call2_cst_1) (TRef.of (T := ⟨S512, .f32⟩) main_call2_v7) (fun x v => Host.reduceAdd x v reducesTo_S512x512_S512_d0 h_S_),
    TRef.unary (TRef.of (T := ⟨S512, .f32⟩) main_call2_v7) (TRef.of (T := ⟨S1x512, .f32⟩) main_call2_v8) (broadcastInDim S1x512 ![1] bcast_S512_S1x512_1),
    TRef.unary (TRef.of (T := ⟨S1x512, .f32⟩) main_call2_v8) (TRef.of (T := ⟨S1x512, .f32⟩) main_call2_v9) Host.log,
    TRef.unary (TRef.of (T := ⟨S1x512, .f32⟩) main_call2_v9) (TRef.of (T := ⟨S512x512, .f32⟩) main_call2_v10) (broadcastInDim S512x512 ![0, 1] bcast_S1x512_S512x512_0_1),
    TRef.binary (TRef.of (T := ⟨S512x512, .f32⟩) main_call2_v5) (TRef.of (T := ⟨S512x512, .f32⟩) main_call2_v10) (TRef.of (T := ⟨S512x512, .f32⟩) main_v36) subf,
    nullary main_c_6 (constantI S_ 32 0#32),
    unary main_c_6 main_v37 (broadcastInDim S512 ![] bcast_S_S512 : (⟨S_, .i32⟩ : BufTy).Contents (Elt F) → (⟨S512, .i32⟩ : BufTy).Contents (Elt F)),
    binary main_v15 main_v37 main_v38 (cmpi .slt : (⟨S512, .i32⟩ : BufTy).Contents (Elt F) → (⟨S512, .i32⟩ : BufTy).Contents (Elt F) → (⟨S512, .i1⟩ : BufTy).Contents (Elt F)),
    nullary main_c_7 (constantI S_ 32 512#32),
    unary main_c_7 main_v39 (broadcastInDim S512 ![] bcast_S_S512 : (⟨S_, .i32⟩ : BufTy).Contents (Elt F) → (⟨S512, .i32⟩ : BufTy).Contents (Elt F)),
    binary main_v15 main_v39 main_v40 (addi : (⟨S512, .i32⟩ : BufTy).Contents (Elt F) → (⟨S512, .i32⟩ : BufTy).Contents (Elt F) → (⟨S512, .i32⟩ : BufTy).Contents (Elt F)),
    ternary main_v38 main_v40 main_v15 main_v41 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    nullary main_c_8 (constantI S_ 32 0#32),
    unary main_c_8 main_v42 (broadcastInDim S512 ![] bcast_S_S512 : (⟨S_, .i32⟩ : BufTy).Contents (Elt F) → (⟨S512, .i32⟩ : BufTy).Contents (Elt F)),
    binary main_v15 main_v42 main_v43 (cmpi .slt : (⟨S512, .i32⟩ : BufTy).Contents (Elt F) → (⟨S512, .i32⟩ : BufTy).Contents (Elt F) → (⟨S512, .i1⟩ : BufTy).Contents (Elt F)),
    nullary main_c_9 (constantI S_ 32 512#32),
    unary main_c_9 main_v44 (broadcastInDim S512 ![] bcast_S_S512 : (⟨S_, .i32⟩ : BufTy).Contents (Elt F) → (⟨S512, .i32⟩ : BufTy).Contents (Elt F)),
    binary main_v15 main_v44 main_v45 (addi : (⟨S512, .i32⟩ : BufTy).Contents (Elt F) → (⟨S512, .i32⟩ : BufTy).Contents (Elt F) → (⟨S512, .i32⟩ : BufTy).Contents (Elt F)),
    ternary main_v43 main_v45 main_v15 main_v46 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v41 main_v47 (broadcastInDim S512x1 ![0] bcast_S512_S512x1_0 : (⟨S512, .i32⟩ : BufTy).Contents (Elt F) → (⟨S512x1, .i32⟩ : BufTy).Contents (Elt F)),
    unary main_v46 main_v48 (broadcastInDim S512x1 ![0] bcast_S512_S512x1_0 : (⟨S512, .i32⟩ : BufTy).Contents (Elt F) → (⟨S512x1, .i32⟩ : BufTy).Contents (Elt F)),
    binary main_v47 main_v48 main_v49 ((fun a b => concatenate S512x2 1 [⟨S512x1, a⟩, ⟨S512x1, b⟩] concatenates_S512x1_S512x1_S512x2_d1) : (⟨S512x1, .i32⟩ : BufTy).Contents (Elt F) → (⟨S512x1, .i32⟩ : BufTy).Contents (Elt F) → (⟨S512x2, .i32⟩ : BufTy).Contents (Elt F)),
    binary main_v36 main_v49 main_v50 ((fun x i => Host.gather gather_S512x512_S512x2_S512_n_01_n_n_01_1_11 x i) : (⟨S512x512, .f32⟩ : BufTy).Contents (Elt F) → (⟨S512x2, .i32⟩ : BufTy).Contents (Elt F) → (⟨S512, .f32⟩ : BufTy).Contents (Elt F)),
    unary main_v50 main_v51 (Host.negf : (⟨S512, .f32⟩ : BufTy).Contents (Elt F) → (⟨S512, .f32⟩ : BufTy).Contents (Elt F)),
    nullary main_cst_10 (constant S_ .f32 0x00000000#32),
    TRef.unary (TRef.of (T := ⟨S_, .f32⟩) main_cst_10) (TRef.of (T := ⟨S_, .f32⟩) main_call3_v0) id,
    TRef.unary (TRef.of (T := ⟨S_, .f32⟩) main_call3_v0) (TRef.of (T := ⟨S512, .f32⟩) main_call3_v1) (broadcastInDim S512 ![] bcast_S_S512),
    TRef.ternary (TRef.of (T := ⟨S512, .i1⟩) main_v18) (TRef.of (T := ⟨S512, .f32⟩) main_v51) (TRef.of (T := ⟨S512, .f32⟩) main_call3_v1) (TRef.of (T := ⟨S512, .f32⟩) main_v52) select,
    nullary main_cst_11 (constant S_ .f32 0x00000000#32),
    unary main_cst_11 main_v53 (broadcastInDim S512 ![] bcast_S_S512 : (⟨S_, .f32⟩ : BufTy).Contents (Elt F) → (⟨S512, .f32⟩ : BufTy).Contents (Elt F)),
    binary main_v35 main_v53 main_v54 (cmpf .ogt : (⟨S512, .f32⟩ : BufTy).Contents (Elt F) → (⟨S512, .f32⟩ : BufTy).Contents (Elt F) → (⟨S512, .i1⟩ : BufTy).Contents (Elt F)),
    unary main_v54 main_v55 ((extui 32 · natLt_1_32) : (⟨S512, .i1⟩ : BufTy).Contents (Elt F) → (⟨S512, .i32⟩ : BufTy).Contents (Elt F)),
    nullary main_c_12 (constantI S_ 32 0#32),
    binary main_v55 main_c_12 main_v56 ((fun x v => Host.reduce IntOp.addi x v reducesTo_S512_S_d0 h_S_) : (⟨S512, .i32⟩ : BufTy).Contents (Elt F) → (⟨S_, .i32⟩ : BufTy).Contents (Elt F) → (⟨S_, .i32⟩ : BufTy).Contents (Elt F)),
    nullary main_c_13 (constantI S_ 32 0#32),
    binary main_v56 main_c_13 main_v57 (cmpi .sgt : (⟨S_, .i32⟩ : BufTy).Contents (Elt F) → (⟨S_, .i32⟩ : BufTy).Contents (Elt F) → (⟨S_, .i1⟩ : BufTy).Contents (Elt F)),
    nullary main_cst_14 (constant S_ .f32 0x00000000#32),
    TRef.unary (TRef.of (T := ⟨S_, .f32⟩) main_cst_14) (TRef.of (T := ⟨S_, .f32⟩) main_call4_v0) id,
    TRef.unary (TRef.of (T := ⟨S_, .f32⟩) main_call4_v0) (TRef.of (T := ⟨S512, .f32⟩) main_call4_v1) (broadcastInDim S512 ![] bcast_S_S512),
    TRef.ternary (TRef.of (T := ⟨S512, .i1⟩) main_v54) (TRef.of (T := ⟨S512, .f32⟩) main_v35) (TRef.of (T := ⟨S512, .f32⟩) main_call4_v1) (TRef.of (T := ⟨S512, .f32⟩) main_v58) select,
    nullary main_cst_15 (constant S_ .f32 0x00000000#32),
    binary main_v58 main_cst_15 main_v59 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    nullary main_c_16 (constantI S_ 32 1#32),
    binary main_v56 main_c_16 main_v60 (maxsi : (⟨S_, .i32⟩ : BufTy).Contents (Elt F) → (⟨S_, .i32⟩ : BufTy).Contents (Elt F) → (⟨S_, .i32⟩ : BufTy).Contents (Elt F)),
    unary main_v60 main_v61 (sitofp .f32 : (⟨S_, .i32⟩ : BufTy).Contents (Elt F) → (⟨S_, .f32⟩ : BufTy).Contents (Elt F)),
    binary main_v59 main_v61 main_v62 (Host.divf : (⟨S_, .f32⟩ : BufTy).Contents (Elt F) → (⟨S_, .f32⟩ : BufTy).Contents (Elt F) → (⟨S_, .f32⟩ : BufTy).Contents (Elt F)),
    nullary main_cst_17 (constant S_ .f32 0x00000000#32),
    TRef.unary (TRef.of (T := ⟨S_, .f32⟩) main_cst_17) (TRef.of (T := ⟨S_, .f32⟩) main_call5_v0) id,
    TRef.ternary (TRef.of (T := ⟨S_, .i1⟩) main_v57) (TRef.of (T := ⟨S_, .f32⟩) main_v62) (TRef.of (T := ⟨S_, .f32⟩) main_call5_v0) (TRef.of (T := ⟨S_, .f32⟩) main_v63) select,
    nullary main_cst_18 (constant S_ .f32 0x00000000#32),
    unary main_cst_18 main_v64 (broadcastInDim S512 ![] bcast_S_S512 : (⟨S_, .f32⟩ : BufTy).Contents (Elt F) → (⟨S512, .f32⟩ : BufTy).Contents (Elt F)),
    binary main_v52 main_v64 main_v65 (cmpf .ogt : (⟨S512, .f32⟩ : BufTy).Contents (Elt F) → (⟨S512, .f32⟩ : BufTy).Contents (Elt F) → (⟨S512, .i1⟩ : BufTy).Contents (Elt F)),
    unary main_v65 main_v66 ((extui 32 · natLt_1_32) : (⟨S512, .i1⟩ : BufTy).Contents (Elt F) → (⟨S512, .i32⟩ : BufTy).Contents (Elt F)),
    nullary main_c_19 (constantI S_ 32 0#32),
    binary main_v66 main_c_19 main_v67 ((fun x v => Host.reduce IntOp.addi x v reducesTo_S512_S_d0 h_S_) : (⟨S512, .i32⟩ : BufTy).Contents (Elt F) → (⟨S_, .i32⟩ : BufTy).Contents (Elt F) → (⟨S_, .i32⟩ : BufTy).Contents (Elt F)),
    nullary main_c_20 (constantI S_ 32 0#32),
    binary main_v67 main_c_20 main_v68 (cmpi .sgt : (⟨S_, .i32⟩ : BufTy).Contents (Elt F) → (⟨S_, .i32⟩ : BufTy).Contents (Elt F) → (⟨S_, .i1⟩ : BufTy).Contents (Elt F)),
    nullary main_cst_21 (constant S_ .f32 0x00000000#32),
    TRef.unary (TRef.of (T := ⟨S_, .f32⟩) main_cst_21) (TRef.of (T := ⟨S_, .f32⟩) main_call6_v0) id,
    TRef.unary (TRef.of (T := ⟨S_, .f32⟩) main_call6_v0) (TRef.of (T := ⟨S512, .f32⟩) main_call6_v1) (broadcastInDim S512 ![] bcast_S_S512),
    TRef.ternary (TRef.of (T := ⟨S512, .i1⟩) main_v65) (TRef.of (T := ⟨S512, .f32⟩) main_v52) (TRef.of (T := ⟨S512, .f32⟩) main_call6_v1) (TRef.of (T := ⟨S512, .f32⟩) main_v69) select,
    nullary main_cst_22 (constant S_ .f32 0x00000000#32),
    binary main_v69 main_cst_22 main_v70 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    nullary main_c_23 (constantI S_ 32 1#32),
    binary main_v67 main_c_23 main_v71 (maxsi : (⟨S_, .i32⟩ : BufTy).Contents (Elt F) → (⟨S_, .i32⟩ : BufTy).Contents (Elt F) → (⟨S_, .i32⟩ : BufTy).Contents (Elt F)),
    unary main_v71 main_v72 (sitofp .f32 : (⟨S_, .i32⟩ : BufTy).Contents (Elt F) → (⟨S_, .f32⟩ : BufTy).Contents (Elt F)),
    binary main_v70 main_v72 main_v73 (Host.divf : (⟨S_, .f32⟩ : BufTy).Contents (Elt F) → (⟨S_, .f32⟩ : BufTy).Contents (Elt F) → (⟨S_, .f32⟩ : BufTy).Contents (Elt F)),
    nullary main_cst_24 (constant S_ .f32 0x00000000#32),
    TRef.unary (TRef.of (T := ⟨S_, .f32⟩) main_cst_24) (TRef.of (T := ⟨S_, .f32⟩) main_call7_v0) id,
    TRef.ternary (TRef.of (T := ⟨S_, .i1⟩) main_v68) (TRef.of (T := ⟨S_, .f32⟩) main_v73) (TRef.of (T := ⟨S_, .f32⟩) main_call7_v0) (TRef.of (T := ⟨S_, .f32⟩) main_v74) select,
    binary main_v63 main_v74 main_v75 (addf : (⟨S_, .f32⟩ : BufTy).Contents (Elt F) → (⟨S_, .f32⟩ : BufTy).Contents (Elt F) → (⟨S_, .f32⟩ : BufTy).Contents (Elt F)),
    nullary main_cst_25 (constant S_ .f32 0x40000000#32),
    binary main_v75 main_cst_25 main_v76 (Host.divf : (⟨S_, .f32⟩ : BufTy).Contents (Elt F) → (⟨S_, .f32⟩ : BufTy).Contents (Elt F) → (⟨S_, .f32⟩ : BufTy).Contents (Elt F)) ]

/-- Operations 1 … 22. -/
abbrev ops1 : List (HloOp τ sig (Elt F)) :=
  [ reshape main_arg0 main_v0 rfl shapeCasts_S65536x768_S16x4096x768,
    binary main_arg3 main_v0 main_v1 ((fun l r => Host.dotGeneral dot_S16x32x4096_S16x4096x768_S16x32x768_2_1_1_2_0_0 none l r) : (⟨S16x32x4096, .f32⟩ : BufTy).Contents (Elt F) → (⟨S16x4096x768, .f32⟩ : BufTy).Contents (Elt F) → (⟨S16x32x768, .f32⟩ : BufTy).Contents (Elt F)),
    reshape main_v1 main_v2 rfl shapeCasts_S16x32x768_S512x768,
    nullary main_cst (constant S_ .f32 0x00000000#32),
    binary main_arg3 main_cst main_v3 ((fun x v => Host.reduceAdd x v reducesTo_S16x32x4096_S16x32_d2 h_S_) : (⟨S16x32x4096, .f32⟩ : BufTy).Contents (Elt F) → (⟨S_, .f32⟩ : BufTy).Contents (Elt F) → (⟨S16x32, .f32⟩ : BufTy).Contents (Elt F)),
    reshape main_v3 main_v4 rfl shapeCasts_S16x32_S512x1,
    nullary main_cst_0 (constant S_ .f32 0x2B8CBCCC#32),
    unary main_cst_0 main_v5 (broadcastInDim S512x1 ![] bcast_S_S512x1 : (⟨S_, .f32⟩ : BufTy).Contents (Elt F) → (⟨S512x1, .f32⟩ : BufTy).Contents (Elt F)),
    binary main_v4 main_v5 main_v6 (addf : (⟨S512x1, .f32⟩ : BufTy).Contents (Elt F) → (⟨S512x1, .f32⟩ : BufTy).Contents (Elt F) → (⟨S512x1, .f32⟩ : BufTy).Contents (Elt F)),
    unary main_v6 main_v7 (broadcastInDim S512x768 ![0, 1] bcast_S512x1_S512x768_0_1 : (⟨S512x1, .f32⟩ : BufTy).Contents (Elt F) → (⟨S512x768, .f32⟩ : BufTy).Contents (Elt F)),
    binary main_v2 main_v7 main_v8 (Host.divf : (⟨S512x768, .f32⟩ : BufTy).Contents (Elt F) → (⟨S512x768, .f32⟩ : BufTy).Contents (Elt F) → (⟨S512x768, .f32⟩ : BufTy).Contents (Elt F)),
    unary main_v8 main_v9 ((transpose S768x512 [1, 0] · transposes_S512x768_S768x512_1_0) : (⟨S512x768, .f32⟩ : BufTy).Contents (Elt F) → (⟨S768x512, .f32⟩ : BufTy).Contents (Elt F)),
    binary main_arg2 main_v9 main_v10 ((fun l r => Host.dotGeneral dot_S512x768_S768x512_S512x512_1_0_0_1_n_n none l r) : (⟨S512x768, .f32⟩ : BufTy).Contents (Elt F) → (⟨S768x512, .f32⟩ : BufTy).Contents (Elt F) → (⟨S512x512, .f32⟩ : BufTy).Contents (Elt F)),
    reshape main_arg4 main_v11 rfl shapeCasts_S1_S_,
    unary main_v11 main_v12 (Host.exp : (⟨S_, .f32⟩ : BufTy).Contents (Elt F) → (⟨S_, .f32⟩ : BufTy).Contents (Elt F)),
    unary main_v12 main_v13 (broadcastInDim S512x512 ![] bcast_S_S512x512 : (⟨S_, .f32⟩ : BufTy).Contents (Elt F) → (⟨S512x512, .f32⟩ : BufTy).Contents (Elt F)),
    binary main_v10 main_v13 main_v14 (mulf : (⟨S512x512, .f32⟩ : BufTy).Contents (Elt F) → (⟨S512x512, .f32⟩ : BufTy).Contents (Elt F) → (⟨S512x512, .f32⟩ : BufTy).Contents (Elt F)),
    nullary main_v15 (iotaInDim S512 32 0),
    reshape main_v4 main_v16 rfl shapeCasts_S512x1_S512,
    nullary main_cst_1 (constant S_ .f32 0x00000000#32),
    unary main_cst_1 main_v17 (broadcastInDim S512 ![] bcast_S_S512 : (⟨S_, .f32⟩ : BufTy).Contents (Elt F) → (⟨S512, .f32⟩ : BufTy).Contents (Elt F)),
    binary main_v16 main_v17 main_v18 (cmpf .ogt : (⟨S512, .f32⟩ : BufTy).Contents (Elt F) → (⟨S512, .f32⟩ : BufTy).Contents (Elt F) → (⟨S512, .i1⟩ : BufTy).Contents (Elt F)) ]

/-- Operations 23 … 37. -/
abbrev ops2 : List (HloOp τ sig (Elt F)) :=
  [ TRef.nullary (TRef.of (T := ⟨S_, .f32⟩) main_call0_cst) (constant S_ .f32 0xFF800000#32),
    TRef.binary (TRef.of (T := ⟨S512x512, .f32⟩) main_v14) (TRef.of (T := ⟨S_, .f32⟩) main_call0_cst) (TRef.of (T := ⟨S512, .f32⟩) main_call0_v0) (fun x v => Host.reduce FloatOps.maximumf x v reducesTo_S512x512_S512_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S512, .f32⟩) main_call0_v1) (broadcastInDim S512 ![] bcast_S_S512),
    TRef.binary (TRef.of (T := ⟨S512, .f32⟩) main_call0_v1) (TRef.of (T := ⟨S512, .f32⟩) main_call0_v0) (TRef.of (T := ⟨S512, .f32⟩) main_call0_v2) maximumf,
    TRef.unary (TRef.of (T := ⟨S512, .f32⟩) main_call0_v2) (TRef.of (T := ⟨S512x1, .f32⟩) main_call0_v3) (broadcastInDim S512x1 ![0] bcast_S512_S512x1_0),
    TRef.unary (TRef.of (T := ⟨S512x1, .f32⟩) main_call0_v3) (TRef.of (T := ⟨S512x512, .f32⟩) main_call0_v4) (broadcastInDim S512x512 ![0, 1] bcast_S512x1_S512x512_0_1),
    TRef.binary (TRef.of (T := ⟨S512x512, .f32⟩) main_v14) (TRef.of (T := ⟨S512x512, .f32⟩) main_call0_v4) (TRef.of (T := ⟨S512x512, .f32⟩) main_call0_v5) subf,
    TRef.unary (TRef.of (T := ⟨S512x512, .f32⟩) main_call0_v5) (TRef.of (T := ⟨S512x512, .f32⟩) main_call0_v6) Host.exp,
    TRef.nullary (TRef.of (T := ⟨S_, .f32⟩) main_call0_cst_1) (constant S_ .f32 0x00000000#32),
    TRef.binary (TRef.of (T := ⟨S512x512, .f32⟩) main_call0_v6) (TRef.of (T := ⟨S_, .f32⟩) main_call0_cst_1) (TRef.of (T := ⟨S512, .f32⟩) main_call0_v7) (fun x v => Host.reduceAdd x v reducesTo_S512x512_S512_d1 h_S_),
    TRef.unary (TRef.of (T := ⟨S512, .f32⟩) main_call0_v7) (TRef.of (T := ⟨S512x1, .f32⟩) main_call0_v8) (broadcastInDim S512x1 ![0] bcast_S512_S512x1_0),
    TRef.unary (TRef.of (T := ⟨S512x1, .f32⟩) main_call0_v8) (TRef.of (T := ⟨S512x1, .f32⟩) main_call0_v9) Host.log,
    TRef.unary (TRef.of (T := ⟨S512x1, .f32⟩) main_call0_v9) (TRef.of (T := ⟨S512x512, .f32⟩) main_call0_v10) (broadcastInDim S512x512 ![0, 1] bcast_S512x1_S512x512_0_1),
    TRef.binary (TRef.of (T := ⟨S512x512, .f32⟩) main_call0_v5) (TRef.of (T := ⟨S512x512, .f32⟩) main_call0_v10) (TRef.of (T := ⟨S512x512, .f32⟩) main_v19) subf ]

/-- Operations 38 … 53. -/
abbrev ops3 : List (HloOp τ sig (Elt F)) :=
  [ nullary main_c (constantI S_ 32 0#32),
    unary main_c main_v20 (broadcastInDim S512 ![] bcast_S_S512 : (⟨S_, .i32⟩ : BufTy).Contents (Elt F) → (⟨S512, .i32⟩ : BufTy).Contents (Elt F)),
    binary main_v15 main_v20 main_v21 (cmpi .slt : (⟨S512, .i32⟩ : BufTy).Contents (Elt F) → (⟨S512, .i32⟩ : BufTy).Contents (Elt F) → (⟨S512, .i1⟩ : BufTy).Contents (Elt F)),
    nullary main_c_2 (constantI S_ 32 512#32),
    unary main_c_2 main_v22 (broadcastInDim S512 ![] bcast_S_S512 : (⟨S_, .i32⟩ : BufTy).Contents (Elt F) → (⟨S512, .i32⟩ : BufTy).Contents (Elt F)),
    binary main_v15 main_v22 main_v23 (addi : (⟨S512, .i32⟩ : BufTy).Contents (Elt F) → (⟨S512, .i32⟩ : BufTy).Contents (Elt F) → (⟨S512, .i32⟩ : BufTy).Contents (Elt F)),
    ternary main_v21 main_v23 main_v15 main_v24 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    nullary main_c_3 (constantI S_ 32 0#32),
    unary main_c_3 main_v25 (broadcastInDim S512 ![] bcast_S_S512 : (⟨S_, .i32⟩ : BufTy).Contents (Elt F) → (⟨S512, .i32⟩ : BufTy).Contents (Elt F)),
    binary main_v15 main_v25 main_v26 (cmpi .slt : (⟨S512, .i32⟩ : BufTy).Contents (Elt F) → (⟨S512, .i32⟩ : BufTy).Contents (Elt F) → (⟨S512, .i1⟩ : BufTy).Contents (Elt F)),
    nullary main_c_4 (constantI S_ 32 512#32),
    unary main_c_4 main_v27 (broadcastInDim S512 ![] bcast_S_S512 : (⟨S_, .i32⟩ : BufTy).Contents (Elt F) → (⟨S512, .i32⟩ : BufTy).Contents (Elt F)),
    binary main_v15 main_v27 main_v28 (addi : (⟨S512, .i32⟩ : BufTy).Contents (Elt F) → (⟨S512, .i32⟩ : BufTy).Contents (Elt F) → (⟨S512, .i32⟩ : BufTy).Contents (Elt F)),
    ternary main_v26 main_v28 main_v15 main_v29 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v24 main_v30 (broadcastInDim S512x1 ![0] bcast_S512_S512x1_0 : (⟨S512, .i32⟩ : BufTy).Contents (Elt F) → (⟨S512x1, .i32⟩ : BufTy).Contents (Elt F)),
    unary main_v29 main_v31 (broadcastInDim S512x1 ![0] bcast_S512_S512x1_0 : (⟨S512, .i32⟩ : BufTy).Contents (Elt F) → (⟨S512x1, .i32⟩ : BufTy).Contents (Elt F)) ]

/-- Operations 54 … 60. -/
abbrev ops4 : List (HloOp τ sig (Elt F)) :=
  [ binary main_v30 main_v31 main_v32 ((fun a b => concatenate S512x2 1 [⟨S512x1, a⟩, ⟨S512x1, b⟩] concatenates_S512x1_S512x1_S512x2_d1) : (⟨S512x1, .i32⟩ : BufTy).Contents (Elt F) → (⟨S512x1, .i32⟩ : BufTy).Contents (Elt F) → (⟨S512x2, .i32⟩ : BufTy).Contents (Elt F)),
    binary main_v19 main_v32 main_v33 ((fun x i => Host.gather gather_S512x512_S512x2_S512_n_01_n_n_01_1_11 x i) : (⟨S512x512, .f32⟩ : BufTy).Contents (Elt F) → (⟨S512x2, .i32⟩ : BufTy).Contents (Elt F) → (⟨S512, .f32⟩ : BufTy).Contents (Elt F)),
    unary main_v33 main_v34 (Host.negf : (⟨S512, .f32⟩ : BufTy).Contents (Elt F) → (⟨S512, .f32⟩ : BufTy).Contents (Elt F)),
    nullary main_cst_5 (constant S_ .f32 0x00000000#32),
    TRef.unary (TRef.of (T := ⟨S_, .f32⟩) main_cst_5) (TRef.of (T := ⟨S_, .f32⟩) main_call1_v0) id,
    TRef.unary (TRef.of (T := ⟨S_, .f32⟩) main_call1_v0) (TRef.of (T := ⟨S512, .f32⟩) main_call1_v1) (broadcastInDim S512 ![] bcast_S_S512),
    TRef.ternary (TRef.of (T := ⟨S512, .i1⟩) main_v18) (TRef.of (T := ⟨S512, .f32⟩) main_v34) (TRef.of (T := ⟨S512, .f32⟩) main_call1_v1) (TRef.of (T := ⟨S512, .f32⟩) main_v35) select ]

/-- Operations 61 … 75. -/
abbrev ops5 : List (HloOp τ sig (Elt F)) :=
  [ TRef.nullary (TRef.of (T := ⟨S_, .f32⟩) main_call2_cst) (constant S_ .f32 0xFF800000#32),
    TRef.binary (TRef.of (T := ⟨S512x512, .f32⟩) main_v14) (TRef.of (T := ⟨S_, .f32⟩) main_call2_cst) (TRef.of (T := ⟨S512, .f32⟩) main_call2_v0) (fun x v => Host.reduce FloatOps.maximumf x v reducesTo_S512x512_S512_d0 h_S_),
    TRef.nullary (TRef.of (T := ⟨S_, .f32⟩) main_call2_cst_0) (constant S_ .f32 0xFF800000#32),
    TRef.unary (TRef.of (T := ⟨S_, .f32⟩) main_call2_cst_0) (TRef.of (T := ⟨S512, .f32⟩) main_call2_v1) (broadcastInDim S512 ![] bcast_S_S512),
    TRef.binary (TRef.of (T := ⟨S512, .f32⟩) main_call2_v1) (TRef.of (T := ⟨S512, .f32⟩) main_call2_v0) (TRef.of (T := ⟨S512, .f32⟩) main_call2_v2) maximumf,
    TRef.unary (TRef.of (T := ⟨S512, .f32⟩) main_call2_v2) (TRef.of (T := ⟨S1x512, .f32⟩) main_call2_v3) (broadcastInDim S1x512 ![1] bcast_S512_S1x512_1),
    TRef.unary (TRef.of (T := ⟨S1x512, .f32⟩) main_call2_v3) (TRef.of (T := ⟨S512x512, .f32⟩) main_call2_v4) (broadcastInDim S512x512 ![0, 1] bcast_S1x512_S512x512_0_1),
    TRef.binary (TRef.of (T := ⟨S512x512, .f32⟩) main_v14) (TRef.of (T := ⟨S512x512, .f32⟩) main_call2_v4) (TRef.of (T := ⟨S512x512, .f32⟩) main_call2_v5) subf,
    TRef.unary (TRef.of (T := ⟨S512x512, .f32⟩) main_call2_v5) (TRef.of (T := ⟨S512x512, .f32⟩) main_call2_v6) Host.exp,
    TRef.nullary (TRef.of (T := ⟨S_, .f32⟩) main_call2_cst_1) (constant S_ .f32 0x00000000#32),
    TRef.binary (TRef.of (T := ⟨S512x512, .f32⟩) main_call2_v6) (TRef.of (T := ⟨S_, .f32⟩) main_call2_cst_1) (TRef.of (T := ⟨S512, .f32⟩) main_call2_v7) (fun x v => Host.reduceAdd x v reducesTo_S512x512_S512_d0 h_S_),
    TRef.unary (TRef.of (T := ⟨S512, .f32⟩) main_call2_v7) (TRef.of (T := ⟨S1x512, .f32⟩) main_call2_v8) (broadcastInDim S1x512 ![1] bcast_S512_S1x512_1),
    TRef.unary (TRef.of (T := ⟨S1x512, .f32⟩) main_call2_v8) (TRef.of (T := ⟨S1x512, .f32⟩) main_call2_v9) Host.log,
    TRef.unary (TRef.of (T := ⟨S1x512, .f32⟩) main_call2_v9) (TRef.of (T := ⟨S512x512, .f32⟩) main_call2_v10) (broadcastInDim S512x512 ![0, 1] bcast_S1x512_S512x512_0_1),
    TRef.binary (TRef.of (T := ⟨S512x512, .f32⟩) main_call2_v5) (TRef.of (T := ⟨S512x512, .f32⟩) main_call2_v10) (TRef.of (T := ⟨S512x512, .f32⟩) main_v36) subf ]

/-- Operations 76 … 91. -/
abbrev ops6 : List (HloOp τ sig (Elt F)) :=
  [ nullary main_c_6 (constantI S_ 32 0#32),
    unary main_c_6 main_v37 (broadcastInDim S512 ![] bcast_S_S512 : (⟨S_, .i32⟩ : BufTy).Contents (Elt F) → (⟨S512, .i32⟩ : BufTy).Contents (Elt F)),
    binary main_v15 main_v37 main_v38 (cmpi .slt : (⟨S512, .i32⟩ : BufTy).Contents (Elt F) → (⟨S512, .i32⟩ : BufTy).Contents (Elt F) → (⟨S512, .i1⟩ : BufTy).Contents (Elt F)),
    nullary main_c_7 (constantI S_ 32 512#32),
    unary main_c_7 main_v39 (broadcastInDim S512 ![] bcast_S_S512 : (⟨S_, .i32⟩ : BufTy).Contents (Elt F) → (⟨S512, .i32⟩ : BufTy).Contents (Elt F)),
    binary main_v15 main_v39 main_v40 (addi : (⟨S512, .i32⟩ : BufTy).Contents (Elt F) → (⟨S512, .i32⟩ : BufTy).Contents (Elt F) → (⟨S512, .i32⟩ : BufTy).Contents (Elt F)),
    ternary main_v38 main_v40 main_v15 main_v41 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    nullary main_c_8 (constantI S_ 32 0#32),
    unary main_c_8 main_v42 (broadcastInDim S512 ![] bcast_S_S512 : (⟨S_, .i32⟩ : BufTy).Contents (Elt F) → (⟨S512, .i32⟩ : BufTy).Contents (Elt F)),
    binary main_v15 main_v42 main_v43 (cmpi .slt : (⟨S512, .i32⟩ : BufTy).Contents (Elt F) → (⟨S512, .i32⟩ : BufTy).Contents (Elt F) → (⟨S512, .i1⟩ : BufTy).Contents (Elt F)),
    nullary main_c_9 (constantI S_ 32 512#32),
    unary main_c_9 main_v44 (broadcastInDim S512 ![] bcast_S_S512 : (⟨S_, .i32⟩ : BufTy).Contents (Elt F) → (⟨S512, .i32⟩ : BufTy).Contents (Elt F)),
    binary main_v15 main_v44 main_v45 (addi : (⟨S512, .i32⟩ : BufTy).Contents (Elt F) → (⟨S512, .i32⟩ : BufTy).Contents (Elt F) → (⟨S512, .i32⟩ : BufTy).Contents (Elt F)),
    ternary main_v43 main_v45 main_v15 main_v46 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v41 main_v47 (broadcastInDim S512x1 ![0] bcast_S512_S512x1_0 : (⟨S512, .i32⟩ : BufTy).Contents (Elt F) → (⟨S512x1, .i32⟩ : BufTy).Contents (Elt F)),
    unary main_v46 main_v48 (broadcastInDim S512x1 ![0] bcast_S512_S512x1_0 : (⟨S512, .i32⟩ : BufTy).Contents (Elt F) → (⟨S512x1, .i32⟩ : BufTy).Contents (Elt F)) ]

/-- Operations 92 … 98. -/
abbrev ops7 : List (HloOp τ sig (Elt F)) :=
  [ binary main_v47 main_v48 main_v49 ((fun a b => concatenate S512x2 1 [⟨S512x1, a⟩, ⟨S512x1, b⟩] concatenates_S512x1_S512x1_S512x2_d1) : (⟨S512x1, .i32⟩ : BufTy).Contents (Elt F) → (⟨S512x1, .i32⟩ : BufTy).Contents (Elt F) → (⟨S512x2, .i32⟩ : BufTy).Contents (Elt F)),
    binary main_v36 main_v49 main_v50 ((fun x i => Host.gather gather_S512x512_S512x2_S512_n_01_n_n_01_1_11 x i) : (⟨S512x512, .f32⟩ : BufTy).Contents (Elt F) → (⟨S512x2, .i32⟩ : BufTy).Contents (Elt F) → (⟨S512, .f32⟩ : BufTy).Contents (Elt F)),
    unary main_v50 main_v51 (Host.negf : (⟨S512, .f32⟩ : BufTy).Contents (Elt F) → (⟨S512, .f32⟩ : BufTy).Contents (Elt F)),
    nullary main_cst_10 (constant S_ .f32 0x00000000#32),
    TRef.unary (TRef.of (T := ⟨S_, .f32⟩) main_cst_10) (TRef.of (T := ⟨S_, .f32⟩) main_call3_v0) id,
    TRef.unary (TRef.of (T := ⟨S_, .f32⟩) main_call3_v0) (TRef.of (T := ⟨S512, .f32⟩) main_call3_v1) (broadcastInDim S512 ![] bcast_S_S512),
    TRef.ternary (TRef.of (T := ⟨S512, .i1⟩) main_v18) (TRef.of (T := ⟨S512, .f32⟩) main_v51) (TRef.of (T := ⟨S512, .f32⟩) main_call3_v1) (TRef.of (T := ⟨S512, .f32⟩) main_v52) select ]

/-- Operations 99 … 119. -/
abbrev ops8 : List (HloOp τ sig (Elt F)) :=
  [ nullary main_cst_11 (constant S_ .f32 0x00000000#32),
    unary main_cst_11 main_v53 (broadcastInDim S512 ![] bcast_S_S512 : (⟨S_, .f32⟩ : BufTy).Contents (Elt F) → (⟨S512, .f32⟩ : BufTy).Contents (Elt F)),
    binary main_v35 main_v53 main_v54 (cmpf .ogt : (⟨S512, .f32⟩ : BufTy).Contents (Elt F) → (⟨S512, .f32⟩ : BufTy).Contents (Elt F) → (⟨S512, .i1⟩ : BufTy).Contents (Elt F)),
    unary main_v54 main_v55 ((extui 32 · natLt_1_32) : (⟨S512, .i1⟩ : BufTy).Contents (Elt F) → (⟨S512, .i32⟩ : BufTy).Contents (Elt F)),
    nullary main_c_12 (constantI S_ 32 0#32),
    binary main_v55 main_c_12 main_v56 ((fun x v => Host.reduce IntOp.addi x v reducesTo_S512_S_d0 h_S_) : (⟨S512, .i32⟩ : BufTy).Contents (Elt F) → (⟨S_, .i32⟩ : BufTy).Contents (Elt F) → (⟨S_, .i32⟩ : BufTy).Contents (Elt F)),
    nullary main_c_13 (constantI S_ 32 0#32),
    binary main_v56 main_c_13 main_v57 (cmpi .sgt : (⟨S_, .i32⟩ : BufTy).Contents (Elt F) → (⟨S_, .i32⟩ : BufTy).Contents (Elt F) → (⟨S_, .i1⟩ : BufTy).Contents (Elt F)),
    nullary main_cst_14 (constant S_ .f32 0x00000000#32),
    TRef.unary (TRef.of (T := ⟨S_, .f32⟩) main_cst_14) (TRef.of (T := ⟨S_, .f32⟩) main_call4_v0) id,
    TRef.unary (TRef.of (T := ⟨S_, .f32⟩) main_call4_v0) (TRef.of (T := ⟨S512, .f32⟩) main_call4_v1) (broadcastInDim S512 ![] bcast_S_S512),
    TRef.ternary (TRef.of (T := ⟨S512, .i1⟩) main_v54) (TRef.of (T := ⟨S512, .f32⟩) main_v35) (TRef.of (T := ⟨S512, .f32⟩) main_call4_v1) (TRef.of (T := ⟨S512, .f32⟩) main_v58) select,
    nullary main_cst_15 (constant S_ .f32 0x00000000#32),
    binary main_v58 main_cst_15 main_v59 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    nullary main_c_16 (constantI S_ 32 1#32),
    binary main_v56 main_c_16 main_v60 (maxsi : (⟨S_, .i32⟩ : BufTy).Contents (Elt F) → (⟨S_, .i32⟩ : BufTy).Contents (Elt F) → (⟨S_, .i32⟩ : BufTy).Contents (Elt F)),
    unary main_v60 main_v61 (sitofp .f32 : (⟨S_, .i32⟩ : BufTy).Contents (Elt F) → (⟨S_, .f32⟩ : BufTy).Contents (Elt F)),
    binary main_v59 main_v61 main_v62 (Host.divf : (⟨S_, .f32⟩ : BufTy).Contents (Elt F) → (⟨S_, .f32⟩ : BufTy).Contents (Elt F) → (⟨S_, .f32⟩ : BufTy).Contents (Elt F)),
    nullary main_cst_17 (constant S_ .f32 0x00000000#32),
    TRef.unary (TRef.of (T := ⟨S_, .f32⟩) main_cst_17) (TRef.of (T := ⟨S_, .f32⟩) main_call5_v0) id,
    TRef.ternary (TRef.of (T := ⟨S_, .i1⟩) main_v57) (TRef.of (T := ⟨S_, .f32⟩) main_v62) (TRef.of (T := ⟨S_, .f32⟩) main_call5_v0) (TRef.of (T := ⟨S_, .f32⟩) main_v63) select ]

/-- Operations 120 … 143. -/
abbrev ops9 : List (HloOp τ sig (Elt F)) :=
  [ nullary main_cst_18 (constant S_ .f32 0x00000000#32),
    unary main_cst_18 main_v64 (broadcastInDim S512 ![] bcast_S_S512 : (⟨S_, .f32⟩ : BufTy).Contents (Elt F) → (⟨S512, .f32⟩ : BufTy).Contents (Elt F)),
    binary main_v52 main_v64 main_v65 (cmpf .ogt : (⟨S512, .f32⟩ : BufTy).Contents (Elt F) → (⟨S512, .f32⟩ : BufTy).Contents (Elt F) → (⟨S512, .i1⟩ : BufTy).Contents (Elt F)),
    unary main_v65 main_v66 ((extui 32 · natLt_1_32) : (⟨S512, .i1⟩ : BufTy).Contents (Elt F) → (⟨S512, .i32⟩ : BufTy).Contents (Elt F)),
    nullary main_c_19 (constantI S_ 32 0#32),
    binary main_v66 main_c_19 main_v67 ((fun x v => Host.reduce IntOp.addi x v reducesTo_S512_S_d0 h_S_) : (⟨S512, .i32⟩ : BufTy).Contents (Elt F) → (⟨S_, .i32⟩ : BufTy).Contents (Elt F) → (⟨S_, .i32⟩ : BufTy).Contents (Elt F)),
    nullary main_c_20 (constantI S_ 32 0#32),
    binary main_v67 main_c_20 main_v68 (cmpi .sgt : (⟨S_, .i32⟩ : BufTy).Contents (Elt F) → (⟨S_, .i32⟩ : BufTy).Contents (Elt F) → (⟨S_, .i1⟩ : BufTy).Contents (Elt F)),
    nullary main_cst_21 (constant S_ .f32 0x00000000#32),
    TRef.unary (TRef.of (T := ⟨S_, .f32⟩) main_cst_21) (TRef.of (T := ⟨S_, .f32⟩) main_call6_v0) id,
    TRef.unary (TRef.of (T := ⟨S_, .f32⟩) main_call6_v0) (TRef.of (T := ⟨S512, .f32⟩) main_call6_v1) (broadcastInDim S512 ![] bcast_S_S512),
    TRef.ternary (TRef.of (T := ⟨S512, .i1⟩) main_v65) (TRef.of (T := ⟨S512, .f32⟩) main_v52) (TRef.of (T := ⟨S512, .f32⟩) main_call6_v1) (TRef.of (T := ⟨S512, .f32⟩) main_v69) select,
    nullary main_cst_22 (constant S_ .f32 0x00000000#32),
    binary main_v69 main_cst_22 main_v70 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    nullary main_c_23 (constantI S_ 32 1#32),
    binary main_v67 main_c_23 main_v71 (maxsi : (⟨S_, .i32⟩ : BufTy).Contents (Elt F) → (⟨S_, .i32⟩ : BufTy).Contents (Elt F) → (⟨S_, .i32⟩ : BufTy).Contents (Elt F)),
    unary main_v71 main_v72 (sitofp .f32 : (⟨S_, .i32⟩ : BufTy).Contents (Elt F) → (⟨S_, .f32⟩ : BufTy).Contents (Elt F)),
    binary main_v70 main_v72 main_v73 (Host.divf : (⟨S_, .f32⟩ : BufTy).Contents (Elt F) → (⟨S_, .f32⟩ : BufTy).Contents (Elt F) → (⟨S_, .f32⟩ : BufTy).Contents (Elt F)),
    nullary main_cst_24 (constant S_ .f32 0x00000000#32),
    TRef.unary (TRef.of (T := ⟨S_, .f32⟩) main_cst_24) (TRef.of (T := ⟨S_, .f32⟩) main_call7_v0) id,
    TRef.ternary (TRef.of (T := ⟨S_, .i1⟩) main_v68) (TRef.of (T := ⟨S_, .f32⟩) main_v73) (TRef.of (T := ⟨S_, .f32⟩) main_call7_v0) (TRef.of (T := ⟨S_, .f32⟩) main_v74) select,
    binary main_v63 main_v74 main_v75 (addf : (⟨S_, .f32⟩ : BufTy).Contents (Elt F) → (⟨S_, .f32⟩ : BufTy).Contents (Elt F) → (⟨S_, .f32⟩ : BufTy).Contents (Elt F)),
    nullary main_cst_25 (constant S_ .f32 0x40000000#32),
    binary main_v75 main_cst_25 main_v76 (Host.divf : (⟨S_, .f32⟩ : BufTy).Contents (Elt F) → (⟨S_, .f32⟩ : BufTy).Contents (Elt F) → (⟨S_, .f32⟩ : BufTy).Contents (Elt F)) ]

theorem ops_split : (ops : List (HloOp τ sig (Elt F))) = ops1 ++ (ops2 ++ (ops3 ++ (ops4 ++ (ops5 ++ (ops6 ++ (ops7 ++ (ops8 ++ (ops9)))))))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., binary_bufs_sub .., reshape_bufs_sub .., nullary_bufs_sub .., binary_bufs_sub .., reshape_bufs_sub .., nullary_bufs_sub .., unary_bufs_sub .., binary_bufs_sub .., unary_bufs_sub .., binary_bufs_sub .., unary_bufs_sub .., binary_bufs_sub .., reshape_bufs_sub .., unary_bufs_sub .., unary_bufs_sub .., binary_bufs_sub .., nullary_bufs_sub .., reshape_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., nullary_bufs_sub .., unary_bufs_sub .., unary_bufs_sub .., ternary_bufs_sub .., nullary_bufs_sub .., unary_bufs_sub .., binary_bufs_sub .., unary_bufs_sub .., nullary_bufs_sub .., binary_bufs_sub .., nullary_bufs_sub .., binary_bufs_sub .., nullary_bufs_sub .., unary_bufs_sub .., unary_bufs_sub .., ternary_bufs_sub .., nullary_bufs_sub .., binary_bufs_sub .., nullary_bufs_sub .., binary_bufs_sub .., unary_bufs_sub .., binary_bufs_sub .., nullary_bufs_sub .., unary_bufs_sub .., ternary_bufs_sub .., nullary_bufs_sub .., unary_bufs_sub .., binary_bufs_sub .., unary_bufs_sub .., nullary_bufs_sub .., binary_bufs_sub .., nullary_bufs_sub .., binary_bufs_sub .., nullary_bufs_sub .., unary_bufs_sub .., unary_bufs_sub .., ternary_bufs_sub .., nullary_bufs_sub .., binary_bufs_sub .., nullary_bufs_sub .., binary_bufs_sub .., unary_bufs_sub .., binary_bufs_sub .., nullary_bufs_sub .., unary_bufs_sub .., ternary_bufs_sub .., binary_bufs_sub .., nullary_bufs_sub .., binary_bufs_sub ..⟩

/-- The contents after two lines run in order. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ### The stretches -/

/-- The logits, the row indices and the validity bits, from the arguments. -/
theorem stage1 (V : Valuation τ sig (Elt F)) :
    after ops1 V (Proc.devRef (τ := τ) .tc main_v14) = val_main_v14 (F := F) (V (Proc.devRef (τ := τ) .tc main_arg0)) (V (Proc.devRef (τ := τ) .tc main_arg2)) (V (Proc.devRef (τ := τ) .tc main_arg3)) (V (Proc.devRef (τ := τ) .tc main_arg4))
      ∧ after ops1 V (Proc.devRef (τ := τ) .tc main_v15) = val_main_v15 (F := F)
      ∧ after ops1 V (Proc.devRef (τ := τ) .tc main_v18) = val_main_v18 (F := F) (V (Proc.devRef (τ := τ) .tc main_arg3)) := by
  refine ⟨?_, ?_, ?_⟩
  · after_results_simp <;> rfl
  · after_results_simp <;> rfl
  · after_results_simp <;> rfl

variable {x0 : (⟨S65536x768, .f32⟩ : BufTy).Contents (Elt F)} {x2 : (⟨S512x768, .f32⟩ : BufTy).Contents (Elt F)}
  {x3 : (⟨S16x32x4096, .f32⟩ : BufTy).Contents (Elt F)} {x4 : (⟨S1, .f32⟩ : BufTy).Contents (Elt F)}

set_option maxHeartbeats 4000000 in
/-- The log-softmax along rows. -/
theorem stage2 (W : Valuation τ sig (Elt F))
    (h14 : W (Proc.devRef (τ := τ) .tc main_v14) = val_main_v14 (F := F) x0 x2 x3 x4)
    (h15 : W (Proc.devRef (τ := τ) .tc main_v15) = val_main_v15 (F := F))
    (h18 : W (Proc.devRef (τ := τ) .tc main_v18) = val_main_v18 (F := F) x3) :
    after ops2 W (Proc.devRef (τ := τ) .tc main_v14) = val_main_v14 (F := F) x0 x2 x3 x4
      ∧ after ops2 W (Proc.devRef (τ := τ) .tc main_v15) = val_main_v15 (F := F)
      ∧ after ops2 W (Proc.devRef (τ := τ) .tc main_v18) = val_main_v18 (F := F) x3
      ∧ after ops2 W (Proc.devRef (τ := τ) .tc main_v19) = val_main_v19 (F := F) x0 x2 x3 x4 := by
  refine ⟨?_, ?_, ?_, ?_⟩
  · after_results_simp; exact h14
  · after_results_simp; exact h15
  · after_results_simp; exact h18
  · after_results_simp; rw [h14]; simp only [val_main_v19, val_main_call0_v10, val_main_call0_v9, val_main_call0_v8, val_main_call0_v7, val_main_call0_cst_1, val_main_call0_v6, val_main_call0_v5, val_main_call0_v4, val_main_call0_v3, val_main_call0_v2, val_main_call0_v1, val_main_call0_cst_0, val_main_call0_v0, val_main_call0_cst, TRef.toBuf, TRef.ofBuf, cast_eq]

set_option maxHeartbeats 4000000 in
/-- The row indices, wrapped, as the two columns of the diagonal's start indices. -/
theorem stage3 (W : Valuation τ sig (Elt F))
    (h14 : W (Proc.devRef (τ := τ) .tc main_v14) = val_main_v14 (F := F) x0 x2 x3 x4)
    (h15 : W (Proc.devRef (τ := τ) .tc main_v15) = val_main_v15 (F := F))
    (h18 : W (Proc.devRef (τ := τ) .tc main_v18) = val_main_v18 (F := F) x3)
    (h19 : W (Proc.devRef (τ := τ) .tc main_v19) = val_main_v19 (F := F) x0 x2 x3 x4) :
    after ops3 W (Proc.devRef (τ := τ) .tc main_v14) = val_main_v14 (F := F) x0 x2 x3 x4
      ∧ after ops3 W (Proc.devRef (τ := τ) .tc main_v15) = val_main_v15 (F := F)
      ∧ after ops3 W (Proc.devRef (τ := τ) .tc main_v18) = val_main_v18 (F := F) x3
      ∧ after ops3 W (Proc.devRef (τ := τ) .tc main_v19) = val_main_v19 (F := F) x0 x2 x3 x4
      ∧ after ops3 W (Proc.devRef (τ := τ) .tc main_v30) = val_main_v30 (F := F)
      ∧ after ops3 W (Proc.devRef (τ := τ) .tc main_v31) = val_main_v31 (F := F) := by
  refine ⟨?_, ?_, ?_, ?_, ?_, ?_⟩
  · after_results_simp; exact h14
  · after_results_simp; exact h15
  · after_results_simp; exact h18
  · after_results_simp; exact h19
  · after_results_simp; rw [h15]; simp only [val_main_v31, val_main_v30, val_main_v29, val_main_v28, val_main_v27, val_main_c_4, val_main_v26, val_main_v25, val_main_c_3, val_main_v24, val_main_v23, val_main_v22, val_main_c_2, val_main_v21, val_main_v20, val_main_c, TRef.toBuf, TRef.ofBuf, cast_eq]
  · after_results_simp; rw [h15]; simp only [val_main_v31, val_main_v30, val_main_v29, val_main_v28, val_main_v27, val_main_c_4, val_main_v26, val_main_v25, val_main_c_3, val_main_v24, val_main_v23, val_main_v22, val_main_c_2, val_main_v21, val_main_v20, val_main_c, TRef.toBuf, TRef.ofBuf, cast_eq]

set_option maxHeartbeats 4000000 in
/-- The diagonal of the row log-softmax, negated where the mask has points. -/
theorem stage4 (W : Valuation τ sig (Elt F))
    (h14 : W (Proc.devRef (τ := τ) .tc main_v14) = val_main_v14 (F := F) x0 x2 x3 x4)
    (h15 : W (Proc.devRef (τ := τ) .tc main_v15) = val_main_v15 (F := F))
    (h18 : W (Proc.devRef (τ := τ) .tc main_v18) = val_main_v18 (F := F) x3)
    (h19 : W (Proc.devRef (τ := τ) .tc main_v19) = val_main_v19 (F := F) x0 x2 x3 x4)
    (h30 : W (Proc.devRef (τ := τ) .tc main_v30) = val_main_v30 (F := F))
    (h31 : W (Proc.devRef (τ := τ) .tc main_v31) = val_main_v31 (F := F)) :
    after ops4 W (Proc.devRef (τ := τ) .tc main_v14) = val_main_v14 (F := F) x0 x2 x3 x4
      ∧ after ops4 W (Proc.devRef (τ := τ) .tc main_v15) = val_main_v15 (F := F)
      ∧ after ops4 W (Proc.devRef (τ := τ) .tc main_v18) = val_main_v18 (F := F) x3
      ∧ after ops4 W (Proc.devRef (τ := τ) .tc main_v35) = val_main_v35 (F := F) x0 x2 x3 x4 := by
  refine ⟨?_, ?_, ?_, ?_⟩
  · after_results_simp; exact h14
  · after_results_simp; exact h15
  · after_results_simp; exact h18
  · after_results_simp; rw [h18, h19, h30, h31]; simp only [val_main_v35, val_main_call1_v1, val_main_call1_v0, val_main_cst_5, val_main_v34, val_main_v33, val_main_v32, TRef.toBuf, TRef.ofBuf, cast_eq]

set_option maxHeartbeats 4000000 in
/-- The log-softmax along columns. -/
theorem stage5 (W : Valuation τ sig (Elt F))
    (h14 : W (Proc.devRef (τ := τ) .tc main_v14) = val_main_v14 (F := F) x0 x2 x3 x4)
    (h15 : W (Proc.devRef (τ := τ) .tc main_v15) = val_main_v15 (F := F))
    (h18 : W (Proc.devRef (τ := τ) .tc main_v18) = val_main_v18 (F := F) x3)
    (h35 : W (Proc.devRef (τ := τ) .tc main_v35) = val_main_v35 (F := F) x0 x2 x3 x4) :
    after ops5 W (Proc.devRef (τ := τ) .tc main_v15) = val_main_v15 (F := F)
      ∧ after ops5 W (Proc.devRef (τ := τ) .tc main_v18) = val_main_v18 (F := F) x3
      ∧ after ops5 W (Proc.devRef (τ := τ) .tc main_v35) = val_main_v35 (F := F) x0 x2 x3 x4
      ∧ after ops5 W (Proc.devRef (τ := τ) .tc main_v36) = val_main_v36 (F := F) x0 x2 x3 x4 := by
  refine ⟨?_, ?_, ?_, ?_⟩
  · after_results_simp; exact h15
  · after_results_simp; exact h18
  · after_results_simp; exact h35
  · after_results_simp; rw [h14]; simp only [val_main_v36, val_main_call2_v10, val_main_call2_v9, val_main_call2_v8, val_main_call2_v7, val_main_call2_cst_1, val_main_call2_v6, val_main_call2_v5, val_main_call2_v4, val_main_call2_v3, val_main_call2_v2, val_main_call2_v1, val_main_call2_cst_0, val_main_call2_v0, val_main_call2_cst, TRef.toBuf, TRef.ofBuf, cast_eq]

set_option maxHeartbeats 4000000 in
/-- The row indices again, for the column log-softmax's diagonal. -/
theorem stage6 (W : Valuation τ sig (Elt F))
    (h15 : W (Proc.devRef (τ := τ) .tc main_v15) = val_main_v15 (F := F))
    (h18 : W (Proc.devRef (τ := τ) .tc main_v18) = val_main_v18 (F := F) x3)
    (h35 : W (Proc.devRef (τ := τ) .tc main_v35) = val_main_v35 (F := F) x0 x2 x3 x4)
    (h36 : W (Proc.devRef (τ := τ) .tc main_v36) = val_main_v36 (F := F) x0 x2 x3 x4) :
    after ops6 W (Proc.devRef (τ := τ) .tc main_v18) = val_main_v18 (F := F) x3
      ∧ after ops6 W (Proc.devRef (τ := τ) .tc main_v35) = val_main_v35 (F := F) x0 x2 x3 x4
      ∧ after ops6 W (Proc.devRef (τ := τ) .tc main_v36) = val_main_v36 (F := F) x0 x2 x3 x4
      ∧ after ops6 W (Proc.devRef (τ := τ) .tc main_v47) = val_main_v47 (F := F)
      ∧ after ops6 W (Proc.devRef (τ := τ) .tc main_v48) = val_main_v48 (F := F) := by
  refine ⟨?_, ?_, ?_, ?_, ?_⟩
  · after_results_simp; exact h18
  · after_results_simp; exact h35
  · after_results_simp; exact h36
  · after_results_simp; rw [h15]; simp only [val_main_v48, val_main_v47, val_main_v46, val_main_v45, val_main_v44, val_main_c_9, val_main_v43, val_main_v42, val_main_c_8, val_main_v41, val_main_v40, val_main_v39, val_main_c_7, val_main_v38, val_main_v37, val_main_c_6, TRef.toBuf, TRef.ofBuf, cast_eq]
  · after_results_simp; rw [h15]; simp only [val_main_v48, val_main_v47, val_main_v46, val_main_v45, val_main_v44, val_main_c_9, val_main_v43, val_main_v42, val_main_c_8, val_main_v41, val_main_v40, val_main_v39, val_main_c_7, val_main_v38, val_main_v37, val_main_c_6, TRef.toBuf, TRef.ofBuf, cast_eq]

set_option maxHeartbeats 4000000 in
/-- The diagonal of the column log-softmax, negated where the mask has points. -/
theorem stage7 (W : Valuation τ sig (Elt F))
    (h18 : W (Proc.devRef (τ := τ) .tc main_v18) = val_main_v18 (F := F) x3)
    (h35 : W (Proc.devRef (τ := τ) .tc main_v35) = val_main_v35 (F := F) x0 x2 x3 x4)
    (h36 : W (Proc.devRef (τ := τ) .tc main_v36) = val_main_v36 (F := F) x0 x2 x3 x4)
    (h47 : W (Proc.devRef (τ := τ) .tc main_v47) = val_main_v47 (F := F))
    (h48 : W (Proc.devRef (τ := τ) .tc main_v48) = val_main_v48 (F := F)) :
    after ops7 W (Proc.devRef (τ := τ) .tc main_v35) = val_main_v35 (F := F) x0 x2 x3 x4
      ∧ after ops7 W (Proc.devRef (τ := τ) .tc main_v52) = val_main_v52 (F := F) x0 x2 x3 x4 := by
  refine ⟨?_, ?_⟩
  · after_results_simp; exact h35
  · after_results_simp; rw [h18, h36, h47, h48]; simp only [val_main_v52, val_main_call3_v1, val_main_call3_v0, val_main_cst_10, val_main_v51, val_main_v50, val_main_v49, TRef.toBuf, TRef.ofBuf, cast_eq]

set_option maxHeartbeats 4000000 in
/-- The mean of the positive row losses. -/
theorem stage8 (W : Valuation τ sig (Elt F))
    (h35 : W (Proc.devRef (τ := τ) .tc main_v35) = val_main_v35 (F := F) x0 x2 x3 x4)
    (h52 : W (Proc.devRef (τ := τ) .tc main_v52) = val_main_v52 (F := F) x0 x2 x3 x4) :
    after ops8 W (Proc.devRef (τ := τ) .tc main_v52) = val_main_v52 (F := F) x0 x2 x3 x4
      ∧ after ops8 W (Proc.devRef (τ := τ) .tc main_v63) = val_main_v63 (F := F) x0 x2 x3 x4 := by
  refine ⟨?_, ?_⟩
  · after_results_simp; exact h52
  · after_results_simp; rw [h35]; simp only [val_main_v63, val_main_call5_v0, val_main_cst_17, val_main_v62, val_main_v61, val_main_v60, val_main_c_16, val_main_v59, val_main_cst_15, val_main_v58, val_main_call4_v1, val_main_call4_v0, val_main_cst_14, val_main_v57, val_main_c_13, val_main_v56, val_main_c_12, val_main_v55, val_main_v54, val_main_v53, val_main_cst_11, TRef.toBuf, TRef.ofBuf, cast_eq]

set_option maxHeartbeats 4000000 in
/-- The mean of the positive column losses, and the half sum. -/
theorem stage9 (W : Valuation τ sig (Elt F))
    (h52 : W (Proc.devRef (τ := τ) .tc main_v52) = val_main_v52 (F := F) x0 x2 x3 x4)
    (h63 : W (Proc.devRef (τ := τ) .tc main_v63) = val_main_v63 (F := F) x0 x2 x3 x4) :
    after ops9 W (Proc.devRef (τ := τ) .tc main_v76) = val_main_v76 (F := F) x0 x2 x3 x4 := by
  after_results_simp; rw [h52, h63]; simp only [val_main_v76, val_main_cst_25, val_main_v75, val_main_v74, val_main_call7_v0, val_main_cst_24, val_main_v73, val_main_v72, val_main_v71, val_main_c_23, val_main_v70, val_main_cst_22, val_main_v69, val_main_call6_v1, val_main_call6_v0, val_main_cst_21, val_main_v68, val_main_c_20, val_main_v67, val_main_c_19, val_main_v66, val_main_v65, val_main_v64, val_main_cst_18, TRef.toBuf, TRef.ofBuf, cast_eq]

/-! ### The whole line -/

/-- The result buffer after all the operations is the last operation's value of the arguments. -/
theorem after_ops (V : Valuation τ sig (Elt F)) :
    after ops V (Proc.devRef (τ := τ) .tc main_v76)
      = val_main_v76 (F := F) (V (Proc.devRef (τ := τ) .tc main_arg0)) (V (Proc.devRef (τ := τ) .tc main_arg2)) (V (Proc.devRef (τ := τ) .tc main_arg3)) (V (Proc.devRef (τ := τ) .tc main_arg4)) := by
  rw [ops_split, after_app, after_app, after_app, after_app, after_app, after_app, after_app, after_app]
  obtain ⟨a14, a15, a18⟩ := stage1 V
  obtain ⟨b14, b15, b18, b19⟩ := stage2 _ a14 a15 a18
  obtain ⟨c14, c15, c18, c19, c30, c31⟩ := stage3 _ b14 b15 b18 b19
  obtain ⟨d14, d15, d18, d35⟩ := stage4 _ c14 c15 c18 c19 c30 c31
  obtain ⟨e15, e18, e35, e36⟩ := stage5 _ d14 d15 d18 d35
  obtain ⟨f18, f35, f36, f47, f48⟩ := stage6 _ e15 e18 e35 e36
  obtain ⟨g35, g52⟩ := stage7 _ f18 f35 f36 f47 f48
  obtain ⟨i52, i63⟩ := stage8 _ g35 g52
  exact stage9 _ i52 i63

/-! ### The arguments are not written -/

theorem args1 (W : Valuation τ sig (Elt F)) :
    after ops1 W (Proc.devRef (τ := τ) .tc main_arg0) = W (Proc.devRef (τ := τ) .tc main_arg0) ∧ after ops1 W (Proc.devRef (τ := τ) .tc main_arg1) = W (Proc.devRef (τ := τ) .tc main_arg1)
      ∧ after ops1 W (Proc.devRef (τ := τ) .tc main_arg2) = W (Proc.devRef (τ := τ) .tc main_arg2) ∧ after ops1 W (Proc.devRef (τ := τ) .tc main_arg3) = W (Proc.devRef (τ := τ) .tc main_arg3)
      ∧ after ops1 W (Proc.devRef (τ := τ) .tc main_arg4) = W (Proc.devRef (τ := τ) .tc main_arg4) := by
  refine ⟨?_, ?_, ?_, ?_, ?_⟩ <;> after_results_simp

theorem args2 (W : Valuation τ sig (Elt F)) :
    after ops2 W (Proc.devRef (τ := τ) .tc main_arg0) = W (Proc.devRef (τ := τ) .tc main_arg0) ∧ after ops2 W (Proc.devRef (τ := τ) .tc main_arg1) = W (Proc.devRef (τ := τ) .tc main_arg1)
      ∧ after ops2 W (Proc.devRef (τ := τ) .tc main_arg2) = W (Proc.devRef (τ := τ) .tc main_arg2) ∧ after ops2 W (Proc.devRef (τ := τ) .tc main_arg3) = W (Proc.devRef (τ := τ) .tc main_arg3)
      ∧ after ops2 W (Proc.devRef (τ := τ) .tc main_arg4) = W (Proc.devRef (τ := τ) .tc main_arg4) := by
  refine ⟨?_, ?_, ?_, ?_, ?_⟩ <;> after_results_simp

theorem args3 (W : Valuation τ sig (Elt F)) :
    after ops3 W (Proc.devRef (τ := τ) .tc main_arg0) = W (Proc.devRef (τ := τ) .tc main_arg0) ∧ after ops3 W (Proc.devRef (τ := τ) .tc main_arg1) = W (Proc.devRef (τ := τ) .tc main_arg1)
      ∧ after ops3 W (Proc.devRef (τ := τ) .tc main_arg2) = W (Proc.devRef (τ := τ) .tc main_arg2) ∧ after ops3 W (Proc.devRef (τ := τ) .tc main_arg3) = W (Proc.devRef (τ := τ) .tc main_arg3)
      ∧ after ops3 W (Proc.devRef (τ := τ) .tc main_arg4) = W (Proc.devRef (τ := τ) .tc main_arg4) := by
  refine ⟨?_, ?_, ?_, ?_, ?_⟩ <;> after_results_simp

theorem args4 (W : Valuation τ sig (Elt F)) :
    after ops4 W (Proc.devRef (τ := τ) .tc main_arg0) = W (Proc.devRef (τ := τ) .tc main_arg0) ∧ after ops4 W (Proc.devRef (τ := τ) .tc main_arg1) = W (Proc.devRef (τ := τ) .tc main_arg1)
      ∧ after ops4 W (Proc.devRef (τ := τ) .tc main_arg2) = W (Proc.devRef (τ := τ) .tc main_arg2) ∧ after ops4 W (Proc.devRef (τ := τ) .tc main_arg3) = W (Proc.devRef (τ := τ) .tc main_arg3)
      ∧ after ops4 W (Proc.devRef (τ := τ) .tc main_arg4) = W (Proc.devRef (τ := τ) .tc main_arg4) := by
  refine ⟨?_, ?_, ?_, ?_, ?_⟩ <;> after_results_simp

theorem args5 (W : Valuation τ sig (Elt F)) :
    after ops5 W (Proc.devRef (τ := τ) .tc main_arg0) = W (Proc.devRef (τ := τ) .tc main_arg0) ∧ after ops5 W (Proc.devRef (τ := τ) .tc main_arg1) = W (Proc.devRef (τ := τ) .tc main_arg1)
      ∧ after ops5 W (Proc.devRef (τ := τ) .tc main_arg2) = W (Proc.devRef (τ := τ) .tc main_arg2) ∧ after ops5 W (Proc.devRef (τ := τ) .tc main_arg3) = W (Proc.devRef (τ := τ) .tc main_arg3)
      ∧ after ops5 W (Proc.devRef (τ := τ) .tc main_arg4) = W (Proc.devRef (τ := τ) .tc main_arg4) := by
  refine ⟨?_, ?_, ?_, ?_, ?_⟩ <;> after_results_simp

theorem args6 (W : Valuation τ sig (Elt F)) :
    after ops6 W (Proc.devRef (τ := τ) .tc main_arg0) = W (Proc.devRef (τ := τ) .tc main_arg0) ∧ after ops6 W (Proc.devRef (τ := τ) .tc main_arg1) = W (Proc.devRef (τ := τ) .tc main_arg1)
      ∧ after ops6 W (Proc.devRef (τ := τ) .tc main_arg2) = W (Proc.devRef (τ := τ) .tc main_arg2) ∧ after ops6 W (Proc.devRef (τ := τ) .tc main_arg3) = W (Proc.devRef (τ := τ) .tc main_arg3)
      ∧ after ops6 W (Proc.devRef (τ := τ) .tc main_arg4) = W (Proc.devRef (τ := τ) .tc main_arg4) := by
  refine ⟨?_, ?_, ?_, ?_, ?_⟩ <;> after_results_simp

theorem args7 (W : Valuation τ sig (Elt F)) :
    after ops7 W (Proc.devRef (τ := τ) .tc main_arg0) = W (Proc.devRef (τ := τ) .tc main_arg0) ∧ after ops7 W (Proc.devRef (τ := τ) .tc main_arg1) = W (Proc.devRef (τ := τ) .tc main_arg1)
      ∧ after ops7 W (Proc.devRef (τ := τ) .tc main_arg2) = W (Proc.devRef (τ := τ) .tc main_arg2) ∧ after ops7 W (Proc.devRef (τ := τ) .tc main_arg3) = W (Proc.devRef (τ := τ) .tc main_arg3)
      ∧ after ops7 W (Proc.devRef (τ := τ) .tc main_arg4) = W (Proc.devRef (τ := τ) .tc main_arg4) := by
  refine ⟨?_, ?_, ?_, ?_, ?_⟩ <;> after_results_simp

theorem args8 (W : Valuation τ sig (Elt F)) :
    after ops8 W (Proc.devRef (τ := τ) .tc main_arg0) = W (Proc.devRef (τ := τ) .tc main_arg0) ∧ after ops8 W (Proc.devRef (τ := τ) .tc main_arg1) = W (Proc.devRef (τ := τ) .tc main_arg1)
      ∧ after ops8 W (Proc.devRef (τ := τ) .tc main_arg2) = W (Proc.devRef (τ := τ) .tc main_arg2) ∧ after ops8 W (Proc.devRef (τ := τ) .tc main_arg3) = W (Proc.devRef (τ := τ) .tc main_arg3)
      ∧ after ops8 W (Proc.devRef (τ := τ) .tc main_arg4) = W (Proc.devRef (τ := τ) .tc main_arg4) := by
  refine ⟨?_, ?_, ?_, ?_, ?_⟩ <;> after_results_simp

theorem args9 (W : Valuation τ sig (Elt F)) :
    after ops9 W (Proc.devRef (τ := τ) .tc main_arg0) = W (Proc.devRef (τ := τ) .tc main_arg0) ∧ after ops9 W (Proc.devRef (τ := τ) .tc main_arg1) = W (Proc.devRef (τ := τ) .tc main_arg1)
      ∧ after ops9 W (Proc.devRef (τ := τ) .tc main_arg2) = W (Proc.devRef (τ := τ) .tc main_arg2) ∧ after ops9 W (Proc.devRef (τ := τ) .tc main_arg3) = W (Proc.devRef (τ := τ) .tc main_arg3)
      ∧ after ops9 W (Proc.devRef (τ := τ) .tc main_arg4) = W (Proc.devRef (τ := τ) .tc main_arg4) := by
  refine ⟨?_, ?_, ?_, ?_, ?_⟩ <;> after_results_simp

/-- No operation writes an argument buffer. -/
theorem after_ops_args (V : Valuation τ sig (Elt F)) :
    after ops V (Proc.devRef (τ := τ) .tc main_arg0) = V (Proc.devRef (τ := τ) .tc main_arg0) ∧ after ops V (Proc.devRef (τ := τ) .tc main_arg1) = V (Proc.devRef (τ := τ) .tc main_arg1)
      ∧ after ops V (Proc.devRef (τ := τ) .tc main_arg2) = V (Proc.devRef (τ := τ) .tc main_arg2) ∧ after ops V (Proc.devRef (τ := τ) .tc main_arg3) = V (Proc.devRef (τ := τ) .tc main_arg3)
      ∧ after ops V (Proc.devRef (τ := τ) .tc main_arg4) = V (Proc.devRef (τ := τ) .tc main_arg4) := by
  rw [ops_split, after_app, after_app, after_app, after_app, after_app, after_app, after_app, after_app]
  refine ⟨?_, ?_, ?_, ?_, ?_⟩
  · rw [(args9 _).1, (args8 _).1, (args7 _).1, (args6 _).1, (args5 _).1, (args4 _).1, (args3 _).1, (args2 _).1, (args1 _).1]
  · rw [(args9 _).2.1, (args8 _).2.1, (args7 _).2.1, (args6 _).2.1, (args5 _).2.1, (args4 _).2.1, (args3 _).2.1, (args2 _).2.1, (args1 _).2.1]
  · rw [(args9 _).2.2.1, (args8 _).2.2.1, (args7 _).2.2.1, (args6 _).2.2.1, (args5 _).2.2.1, (args4 _).2.2.1, (args3 _).2.2.1, (args2 _).2.2.1, (args1 _).2.2.1]
  · rw [(args9 _).2.2.2.1, (args8 _).2.2.2.1, (args7 _).2.2.2.1, (args6 _).2.2.2.1, (args5 _).2.2.2.1, (args4 _).2.2.2.1, (args3 _).2.2.2.1, (args2 _).2.2.2.1, (args1 _).2.2.2.1]
  · rw [(args9 _).2.2.2.2, (args8 _).2.2.2.2, (args7 _).2.2.2.2, (args6 _).2.2.2.2, (args5 _).2.2.2.2, (args4 _).2.2.2.2, (args3 _).2.2.2.2, (args2 _).2.2.2.2, (args1 _).2.2.2.2]

set_option maxRecDepth 8192 in
/-- On every device, for any float values, from any memory with zero counters: every weakly fair execution of @main
    terminates with the result buffer at the last operation's value of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v76)
          = val_main_v76 (F := F) (m ((c.tc : Thread nD τ).loc main_arg0)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v76).trans (after_ops _),
      (h c main_arg0).trans (after_ops_args _).1,
      (h c main_arg1).trans (after_ops_args _).2.1,
      (h c main_arg2).trans (after_ops_args _).2.2.1,
      (h c main_arg3).trans (after_ops_args _).2.2.2.1,
      (h c main_arg4).trans (after_ops_args _).2.2.2.2⟩)
    (run_seq scopedRefs_eq scopedSems_eq defs main (fun _ => ops) main_eq (fun _ => ops_sub) m ρ)

end Cert.RefRun

end
-- ==== Proof.lean ====
/-
  The certificate's claims. Both kernels' frames come from one run of the program as five segments, stated at any
  float instance and read here at the word-level instance and at the ideal one. The ideal pass rewrote nothing, so
  `preserves` has no conjunct. For `algebraic`: the kernel's result is the contrastive loss, in the kernel's shape, of
  logits and point counts that are the specification's functions of the argument arrays; the reference's result is
  the same loss in the reference's shape of the same logits and counts; and the two shapes agree because under the
  precondition — finite inputs, masks 0 or 1 — every logit is a real number (each count is nonnegative, so each
  denominator is positive).
-/
import proofs.«126511_j10892037063168_2_alg».proof.Defs
import proofs.«126511_j10892037063168_2_alg».proof.Proof.Gen.Kernel
import proofs.«126511_j10892037063168_2_alg».proof.Proof.Gen.KernelIdeal
import proofs.«126511_j10892037063168_2_alg».proof.Proof.Gen.ReferenceIdeal
import proofs.«126511_j10892037063168_2_alg».proof.Proof.Gen.Pre_finite_inputs
import proofs.«126511_j10892037063168_2_alg».proof.Proof.KbRunPost
import proofs.«126511_j10892037063168_2_alg».proof.Proof.RunPost
import proofs.«126511_j10892037063168_2_alg».proof.Proof.KValC
import proofs.«126511_j10892037063168_2_alg».proof.Proof.PreFacts
import proofs.«126511_j10892037063168_2_alg».proof.Proof.Forms
import proofs.«126511_j10892037063168_2_alg».proof.Proof.RefValue
import proofs.«126511_j10892037063168_2_alg».proof.Proof.RefRun
import Idealize.ShloMosaic.Adequacy
import Idealize.ShloMosaic.Init

noncomputable section

namespace Cert.Proof

open Idealize.ShloMosaic Idealize.ShloMosaic.TcCoe Idealize.SL.Sem Idealize.ShloMosaic.ValueIdx
open Cert.KernelIdeal.Fr

attribute [local instance] Cert.Kernel.Gen.facts Cert.KernelIdeal.Gen.facts Cert.ReferenceIdeal.Gen.facts Cert.Pre_finite_inputs.Gen.facts

theorem frame_p : Cert.frame_Kernel := fun m ρ _ => Cert.Kernel.Fr.frame_all m ρ
theorem frame_pi : Cert.frame_KernelIdeal := fun m ρ _ => Cert.KernelIdeal.Fr.frame_all m ρ
theorem frame_ri : Cert.frame_ReferenceIdeal := fun m ρ _ =>
  (θ_run Cert.ReferenceIdeal.defs _ _).mono (fun _ h c => (h c).2) (Cert.RefRun.run (F := Ideal) m ρ)

theorem preserves : Cert.preserves_Kernel_KernelIdeal := trivial

/-- What the precondition says of the argument arrays, coordinate by coordinate. -/
theorem pre_hyps (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ b r p, maskK m c b r p = 0 ∨ maskK m c b r p = 1) ∧ (∀ r d, ∃ v : ℝ, netK m c r d = (v : EReal))
    ∧ (∀ i d, ∃ v : ℝ, embsK m c i d = (v : EReal)) ∧ (∃ v : ℝ, scaleK m c = (v : EReal)) := by
  obtain ⟨h0, h2, h3, h4⟩ := Cert.PreFacts.pre_facts _ _ _ _ _ (hpre c)
  exact ⟨fun b r p => h3 _, fun r d => h0 _, fun i d => h2 _, h4 _⟩

theorem algebraic : Cert.algebraic_KernelIdeal_ReferenceIdeal := by
  intro m ρ m' ρ' hpre hagree
  refine ⟨fun c => fun _ => Cert.Spec.lossKer (Cert.Spec.logits (maskK m c) (netK m c) (embsK m c) (scaleK m c)) (Cert.Spec.npts (maskK m c)), ?_, ?_⟩
  · exact (θ_run Cert.KernelIdeal.defs _ _).mono (fun r h c => ⟨(h c).1.trans (kernel_value m ρ c), (h c).2⟩) (run_result m ρ)
  · refine (θ_run Cert.ReferenceIdeal.defs _ _).mono (fun r h c => ⟨(h c).1.trans ?_, (h c).2⟩) (Cert.RefRun.run (F := Ideal) m' ρ')
    rw [(hagree c).1, (hagree c).2.2.1, (hagree c).2.2.2.1, (hagree c).2.2.2.2, Cert.RefValue.ref_value]
    obtain ⟨hm, hnet, hemb, hs⟩ := pre_hyps m hpre c
    funext _
    exact (Cert.Spec.lossKer_eq_lossRef (Cert.Spec.logits_isReal hm hnet hemb hs) _).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
